-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v177)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v177) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000x16 : Shape := ⟨2, ![1000000, 16]⟩
abbrev S144x128 : Shape := ⟨2, ![144, 128]⟩
abbrev S128 : Shape := ⟨1, ![128]⟩
abbrev S128x128 : Shape := ⟨2, ![128, 128]⟩
abbrev S3x128x128 : Shape := ⟨3, ![3, 128, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg15 : FVec F S128 .f32) (main_arg16 : FVec F S128 .f32) (main_arg17 : FVec F S128x1 .f32) (main_arg18 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg17
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x128 .f32) (main_arg14 : FVec F S128 .f32) (main_arg15 : FVec F S128 .f32) (main_arg16 : FVec F S128 .f32) (main_arg17 : FVec F S128x1 .f32) (main_arg18 : FVec F S1 .f32) (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S3x128x128 .f32) (main_arg10 : FVec F S128 .f32) (main_arg11 : FVec F S3x128x128 .f32) (main_arg12 : FVec F S128 .f32) (main_arg13 : FVec F S128x128 .f32) (main_arg14 : FVec F S128 .f32) (main_arg15 : FVec F S128 .f32) (main_arg16 : FVec F S128 .f32) (main_arg17 : FVec F S128x1 .f32) (main_arg18 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x128x128 .f32 := Host.absf main_arg9
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S3x128x128 .f32 := Host.absf main_arg11
  let main_cst_18 : FVec F S_ .f32 := constant S_ .f32 0x7F800000#32
  let main_v50 : FVec F S3x128x128 .f32 := broadcastInDim S3x128x128 ![] bcast_S_S3x128x128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S128 .f32) (main_arg7 : FVec F S128 .f32) (main_arg8 : FVec F S128 .f32) (main_arg9 : FVec F S3x128x128 .f32) (main_arg10 : FVec F S128 .f32) (main_arg11 : FVec F S3x128x128 .f32) (main_arg12 : FVec F S128 .f32) (main_arg13 : FVec F S128x128 .f32) (main_arg14 : FVec F S128 .f32) (main_arg15 : FVec F S128 .f32) (main_arg16 : FVec F S128 .f32) (main_arg17 : FVec F S128x1 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x1000000 32) (main_arg2 : FVec F S1000000x16 .f32) (main_arg3 : FVec F S144x128 .f32) (main_arg4 : FVec F S128 .f32) (main_arg5 : FVec F S128x128 .f32) (main_arg6 : FVec F S128 .f32) (main_arg7 : FVec F S128 .f32) (main_arg8 : FVec F S128 .f32) (main_arg9 : FVec F S3x128x128 .f32) (main_arg10 : FVec F S128 .f32) (main_arg11 : FVec F S3x128x128 .f32) (main_arg12 : FVec F S128 .f32) (main_arg13 : FVec F S128x128 .f32) (main_arg14 : FVec F S128 .f32) (main_arg15 : FVec F S128 .f32) (main_arg16 : FVec F S128 .f32) (main_arg17 : FVec F S128x1 .f32) (main_arg18 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x16 .f32 := Host.absf main_arg2
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S144x128 .f32 := Host.absf main_arg3
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1000000 : Shape := ⟨2, ![2, 1000000]⟩
abbrev S1000000x16 : Shape := ⟨2, ![1000000, 16]⟩
abbrev S144x128 : Shape := ⟨2, ![144, 128]⟩
abbrev S128 : Shape := ⟨1, ![128]⟩
abbrev S128x128 : Shape := ⟨2, ![128, 128]⟩
abbrev S3x128x128 : Shape := ⟨3, ![3, 128, 128]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S16x128 : Shape := ⟨2, ![16, 128]⟩
abbrev S1000000x1 : Shape := ⟨2, ![1000000, 1]⟩
abbrev S1000000x128 : Shape := ⟨2, ![1000000, 128]⟩
abbrev S100000x16 : Shape := ⟨2, ![100000, 16]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S4000x16 : Shape := ⟨2, ![4000, 16]⟩
abbrev S4000x1 : Shape := ⟨2, ![4000, 1]⟩
abbrev S1x128x128 : Shape := ⟨3, ![1, 128, 128]⟩

abbrev nBuf : Space → Nat
  | .hbm => 235
  | .vmem => 65
  | .smem => 0
  | _ => 0

abbrev hbmTy0_0 (i : Nat) : BufTy := match i % 128 with
  | 0 => ⟨S100000x128, .f32⟩
  | 1 => ⟨S2x1000000, .i32⟩
  | 2 => ⟨S1000000x16, .f32⟩
  | 3 => ⟨S144x128, .f32⟩
  | 4 => ⟨S128, .f32⟩
  | 5 => ⟨S128x128, .f32⟩
  | 6 => ⟨S128, .f32⟩
  | 7 => ⟨S128, .f32⟩
  | 8 => ⟨S128, .f32⟩
  | 9 => ⟨S3x128x128, .f32⟩
  | 10 => ⟨S128, .f32⟩
  | 11 => ⟨S3x128x128, .f32⟩
  | 12 => ⟨S128, .f32⟩
  | 13 => ⟨S128x128, .f32⟩
  | 14 => ⟨S128, .f32⟩
  | 15 => ⟨S128, .f32⟩
  | 16 => ⟨S128, .f32⟩
  | 17 => ⟨S128x1, .f32⟩
  | 18 => ⟨S1, .f32⟩
  | 19 => ⟨S1x1000000, .i32⟩
  | 20 => ⟨S1000000, .i32⟩
  | 21 => ⟨S1x1000000, .i32⟩
  | 22 => ⟨S1000000, .i32⟩
  | 23 => ⟨S_, .f32⟩
  | 24 => ⟨S1000000, .f32⟩
  | 25 => ⟨S128x128, .f32⟩
  | 26 => ⟨S16x128, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000x128, .f32⟩
  | 36 => ⟨S_, .f32⟩
  | 37 => ⟨S100000x128, .f32⟩
  | 38 => ⟨S1000000x1, .i32⟩
  | 39 => ⟨S100000x128, .f32⟩
  | 40 => ⟨S_, .f32⟩
  | 41 => ⟨S100000x16, .f32⟩
  | 42 => ⟨S1000000x1, .i32⟩
  | 43 => ⟨S100000x16, .f32⟩
  | 44 => ⟨S_, .f32⟩
  | 45 => ⟨S100000, .f32⟩
  | 46 => ⟨S1000000x1, .i32⟩
  | 47 => ⟨S100000, .f32⟩
  | 48 => ⟨S100000x1, .f32⟩
  | 49 => ⟨S1x128, .f32⟩
  | 50 => ⟨S100000x128, .f32⟩
  | 51 => ⟨S1x128, .f32⟩
  | 52 => ⟨S100000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S1x128, .f32⟩
  | 69 => ⟨S1x128, .f32⟩
  | 70 => ⟨S1x128, .f32⟩
  | 71 => ⟨S100000x128, .f32⟩
  | 72 => ⟨S_, .f32⟩
  | 73 => ⟨S100000, .f32⟩
  | 74 => ⟨S1000000x1, .i32⟩
  | 75 => ⟨S100000, .f32⟩
  | 76 => ⟨S_, .f32⟩
  | 77 => ⟨S100000, .f32⟩
  | 78 => ⟨S100000, .i1⟩
  | 79 => ⟨S_, .f32⟩
  | 80 => ⟨S100000, .f32⟩
  | 81 => ⟨S100000, .f32⟩
  | 82 => ⟨S100000, .f32⟩
  | 83 => ⟨S_, .f32⟩
  | 84 => ⟨S_, .f32⟩
  | 85 => ⟨S100000, .f32⟩
  | 86 => ⟨S100000, .f32⟩
  | 87 => ⟨S100000x1, .f32⟩
  | 88 => ⟨S100000x128, .f32⟩
  | 89 => ⟨S100000x128, .f32⟩
  | 90 => ⟨S100000x128, .bf16⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x128, .bf16⟩
  | 100 => ⟨S1000000x128, .f32⟩
  | 101 => ⟨S_, .f32⟩
  | 102 => ⟨S100000x128, .f32⟩
  | 103 => ⟨S1000000x1, .i32⟩
  | 104 => ⟨S100000x128, .f32⟩
  | 105 => ⟨S100000x1, .f32⟩
  | 106 => ⟨S100000x1, .f32⟩
  | 107 => ⟨S100000x128, .f32⟩
  | 108 => ⟨S100000x128, .f32⟩
  | 109 => ⟨S100000x1, .f32⟩
  | 110 => ⟨S100000x128, .f32⟩
  | 111 => ⟨S100000x128, .f32⟩
  | 112 => ⟨S100000x128, .bf16⟩
  | 113 => ⟨S_, .i32⟩
  | 114 => ⟨S1000000, .i32⟩
  | 115 => ⟨S1000000, .i1⟩
  | 116 => ⟨S_, .i32⟩
  | 117 => ⟨S1000000, .i32⟩
  | 118 => ⟨S1000000, .i32⟩
  | 119 => ⟨S1000000, .i32⟩
  | 120 => ⟨S1000000x1, .i32⟩
  | 121 => ⟨S1000000x128, .bf16⟩
  | 122 => ⟨S1000000x128, .f32⟩
  | 123 => ⟨S_, .f32⟩
  | 124 => ⟨S100000x128, .f32⟩
  | 125 => ⟨S1000000x1, .i32⟩
  | 126 => ⟨S100000x128, .f32⟩
  | 127 => ⟨S100000x1, .f32⟩
  | _ => ⟨S100000x128, .f32⟩

abbrev hbmTy0_1 (i : Nat) : BufTy := match i % 128 with
  | 0 => ⟨S100000x1, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S1x128x128, .f32⟩
  | 8 => ⟨S128x128, .f32⟩
  | 9 => ⟨S1x128x128, .f32⟩
  | 10 => ⟨S128x128, .f32⟩
  | 11 => ⟨S1x128x128, .f32⟩
  | 12 => ⟨S128x128, .f32⟩
  | 13 => ⟨S1x128, .f32⟩
  | 14 => ⟨S100000x128, .f32⟩
  | 15 => ⟨S100000x1, .f32⟩
  | 16 => ⟨S100000x128, .f32⟩
  | 17 => ⟨S100000x128, .f32⟩
  | 18 => ⟨S100000x128, .bf16⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x128, .bf16⟩
  | 28 => ⟨S1000000x128, .f32⟩
  | 29 => ⟨S_, .f32⟩
  | 30 => ⟨S100000x128, .f32⟩
  | 31 => ⟨S1000000x1, .i32⟩
  | 32 => ⟨S100000x128, .f32⟩
  | 33 => ⟨S100000x1, .f32⟩
  | 34 => ⟨S100000x1, .f32⟩
  | 35 => ⟨S100000x128, .f32⟩
  | 36 => ⟨S100000x128, .f32⟩
  | 37 => ⟨S100000x1, .f32⟩
  | 38 => ⟨S100000x128, .f32⟩
  | 39 => ⟨S100000x128, .f32⟩
  | 40 => ⟨S100000x128, .bf16⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x128, .bf16⟩
  | 50 => ⟨S1000000x128, .f32⟩
  | 51 => ⟨S_, .f32⟩
  | 52 => ⟨S100000x128, .f32⟩
  | 53 => ⟨S1000000x1, .i32⟩
  | 54 => ⟨S100000x128, .f32⟩
  | 55 => ⟨S100000x1, .f32⟩
  | 56 => ⟨S100000x1, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S100000x128, .f32⟩
  | 63 => ⟨S1x128x128, .f32⟩
  | 64 => ⟨S128x128, .f32⟩
  | 65 => ⟨S1x128x128, .f32⟩
  | 66 => ⟨S128x128, .f32⟩
  | 67 => ⟨S1x128x128, .f32⟩
  | 68 => ⟨S128x128, .f32⟩
  | 69 => ⟨S1x128, .f32⟩
  | 70 => ⟨S100000x128, .f32⟩
  | 71 => ⟨S1x128, .f32⟩
  | 72 => ⟨S100000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S100000x128, .f32⟩
  | 82 => ⟨S_, .f32⟩
  | 83 => ⟨S128, .f32⟩
  | 84 => ⟨S_, .f32⟩
  | 85 => ⟨S128, .f32⟩
  | 86 => ⟨S128, .f32⟩
  | 87 => ⟨S_, .f32⟩
  | 88 => ⟨S128x128, .f32⟩
  | 89 => ⟨S128, .f32⟩
  | 90 => ⟨S_, .i32⟩
  | 91 => ⟨S1, .i32⟩
  | 92 => ⟨S128x128, .f32⟩
  | 93 => ⟨S_, .f32⟩
  | 94 => ⟨S128, .f32⟩
  | 95 => ⟨S_, .f32⟩
  | 96 => ⟨S_, .i32⟩
  | 97 => ⟨S1, .i32⟩
  | 98 => ⟨S128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S100000x128, .f32⟩
  | 105 => ⟨S100000x1, .f32⟩
  | 106 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x16, .f32⟩
  | .local _ .vmem, ⟨3, _⟩ => ⟨S4000x16, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S16x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S1x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S1x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S128x128, .f32⟩
  | .local _ .vmem, ⟨44, _⟩ => ⟨S128x128, .f32⟩
  | .local _ .vmem, ⟨45, _⟩ => ⟨S128x128, .f32⟩
  | .local _ .vmem, ⟨46, _⟩ => ⟨S1x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S128x128, .f32⟩
  | .local _ .vmem, ⟨52, _⟩ => ⟨S1x128, .f32⟩
  | .local _ .vmem, ⟨53, _⟩ => ⟨S4000x128, .f32⟩
  | .local _ .vmem, ⟨54, _⟩ => ⟨S4000x128, .f32⟩
  | .local _ .vmem, ⟨55, _⟩ => ⟨S4000x128, .f32⟩
  | .local _ .vmem, ⟨56, _⟩ => ⟨S4000x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S128x128, .f32⟩
  | .local _ .vmem, ⟨62, _⟩ => ⟨S1x128, .f32⟩
  | .local _ .vmem, ⟨63, _⟩ => ⟨S4000x128, .f32⟩
  | .local _ .vmem, ⟨64, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_v7 : Ref sig .tc := ⟨.hbm, 28, rfl⟩
abbrev main_v8 : Ref sig .tc := ⟨.hbm, 29, rfl⟩
abbrev main_c_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_call0_v0 : Ref sig .tc := ⟨.hbm, 84, rfl⟩
abbrev main_call0_v1 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_12 : Ref sig .tc := ⟨.hbm, 91, rfl⟩
abbrev main_v56 : Ref sig .tc := ⟨.hbm, 92, rfl⟩
abbrev main_v57 : Ref sig .tc := ⟨.hbm, 93, rfl⟩
abbrev main_c_13 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_14 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_15 : Ref sig .tc := ⟨.hbm, 113, rfl⟩
abbrev main_v75 : Ref sig .tc := ⟨.hbm, 114, rfl⟩
abbrev main_v76 : Ref sig .tc := ⟨.hbm, 115, rfl⟩
abbrev main_c_16 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_17 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_c_19 : Ref sig .tc := ⟨.hbm, 147, rfl⟩
abbrev main_v105 : Ref sig .tc := ⟨.hbm, 148, rfl⟩
abbrev main_v106 : Ref sig .tc := ⟨.hbm, 149, rfl⟩
abbrev main_c_20 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_21 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_c_22 : Ref sig .tc := ⟨.hbm, 169, rfl⟩
abbrev main_v124 : Ref sig .tc := ⟨.hbm, 170, rfl⟩
abbrev main_v125 : Ref sig .tc := ⟨.hbm, 171, rfl⟩
abbrev main_c_23 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_24 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_cst_25 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_26 : Ref sig .tc := ⟨.hbm, 201, rfl⟩
abbrev main_v152 : Ref sig .tc := ⟨.hbm, 202, rfl⟩
abbrev main_cst_27 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_cst_28 : Ref sig .tc := ⟨.hbm, 210, rfl⟩
abbrev main_v159 : Ref sig .tc := ⟨.hbm, 211, rfl⟩
abbrev main_cst_29 : Ref sig .tc := ⟨.hbm, 212, rfl⟩
abbrev main_v160 : Ref sig .tc := ⟨.hbm, 213, rfl⟩
abbrev main_v161 : Ref sig .tc := ⟨.hbm, 214, rfl⟩
abbrev main_cst_30 : Ref sig .tc := ⟨.hbm, 215, rfl⟩
abbrev main_v162 : Ref sig .tc := ⟨.hbm, 216, rfl⟩
abbrev main_v163 : Ref sig .tc := ⟨.hbm, 217, rfl⟩
abbrev main_c_31 : Ref sig .tc := ⟨.hbm, 218, rfl⟩
abbrev main_v164 : Ref sig .tc := ⟨.hbm, 219, rfl⟩
abbrev main_v165 : Ref sig .tc := ⟨.hbm, 220, rfl⟩
abbrev main_cst_32 : Ref sig .tc := ⟨.hbm, 221, rfl⟩
abbrev main_v166 : Ref sig .tc := ⟨.hbm, 222, rfl⟩
abbrev main_v167 : Ref sig .tc := ⟨.hbm, 223, rfl⟩
abbrev main_c_33 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg7_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc4_stg7_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg3_1 : Ref sig .tc := ⟨.vmem, 54, rfl⟩
abbrev cc6_stg0_0 : Ref sig .tc := ⟨.vmem, 55, rfl⟩
abbrev cc6_stg0_1 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg7_0 : Ref sig .tc := ⟨.vmem, 63, rfl⟩
abbrev cc6_stg7_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem7_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47
abbrev cc4_sem7_1 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem3_1 : DmaSem sig := 54
abbrev cc6_sem0_0 : DmaSem sig := 55
abbrev cc6_sem0_1 : DmaSem sig := 56
abbrev cc6_sem1_0 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem7_0 : DmaSem sig := 63
abbrev cc6_sem7_1 : DmaSem sig := 64

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S4000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  slices_S144x128_S128x128_0_0 : S144x128.Slices ![0, 0] S128x128
  slices_S144x128_S16x128_128_0 : S144x128.Slices ![128, 0] S16x128
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000x16 : S_.BroadcastsInDim S100000x16 (![] : Fin 0 → Fin S100000x16.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S_S128x128 : S_.BroadcastsInDim S128x128 (![] : Fin 0 → Fin S128x128.rank)
  shapeCasts_S128x1_S128 : S128x1.ShapeCasts S128
  bcast_S_S1 : S_.BroadcastsInDim S1 (![] : Fin 0 → Fin S1.rank)
  shapeCasts_S1_S_ : S1.ShapeCasts S_
  slices_S100000x128_S100000x1_0_0 : S100000x128.Slices ![0, 0] S100000x1
  shapeCasts_S100000x1_S100000 : S100000x1.ShapeCasts S100000
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000x16_S1000000x1_S1000000x16_1_0_0_1_wf : ScatterDims.WF S100000x16 S1000000x1 S1000000x16 [1] [0] [0] 1
  scatter_S100000_S1000000x1_S1000000_n_0_0_1_wf : ScatterDims.WF S100000 S1000000x1 S1000000 [] [0] [0] 1
  dot_S4000x128_S128x128_S4000x128_1_0_0_1_n_n_wf : DotDims.WF S4000x128 S128x128 S4000x128 [1] [0] [0] [1] [] []
  dot_S4000x16_S16x128_S4000x128_1_0_0_1_n_n_wf : DotDims.WF S4000x16 S16x128 S4000x128 [1] [0] [0] [1] [] []
  scatter_S128x128_S1_S128_0_1_1_0_wf : ScatterDims.WF S128x128 S1 S128 [0] [1] [1] 0
  scatter_S128_S1_S__n_0_0_0_wf : ScatterDims.WF S128 S1 S_ [] [0] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x16.size a ≤ S100000x16.size a
  hwx0_1 : ∀ i : grid0.Coords, EltTy.bits .f32 = 32 ∨ (Rect.block (s := S100000x16) S4000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .f32 = 32 ∨ (Rect.block (s := S16x128) S16x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S100000x128.size a
  hwx3_7 : ∀ i : grid3.Coords, EltTy.bits .f32 = 32 ∨ (Rect.block (s := S100000x128) S4000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x128.size a ≤ S100000x128.size a
  hwx4_7 : ∀ i : grid4.Coords, EltTy.bits .f32 = 32 ∨ (Rect.block (s := S100000x128) S4000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x128.size a ≤ S100000x128.size a
  hwx5_3 : ∀ i : grid5.Coords, EltTy.bits .f32 = 32 ∨ (Rect.block (s := S100000x128) S4000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S4000x128.size a ≤ S100000x128.size a
  hwx6_7 : ∀ i : grid6.Coords, EltTy.bits .f32 = 32 ∨ (Rect.block (s := S100000x128) S4000x128.size (cc6_transform_7 i) (hinb6_7 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x16_S1000000x1_S1000000x16_1_0_0_1 : ScatterDims S100000x16 S1000000x1 S1000000x16 where
  updateWindowDims := [1]
  insertedWindowDims := [0]
  scatterDimsToOperandDims := [0]
  indexVectorDim := 1
  wf := scatter_S100000x16_S1000000x1_S1000000x16_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def scatter_S128x128_S1_S128_0_1_1_0 : ScatterDims S128x128 S1 S128 where
  updateWindowDims := [0]
  insertedWindowDims := [1]
  scatterDimsToOperandDims := [1]
  indexVectorDim := 0
  wf := scatter_S128x128_S1_S128_0_1_1_0_wf
def scatter_S128_S1_S__n_0_0_0 : ScatterDims S128 S1 S_ where
  updateWindowDims := []
  insertedWindowDims := [0]
  scatterDimsToOperandDims := [0]
  indexVectorDim := 0
  wf := scatter_S128_S1_S__n_0_0_0_wf

abbrev win0_0 : Pipeline.Window sig grid0 :=
  Pipeline.Window.ofSpec (Memref.whole main_v16) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v92) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v94) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v96) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v98) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v99) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v100) S4000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v100) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v119) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v141) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v143) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v145) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v147) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v148) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v149) S4000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v149) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v150) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v151) S4000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v151) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v170) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v171) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v172) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v173) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v165) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v174) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v175) S4000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S1000000x16 : Shape := ⟨2, ![1000000, 16]⟩
abbrev S144x128 : Shape := ⟨2, ![144, 128]⟩
abbrev S128 : Shape := ⟨1, ![128]⟩
abbrev S128x128 : Shape := ⟨2, ![128, 128]⟩
abbrev S3x128x128 : Shape := ⟨3, ![3, 128, 128]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x144 : Shape := ⟨2, ![1000000, 144]⟩
abbrev S1x128 : Shape := ⟨2, ![1, 128]⟩
abbrev S100000 : Shape := ⟨1, ![100000]⟩
abbrev S100000x1 : Shape := ⟨2, ![100000, 1]⟩
abbrev S1x128x128 : Shape := ⟨3, ![1, 128, 128]⟩
abbrev S1x1 : Shape := ⟨2, ![1, 1]⟩

abbrev nBuf : Space → Nat
  | .hbm => 274
  | .vmem => 0
  | .smem => 0
  | _ => 0

abbrev hbmTy0_0 (i : Nat) : BufTy := match i % 128 with
  | 0 => ⟨S100000x128, .f32⟩
  | 1 => ⟨S2x1000000, .i32⟩
  | 2 => ⟨S1000000x16, .f32⟩
  | 3 => ⟨S144x128, .f32⟩
  | 4 => ⟨S128, .f32⟩
  | 5 => ⟨S128x128, .f32⟩
  | 6 => ⟨S128, .f32⟩
  | 7 => ⟨S128, .f32⟩
  | 8 => ⟨S128, .f32⟩
  | 9 => ⟨S3x128x128, .f32⟩
  | 10 => ⟨S128, .f32⟩
  | 11 => ⟨S3x128x128, .f32⟩
  | 12 => ⟨S128, .f32⟩
  | 13 => ⟨S128x128, .f32⟩
  | 14 => ⟨S128, .f32⟩
  | 15 => ⟨S128, .f32⟩
  | 16 => ⟨S128, .f32⟩
  | 17 => ⟨S128x1, .f32⟩
  | 18 => ⟨S1, .f32⟩
  | 19 => ⟨S1x1000000, .i32⟩
  | 20 => ⟨S1000000, .i32⟩
  | 21 => ⟨S1x1000000, .i32⟩
  | 22 => ⟨S1000000, .i32⟩
  | 23 => ⟨S_, .f32⟩
  | 24 => ⟨S1000000, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x128, .f32⟩
  | 34 => ⟨S1000000x144, .f32⟩
  | 35 => ⟨S1000000x128, .f32⟩
  | 36 => ⟨S1x128, .f32⟩
  | 37 => ⟨S1000000x128, .f32⟩
  | 38 => ⟨S1000000x128, .f32⟩
  | 39 => ⟨S_, .f32⟩
  | 40 => ⟨S100000, .f32⟩
  | 41 => ⟨S1000000x1, .i32⟩
  | 42 => ⟨S100000, .f32⟩
  | 43 => ⟨S_, .f32⟩
  | 44 => ⟨S100000x128, .f32⟩
  | 45 => ⟨S1000000x1, .i32⟩
  | 46 => ⟨S100000x128, .f32⟩
  | 47 => ⟨S_, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S100000x128, .f32⟩
  | 65 => ⟨S100000x128, .f32⟩
  | 66 => ⟨S100000x128, .f32⟩
  | 67 => ⟨S_, .f32⟩
  | 68 => ⟨S128, .f32⟩
  | 69 => ⟨S_, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S128, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S_, .f32⟩
  | 92 => ⟨S100000, .f32⟩
  | 93 => ⟨S1000000x1, .i32⟩
  | 94 => ⟨S100000, .f32⟩
  | 95 => ⟨S_, .f32⟩
  | 96 => ⟨S100000, .f32⟩
  | 97 => ⟨S100000, .i1⟩
  | 98 => ⟨S_, .f32⟩
  | 99 => ⟨S100000, .f32⟩
  | 100 => ⟨S100000, .f32⟩
  | 101 => ⟨S100000, .f32⟩
  | 102 => ⟨S_, .f32⟩
  | 103 => ⟨S_, .f32⟩
  | 104 => ⟨S100000, .f32⟩
  | 105 => ⟨S100000, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000, .f32⟩
  | 115 => ⟨S1000000, .f32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1000000, .f32⟩
  | 125 => ⟨S1000000, .f32⟩
  | 126 => ⟨S1x128x128, .f32⟩
  | 127 => ⟨S128x128, .f32⟩
  | _ => ⟨S100000x128, .f32⟩

abbrev hbmTy0_1 (i : Nat) : BufTy := match i % 128 with
  | 0 => ⟨S100000x128, .f32⟩
  | 1 => ⟨S1000000x1, .f32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S1000000x1, .i32⟩
  | 10 => ⟨S1000000x128, .f32⟩
  | 11 => ⟨S1000000x128, .f32⟩
  | 12 => ⟨S1000000x128, .f32⟩
  | 13 => ⟨S_, .f32⟩
  | 14 => ⟨S100000x128, .f32⟩
  | 15 => ⟨S1000000x1, .i32⟩
  | 16 => ⟨S100000x128, .f32⟩
  | 17 => ⟨S1x128x128, .f32⟩
  | 18 => ⟨S128x128, .f32⟩
  | 19 => ⟨S100000x128, .f32⟩
  | 20 => ⟨S100000x128, .f32⟩
  | 21 => ⟨S1000000x1, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x128, .f32⟩
  | 31 => ⟨S1000000x128, .f32⟩
  | 32 => ⟨S1000000x128, .f32⟩
  | 33 => ⟨S_, .f32⟩
  | 34 => ⟨S100000x128, .f32⟩
  | 35 => ⟨S1000000x1, .i32⟩
  | 36 => ⟨S100000x128, .f32⟩
  | 37 => ⟨S_, .f32⟩
  | 38 => ⟨S100000x128, .f32⟩
  | 39 => ⟨S100000x128, .f32⟩
  | 40 => ⟨S100000x128, .f32⟩
  | 41 => ⟨S1x128x128, .f32⟩
  | 42 => ⟨S128x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S1x128x128, .f32⟩
  | 52 => ⟨S128x128, .f32⟩
  | 53 => ⟨S100000x128, .f32⟩
  | 54 => ⟨S1000000x1, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x128, .f32⟩
  | 64 => ⟨S1000000x128, .f32⟩
  | 65 => ⟨S1000000x128, .f32⟩
  | 66 => ⟨S_, .f32⟩
  | 67 => ⟨S100000x128, .f32⟩
  | 68 => ⟨S1000000x1, .i32⟩
  | 69 => ⟨S100000x128, .f32⟩
  | 70 => ⟨S1x128x128, .f32⟩
  | 71 => ⟨S128x128, .f32⟩
  | 72 => ⟨S100000x128, .f32⟩
  | 73 => ⟨S100000x128, .f32⟩
  | 74 => ⟨S1000000x1, .f32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000x128, .f32⟩
  | 84 => ⟨S1000000x128, .f32⟩
  | 85 => ⟨S1000000x128, .f32⟩
  | 86 => ⟨S_, .f32⟩
  | 87 => ⟨S100000x128, .f32⟩
  | 88 => ⟨S1000000x1, .i32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S1x128x128, .f32⟩
  | 95 => ⟨S128x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S128, .f32⟩
  | 110 => ⟨S_, .f32⟩
  | 111 => ⟨S128, .f32⟩
  | 112 => ⟨S128, .f32⟩
  | 113 => ⟨S1x128, .f32⟩
  | 114 => ⟨S100000x128, .f32⟩
  | 115 => ⟨S100000x128, .f32⟩
  | 116 => ⟨S100000x128, .f32⟩
  | 117 => ⟨S_, .f32⟩
  | 118 => ⟨S128, .f32⟩
  | 119 => ⟨S_, .f32⟩
  | 120 => ⟨S128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_2 (i : Nat) : BufTy := match i % 128 with
  | 0 => ⟨S_, .f32⟩
  | 1 => ⟨S128, .f32⟩
  | 2 => ⟨S128, .f32⟩
  | 3 => ⟨S128, .f32⟩
  | 4 => ⟨S1x128, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S100000x1, .f32⟩
  | 14 => ⟨S1x1, .f32⟩
  | 15 => ⟨S100000x1, .f32⟩
  | 16 => ⟨S100000x1, .f32⟩
  | 17 => ⟨S100000, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_call0_v0 : Ref sig .tc := ⟨.hbm, 48, rfl⟩
abbrev main_call0_v1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_4 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call1_cst : Ref sig .tc := ⟨.hbm, 88, rfl⟩
abbrev main_call1_v0 : Ref sig .tc := ⟨.hbm, 89, rfl⟩
abbrev main_v56 : Ref sig .tc := ⟨.hbm, 90, rfl⟩
abbrev main_cst_9 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_v61 : Ref sig .tc := ⟨.hbm, 97, rfl⟩
abbrev main_cst_11 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_12 : Ref sig .tc := ⟨.hbm, 102, rfl⟩
abbrev main_call2_v0 : Ref sig .tc := ⟨.hbm, 103, rfl⟩
abbrev main_call2_v1 : Ref sig .tc := ⟨.hbm, 104, rfl⟩
abbrev main_v65 : Ref sig .tc := ⟨.hbm, 105, rfl⟩
abbrev main_c_13 : Ref sig .tc := ⟨.hbm, 106, rfl⟩
abbrev main_v66 : Ref sig .tc := ⟨.hbm, 107, rfl⟩
abbrev main_v67 : Ref sig .tc := ⟨.hbm, 108, rfl⟩
abbrev main_c_14 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_15 : Ref sig .tc := ⟨.hbm, 116, rfl⟩
abbrev main_v74 : Ref sig .tc := ⟨.hbm, 117, rfl⟩
abbrev main_v75 : Ref sig .tc := ⟨.hbm, 118, rfl⟩
abbrev main_c_16 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_17 : Ref sig .tc := ⟨.hbm, 130, rfl⟩
abbrev main_v86 : Ref sig .tc := ⟨.hbm, 131, rfl⟩
abbrev main_v87 : Ref sig .tc := ⟨.hbm, 132, rfl⟩
abbrev main_c_18 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_19 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_c_20 : Ref sig .tc := ⟨.hbm, 150, rfl⟩
abbrev main_v103 : Ref sig .tc := ⟨.hbm, 151, rfl⟩
abbrev main_v104 : Ref sig .tc := ⟨.hbm, 152, rfl⟩
abbrev main_c_21 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_22 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_23 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_call3_cst : Ref sig .tc := ⟨.hbm, 176, rfl⟩
abbrev main_call3_v0 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_c_24 : Ref sig .tc := ⟨.hbm, 183, rfl⟩
abbrev main_v130 : Ref sig .tc := ⟨.hbm, 184, rfl⟩
abbrev main_v131 : Ref sig .tc := ⟨.hbm, 185, rfl⟩
abbrev main_c_25 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_cst_26 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_c_27 : Ref sig .tc := ⟨.hbm, 203, rfl⟩
abbrev main_v147 : Ref sig .tc := ⟨.hbm, 204, rfl⟩
abbrev main_v148 : Ref sig .tc := ⟨.hbm, 205, rfl⟩
abbrev main_c_28 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_29 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_30 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_call4_cst : Ref sig .tc := ⟨.hbm, 229, rfl⟩
abbrev main_call4_v0 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_cst_31 : Ref sig .tc := ⟨.hbm, 236, rfl⟩
abbrev main_v174 : Ref sig .tc := ⟨.hbm, 237, rfl⟩
abbrev main_cst_32 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_cst_33 : Ref sig .tc := ⟨.hbm, 245, rfl⟩
abbrev main_v181 : Ref sig .tc := ⟨.hbm, 246, rfl⟩
abbrev main_cst_34 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_cst_35 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_call5_cst : Ref sig .tc := ⟨.hbm, 266, rfl⟩
abbrev main_call5_v0 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x16_S1000000x144_d1 : Shape.Concatenates [S1000000x128, S1000000x16] S1000000x144 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S100000 : S_.BroadcastsInDim S100000 (![] : Fin 0 → Fin S100000.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  bcast_S1000000x1_S1000000x128_0_1 : S1000000x1.BroadcastsInDim S1000000x128 (![0, 1] : Fin 2 → Fin S1000000x128.rank)
  slices_S3x128x128_S1x128x128_1_0_0 : S3x128x128.Slices ![1, 0, 0] S1x128x128
  slices_S3x128x128_S1x128x128_2_0_0 : S3x128x128.Slices ![2, 0, 0] S1x128x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S1000000x1_S1000000x128_1_0_n_n_0_1_1128_wf : GatherDims.WF S100000x128 S1000000x1 S1000000x128 [1] [0] [] [0] [] 1 ![1, 128]
  dot_S1000000x144_S144x128_S1000000x128_1_0_0_1_n_n_wf : DotDims.WF S1000000x144 S144x128 S1000000x128 [1] [0] [0] [1] [] []
  scatter_S100000_S1000000x1_S1000000_n_0_0_1_wf : ScatterDims.WF S100000 S1000000x1 S1000000 [] [0] [0] 1
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []
  gather_S100000_S1000000x1_S1000000_n_0_n_n_0_1_1_wf : GatherDims.WF S100000 S1000000x1 S1000000 [] [0] [] [0] [] 1 ![1]
  dot_S100000x128_S128x1_S100000x1_1_0_0_1_n_n_wf : DotDims.WF S100000x128 S128x1 S100000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x144_S144x128_S1000000x128_1_0_0_1_n_n : DotDims S1000000x144 S144x128 S1000000x128 where
  lhsContracting := [1]
  rhsContracting := [0]
  lhsNonContracting := [0]
  rhsNonContracting := [1]
  lhsBatch := []
  rhsBatch := []
  wf := dot_S1000000x144_S144x128_S1000000x128_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KRun.lean ====
/-
  The idealized kernel program's run with its result named.

  The program is seven pipelined regions among stretches of host operations. Every weakly fair execution ends with each
  unscoped buffer at the contents the last segment boundary gives it: the fold of the host stretches and of the
  regions' write-backs over the launch memory. The frame statement reads only the argument arrays off that final
  state; here the result array is read off it as well, so that its value can then be computed segment by segment.
-/
import proofs.«149158_j47751446397324_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents `W17` and the argument arrays end as launched. -/
theorem run_result : θ_run defs (onTc (τ := τ) (main (F := F))) ⟨m, fun _ => 0, ρ⟩ (fun r => ∀ c : Dev nD,
      r.2.mem ((c.tc : Thread nD τ).loc main_v177) = W17 m ρ c (Proc.devRef .tc main_v177)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v177 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c)⟩)

end Cert.KernelIdeal.ValueRun

end
-- ==== Proof.LibPlainDot.lean ====
/-
  A plain matrix product of the matrix unit read at an element.

  A `tpu.matmul` into the zero accumulator with the dimension numbers `[1] x [0]` of an `[M, K]` by `[K, N]` product
  holds at the element `(a, b)` the sum over `c` of the left operand's `(a, c)` times the right operand's `(c, b)`:
  the sum over the contraction shape's one axis, re-indexed by `Fin K`. (The host's `dot_general` with the same
  dimension numbers is that same sum.)
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain `[M, K] x [K, N]` product at `(a, b)` is `∑ c, A (a, c) * B (c, b)`. -/
theorem sum_eq {M K N : Nat} (A : (⟨2, ![M, K]⟩ : Shape).Idx → EReal) (B : (⟨2, ![K, N]⟩ : Shape).Idx → EReal)
    (a : Fin M) (b : Fin N) :
    ∑ c : (DotDims.plain M K N).contr.Idx,
        A ((DotDims.plain M K N).lhsIdx (ix2 a b) c) * B ((DotDims.plain M K N).rhsIdx (ix2 a b) c)
      = ∑ c : Fin K, A (ix2 a c) * B (ix2 c b) := by
  rw [← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- The matrix unit's plain product into the zero accumulator, at `(a, b)`. -/
theorem matmul_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply]
  exact sum_eq A B a b

end Cert.Lib.PlainDot

end
-- ==== Proof.KPay.lean ====
/-
  The bodies of the seven kernels at the ideal instance, read at one element of the output block.

  Each body loads whole blocks, rounds the matrix unit's operands to bf16 (the identity on extended reals),
  multiplies, adds a bias row broadcast along the rows, and (in some) rectifies. At row `p` and column `q` of the
  block a linear layer therefore holds `∑ k, a (p, k) * w (k, q) + b (0, q)`.
-/
import proofs.«149158_j47751446397324_2_alg».proof.Proof.Gen.KernelIdeal.Skeleton
import proofs.«149158_j47751446397324_2_alg».proof.Proof.LibPlainDot
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx Idealize.SL.Sem

/-- A bias row `[1, 128]` broadcast to `[4000, 128]` holds at `(p, q)` the row's entry `q`. -/
theorem bias_at (b : FVec Ideal S1x128 .f32) (p : Fin 4000) (q : Fin 128) :
    broadcastTo S4000x128 b broadcasts_S1x128_S4000x128 (ix2 p q) = b (ix2 (0 : Fin 1) q) :=
  broadcastTo_apply b broadcasts_S1x128_S4000x128 (ix2 p q) (ix2 (0 : Fin 1) q) (fun a => by
    match a with
    | ⟨0, _⟩ => rfl
    | ⟨1, _⟩ => rfl)

/-- The matrix unit's product of a `[4000, 128]` block by a `[128, 128]` matrix into the zero accumulator, with both
    operands rounded to bf16 first, at `(p, q)`. -/
theorem mm128_at (a : FVec Ideal S4000x128 .f32) (w : FVec Ideal S128x128 .f32) (p : Fin 4000) (q : Fin 128) :
    matmul dot_S4000x128_S128x128_S4000x128_1_0_0_1_n_n none (truncf .bf16 a bitsLt_bf16_f32) (truncf .bf16 w bitsLt_bf16_f32)
        (constant S4000x128 .f32 0x00000000#32) (ix2 p q)
      = ∑ k : Fin 128, a (ix2 p k) * w (ix2 k q) :=
  Cert.Lib.PlainDot.matmul_zero_apply none (truncf .bf16 a bitsLt_bf16_f32) (truncf .bf16 w bitsLt_bf16_f32) p q

/-- The first linear layer's body as one term of its loaded blocks. -/
theorem k1_form (v0 : Vec Ideal S4000x128 .f32) (v3 : Vec Ideal S128x128 .f32) (v6 : Vec Ideal S1x128 .f32) :
    k1_pay1 (F := Ideal) v0 v3 v6
      = addf (matmul dot_S4000x128_S128x128_S4000x128_1_0_0_1_n_n none
            (truncf .bf16 (shapeCast S4000x128 v0 shapeCasts_S4000x128_S4000x128) bitsLt_bf16_f32) (truncf .bf16 v3 bitsLt_bf16_f32)
            (constant S4000x128 .f32 0x00000000#32))
          (broadcastTo S4000x128 (shapeCast S1x128 v6 shapeCasts_S1x128_S1x128) broadcasts_S1x128_S4000x128) := rfl

/-- The first linear layer's body at `(p, q)`. -/
theorem k1_at (v0 : Vec Ideal S4000x128 .f32) (v3 : Vec Ideal S128x128 .f32) (v6 : Vec Ideal S1x128 .f32)
    (p : Fin 4000) (q : Fin 128) :
    k1_pay1 (F := Ideal) v0 v3 v6 (ix2 p q) = (∑ k : Fin 128, v0 (ix2 p k) * v3 (ix2 k q)) + v6 (ix2 (0 : Fin 1) q) := by
  rw [k1_form, shapeCast_self, shapeCast_self]
  exact congrArg₂ (· + ·) (mm128_at v0 v3 p q) (bias_at v6 p q)

/-- The last linear layer has the same body. -/
theorem k5_at (v0 : Vec Ideal S4000x128 .f32) (v3 : Vec Ideal S128x128 .f32) (v6 : Vec Ideal S1x128 .f32)
    (p : Fin 4000) (q : Fin 128) :
    k5_pay1 (F := Ideal) v0 v3 v6 (ix2 p q) = (∑ k : Fin 128, v0 (ix2 p k) * v3 (ix2 k q)) + v6 (ix2 (0 : Fin 1) q) :=
  k1_at v0 v3 v6 p q

/-! ## The other bodies -/

/-- A column `[4000, 1]` broadcast to `[4000, 128]` holds at `(p, q)` the column's entry `p`. -/
theorem col_at (v : FVec Ideal S4000x1 .f32) (p : Fin 4000) (q : Fin 128) :
    broadcastTo S4000x128 v broadcasts_S4000x1_S4000x128 (ix2 p q) = v (ix2 p (0 : Fin 1)) :=
  broadcastTo_apply v broadcasts_S4000x1_S4000x128 (ix2 p q) (ix2 p (0 : Fin 1)) (fun a => by
    match a with
    | ⟨0, _⟩ => rfl
    | ⟨1, _⟩ => rfl)

/-- The matrix unit's product of a `[4000, 16]` block by a `[16, 128]` matrix into the zero accumulator, at `(p, q)`. -/
theorem mm16_at (a : FVec Ideal S4000x16 .f32) (w : FVec Ideal S16x128 .f32) (p : Fin 4000) (q : Fin 128) :
    matmul dot_S4000x16_S16x128_S4000x128_1_0_0_1_n_n none (truncf .bf16 a bitsLt_bf16_f32) (truncf .bf16 w bitsLt_bf16_f32)
        (constant S4000x128 .f32 0x00000000#32) (ix2 p q)
      = ∑ k : Fin 16, a (ix2 p k) * w (ix2 k q) :=
  Cert.Lib.PlainDot.matmul_zero_apply none (truncf .bf16 a bitsLt_bf16_f32) (truncf .bf16 w bitsLt_bf16_f32) p q

/-- The node-side combination at `(p, q)`: the two products, plus the count times the bias, over the count clipped
    below at one. -/
theorem k0_at (sx : Vec Ideal S4000x128 .f32) (se : Vec Ideal S4000x16 .f32) (wx : Vec Ideal S128x128 .f32)
    (we : Vec Ideal S16x128 .f32) (cnt : Vec Ideal S4000x1 .f32) (b : Vec Ideal S1x128 .f32) (p : Fin 4000) (q : Fin 128) :
    k0_pay1 (F := Ideal) sx se wx we cnt b (ix2 p q)
      = Ideal.div (((∑ k : Fin 128, sx (ix2 p k) * wx (ix2 k q)) + (∑ k : Fin 16, se (ix2 p k) * we (ix2 k q)))
          + cnt (ix2 p (0 : Fin 1)) * b (ix2 (0 : Fin 1) q))
        (max (Ideal.ofBits .f32 0x3F800000#32) (cnt (ix2 p (0 : Fin 1)))) := by
  unfold k0_pay1
  simp only [shapeCast_self]
  rw [divf_apply, addf_apply, addf_apply, mulf_apply, col_at, col_at, bias_at, mm128_at, mm16_at]
  rfl

/-- Batch normalization with given statistics, then the rectifier, at `(p, q)`. -/
theorem k2_at (z : Vec Ideal S4000x128 .f32) (mean var g be : Vec Ideal S1x128 .f32) (p : Fin 4000) (q : Fin 128) :
    k2_pay1 (F := Ideal) z mean var g be (ix2 p q)
      = max (g (ix2 (0 : Fin 1) q) * (z (ix2 p q) - mean (ix2 (0 : Fin 1) q))
            * Ideal.rsqrt (var (ix2 (0 : Fin 1) q) + Ideal.ofBits .f32 0x3727C5AC#32) + be (ix2 (0 : Fin 1) q))
          (Ideal.ofBits .f32 0x00000000#32) := by
  unfold k2_pay1
  simp only [shapeCast_self]
  rw [maximumf_apply, addf_apply, mulf_apply, mulf_apply, subf_apply, bias_at, bias_at, bias_at, bias_at]
  rfl

/-- The three-term polynomial filter's body at `(p, q)`: three products, the bias, the rectifier. -/
theorem k3_at (t0 t1 t2 : Vec Ideal S4000x128 .f32) (w0 w1 w2 : Vec Ideal S128x128 .f32) (b : Vec Ideal S1x128 .f32)
    (p : Fin 4000) (q : Fin 128) :
    k3_pay1 (F := Ideal) t0 t1 t2 w0 w1 w2 b (ix2 p q)
      = max ((((∑ k : Fin 128, t0 (ix2 p k) * w0 (ix2 k q)) + (∑ k : Fin 128, t1 (ix2 p k) * w1 (ix2 k q)))
            + (∑ k : Fin 128, t2 (ix2 p k) * w2 (ix2 k q))) + b (ix2 (0 : Fin 1) q))
          (Ideal.ofBits .f32 0x00000000#32) := by
  unfold k3_pay1
  simp only [shapeCast_self]
  rw [maximumf_apply, addf_apply, addf_apply, addf_apply, bias_at, mm128_at, mm128_at, mm128_at]
  rfl

/-- The second filter has the same body. -/
theorem k4_at (t0 t1 t2 : Vec Ideal S4000x128 .f32) (w0 w1 w2 : Vec Ideal S128x128 .f32) (b : Vec Ideal S1x128 .f32)
    (p : Fin 4000) (q : Fin 128) :
    k4_pay1 (F := Ideal) t0 t1 t2 w0 w1 w2 b (ix2 p q)
      = max ((((∑ k : Fin 128, t0 (ix2 p k) * w0 (ix2 k q)) + (∑ k : Fin 128, t1 (ix2 p k) * w1 (ix2 k q)))
            + (∑ k : Fin 128, t2 (ix2 p k) * w2 (ix2 k q))) + b (ix2 (0 : Fin 1) q))
          (Ideal.ofBits .f32 0x00000000#32) :=
  k3_at t0 t1 t2 w0 w1 w2 b p q

/-- The normalized, rectified row `p` of the last body, entry `k`. -/
def bnrelu (z : Vec Ideal S4000x128 .f32) (mean var g be : Vec Ideal S1x128 .f32) (p : Fin 4000) (k : Fin 128) : EReal :=
  max (g (ix2 (0 : Fin 1) k) * (z (ix2 p k) - mean (ix2 (0 : Fin 1) k))
        * Ideal.rsqrt (var (ix2 (0 : Fin 1) k) + Ideal.ofBits .f32 0x3727C5AC#32) + be (ix2 (0 : Fin 1) k))
      (Ideal.ofBits .f32 0x00000000#32)

/-- Normalization, rectifier, then the output projection and its bias, at `(p, q)`. -/
theorem k6_at (z : Vec Ideal S4000x128 .f32) (mean var g be : Vec Ideal S1x128 .f32) (wout : Vec Ideal S128x128 .f32)
    (bout : Vec Ideal S1x128 .f32) (p : Fin 4000) (q : Fin 128) :
    k6_pay1 (F := Ideal) z mean var g be wout bout (ix2 p q)
      = (∑ k : Fin 128, bnrelu z mean var g be p k * wout (ix2 k q)) + bout (ix2 (0 : Fin 1) q) := by
  unfold k6_pay1
  simp only [shapeCast_self]
  rw [addf_apply, bias_at]
  refine congrArg₂ (· + ·) ?_ rfl
  refine (Cert.Lib.PlainDot.matmul_zero_apply none _ (truncf .bf16 wout bitsLt_bf16_f32) p q).trans ?_
  refine Finset.sum_congr rfl fun k _ => ?_
  refine congrArg₂ (· * ·) ?_ rfl
  rw [truncf_apply, maximumf_apply, addf_apply, mulf_apply, mulf_apply, subf_apply, bias_at, bias_at, bias_at, bias_at]
  rfl

end Cert.KernelIdeal.Pay

end
-- ==== Proof.Region0.lean ====
/-
  The node-combination region: the array it leaves.

  Point `t` of 25 reads rows `4000 t … 4000 t + 3999` of the summed node features, of the summed edge features and of the
  edge counts, the two weight matrices and the bias row whole, and writes the same rows of the output; the blocks tile it.
-/
import proofs.«149158_j47751446397324_2_alg».proof.Proof.Gen.KernelIdeal.Frame
import proofs.«149158_j47751446397324_2_alg».proof.Proof.KPay
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The node-side combination over the whole node array: the two products of the summed features, plus the edge count times the bias, over the count clipped below at one. -/
def out (sx : S100000x128.Idx → EReal) (se : S100000x16.Idx → EReal) (cnt : S100000x1.Idx → EReal) (wx : S128x128.Idx → EReal) (we : S16x128.Idx → EReal) (b : S1x128.Idx → EReal) : S100000x128.Idx → EReal :=
  fun i => Ideal.div (((∑ k : Fin 128, sx (ix2 (⟨(i 0).val, (i 0).isLt⟩ : Fin 100000) k) * wx (ix2 k (⟨(i 1).val, (i 1).isLt⟩ : Fin 128))) + (∑ k : Fin 16, se (ix2 (⟨(i 0).val, (i 0).isLt⟩ : Fin 100000) k) * we (ix2 k (⟨(i 1).val, (i 1).isLt⟩ : Fin 128)))) + cnt (ix2 (⟨(i 0).val, (i 0).isLt⟩ : Fin 100000) (0 : Fin 1)) * b (ix2 (0 : Fin 1) (⟨(i 1).val, (i 1).isLt⟩ : Fin 128))) (max (Ideal.ofBits .f32 0x3F800000#32) (cnt (ix2 (⟨(i 0).val, (i 0).isLt⟩ : Fin 100000) (0 : Fin 1))))

/-- The printed index maps, decided over the grid: the node-indexed windows move with the point, the parameters stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of window 0's block at point `t` is row `4000 t + p` of its array. -/
theorem blk0 (c : Dev nD) (t : Fin cfg0.N) (p : Fin 4000) (hlt : t.val * 4000 + p.val < 100000) (k : Fin 128) :
    iblk0 V c 0 t (ix2 p k) = V c main_v16 (ix2 (⟨t.val * 4000 + p.val, hlt⟩ : Fin 100000) k) := by
  obtain ⟨e0, e1, -, -, -, -, -, -, -, -, -, -, -, -⟩ := idx_facts t
  show V c main_v16 (((cfg0.win 0).blk t).view.emb (ix2 p k)) = V c main_v16 _
  refine congrArg (V c main_v16) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

/-- Row `p` of window 1's block at point `t` is row `4000 t + p` of its array. -/
theorem blk1 (c : Dev nD) (t : Fin cfg0.N) (p : Fin 4000) (hlt : t.val * 4000 + p.val < 100000) (k : Fin 16) :
    iblk0 V c 1 t (ix2 p k) = V c main_v19 (ix2 (⟨t.val * 4000 + p.val, hlt⟩ : Fin 100000) k) := by
  obtain ⟨-, -, e0, e1, -, -, -, -, -, -, -, -, -, -⟩ := idx_facts t
  show V c main_v19 (((cfg0.win 1).blk t).view.emb (ix2 p k)) = V c main_v19 _
  refine congrArg (V c main_v19) (funext fun a => Fin.ext ?_)
  match a with
  | ⟨0, _⟩ => show win0_1.index t (0 : Fin 2) * 4000 + 1 * p.val = t.val * 4000 + p.val; omega
  | ⟨1, _⟩ => show win0_1.index t (1 : Fin 2) * 16 + 1 * k.val = k.val; omega

/-- Row `p` of window 2's block at point `t` is row `4000 t + p` of its array. -/
theorem blk2 (c : Dev nD) (t : Fin cfg0.N) (p : Fin 4000) (hlt : t.val * 4000 + p.val < 100000) (k : Fin 1) :
    iblk0 V c 2 t (ix2 p k) = V c main_v23 (ix2 (⟨t.val * 4000 + p.val, hlt⟩ : Fin 100000) k) := by
  obtain ⟨-, -, -, -, e0, e1, -, -, -, -, -, -, -, -⟩ := idx_facts t
  show V c main_v23 (((cfg0.win 2).blk t).view.emb (ix2 p k)) = V c main_v23 _
  refine congrArg (V c main_v23) (funext fun a => Fin.ext ?_)
  match a with
  | ⟨0, _⟩ => show win0_2.index t (0 : Fin 2) * 4000 + 1 * p.val = t.val * 4000 + p.val; omega
  | ⟨1, _⟩ => show win0_2.index t (1 : Fin 2) * 1 + 1 * k.val = k.val; omega

/-- Window 3's block is its whole array. -/
theorem blk3 (c : Dev nD) (t : Fin cfg0.N) (r : Fin 128) (k : Fin 128) :
    iblk0 V c 3 t (ix2 r k) = V c main_v5 (ix2 r k) := by
  obtain ⟨-, -, -, -, -, -, e0, e1, -, -, -, -, -, -⟩ := idx_facts t
  show V c main_v5 (((cfg0.win 3).blk t).view.emb (ix2 r k)) = V c main_v5 _
  refine congrArg (V c main_v5) (funext fun a => Fin.ext ?_)
  match a with
  | ⟨0, _⟩ => show win0_3.index t (0 : Fin 2) * 128 + 1 * r.val = r.val; omega
  | ⟨1, _⟩ => show win0_3.index t (1 : Fin 2) * 128 + 1 * k.val = k.val; omega

/-- Window 4's block is its whole array. -/
theorem blk4 (c : Dev nD) (t : Fin cfg0.N) (r : Fin 16) (k : Fin 128) :
    iblk0 V c 4 t (ix2 r k) = V c main_v6 (ix2 r k) := by
  obtain ⟨-, -, -, -, -, -, -, -, e0, e1, -, -, -, -⟩ := idx_facts t
  show V c main_v6 (((cfg0.win 4).blk t).view.emb (ix2 r k)) = V c main_v6 _
  refine congrArg (V c main_v6) (funext fun a => Fin.ext ?_)
  match a with
  | ⟨0, _⟩ => show win0_4.index t (0 : Fin 2) * 16 + 1 * r.val = r.val; omega
  | ⟨1, _⟩ => show win0_4.index t (1 : Fin 2) * 128 + 1 * k.val = k.val; omega

/-- Window 5's block is its whole array. -/
theorem blk5 (c : Dev nD) (t : Fin cfg0.N) (r : Fin 1) (k : Fin 128) :
    iblk0 V c 5 t (ix2 r k) = V c main_v24 (ix2 r k) := by
  obtain ⟨-, -, -, -, -, -, -, -, -, -, e0, e1, -, -⟩ := idx_facts t
  show V c main_v24 (((cfg0.win 5).blk t).view.emb (ix2 r k)) = V c main_v24 _
  refine congrArg (V c main_v24) (funext fun a => Fin.ext ?_)
  match a with
  | ⟨0, _⟩ => show win0_5.index t (0 : Fin 2) * 1 + 1 * r.val = r.val; omega
  | ⟨1, _⟩ => show win0_5.index t (1 : Fin 2) * 128 + 1 * k.val = k.val; omega

/-- WHAT POINT `t` WRITES BACK is block `t` of that function of the arrays the region found. -/
theorem flushed_eq (c : Dev nD) (t : Fin cfg0.N) :
    (dat0 V c).flushed 6 t = ((cfg0.win 6).blk t).view.read (Elt Ideal) (out (V c main_v16) (V c main_v19) (V c main_v23) (V c main_v5) (V c main_v6) (V c main_v24)) := by
  show (cfg0.win 6).cut (grid0.coords t) ((dat0 V c).after 6 t) = _
  rw [after0_6]
  unfold out0_6
  rw [View.canon_unit_zero hz]
  simp only [View.ld_unit_zero (S := S4000x128) hz, View.ld_unit_zero (S := S4000x16) hz, View.ld_unit_zero (S := S4000x1) hz, View.ld_unit_zero (S := S128x128) hz, View.ld_unit_zero (S := S16x128) hz, View.ld_unit_zero (S := S1x128) hz]
  obtain ⟨-, -, -, -, -, -, -, -, -, -, -, -, e0, e1⟩ := idx_facts t
  have hN : t.val < 25 := by have := t.isLt; have h25 : cfg0.N = 25 := N_0; omega
  funext j
  obtain ⟨p, q, rfl⟩ : ∃ (p : Fin 4000) (q : Fin 128), j = ix2 p q := ⟨j 0, j 1, eq_ix2 j⟩
  have hlt : t.val * 4000 + p.val < 100000 := by have := p.isLt; omega
  refine (Pay.k0_at (iblk0 V c 0 t) (iblk0 V c 1 t) (iblk0 V c 3 t) (iblk0 V c 4 t) (iblk0 V c 2 t) (iblk0 V c 5 t) p q).trans ?_
  have hemb : ((cfg0.win 6).blk t).view.emb (ix2 p q) = ix2 (⟨t.val * 4000 + p.val, hlt⟩ : Fin 100000) q := by
    funext a; refine Fin.ext ?_
    match a with
    | ⟨0, _⟩ => show win0_6.index t (0 : Fin 2) * 4000 + 1 * p.val = t.val * 4000 + p.val; omega
    | ⟨1, _⟩ => show win0_6.index t (1 : Fin 2) * 128 + 1 * q.val = q.val; omega
  show _ = out (V c main_v16) (V c main_v19) (V c main_v23) (V c main_v5) (V c main_v6) (V c main_v24) (((cfg0.win 6).blk t).view.emb (ix2 p q))
  rw [hemb]
  unfold out
  simp only [blk0 V c t p hlt, blk1 V c t p hlt, blk2 V c t p hlt, blk3 V c t, blk4 V c t, blk5 V c t]

/-- An index of the array is in point `t`'s block iff each coordinate is in the block's range on its axis. -/
theorem mem_blk (t : Fin cfg0.N) (i : S100000x128.Idx) :
    i ∈ ((cfg0.win 6).blk t).view.set
      ↔ ∀ a : Fin 2, win0_6.index t a * S4000x128.size a ≤ (i a).val ∧ (i a).val < win0_6.index t a * S4000x128.size a + S4000x128.size a := by
  show i ∈ ((View.whole main_v25).slice (win0_6.rect t)).set ↔ _
  rw [View.set_slice_whole, Rect.mem_set_unit]
  exact Iff.rfl

/-- Every index of the output is in some point's block: the point `n / 4000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have h25 : cfg0.N = 25 := N_0
  let t : Fin cfg0.N := ⟨(i 0).val / 4000, by omega⟩
  obtain ⟨-, -, -, -, -, -, -, -, -, -, -, -, e0, e1⟩ := idx_facts t
  have ht : t.val = (i 0).val / 4000 := rfl
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- THE ARRAY the region leaves. -/
theorem final (c : Dev nD) : (dat0 V c).arrAt 6 cfg0.N = out (V c main_v16) (V c main_v19) (V c main_v23) (V c main_v5) (V c main_v6) (V c main_v24) :=
  (dat0 V c).arrAt_eq_of_cover 6 _ (fun t _ => flushed_eq V c t) cover

end Cert.KernelIdeal.Region0

end
-- ==== Proof.Region1.lean ====
/-
  The first linear layer's region: the array it leaves.

  The region runs 25 grid points; point `t` reads rows `4000 t … 4000 t + 3999` of the activations, the whole weight
  matrix and the whole bias row, and writes the same rows of the output. The blocks tile the output, so after the
  region the output array is, at every `(n, j)`, `∑ k, a (n, k) * w (k, j) + b (0, j)` of the arrays the region found.
-/
import proofs.«149158_j47751446397324_2_alg».proof.Proof.Gen.KernelIdeal.Frame
import proofs.«149158_j47751446397324_2_alg».proof.Proof.KPay
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A linear layer over the whole node array: `(n, j) ↦ ∑ k, a (n, k) * w (k, j) + b (0, j)`. -/
def out (a : S100000x128.Idx → EReal) (w : S128x128.Idx → EReal) (b : S1x128.Idx → EReal) : S100000x128.Idx → EReal :=
  fun i => (∑ k : Fin 128, a (ix2 (⟨(i 0).val, (i 0).isLt⟩ : Fin 100000) k) * w (ix2 k (⟨(i 1).val, (i 1).isLt⟩ : Fin 128))) + b (ix2 (0 : Fin 1) (⟨(i 1).val, (i 1).isLt⟩ : Fin 128))

/-- The printed index maps, decided over the grid: the node-indexed windows move with the point, the parameters stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of window 0's block at point `t` is row `4000 t + p` of its array. -/
theorem blk0 (c : Dev nD) (t : Fin cfg1.N) (p : Fin 4000) (hlt : t.val * 4000 + p.val < 100000) (k : Fin 128) :
    iblk1 V c 0 t (ix2 p k) = V c main_v25 (ix2 (⟨t.val * 4000 + p.val, hlt⟩ : Fin 100000) k) := by
  obtain ⟨e0, e1, -, -, -, -, -, -⟩ := idx_facts t
  show V c main_v25 (((cfg1.win 0).blk t).view.emb (ix2 p k)) = V c main_v25 _
  refine congrArg (V c main_v25) (funext fun a => Fin.ext ?_)
  match a with
  | ⟨0, _⟩ => show win1_0.index t (0 : Fin 2) * 4000 + 1 * p.val = t.val * 4000 + p.val; omega
  | ⟨1, _⟩ => show win1_0.index t (1 : Fin 2) * 128 + 1 * k.val = k.val; omega

/-- Window 1's block is its whole array. -/
theorem blk1 (c : Dev nD) (t : Fin cfg1.N) (r : Fin 128) (k : Fin 128) :
    iblk1 V c 1 t (ix2 r k) = V c main_arg5 (ix2 r k) := by
  obtain ⟨-, -, e0, e1, -, -, -, -⟩ := idx_facts t
  show V c main_arg5 (((cfg1.win 1).blk t).view.emb (ix2 r k)) = V c main_arg5 _
  refine congrArg (V c main_arg5) (funext fun a => Fin.ext ?_)
  match a with
  | ⟨0, _⟩ => show win1_1.index t (0 : Fin 2) * 128 + 1 * r.val = r.val; omega
  | ⟨1, _⟩ => show win1_1.index t (1 : Fin 2) * 128 + 1 * k.val = k.val; omega

/-- Window 2's block is its whole array. -/
theorem blk2 (c : Dev nD) (t : Fin cfg1.N) (r : Fin 1) (k : Fin 128) :
    iblk1 V c 2 t (ix2 r k) = V c main_v26 (ix2 r k) := by
  obtain ⟨-, -, -, -, e0, e1, -, -⟩ := idx_facts t
  show V c main_v26 (((cfg1.win 2).blk t).view.emb (ix2 r k)) = V c main_v26 _
  refine congrArg (V c main_v26) (funext fun a => Fin.ext ?_)
  match a with
  | ⟨0, _⟩ => show win1_2.index t (0 : Fin 2) * 1 + 1 * r.val = r.val; omega
  | ⟨1, _⟩ => show win1_2.index t (1 : Fin 2) * 128 + 1 * k.val = k.val; omega

/-- WHAT POINT `t` WRITES BACK is block `t` of that function of the arrays the region found. -/
theorem flushed_eq (c : Dev nD) (t : Fin cfg1.N) :
    (dat1 V c).flushed 3 t = ((cfg1.win 3).blk t).view.read (Elt Ideal) (out (V c main_v25) (V c main_arg5) (V c main_v26)) := by
  show (cfg1.win 3).cut (grid1.coords t) ((dat1 V c).after 3 t) = _
  rw [after1_3]
  unfold out1_3
  rw [View.canon_unit_zero hz]
  simp only [View.ld_unit_zero (S := S4000x128) hz, View.ld_unit_zero (S := S128x128) hz, View.ld_unit_zero (S := S1x128) hz]
  obtain ⟨-, -, -, -, -, -, e0, e1⟩ := idx_facts t
  have hN : t.val < 25 := by have := t.isLt; have h25 : cfg1.N = 25 := N_1; omega
  funext j
  obtain ⟨p, q, rfl⟩ : ∃ (p : Fin 4000) (q : Fin 128), j = ix2 p q := ⟨j 0, j 1, eq_ix2 j⟩
  have hlt : t.val * 4000 + p.val < 100000 := by have := p.isLt; omega
  refine (Pay.k1_at (iblk1 V c 0 t) (iblk1 V c 1 t) (iblk1 V c 2 t) p q).trans ?_
  have hemb : ((cfg1.win 3).blk t).view.emb (ix2 p q) = ix2 (⟨t.val * 4000 + p.val, hlt⟩ : Fin 100000) q := by
    funext a; refine Fin.ext ?_
    match a with
    | ⟨0, _⟩ => show win1_3.index t (0 : Fin 2) * 4000 + 1 * p.val = t.val * 4000 + p.val; omega
    | ⟨1, _⟩ => show win1_3.index t (1 : Fin 2) * 128 + 1 * q.val = q.val; omega
  show _ = out (V c main_v25) (V c main_arg5) (V c main_v26) (((cfg1.win 3).blk t).view.emb (ix2 p q))
  rw [hemb]
  unfold out
  simp only [blk0 V c t p hlt, blk1 V c t, blk2 V c t]

/-- An index of the array is in point `t`'s block iff each coordinate is in the block's range on its axis. -/
theorem mem_blk (t : Fin cfg1.N) (i : S100000x128.Idx) :
    i ∈ ((cfg1.win 3).blk t).view.set
      ↔ ∀ a : Fin 2, win1_3.index t a * S4000x128.size a ≤ (i a).val ∧ (i a).val < win1_3.index t a * S4000x128.size a + S4000x128.size a := by
  show i ∈ ((View.whole main_v27).slice (win1_3.rect t)).set ↔ _
  rw [View.set_slice_whole, Rect.mem_set_unit]
  exact Iff.rfl

/-- Every index of the output is in some point's block: the point `n / 4000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have h25 : cfg1.N = 25 := N_1
  let t : Fin cfg1.N := ⟨(i 0).val / 4000, by omega⟩
  obtain ⟨-, -, -, -, -, -, e0, e1⟩ := idx_facts t
  have ht : t.val = (i 0).val / 4000 := rfl
  refine ⟨t, flush1_3 t, ?_⟩
  rw [mem_blk]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega

/-- THE ARRAY the region leaves. -/
theorem final (c : Dev nD) : (dat1 V c).arrAt 3 cfg1.N = out (V c main_v25) (V c main_arg5) (V c main_v26) :=
  (dat1 V c).arrAt_eq_of_cover 3 _ (fun t _ => flushed_eq V c t) cover

end Cert.KernelIdeal.Region1

end
-- ==== Proof.Region2.lean ====
/-
  The first normalization region: the array it leaves.

  Point `t` of 25 reads rows `4000 t … 4000 t + 3999` of the pre-activations and the four statistic and parameter rows whole,
  and writes the same rows of the output: `max (g * (z - mean) * rsqrt (var + eps) + be) 0`, column by column.
-/
import proofs.«149158_j47751446397324_2_alg».proof.Proof.Gen.KernelIdeal.Frame
import proofs.«149158_j47751446397324_2_alg».proof.Proof.KPay
import Idealize.ShloMosaic.Lib.Pipeline.Value

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Batch normalization with given statistics and the rectifier over the whole node array. -/
def out (z : S100000x128.Idx → EReal) (mean var g be : S1x128.Idx → EReal) : S100000x128.Idx → EReal :=
  fun i => max (g (ix2 (0 : Fin 1) (⟨(i 1).val, (i 1).isLt⟩ : Fin 128)) * (z (ix2 (⟨(i 0).val, (i 0).isLt⟩ : Fin 100000) (⟨(i 1).val, (i 1).isLt⟩ : Fin 128)) - mean (ix2 (0 : Fin 1) (⟨(i 1).val, (i 1).isLt⟩ : Fin 128))) * Ideal.rsqrt (var (ix2 (0 : Fin 1) (⟨(i 1).val, (i 1).isLt⟩ : Fin 128)) + Ideal.ofBits .f32 0x3727C5AC#32) + be (ix2 (0 : Fin 1) (⟨(i 1).val, (i 1).isLt⟩ : Fin 128))) (Ideal.ofBits .f32 0x00000000#32)

/-- The printed index maps, decided over the grid: the node-indexed windows move with the point, the parameters stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of window 0's block at point `t` is row `4000 t + p` of its array. -/
theorem blk0 (c : Dev nD) (t : Fin cfg2.N) (p : Fin 4000) (hlt : t.val * 4000 + p.val < 100000) (k : Fin 128) :
    iblk2 V c 0 t (ix2 p k) = V c main_v27 (ix2 (⟨t.val * 4000 + p.val, hlt⟩ : Fin 100000) k) := by
  obtain ⟨e0, e1, -, -, -, -, -, -, -, -, -, -⟩ := idx_facts t
  show V c main_v27 (((cfg2.win 0).blk t).view.emb (ix2 p k)) = V c main_v27 _
  refine congrArg (V c main_v27) (funext fun a => Fin.ext ?_)
  match a with
  | ⟨0, _⟩ => show win2_0.index t (0 : Fin 2) * 4000 + 1 * p.val = t.val * 4000 + p.val; omega
  | ⟨1, _⟩ => show win2_0.index t (1 : Fin 2) * 128 + 1 * k.val = k.val; omega

/-- Window 1's block is its whole array. -/
theorem blk1 (c : Dev nD) (t : Fin cfg2.N) (r : Fin 1) (k : Fin 128) :
    iblk2 V c 1 t (ix2 r k) = V c main_v38 (ix2 r k) := by
  obtain ⟨-, -, e0, e1, -, -, -, -, -, -, -, -⟩ := idx_facts t
  show V c main_v38 (((cfg2.win 1).blk t).view.emb (ix2 r k)) = V c main_v38 _
  refine congrArg (V c main_v38) (funext fun a => Fin.ext ?_)
  match a with
  | ⟨0, _⟩ => show win2_1.index t (0 : Fin 2) * 1 + 1 * r.val = r.val; omega
  | ⟨1, _⟩ => show win2_1.index t (1 : Fin 2) * 128 + 1 * k.val = k.val; omega

/-- Window 2's block is its whole array. -/
theorem blk2 (c : Dev nD) (t : Fin cfg2.N) (r : Fin 1) (k : Fin 128) :
    iblk2 V c 2 t (ix2 r k) = V c main_v39 (ix2 r k) := by
  obtain ⟨-, -, -, -, e0, e1, -, -, -, -, -, -⟩ := idx_facts t
  show V c main_v39 (((cfg2.win 2).blk t).view.emb (ix2 r k)) = V c main_v39 _
  refine congrArg (V c main_v39) (funext fun a => Fin.ext ?_)
  match a with
  | ⟨0, _⟩ => show win2_2.index t (0 : Fin 2) * 1 + 1 * r.val = r.val; omega
  | ⟨1, _⟩ => show win2_2.index t (1 : Fin 2) * 128 + 1 * k.val = k.val; omega

/-- Window 3's block is its whole array. -/
theorem blk3 (c : Dev nD) (t : Fin cfg2.N) (r : Fin 1) (k : Fin 128) :
    iblk2 V c 3 t (ix2 r k) = V c main_v40 (ix2 r k) := by
  obtain ⟨-, -, -, -, -, -, e0, e1, -, -, -, -⟩ := idx_facts t
  show V c main_v40 (((cfg2.win 3).blk t).view.emb (ix2 r k)) = V c main_v40 _
  refine congrArg (V c main_v40) (funext fun a => Fin.ext ?_)
  match a with
  | ⟨0, _⟩ => show win2_3.index t (0 : Fin 2) * 1 + 1 * r.val = r.val; omega
  | ⟨1, _⟩ => show win2_3.index t (1 : Fin 2) * 128 + 1 * k.val = k.val; omega

/-- Window 4's block is its whole array. -/
theorem blk4 (c : Dev nD) (t : Fin cfg2.N) (r : Fin 1) (k : Fin 128) :
    iblk2 V c 4 t (ix2 r k) = V c main_v41 (ix2 r k) := by
  obtain ⟨-, -, -, -, -, -, -, -, e0, e1, -, -⟩ := idx_facts t
  show V c main_v41 (((cfg2.win 4).blk t).view.emb (ix2 r k)) = V c main_v41 _
  refine congrArg (V c main_v41) (funext fun a => Fin.ext ?_)
  match a with
  | ⟨0, _⟩ => show win2_4.index t (0 : Fin 2) * 1 + 1 * r.val = r.val; omega
  | ⟨1, _⟩ => show win2_4.index t (1 : Fin 2) * 128 + 1 * k.val = k.val; omega

/-- WHAT POINT `t` WRITES BACK is block `t` of that function of the arrays the region found. -/
theorem flushed_eq (c : Dev nD) (t : Fin cfg2.N) :
    (dat2 V c).flushed 5 t = ((cfg2.win 5).blk t).view.read (Elt Ideal) (out (V c main_v27) (V c main_v38) (V c main_v39) (V c main_v40) (V c main_v41)) := by
  show (cfg2.win 5).cut (grid2.coords t) ((dat2 V c).after 5 t) = _
  rw [after2_5]
  unfold out2_5
  rw [View.canon_unit_zero hz]
  simp only [View.ld_unit_zero (S := S4000x128) hz, View.ld_unit_zero (S := S1x128) hz]
  obtain ⟨-, -, -, -, -, -, -, -, -, -, e0, e1⟩ := idx_facts t
  have hN : t.val < 25 := by have := t.isLt; have h25 : cfg2.N = 25 := N_2; omega
  funext j
  obtain ⟨p, q, rfl⟩ : ∃ (p : Fin 4000) (q : Fin 128), j = ix2 p q := ⟨j 0, j 1, eq_ix2 j⟩
  have hlt : t.val * 4000 + p.val < 100000 := by have := p.isLt; omega
  refine (Pay.k2_at (iblk2 V c 0 t) (iblk2 V c 1 t) (iblk2 V c 2 t) (iblk2 V c 3 t) (iblk2 V c 4 t) p q).trans ?_
  have hemb : ((cfg2.win 5).blk t).view.emb (ix2 p q) = ix2 (⟨t.val * 4000 + p.val, hlt⟩ : Fin 100000) q := by
    funext a; refine Fin.ext ?_
    match a with
    | ⟨0, _⟩ => show win2_5.index t (0 : Fin 2) * 4000 + 1 * p.val = t.val * 4000 + p.val; omega
    | ⟨1, _⟩ => show win2_5.index t (1 : Fin 2) * 128 + 1 * q.val = q.val; omega
  show _ = out (V c main_v27) (V c main_v38) (V c main_v39) (V c main_v40) (V c main_v41) (((cfg2.win 5).blk t).view.emb (ix2 p q))
  rw [hemb]
  unfold out
  simp only [blk0 V c t p hlt, blk1 V c t, blk2 V c t, blk3 V c t, blk4 V c t]

/-- An index of the array is in point `t`'s block iff each coordinate is in the block's range on its axis. -/
theorem mem_blk (t : Fin cfg2.N) (i : S100000x128.Idx) :
    i ∈ ((cfg2.win 5).blk t).view.set
      ↔ ∀ a : Fin 2, win2_5.index t a * S4000x128.size a ≤ (i a).val ∧ (i a).val < win2_5.index t a * S4000x128.size a + S4000x128.size a := by
  show i ∈ ((View.whole main_v42).slice (win2_5.rect t)).set ↔ _
  rw [View.set_slice_whole, Rect.mem_set_unit]
  exact Iff.rfl

/-- Every index of the output is in some point's block: the point `n / 4000`. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have h25 : cfg2.N = 25 := N_2
  let t : Fin cfg2.N := ⟨(i 0).val / 4000, by omega⟩
  obtain ⟨-, -, -, -, -, -, -, -, -, -, e0, e1⟩ := idx_facts t
  have ht : t.val = (i 0).val / 4000 := rfl
  refine ⟨t, flush2_5 t, ?_⟩
  rw [mem_blk]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- THE ARRAY the region leaves. -/
theorem final (c : Dev nD) : (dat2 V c).arrAt 5 cfg2.N = out (V c main_v27) (V c main_v38) (V c main_v39) (V c main_v40) (V c main_v41) :=
  (dat2 V c).arrAt_eq_of_cover 5 _ (fun t _ => flushed_eq V c t) cover

end Cert.KernelIdeal.Region2

end
-- ==== Proof.Region3.lean ====
/-
  The first polynomial-filter region: the array it leaves.

  Point `t` of 25 reads rows `4000 t … 4000 t + 3999` of the three polynomial terms, the three weight matrices and the bias row
  whole, and writes the same rows of the output; the blocks tile it.
-/
import proofs.«149158_j47751446397324_2_alg».proof.Proof.Gen.KernelIdeal.Frame
import proofs.«149158_j47751446397324_2_alg».proof.Proof.KPay
import Idealize.ShloMosaic.Lib.Pipeline.Value

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three-term polynomial filter over the whole node array: three products, the bias, the rectifier. -/
def out (t0 t1 t2 : S100000x128.Idx → EReal) (w0 w1 w2 : S128x128.Idx → EReal) (b : S1x128.Idx → EReal) : S100000x128.Idx → EReal :=
  fun i => max ((((∑ k : Fin 128, t0 (ix2 (⟨(i 0).val, (i 0).isLt⟩ : Fin 100000) k) * w0 (ix2 k (⟨(i 1).val, (i 1).isLt⟩ : Fin 128))) + (∑ k : Fin 128, t1 (ix2 (⟨(i 0).val, (i 0).isLt⟩ : Fin 100000) k) * w1 (ix2 k (⟨(i 1).val, (i 1).isLt⟩ : Fin 128)))) + (∑ k : Fin 128, t2 (ix2 (⟨(i 0).val, (i 0).isLt⟩ : Fin 100000) k) * w2 (ix2 k (⟨(i 1).val, (i 1).isLt⟩ : Fin 128)))) + b (ix2 (0 : Fin 1) (⟨(i 1).val, (i 1).isLt⟩ : Fin 128))) (Ideal.ofBits .f32 0x00000000#32)

/-- The printed index maps, decided over the grid: the node-indexed windows move with the point, the parameters stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Row `p` of window 0's block at point `t` is row `4000 t + p` of its array. -/
theorem blk0 (c : Dev nD) (t : Fin cfg3.N) (p : Fin 4000) (hlt : t.val * 4000 + p.val < 100000) (k : Fin 128) :
    iblk3 V c 0 t (ix2 p k) = V c main_v42 (ix2 (⟨t.val * 4000 + p.val, hlt⟩ : Fin 100000) k) := by
  obtain ⟨e0, e1, -, -, -, -, -, -, -, -, -, -, -, -, -, -⟩ := idx_facts t
  show V c main_v42 (((cfg3.win 0).blk t).view.emb (ix2 p k)) = V c main_v42 _
  refine congrArg (V c main_v42) (funext fun a => Fin.ext ?_)
  match a with
  | ⟨0, _⟩ => show win3_0.index t (0 : Fin 2) * 4000 + 1 * p.val = t.val * 4000 + p.val; omega
  | ⟨1, _⟩ => show win3_0.index t (1 : Fin 2) * 128 + 1 * k.val = k.val; omega

/-- Row `p` of window 1's block at point `t` is row `4000 t + p` of its array. -/
theorem blk1 (c : Dev nD) (t : Fin cfg3.N) (p : Fin 4000) (hlt : t.val * 4000 + p.val < 100000) (k : Fin 128) :
    iblk3 V c 1 t (ix2 p k) = V c main_v70 (ix2 (⟨t.val * 4000 + p.val, hlt⟩ : Fin 100000) k) := by
  obtain ⟨-, -, e0, e1, -, -, -, -, -, -, -, -, -, -, -, -⟩ := idx_facts t
  show V c main_v70 (((cfg3.win 1).blk t).view.emb (ix2 p k)) = V c main_v70 _
  refine congrArg (V c main_v70) (funext fun a => Fin.ext ?_)
  match a with
  | ⟨0, _⟩ => show win3_1.index t (0 : Fin 2) * 4000 + 1 * p.val = t.val * 4000 + p.val; omega
  | ⟨1, _⟩ => show win3_1.index t (1 : Fin 2) * 128 + 1 * k.val = k.val; omega

/-- Row `p` of window 2's block at point `t` is row `4000 t + p` of its array. -/
theorem blk2 (c : Dev nD) (t : Fin cfg3.N) (p : Fin 4000) (hlt : t.val * 4000 + p.val < 100000) (k : Fin 128) :
    iblk3 V c 2 t (ix2 p k) = V c main_v92 (ix2 (⟨t.val * 4000 + p.val, hlt⟩ : Fin 100000) k) := by
  obtain ⟨-, -, -, -, e0, e1, -, -, -, -, -, -, -, -, -, -⟩ := idx_facts t
  show V c main_v92 (((cfg3.win 2).blk t).view.emb (ix2 p k)) = V c main_v92 _
  refine congrArg (V c main_v92) (funext fun a => Fin.ext ?_)
  match a with
  | ⟨0, _⟩ => show win3_2.index t (0 : Fin 2) * 4000 + 1 * p.val = t.val * 4000 + p.val; omega
  | ⟨1, _⟩ => show win3_2.index t (1 : Fin 2) * 128 + 1 * k.val = k.val; omega

/-- Window 3's block is its whole array. -/
theorem blk3 (c : Dev nD) (t : Fin cfg3.N) (r : Fin 128) (k : Fin 128) :
    iblk3 V c 3 t (ix2 r k) = V c main_v94 (ix2 r k) := by
  obtain ⟨-, -, -, -, -, -, e0, e1, -, -, -, -, -, -, -, -⟩ := idx_facts t
  show V c main_v94 (((cfg3.win 3).blk t).view.emb (ix2 r k)) = V c main_v94 _
  refine congrArg (V c main_v94) (funext fun a => Fin.ext ?_)
  match a with
  | ⟨0, _⟩ => show win3_3.index t (0 : Fin 2) * 128 + 1 * r.val = r.val; omega
  | ⟨1, _⟩ => show win3_3.index t (1 : Fin 2) * 128 + 1 * k.val = k.val; omega

/-- Window 4's block is its whole array. -/
theorem blk4 (c : Dev nD) (t : Fin cfg3.N) (r : Fin 128) (k : Fin 128) :
    iblk3 V c 4 t (ix2 r k) = V c main_v96 (ix2 r k) := by
  obtain ⟨-, -, -, -, -, -, -, -, e0, e1, -, -, -, -, -, -⟩ := idx_facts t
  show V c main_v96 (((cfg3.win 4).blk t).view.emb (ix2 r k)) = V c main_v96 _
  refine congrArg (V c main_v96) (funext fun a => Fin.ext ?_)
  match a with
  | ⟨0, _⟩ => show win3_4.index t (0 : Fin 2) * 128 + 1 * r.val = r.val; omega
  | ⟨1, _⟩ => show win3_4.index t (1 : Fin 2) * 128 + 1 * k.val = k.val; omega

/-- Window 5's block is its whole array. -/
theorem blk5 (c : Dev nD) (t : Fin cfg3.N) (r : Fin 128) (k : Fin 128) :
    iblk3 V c 5 t (ix2 r k) = V c main_v98 (ix2 r k) := by
  obtain ⟨-, -, -, -, -, -, -, -, -, -, e0, e1, -, -, -, -⟩ := idx_facts t
  show V c main_v98 (((cfg3.win 5).blk t).view.emb (ix2 r k)) = V c main_v98 _
  refine congrArg (V c main_v98) (funext fun a => Fin.ext ?_)
  match a with
  | ⟨0, _⟩ => show win3_5.index t (0 : Fin 2) * 128 + 1 * r.val = r.val; omega
  | ⟨1, _⟩ => show win3_5.index t (1 : Fin 2) * 128 + 1 * k.val = k.val; omega

/-- Window 6's block is its whole array. -/
theorem blk6 (c : Dev nD) (t : Fin cfg3.N) (r : Fin 1) (k : Fin 128) :
    iblk3 V c 6 t (ix2 r k) = V c main_v99 (ix2 r k) := by
  obtain ⟨-, -, -, -, -, -, -, -, -, -, -, -, e0, e1, -, -⟩ := idx_facts t
  show V c main_v99 (((cfg3.win 6).blk t).view.emb (ix2 r k)) = V c main_v99 _
  refine congrArg (V c main_v99) (funext fun a => Fin.ext ?_)
  match a with
  | ⟨0, _⟩ => show win3_6.index t (0 : Fin 2) * 1 + 1 * r.val = r.val; omega
  | ⟨1, _⟩ => show win3_6.index t (1 : Fin 2) * 128 + 1 * k.val = k.val; omega

/-- WHAT POINT `t` WRITES BACK is block `t` of that function of the arrays the region found. -/
theorem flushed_eq (c : Dev nD) (t : Fin cfg3.N) :
    (dat3 V c).flushed 7 t = ((cfg3.win 7).blk t).view.read (Elt Ideal) (out (V c main_v42) (V c main_v70) (V c main_v92) (V c main_v94) (V c main_v96) (V c main_v98) (V c main_v99)) := by
  show (cfg3.win 7).cut (grid3.coords t) ((dat3 V c).after 7 t) = _
  rw [after3_7]
  unfold out3_7
  rw [View.canon_unit_zero hz]
  simp only [View.ld_unit_zero (S := S4000x128) hz, View.ld_unit_zero (S := S128x128) hz, View.ld_unit_zero (S := S1x128) hz]
  obtain ⟨-, -, -, -, -, -, -, -, -, -, -, -, -, -, e0, e1⟩ := idx_facts t
  have hN : t.val < 25 := by have := t.isLt; have h25 : cfg3.N = 25 := N_3; omega
  funext j
  obtain ⟨p, q, rfl⟩ : ∃ (p : Fin 4000) (q : Fin 128), j = ix2 p q := ⟨j 0, j 1, eq_ix2 j⟩
  have hlt : t.val * 4000 + p.val < 100000 := by have := p.isLt; omega
  refine (Pay.k3_at (iblk3 V c 0 t) (iblk3 V c 1 t) (iblk3 V c 2 t) (iblk3 V c 3 t) (iblk3 V c 4 t) (iblk3 V c 5 t) (iblk3 V c 6 t) p q).trans ?_
  have hemb : ((cfg3.win 7).blk t).view.emb (ix2 p q) = ix2 (⟨t.val * 4000 + p.val, hlt⟩ : Fin 100000) q := by
    funext a; refine Fin.ext ?_
    match a with
    | ⟨0, _⟩ => show win3_7.index t (0 : Fin 2) * 4000 + 1 * p.val = t.val * 4000 + p.val; omega
    | ⟨1, _⟩ => show win3_7.index t (1 : Fin 2) * 128 + 1 * q.val = q.val; omega
  show _ = out (V c main_v42) (V c main_v70) (V c main_v92) (V c main_v94) (V c main_v96) (V c main_v98) (V c main_v99) (((cfg3.win 7).blk t).view.emb (ix2 p q))
  rw [hemb]
  unfold out
  simp only [blk0 V c t p hlt, blk1 V c t p hlt, blk2 V c t p hlt, blk3 V c t, blk4 V c t, blk5 V c t, blk6 V c t]

/-- An index of the array is in point `t`'s block iff each coordinate is in the block's range on its axis. -/
theorem mem_blk (t : Fin cfg3.N) (i : S100000x128.Idx) :
    i ∈ ((cfg3.win 7).blk t).view.set
      ↔ ∀ a : Fin 2, win3_7.index t a * S4000x128.size a ≤ (i a).val ∧ (i a).val < win3_7.index t a * S4000x128.size a + S4000x128.size a := by
  show i ∈ ((View.whole main_v100).slice (win3_7.rect t)).set ↔ _
  rw [View.set_slice_whole, Rect.mem_set_unit]
  exact Iff.rfl

/-- Every index of the output is in some point's block: the point `n / 4000`. -/
theorem cover (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have h25 : cfg3.N = 25 := N_3
  let t : Fin cfg3.N := ⟨(i 0).val / 4000, by omega⟩
  obtain ⟨-, -, -, -, -, -, -, -, -, -, -, -, -, -, e0, e1⟩ := idx_facts t
  have ht : t.val = (i 0).val / 4000 := rfl
  refine ⟨t, flush3_7 t, ?_⟩
  rw [mem_blk]
  intro a
  match a with
  | ⟨0, _⟩ => show win3_7.index t (0 : Fin 2) * 4000 ≤ (i 0).val ∧ (i 0).val < win3_7.index t (0 : Fin 2) * 4000 + 4000; omega
  | ⟨1, _⟩ => show win3_7.index t (1 : Fin 2) * 128 ≤ (i 1).val ∧ (i 1).val < win3_7.index t (1 : Fin 2) * 128 + 128; omega

/-- THE ARRAY the region leaves. -/
theorem final (c : Dev nD) : (dat3 V c).arrAt 7 cfg3.N = out (V c main_v42) (V c main_v70) (V c main_v92) (V c main_v94) (V c main_v96) (V c main_v98) (V c main_v99) :=
  (dat3 V c).arrAt_eq_of_cover 7 _ (fun t _ => flushed_eq V c t) cover

end Cert.KernelIdeal.Region3

end
-- ==== Proof.Region4.lean ====
/-
  The second polynomial-filter region: the array it leaves.

  Point `t` of 25 reads rows `4000 t … 4000 t + 3999` of the three polynomial terms, the three weight matrices and the bias row
  whole, and writes the same rows of the output; the blocks tile it.
-/
import proofs.«149158_j47751446397324_2_alg».proof.Proof.Gen.KernelIdeal.Frame
import proofs.«149158_j47751446397324_2_alg».proof.Proof.KPay
import Idealize.ShloMosaic.Lib.Pipeline.Value

set_option maxRecDepth 16384

noncomputable section

open scoped BigOperators

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three-term polynomial filter over the whole node array: three products, the bias, the rectifier. -/
def out (t0 t1 t2 : S100000x128.Idx → EReal) (w0 w1 w2 : S128x128.Idx → EReal) (b : S1x128.Idx → EReal) : S100000x128.Idx → EReal :=
  fun i => max ((((∑ k : Fin 128, t0 (ix2 (⟨(i 0).val, (i 0).isLt⟩ : Fin 100000) k) * w0 (ix2 k (⟨(i 1).val, (i 1).isLt⟩ : Fin 128))) + (∑ k : Fin 128, t1 (ix2 (⟨(i 0).val, (i 0).isLt⟩ : Fin 100000) k) * w1 (ix2 k (⟨(i 1).val, (i 1).isLt⟩ : Fin 128)))) + (∑ k : Fin 128, t2 (ix2 (⟨(i 0).val, (i 0).isLt⟩ : Fin 100000) k) * w2 (ix2 k (⟨(i 1).val, (i 1).isLt⟩ : Fin 128)))) + b (ix2 (0 : Fin 1) (⟨(i 1).val, (i 1).isLt⟩ : Fin 128))) (Ideal.ofBits .f32 0x00000000#32)

/-- The printed index maps, decided over the grid: the node-indexed windows move with the point, the parameters stay. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row `p` of window 0's block at point `t` is row `4000 t + p` of its array. -/
theorem blk0 (c : Dev nD) (t : Fin cfg4.N) (p : Fin 4000) (hlt : t.val * 4000 + p.val < 100000) (k : Fin 128) :
    iblk4 V c 0 t (ix2 p k) = V c main_v100 (ix2 (⟨t.val * 4000 + p.val, hlt⟩ : Fin 100000) k) := by
  obtain ⟨e0, e1, -, -, -, -, -, -, -, -, -, -, -, -, -, -⟩ := idx_facts t
  show V c main_v100 (((cfg4.win 0).blk t).view.emb (ix2 p k)) = V c main_v100 _
  refine congrArg (V c main_v100) (funext fun a => Fin.ext ?_)
  match a with
  | ⟨0, _⟩ => show win4_0.index t (0 : Fin 2) * 4000 + 1 * p.val = t.val * 4000 + p.val; omega
  | ⟨1, _⟩ => show win4_0.index t (1 : Fin 2) * 128 + 1 * k.val = k.val; omega

/-- Row `p` of window 1's block at point `t` is row `4000 t + p` of its array. -/
theorem blk1 (c : Dev nD) (t : Fin cfg4.N) (p : Fin 4000) (hlt : t.val * 4000 + p.val < 100000) (k : Fin 128) :
    iblk4 V c 1 t (ix2 p k) = V c main_v119 (ix2 (⟨t.val * 4000 + p.val, hlt⟩ : Fin 100000) k) := by
  obtain ⟨-, -, e0, e1, -, -, -, -, -, -, -, -, -, -, -, -⟩ := idx_facts t
  show V c main_v119 (((cfg4.win 1).blk t).view.emb (ix2 p k)) = V c main_v119 _
  refine congrArg (V c main_v119) (funext fun a => Fin.ext ?_)
  match a with
  | ⟨0, _⟩ => show win4_1.index t (0 : Fin 2) * 4000 + 1 * p.val = t.val * 4000 + p.val; omega
  | ⟨1, _⟩ => show win4_1.index t (1 : Fin 2) * 128 + 1 * k.val = k.val; omega

/-- Row `p` of window 2's block at point `t` is row `4000 t + p` of its array. -/
theorem blk2 (c : Dev nD) (t : Fin cfg4.N) (p : Fin 4000) (hlt : t.val * 4000 + p.val < 100000) (k : Fin 128) :
    iblk4 V c 2 t (ix2 p k) = V c main_v141 (ix2 (⟨t.val * 4000 + p.val, hlt⟩ : Fin 100000) k) := by
  obtain ⟨-, -, -, -, e0, e1, -, -, -, -, -, -, -, -, -, -⟩ := idx_facts t
  show V c main_v141 (((cfg4.win 2).blk t).view.emb (ix2 p k)) = V c main_v141 _
  refine congrArg (V c main_v141) (funext fun a => Fin.ext ?_)
  match a with
  | ⟨0, _⟩ => show win4_2.index t (0 : Fin 2) * 4000 + 1 * p.val = t.val * 4000 + p.val; omega
  | ⟨1, _⟩ => show win4_2.index t (1 : Fin 2) * 128 + 1 * k.val = k.val; omega

/-- Window 3's block is its whole array. -/
theorem blk3 (c : Dev nD) (t : Fin cfg4.N) (r : Fin 128) (k : Fin 128) :
    iblk4 V c 3 t (ix2 r k) = V c main_v143 (ix2 r k) := by
  obtain ⟨-, -, -, -, -, -, e0, e1, -, -, -, -, -, -, -, -⟩ := idx_facts t
  show V c main_v143 (((cfg4.win 3).blk t).view.emb (ix2 r k)) = V c main_v143 _
  refine congrArg (V c main_v143) (funext fun a => Fin.ext ?_)
  match a with
  | ⟨0, _⟩ => show win4_3.index t (0 : Fin 2) * 128 + 1 * r.val = r.val; omega
  | ⟨1, _⟩ => show win4_3.index t (1 : Fin 2) * 128 + 1 * k.val = k.val; omega

/-- Window 4's block is its whole array. -/
theorem blk4 (c : Dev nD) (t : Fin cfg4.N) (r : Fin 128) (k : Fin 128) :
    iblk4 V c 4 t (ix2 r k) = V c main_v145 (ix2 r k) := by
  obtain ⟨-, -, -, -, -, -, -, -, e0, e1, -, -, -, -, -, -⟩ := idx_facts t
  show V c main_v145 (((cfg4.win 4).blk t).view.emb (ix2 r k)) = V c main_v145 _
  refine congrArg (V c main_v145) (funext fun a => Fin.ext ?_)
  match a with
  | ⟨0, _⟩ => show win4_4.index t (0 : Fin 2) * 128 + 1 * r.val = r.val; omega
  | ⟨1, _⟩ => show win4_4.index t (1 : Fin 2) * 128 + 1 * k.val = k.val; omega

/-- Window 5's block is its whole array. -/
theorem blk5 (c : Dev nD) (t : Fin cfg4.N) (r : Fin 128) (k : Fin 128) :
    iblk4 V c 5 t (ix2 r k) = V c main_v147 (ix2 r k) := by
  obtain ⟨-, -, -, -, -, -, -, -, -, -, e0, e1, -, -, -, -⟩ := idx_facts t
  show V c main_v147 (((cfg4.win 5).blk t).view.emb (ix2 r k)) = V c main_v147 _
  refine congrArg (V c main_v147) (funext fun a => Fin.ext ?_)
  match a with
  | ⟨0, _⟩ => show win4_5.index t (0 : Fin 2) * 128 + 1 * r.val = r.val; omega
  | ⟨1, _⟩ => show win4_5.index t (1 : Fin 2) * 128 + 1 * k.val = k.val; omega

/-- Window 6's block is its whole array. -/
theorem blk6 (c : Dev nD) (t : Fin cfg4.N) (r : Fin 1) (k : Fin 128) :
    iblk4 V c 6 t (ix2 r k) = V c main_v148 (ix2 r k) := by
  obtain ⟨-, -, -, -, -, -, -, -, -, -, -, -, e0, e1, -, -⟩ := idx_facts t
  show V c main_v148 (((cfg4.win 6).blk t).view.emb (ix2 r k)) = V c main_v148 _
  refine congrArg (V c main_v148) (funext fun a => Fin.ext ?_)
  match a with
  | ⟨0, _⟩ => show win4_6.index t (0 : Fin 2) * 1 + 1 * r.val = r.val; omega
  | ⟨1, _⟩ => show win4_6.index t (1 : Fin 2) * 128 + 1 * k.val = k.val; omega

/-- WHAT POINT `t` WRITES BACK is block `t` of that function of the arrays the region found. -/
theorem flushed_eq (c : Dev nD) (t : Fin cfg4.N) :
    (dat4 V c).flushed 7 t = ((cfg4.win 7).blk t).view.read (Elt Ideal) (out (V c main_v100) (V c main_v119) (V c main_v141) (V c main_v143) (V c main_v145) (V c main_v147) (V c main_v148)) := by
  show (cfg4.win 7).cut (grid4.coords t) ((dat4 V c).after 7 t) = _
  rw [after4_7]
  unfold out4_7
  rw [View.canon_unit_zero hz]
  simp only [View.ld_unit_zero (S := S4000x128) hz, View.ld_unit_zero (S := S128x128) hz, View.ld_unit_zero (S := S1x128) hz]
  obtain ⟨-, -, -, -, -, -, -, -, -, -, -, -, -, -, e0, e1⟩ := idx_facts t
  have hN : t.val < 25 := by have := t.isLt; have h25 : cfg4.N = 25 := N_4; omega
  funext j
  obtain ⟨p, q, rfl⟩ : ∃ (p : Fin 4000) (q : Fin 128), j = ix2 p q := ⟨j 0, j 1, eq_ix2 j⟩
  have hlt : t.val * 4000 + p.val < 100000 := by have := p.isLt; omega
  refine (Pay.k4_at (iblk4 V c 0 t) (iblk4 V c 1 t) (iblk4 V c 2 t) (iblk4 V c 3 t) (iblk4 V c 4 t) (iblk4 V c 5 t) (iblk4 V c 6 t) p q).trans ?_
  have hemb : ((cfg4.win 7).blk t).view.emb (ix2 p q) = ix2 (⟨t.val * 4000 + p.val, hlt⟩ : Fin 100000) q := by
    funext a; refine Fin.ext ?_
    match a with
    | ⟨0, _⟩ => show win4_7.index t (0 : Fin 2) * 4000 + 1 * p.val = t.val * 4000 + p.val; omega
    | ⟨1, _⟩ => show win4_7.index t (1 : Fin 2) * 128 + 1 * q.val = q.val; omega
  show _ = out (V c main_v100) (V c main_v119) (V c main_v141) (V c main_v143) (V c main_v145) (V c main_v147) (V c main_v148) (((cfg4.win 7).blk t).view.emb (ix2 p q))
  rw [hemb]
  unfold out
  simp only [blk0 V c t p hlt, blk1 V c t p hlt, blk2 V c t p hlt, blk3 V c t, blk4 V c t, blk5 V c t, blk6 V c t]

/-- An index of the array is in point `t`'s block iff each coordinate is in the block's range on its axis. -/
theorem mem_blk (t : Fin cfg4.N) (i : S100000x128.Idx) :
    i ∈ ((cfg4.win 7).blk t).view.set
      ↔ ∀ a : Fin 2, win4_7.index t a * S4000x128.size a ≤ (i a).val ∧ (i a).val < win4_7.index t a * S4000x128.size a + S4000x128.size a := by
  show i ∈ ((View.whole main_v149).slice (win4_7.rect t)).set ↔ _
  rw [View.set_slice_whole, Rect.mem_set_unit]
  exact Iff.rfl

/-- Every index of the output is in some point's block: the point `n / 4000`. -/
theorem cover (i : S100000x128.Idx) :
    ∃ t : Fin cfg4.N, (cfg4.win 7).flush t = true ∧ i ∈ ((cfg4.win 7).blk t).view.set := by
  have hi0 : (i 0).val < 100000 := (i 0).isLt
  have hi1 : (i 1).val < 128 := (i 1).isLt
  have h25 : cfg4.N = 25 := N_4
  let t : Fin cfg4.N := ⟨(i 0).val / 4000, by omega⟩
  obtain ⟨-, -, -, -, -, -, -, -, -, -, -, -, -, -, e0, e1⟩ := idx_facts t
  have ht : t.val = (i 0).val / 4000 := rfl
  refine ⟨t, flush4_7 t, ?_⟩
  rw [mem_blk]
  intro a
  match a with
  | ⟨0, _⟩ => show win4_7.index t (0 : Fin 2) * 4000 ≤ (i 0).val ∧ (i 0).val < win4_7.index t (0 : Fin 2) * 4000 + 4000; omega
  | ⟨1, _⟩ => show win4_7.index t (1 : Fin 2) * 128 ≤ (i 1).val ∧ (i 1).val < win4_7.index t (1 : Fin 2) * 128 + 128; omega

/-- THE ARRAY the region leaves. -/
theorem final (c : Dev nD) : (dat4 V c).arrAt 7 cfg4.N = out (V c main_v100) (V c main_v119) (V c main_v141) (V c main_v143) (V c main_v145) (V c main_v147) (V c main_v148) :=
  (dat4 V c).arrAt_eq_of_cover 7 _ (fun t _ => flushed_eq V c t) cover

end Cert.KernelIdeal.Region4

end
-- ==== Proof.Region5.lean ====
/-
  The last linear layer's region: the array it leaves (as the first linear layer's).
-/
import proofs.«149158_j47751446397324_2_alg».proof.Proof.Gen.KernelIdeal.Frame
import proofs.«149158_j47751446397324_2_alg».proof.Proof.KPay
import Idealize.ShloMosaic.Lib.Pipeline.Value

set_option maxRecDepth 16384

noncomputable section

open scoped BigOperators

namespace Cert.KernelIdeal.Region5

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A linear layer over the whole node array: `(n, j) ↦ ∑ k, a (n, k) * w (k, j) + b (0, j)`. -/
def out (a : S100000x128.Idx → EReal) (w : S128x128.Idx → EReal) (b : S1x128.Idx → EReal) : S100000x128.Idx → EReal :=
  fun i => (∑ k : Fin 128, a (ix2 (⟨(i 0).val, (i 0).isLt⟩ : Fin 100000) k) * w (ix2 k (⟨(i 1).val, (i 1).isLt⟩ : Fin 128))) + b (ix2 (0 : Fin 1) (⟨(i 1).val, (i 1).isLt⟩ : Fin 128))

/-- The printed index maps, decided over the grid: the node-indexed windows move with the point, the parameters stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row `p` of window 0's block at point `t` is row `4000 t + p` of its array. -/
theorem blk0 (c : Dev nD) (t : Fin cfg5.N) (p : Fin 4000) (hlt : t.val * 4000 + p.val < 100000) (k : Fin 128) :
    iblk5 V c 0 t (ix2 p k) = V c main_v149 (ix2 (⟨t.val * 4000 + p.val, hlt⟩ : Fin 100000) k) := by
  obtain ⟨e0, e1, -, -, -, -, -, -⟩ := idx_facts t
  show V c main_v149 (((cfg5.win 0).blk t).view.emb (ix2 p k)) = V c main_v149 _
  refine congrArg (V c main_v149) (funext fun a => Fin.ext ?_)
  match a with
  | ⟨0, _⟩ => show win5_0.index t (0 : Fin 2) * 4000 + 1 * p.val = t.val * 4000 + p.val; omega
  | ⟨1, _⟩ => show win5_0.index t (1 : Fin 2) * 128 + 1 * k.val = k.val; omega

/-- Window 1's block is its whole array. -/
theorem blk1 (c : Dev nD) (t : Fin cfg5.N) (r : Fin 128) (k : Fin 128) :
    iblk5 V c 1 t (ix2 r k) = V c main_arg13 (ix2 r k) := by
  obtain ⟨-, -, e0, e1, -, -, -, -⟩ := idx_facts t
  show V c main_arg13 (((cfg5.win 1).blk t).view.emb (ix2 r k)) = V c main_arg13 _
  refine congrArg (V c main_arg13) (funext fun a => Fin.ext ?_)
  match a with
  | ⟨0, _⟩ => show win5_1.index t (0 : Fin 2) * 128 + 1 * r.val = r.val; omega
  | ⟨1, _⟩ => show win5_1.index t (1 : Fin 2) * 128 + 1 * k.val = k.val; omega

/-- Window 2's block is its whole array. -/
theorem blk2 (c : Dev nD) (t : Fin cfg5.N) (r : Fin 1) (k : Fin 128) :
    iblk5 V c 2 t (ix2 r k) = V c main_v150 (ix2 r k) := by
  obtain ⟨-, -, -, -, e0, e1, -, -⟩ := idx_facts t
  show V c main_v150 (((cfg5.win 2).blk t).view.emb (ix2 r k)) = V c main_v150 _
  refine congrArg (V c main_v150) (funext fun a => Fin.ext ?_)
  match a with
  | ⟨0, _⟩ => show win5_2.index t (0 : Fin 2) * 1 + 1 * r.val = r.val; omega
  | ⟨1, _⟩ => show win5_2.index t (1 : Fin 2) * 128 + 1 * k.val = k.val; omega

/-- WHAT POINT `t` WRITES BACK is block `t` of that function of the arrays the region found. -/
theorem flushed_eq (c : Dev nD) (t : Fin cfg5.N) :
    (dat5 V c).flushed 3 t = ((cfg5.win 3).blk t).view.read (Elt Ideal) (out (V c main_v149) (V c main_arg13) (V c main_v150)) := by
  show (cfg5.win 3).cut (grid5.coords t) ((dat5 V c).after 3 t) = _
  rw [after5_3]
  unfold out5_3
  rw [View.canon_unit_zero hz]
  simp only [View.ld_unit_zero (S := S4000x128) hz, View.ld_unit_zero (S := S128x128) hz, View.ld_unit_zero (S := S1x128) hz]
  obtain ⟨-, -, -, -, -, -, e0, e1⟩ := idx_facts t
  have hN : t.val < 25 := by have := t.isLt; have h25 : cfg5.N = 25 := N_5; omega
  funext j
  obtain ⟨p, q, rfl⟩ : ∃ (p : Fin 4000) (q : Fin 128), j = ix2 p q := ⟨j 0, j 1, eq_ix2 j⟩
  have hlt : t.val * 4000 + p.val < 100000 := by have := p.isLt; omega
  refine (Pay.k5_at (iblk5 V c 0 t) (iblk5 V c 1 t) (iblk5 V c 2 t) p q).trans ?_
  have hemb : ((cfg5.win 3).blk t).view.emb (ix2 p q) = ix2 (⟨t.val * 4000 + p.val, hlt⟩ : Fin 100000) q := by
    funext a; refine Fin.ext ?_
    match a with
    | ⟨0, _⟩ => show win5_3.index t (0 : Fin 2) * 4000 + 1 * p.val = t.val * 4000 + p.val; omega
    | ⟨1, _⟩ => show win5_3.index t (1 : Fin 2) * 128 + 1 * q.val = q.val; omega
  show _ = out (V c main_v149) (V c main_arg13) (V c main_v150) (((cfg5.win 3).blk t).view.emb (ix2 p q))
  rw [hemb]
  unfold out
  simp only [blk0 V c t p hlt, blk1 V c t, blk2 V c t]

/-- An index of the array is in point `t`'s block iff each coordinate is in the block's range on its axis. -/
theorem mem_blk (t : Fin cfg5.N) (i : S100000x128.Idx) :
    i ∈ ((cfg5.win 3).blk t).view.set
      ↔ ∀ a : Fin 2, win5_3.index t a * S4000x128.size a ≤ (i a).val ∧ (i a).val < win5_3.index t a * S4000x128.size a + S4000x128.size a := by
  show i ∈ ((View.whole main_v151).slice (win5_3.rect t)).set ↔ _
  rw [View.set_slice_whole, Rect.mem_set_unit]
  exact Iff.rfl

/-- Every index of the output is in some point's block: the point `n / 4000`. -/
theorem cover (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have h25 : cfg5.N = 25 := N_5
  let t : Fin cfg5.N := ⟨(i 0).val / 4000, by omega⟩
  obtain ⟨-, -, -, -, -, -, e0, e1⟩ := idx_facts t
  have ht : t.val = (i 0).val / 4000 := rfl
  refine ⟨t, flush5_3 t, ?_⟩
  rw [mem_blk]
  intro a
  match a with
  | ⟨0, _⟩ => show win5_3.index t (0 : Fin 2) * 4000 ≤ (i 0).val ∧ (i 0).val < win5_3.index t (0 : Fin 2) * 4000 + 4000; omega
  | ⟨1, _⟩ => show win5_3.index t (1 : Fin 2) * 128 ≤ (i 1).val ∧ (i 1).val < win5_3.index t (1 : Fin 2) * 128 + 128; omega

/-- THE ARRAY the region leaves. -/
theorem final (c : Dev nD) : (dat5 V c).arrAt 3 cfg5.N = out (V c main_v149) (V c main_arg13) (V c main_v150) :=
  (dat5 V c).arrAt_eq_of_cover 3 _ (fun t _ => flushed_eq V c t) cover

end Cert.KernelIdeal.Region5

end
-- ==== Proof.Region6.lean ====
/-
  The output region: the array it leaves.

  Point `t` of 25 reads rows `4000 t … 4000 t + 3999` of the pre-activations, the four statistic and parameter rows, the
  padded projection matrix and the padded bias row whole, and writes the same rows of the output.
-/
import proofs.«149158_j47751446397324_2_alg».proof.Proof.Gen.KernelIdeal.Frame
import proofs.«149158_j47751446397324_2_alg».proof.Proof.KPay
import Idealize.ShloMosaic.Lib.Pipeline.Value

set_option maxRecDepth 16384

noncomputable section

open scoped BigOperators

namespace Cert.KernelIdeal.Region6

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Normalization and rectifier, then the output projection and its bias, over the whole node array. -/
def out (z : S100000x128.Idx → EReal) (mean var g be : S1x128.Idx → EReal) (wout : S128x128.Idx → EReal) (bout : S1x128.Idx → EReal) : S100000x128.Idx → EReal :=
  fun i => (∑ k : Fin 128, (max (g (ix2 (0 : Fin 1) k) * (z (ix2 (⟨(i 0).val, (i 0).isLt⟩ : Fin 100000) k) - mean (ix2 (0 : Fin 1) k)) * Ideal.rsqrt (var (ix2 (0 : Fin 1) k) + Ideal.ofBits .f32 0x3727C5AC#32) + be (ix2 (0 : Fin 1) k)) (Ideal.ofBits .f32 0x00000000#32)) * wout (ix2 k (⟨(i 1).val, (i 1).isLt⟩ : Fin 128))) + bout (ix2 (0 : Fin 1) (⟨(i 1).val, (i 1).isLt⟩ : Fin 128))

/-- The printed index maps, decided over the grid: the node-indexed windows move with the point, the parameters stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- Row `p` of window 0's block at point `t` is row `4000 t + p` of its array. -/
theorem blk0 (c : Dev nD) (t : Fin cfg6.N) (p : Fin 4000) (hlt : t.val * 4000 + p.val < 100000) (k : Fin 128) :
    iblk6 V c 0 t (ix2 p k) = V c main_v151 (ix2 (⟨t.val * 4000 + p.val, hlt⟩ : Fin 100000) k) := by
  obtain ⟨e0, e1, -, -, -, -, -, -, -, -, -, -, -, -, -, -⟩ := idx_facts t
  show V c main_v151 (((cfg6.win 0).blk t).view.emb (ix2 p k)) = V c main_v151 _
  refine congrArg (V c main_v151) (funext fun a => Fin.ext ?_)
  match a with
  | ⟨0, _⟩ => show win6_0.index t (0 : Fin 2) * 4000 + 1 * p.val = t.val * 4000 + p.val; omega
  | ⟨1, _⟩ => show win6_0.index t (1 : Fin 2) * 128 + 1 * k.val = k.val; omega

/-- Window 1's block is its whole array. -/
theorem blk1 (c : Dev nD) (t : Fin cfg6.N) (r : Fin 1) (k : Fin 128) :
    iblk6 V c 1 t (ix2 r k) = V c main_v170 (ix2 r k) := by
  obtain ⟨-, -, e0, e1, -, -, -, -, -, -, -, -, -, -, -, -⟩ := idx_facts t
  show V c main_v170 (((cfg6.win 1).blk t).view.emb (ix2 r k)) = V c main_v170 _
  refine congrArg (V c main_v170) (funext fun a => Fin.ext ?_)
  match a with
  | ⟨0, _⟩ => show win6_1.index t (0 : Fin 2) * 1 + 1 * r.val = r.val; omega
  | ⟨1, _⟩ => show win6_1.index t (1 : Fin 2) * 128 + 1 * k.val = k.val; omega

/-- Window 2's block is its whole array. -/
theorem blk2 (c : Dev nD) (t : Fin cfg6.N) (r : Fin 1) (k : Fin 128) :
    iblk6 V c 2 t (ix2 r k) = V c main_v171 (ix2 r k) := by
  obtain ⟨-, -, -, -, e0, e1, -, -, -, -, -, -, -, -, -, -⟩ := idx_facts t
  show V c main_v171 (((cfg6.win 2).blk t).view.emb (ix2 r k)) = V c main_v171 _
  refine congrArg (V c main_v171) (funext fun a => Fin.ext ?_)
  match a with
  | ⟨0, _⟩ => show win6_2.index t (0 : Fin 2) * 1 + 1 * r.val = r.val; omega
  | ⟨1, _⟩ => show win6_2.index t (1 : Fin 2) * 128 + 1 * k.val = k.val; omega

/-- Window 3's block is its whole array. -/
theorem blk3 (c : Dev nD) (t : Fin cfg6.N) (r : Fin 1) (k : Fin 128) :
    iblk6 V c 3 t (ix2 r k) = V c main_v172 (ix2 r k) := by
  obtain ⟨-, -, -, -, -, -, e0, e1, -, -, -, -, -, -, -, -⟩ := idx_facts t
  show V c main_v172 (((cfg6.win 3).blk t).view.emb (ix2 r k)) = V c main_v172 _
  refine congrArg (V c main_v172) (funext fun a => Fin.ext ?_)
  match a with
  | ⟨0, _⟩ => show win6_3.index t (0 : Fin 2) * 1 + 1 * r.val = r.val; omega
  | ⟨1, _⟩ => show win6_3.index t (1 : Fin 2) * 128 + 1 * k.val = k.val; omega

/-- Window 4's block is its whole array. -/
theorem blk4 (c : Dev nD) (t : Fin cfg6.N) (r : Fin 1) (k : Fin 128) :
    iblk6 V c 4 t (ix2 r k) = V c main_v173 (ix2 r k) := by
  obtain ⟨-, -, -, -, -, -, -, -, e0, e1, -, -, -, -, -, -⟩ := idx_facts t
  show V c main_v173 (((cfg6.win 4).blk t).view.emb (ix2 r k)) = V c main_v173 _
  refine congrArg (V c main_v173) (funext fun a => Fin.ext ?_)
  match a with
  | ⟨0, _⟩ => show win6_4.index t (0 : Fin 2) * 1 + 1 * r.val = r.val; omega
  | ⟨1, _⟩ => show win6_4.index t (1 : Fin 2) * 128 + 1 * k.val = k.val; omega

/-- Window 5's block is its whole array. -/
theorem blk5 (c : Dev nD) (t : Fin cfg6.N) (r : Fin 128) (k : Fin 128) :
    iblk6 V c 5 t (ix2 r k) = V c main_v165 (ix2 r k) := by
  obtain ⟨-, -, -, -, -, -, -, -, -, -, e0, e1, -, -, -, -⟩ := idx_facts t
  show V c main_v165 (((cfg6.win 5).blk t).view.emb (ix2 r k)) = V c main_v165 _
  refine congrArg (V c main_v165) (funext fun a => Fin.ext ?_)
  match a with
  | ⟨0, _⟩ => show win6_5.index t (0 : Fin 2) * 128 + 1 * r.val = r.val; omega
  | ⟨1, _⟩ => show win6_5.index t (1 : Fin 2) * 128 + 1 * k.val = k.val; omega

/-- Window 6's block is its whole array. -/
theorem blk6 (c : Dev nD) (t : Fin cfg6.N) (r : Fin 1) (k : Fin 128) :
    iblk6 V c 6 t (ix2 r k) = V c main_v174 (ix2 r k) := by
  obtain ⟨-, -, -, -, -, -, -, -, -, -, -, -, e0, e1, -, -⟩ := idx_facts t
  show V c main_v174 (((cfg6.win 6).blk t).view.emb (ix2 r k)) = V c main_v174 _
  refine congrArg (V c main_v174) (funext fun a => Fin.ext ?_)
  match a with
  | ⟨0, _⟩ => show win6_6.index t (0 : Fin 2) * 1 + 1 * r.val = r.val; omega
  | ⟨1, _⟩ => show win6_6.index t (1 : Fin 2) * 128 + 1 * k.val = k.val; omega

/-- WHAT POINT `t` WRITES BACK is block `t` of that function of the arrays the region found. -/
theorem flushed_eq (c : Dev nD) (t : Fin cfg6.N) :
    (dat6 V c).flushed 7 t = ((cfg6.win 7).blk t).view.read (Elt Ideal) (out (V c main_v151) (V c main_v170) (V c main_v171) (V c main_v172) (V c main_v173) (V c main_v165) (V c main_v174)) := by
  show (cfg6.win 7).cut (grid6.coords t) ((dat6 V c).after 7 t) = _
  rw [after6_7]
  unfold out6_7
  rw [View.canon_unit_zero hz]
  simp only [View.ld_unit_zero (S := S4000x128) hz, View.ld_unit_zero (S := S1x128) hz, View.ld_unit_zero (S := S128x128) hz]
  obtain ⟨-, -, -, -, -, -, -, -, -, -, -, -, -, -, e0, e1⟩ := idx_facts t
  have hN : t.val < 25 := by have := t.isLt; have h25 : cfg6.N = 25 := N_6; omega
  funext j
  obtain ⟨p, q, rfl⟩ : ∃ (p : Fin 4000) (q : Fin 128), j = ix2 p q := ⟨j 0, j 1, eq_ix2 j⟩
  have hlt : t.val * 4000 + p.val < 100000 := by have := p.isLt; omega
  refine (Pay.k6_at (iblk6 V c 0 t) (iblk6 V c 1 t) (iblk6 V c 2 t) (iblk6 V c 3 t) (iblk6 V c 4 t) (iblk6 V c 5 t) (iblk6 V c 6 t) p q).trans ?_
  have hemb : ((cfg6.win 7).blk t).view.emb (ix2 p q) = ix2 (⟨t.val * 4000 + p.val, hlt⟩ : Fin 100000) q := by
    funext a; refine Fin.ext ?_
    match a with
    | ⟨0, _⟩ => show win6_7.index t (0 : Fin 2) * 4000 + 1 * p.val = t.val * 4000 + p.val; omega
    | ⟨1, _⟩ => show win6_7.index t (1 : Fin 2) * 128 + 1 * q.val = q.val; omega
  show _ = out (V c main_v151) (V c main_v170) (V c main_v171) (V c main_v172) (V c main_v173) (V c main_v165) (V c main_v174) (((cfg6.win 7).blk t).view.emb (ix2 p q))
  rw [hemb]
  unfold out
  simp only [blk0 V c t p hlt, blk1 V c t, blk2 V c t, blk3 V c t, blk4 V c t, blk5 V c t, blk6 V c t, Pay.bnrelu]

/-- An index of the array is in point `t`'s block iff each coordinate is in the block's range on its axis. -/
theorem mem_blk (t : Fin cfg6.N) (i : S100000x128.Idx) :
    i ∈ ((cfg6.win 7).blk t).view.set
      ↔ ∀ a : Fin 2, win6_7.index t a * S4000x128.size a ≤ (i a).val ∧ (i a).val < win6_7.index t a * S4000x128.size a + S4000x128.size a := by
  show i ∈ ((View.whole main_v175).slice (win6_7.rect t)).set ↔ _
  rw [View.set_slice_whole, Rect.mem_set_unit]
  exact Iff.rfl

/-- Every index of the output is in some point's block: the point `n / 4000`. -/
theorem cover (i : S100000x128.Idx) :
    ∃ t : Fin cfg6.N, (cfg6.win 7).flush t = true ∧ i ∈ ((cfg6.win 7).blk t).view.set := by
  have hi0 : (i 0).val < 100000 := (i 0).isLt
  have hi1 : (i 1).val < 128 := (i 1).isLt
  have h25 : cfg6.N = 25 := N_6
  let t : Fin cfg6.N := ⟨(i 0).val / 4000, by omega⟩
  obtain ⟨-, -, -, -, -, -, -, -, -, -, -, -, -, -, e0, e1⟩ := idx_facts t
  have ht : t.val = (i 0).val / 4000 := rfl
  refine ⟨t, flush6_7 t, ?_⟩
  rw [mem_blk]
  intro a
  match a with
  | ⟨0, _⟩ => show win6_7.index t (0 : Fin 2) * 4000 ≤ (i 0).val ∧ (i 0).val < win6_7.index t (0 : Fin 2) * 4000 + 4000; omega
  | ⟨1, _⟩ => show win6_7.index t (1 : Fin 2) * 128 ≤ (i 1).val ∧ (i 1).val < win6_7.index t (1 : Fin 2) * 128 + 128; omega

/-- THE ARRAY the region leaves. -/
theorem final (c : Dev nD) : (dat6 V c).arrAt 7 cfg6.N = out (V c main_v151) (V c main_v170) (V c main_v171) (V c main_v172) (V c main_v173) (V c main_v165) (V c main_v174) :=
  (dat6 V c).arrAt_eq_of_cover 7 _ (fun t _ => flushed_eq V c t) cover

end Cert.KernelIdeal.Region6

end
-- ==== Proof.KVal.lean ====
/-
  The idealized kernel program's values, one per host operation and one per region, as pure functions of @main's
  arguments.

  The program is a straight line of host operations with seven regions in between. Each host operation's value is
  the operation applied to the values of the buffers it reads; each region's value is the whole-array function the
  region leaves, applied to the values of the arrays its windows read. Every value takes exactly the arguments of
  @main it depends on. Nothing is proved here: these are the names the run is read against.
-/
import proofs.«149158_j47751446397324_2_alg».proof.Proof.Region0
import proofs.«149158_j47751446397324_2_alg».proof.Proof.Region1
import proofs.«149158_j47751446397324_2_alg».proof.Proof.Region2
import proofs.«149158_j47751446397324_2_alg».proof.Proof.Region3
import proofs.«149158_j47751446397324_2_alg».proof.Proof.Region4
import proofs.«149158_j47751446397324_2_alg».proof.Proof.Region5
import proofs.«149158_j47751446397324_2_alg».proof.Proof.Region6

noncomputable section

namespace Cert.KernelIdeal.KVal

open Cert.KernelIdeal Cert.KernelIdeal.Gen Idealize.ShloMosaic Idealize.ShloMosaic.TcCoe Idealize.SL.Sem Idealize.ShloMosaic.StableHlo

def kv_v0 (x1 : (⟨S2x1000000, .i32⟩ : BufTy).Contents (Elt Ideal)) : (⟨S1x1000000, .i32⟩ : BufTy).Contents (Elt Ideal) :=
  ((extractStridedSlice S1x1000000 ![0, 0] · slices_S2x1000000_S1x1000000_0_0)) x1
def kv_v1 (x1 : (⟨S2x1000000, .i32⟩ : BufTy).Contents (Elt Ideal)) : (⟨S1000000, .i32⟩ : BufTy).Contents (Elt Ideal) :=
  shapeCast S1000000 (kv_v0 x1) shapeCasts_S1x1000000_S1000000
def kv_v2 (x1 : (⟨S2x1000000, .i32⟩ : BufTy).Contents (Elt Ideal)) : (⟨S1x1000000, .i32⟩ : BufTy).Contents (Elt Ideal) :=
  ((extractStridedSlice S1x1000000 ![1, 0] · slices_S2x1000000_S1x1000000_1_0)) x1
def kv_v3 (x1 : (⟨S2x1000000, .i32⟩ : BufTy).Contents (Elt Ideal)) : (⟨S1000000, .i32⟩ : BufTy).Contents (Elt Ideal) :=
  shapeCast S1000000 (kv_v2 x1) shapeCasts_S1x1000000_S1000000
def kv_cst  : (⟨S_, .f32⟩ : BufTy).Contents (Elt Ideal) :=
  (constant (F := Ideal) S_ .f32 0x3F800000#32)
def kv_v4  : (⟨S1000000, .f32⟩ : BufTy).Contents (Elt Ideal) :=
  (broadcastInDim S1000000 ![] bcast_S_S1000000) (kv_cst)
def kv_v5 (x3 : (⟨S144x128, .f32⟩ : BufTy).Contents (Elt Ideal)) : (⟨S128x128, .f32⟩ : BufTy).Contents (Elt Ideal) :=
  ((extractStridedSlice S128x128 ![0, 0] · slices_S144x128_S128x128_0_0)) x3
def kv_v6 (x3 : (⟨S144x128, .f32⟩ : BufTy).Contents (Elt Ideal)) : (⟨S16x128, .f32⟩ : BufTy).Contents (Elt Ideal) :=
  ((extractStridedSlice S16x128 ![128, 0] · slices_S144x128_S16x128_128_0)) x3
def kv_c  : (⟨S_, .i32⟩ : BufTy).Contents (Elt Ideal) :=
  (constantI S_ 32 0#32)
def kv_v7  : (⟨S1000000, .i32⟩ : BufTy).Contents (Elt Ideal) :=
  (broadcastInDim S1000000 ![] bcast_S_S1000000) (kv_c)
def kv_v8 (x1 : (⟨S2x1000000, .i32⟩ : BufTy).Contents (Elt Ideal)) : (⟨S1000000, .i1⟩ : BufTy).Contents (Elt Ideal) :=
  (cmpi .slt) (kv_v1 x1) (kv_v7)
def kv_c_0  : (⟨S_, .i32⟩ : BufTy).Contents (Elt Ideal) :=
  (constantI S_ 32 100000#32)
def kv_v9  : (⟨S1000000, .i32⟩ : BufTy).Contents (Elt Ideal) :=
  (broadcastInDim S1000000 ![] bcast_S_S1000000) (kv_c_0)
def kv_v10 (x1 : (⟨S2x1000000, .i32⟩ : BufTy).Contents (Elt Ideal)) : (⟨S1000000, .i32⟩ : BufTy).Contents (Elt Ideal) :=
  (addi) (kv_v1 x1) (kv_v9)
def kv_v11 (x1 : (⟨S2x1000000, .i32⟩ : BufTy).Contents (Elt Ideal)) : (⟨S1000000, .i32⟩ : BufTy).Contents (Elt Ideal) :=
  (select) (kv_v8 x1) (kv_v10 x1) (kv_v1 x1)
def kv_v12 (x1 : (⟨S2x1000000, .i32⟩ : BufTy).Contents (Elt Ideal)) : (⟨S1000000x1, .i32⟩ : BufTy).Contents (Elt Ideal) :=
  (broadcastInDim S1000000x1 ![0] bcast_S1000000_S1000000x1_0) (kv_v11 x1)
def kv_v13 (x0 : (⟨S100000x128, .f32⟩ : BufTy).Contents (Elt Ideal)) (x1 : (⟨S2x1000000, .i32⟩ : BufTy).Contents (Elt Ideal)) : (⟨S1000000x128, .f32⟩ : BufTy).Contents (Elt Ideal) :=
  ((fun x i => Host.gather gather_S100000x128_S1000000x1_S1000000x128_1_0_n_n_0_1_1128 x i)) x0 (kv_v12 x1)
def kv_cst_1  : (⟨S_, .f32⟩ : BufTy).Contents (Elt Ideal) :=
  (constant (F := Ideal) S_ .f32 0x00000000#32)
def kv_v14  : (⟨S100000x128, .f32⟩ : BufTy).Contents (Elt Ideal) :=
  (broadcastInDim S100000x128 ![] bcast_S_S100000x128) (kv_cst_1)
def kv_v15 (x1 : (⟨S2x1000000, .i32⟩ : BufTy).Contents (Elt Ideal)) : (⟨S1000000x1, .i32⟩ : BufTy).Contents (Elt Ideal) :=
  (broadcastInDim S1000000x1 ![0] bcast_S1000000_S1000000x1_0) (kv_v3 x1)
def kv_v16 (x0 : (⟨S100000x128, .f32⟩ : BufTy).Contents (Elt Ideal)) (x1 : (⟨S2x1000000, .i32⟩ : BufTy).Contents (Elt Ideal)) : (⟨S100000x128, .f32⟩ : BufTy).Contents (Elt Ideal) :=
  ((fun x i u => Host.scatterAdd (F := Ideal) (φ := .f32) scatter_S100000x128_S1000000x1_S1000000x128_1_0_0_1 x i u)) (kv_v14) (kv_v15 x1) (kv_v13 x0 x1)
def kv_cst_2  : (⟨S_, .f32⟩ : BufTy).Contents (Elt Ideal) :=
  (constant (F := Ideal) S_ .f32 0x00000000#32)
def kv_v17  : (⟨S100000x16, .f32⟩ : BufTy).Contents (Elt Ideal) :=
  (broadcastInDim S100000x16 ![] bcast_S_S100000x16) (kv_cst_2)
def kv_v18 (x1 : (⟨S2x1000000, .i32⟩ : BufTy).Contents (Elt Ideal)) : (⟨S1000000x1, .i32⟩ : BufTy).Contents (Elt Ideal) :=
  (broadcastInDim S1000000x1 ![0] bcast_S1000000_S1000000x1_0) (kv_v3 x1)
def kv_v19 (x1 : (⟨S2x1000000, .i32⟩ : BufTy).Contents (Elt Ideal)) (x2 : (⟨S1000000x16, .f32⟩ : BufTy).Contents (Elt Ideal)) : (⟨S100000x16, .f32⟩ : BufTy).Contents (Elt Ideal) :=
  ((fun x i u => Host.scatterAdd (F := Ideal) (φ := .f32) scatter_S100000x16_S1000000x1_S1000000x16_1_0_0_1 x i u)) (kv_v17) (kv_v18 x1) x2
def kv_cst_3  : (⟨S_, .f32⟩ : BufTy).Contents (Elt Ideal) :=
  (constant (F := Ideal) S_ .f32 0x00000000#32)
def kv_v20  : (⟨S100000, .f32⟩ : BufTy).Contents (Elt Ideal) :=
  (broadcastInDim S100000 ![] bcast_S_S100000) (kv_cst_3)
def kv_v21 (x1 : (⟨S2x1000000, .i32⟩ : BufTy).Contents (Elt Ideal)) : (⟨S1000000x1, .i32⟩ : BufTy).Contents (Elt Ideal) :=
  (broadcastInDim S1000000x1 ![0] bcast_S1000000_S1000000x1_0) (kv_v3 x1)
def kv_v22 (x1 : (⟨S2x1000000, .i32⟩ : BufTy).Contents (Elt Ideal)) : (⟨S100000, .f32⟩ : BufTy).Contents (Elt Ideal) :=
  ((fun x i u => Host.scatterAdd (F := Ideal) (φ := .f32) scatter_S100000_S1000000x1_S1000000_n_0_0_1 x i u)) (kv_v20) (kv_v21 x1) (kv_v4)
def kv_v23 (x1 : (⟨S2x1000000, .i32⟩ : BufTy).Contents (Elt Ideal)) : (⟨S100000x1, .f32⟩ : BufTy).Contents (Elt Ideal) :=
  shapeCast S100000x1 (kv_v22 x1) shapeCasts_S100000_S100000x1
def kv_v24 (x4 : (⟨S128, .f32⟩ : BufTy).Contents (Elt Ideal)) : (⟨S1x128, .f32⟩ : BufTy).Contents (Elt Ideal) :=
  shapeCast S1x128 x4 shapeCasts_S128_S1x128
/-- What region 0 leaves in its output array. -/
def kv_v25 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) : (⟨S100000x128, .f32⟩ : BufTy).Contents (Elt Ideal) :=
  Cert.KernelIdeal.Region0.out (kv_v16 x0 x1) (kv_v19 x1 x2) (kv_v23 x1) (kv_v5 x3) (kv_v6 x3) (kv_v24 x4)
def kv_v26 (x6 : (⟨S128, .f32⟩ : BufTy).Contents (Elt Ideal)) : (⟨S1x128, .f32⟩ : BufTy).Contents (Elt Ideal) :=
  shapeCast S1x128 x6 shapeCasts_S128_S1x128
/-- What region 1 leaves in its output array. -/
def kv_v27 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) : (⟨S100000x128, .f32⟩ : BufTy).Contents (Elt Ideal) :=
  Cert.KernelIdeal.Region1.out (kv_v25 x0 x1 x2 x3 x4) x5 (kv_v26 x6)
def kv_cst_4  : (⟨S_, .f32⟩ : BufTy).Contents (Elt Ideal) :=
  (constant (F := Ideal) S_ .f32 0x00000000#32)
def kv_v28 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) : (⟨S128, .f32⟩ : BufTy).Contents (Elt Ideal) :=
  ((fun x v => Host.reduceAdd (F := Ideal) (φ := .f32) x v reducesTo_S100000x128_S128_d0 h_S_)) (kv_v27 x0 x1 x2 x3 x4 x5 x6) (kv_cst_4)
def kv_cst_5  : (⟨S_, .f32⟩ : BufTy).Contents (Elt Ideal) :=
  (constant (F := Ideal) S_ .f32 0x47C35000#32)
def kv_v29  : (⟨S128, .f32⟩ : BufTy).Contents (Elt Ideal) :=
  (broadcastInDim S128 ![] bcast_S_S128) (kv_cst_5)
def kv_v30 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) : (⟨S128, .f32⟩ : BufTy).Contents (Elt Ideal) :=
  (Host.divf (F := Ideal) (φ := .f32)) (kv_v28 x0 x1 x2 x3 x4 x5 x6) (kv_v29)
def kv_v31 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) : (⟨S1x128, .f32⟩ : BufTy).Contents (Elt Ideal) :=
  (broadcastInDim S1x128 ![1] bcast_S128_S1x128_1) (kv_v30 x0 x1 x2 x3 x4 x5 x6)
def kv_v32 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) : (⟨S100000x128, .f32⟩ : BufTy).Contents (Elt Ideal) :=
  (broadcastInDim S100000x128 ![0, 1] bcast_S1x128_S100000x128_0_1) (kv_v31 x0 x1 x2 x3 x4 x5 x6)
def kv_v33 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) : (⟨S100000x128, .f32⟩ : BufTy).Contents (Elt Ideal) :=
  (subf (F := Ideal) (φ := .f32)) (kv_v27 x0 x1 x2 x3 x4 x5 x6) (kv_v32 x0 x1 x2 x3 x4 x5 x6)
def kv_v34 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) : (⟨S100000x128, .f32⟩ : BufTy).Contents (Elt Ideal) :=
  (mulf (F := Ideal) (φ := .f32)) (kv_v33 x0 x1 x2 x3 x4 x5 x6) (kv_v33 x0 x1 x2 x3 x4 x5 x6)
def kv_cst_6  : (⟨S_, .f32⟩ : BufTy).Contents (Elt Ideal) :=
  (constant (F := Ideal) S_ .f32 0x00000000#32)
def kv_v35 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) : (⟨S128, .f32⟩ : BufTy).Contents (Elt Ideal) :=
  ((fun x v => Host.reduceAdd (F := Ideal) (φ := .f32) x v reducesTo_S100000x128_S128_d0 h_S_)) (kv_v34 x0 x1 x2 x3 x4 x5 x6) (kv_cst_6)
def kv_cst_7  : (⟨S_, .f32⟩ : BufTy).Contents (Elt Ideal) :=
  (constant (F := Ideal) S_ .f32 0x47C35000#32)
def kv_v36  : (⟨S128, .f32⟩ : BufTy).Contents (Elt Ideal) :=
  (broadcastInDim S128 ![] bcast_S_S128) (kv_cst_7)
def kv_v37 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) : (⟨S128, .f32⟩ : BufTy).Contents (Elt Ideal) :=
  (Host.divf (F := Ideal) (φ := .f32)) (kv_v35 x0 x1 x2 x3 x4 x5 x6) (kv_v36)
def kv_v38 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) : (⟨S1x128, .f32⟩ : BufTy).Contents (Elt Ideal) :=
  shapeCast S1x128 (kv_v30 x0 x1 x2 x3 x4 x5 x6) shapeCasts_S128_S1x128
def kv_v39 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) : (⟨S1x128, .f32⟩ : BufTy).Contents (Elt Ideal) :=
  shapeCast S1x128 (kv_v37 x0 x1 x2 x3 x4 x5 x6) shapeCasts_S128_S1x128
def kv_v40 (x7 : (⟨S128, .f32⟩ : BufTy).Contents (Elt Ideal)) : (⟨S1x128, .f32⟩ : BufTy).Contents (Elt Ideal) :=
  shapeCast S1x128 x7 shapeCasts_S128_S1x128
def kv_v41 (x8 : (⟨S128, .f32⟩ : BufTy).Contents (Elt Ideal)) : (⟨S1x128, .f32⟩ : BufTy).Contents (Elt Ideal) :=
  shapeCast S1x128 x8 shapeCasts_S128_S1x128
/-- What region 2 leaves in its output array. -/
def kv_v42 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S100000x128, .f32⟩ : BufTy).Contents (Elt Ideal) :=
  Cert.KernelIdeal.Region2.out (kv_v27 x0 x1 x2 x3 x4 x5 x6) (kv_v38 x0 x1 x2 x3 x4 x5 x6) (kv_v39 x0 x1 x2 x3 x4 x5 x6) (kv_v40 x7) (kv_v41 x8)
def kv_cst_8  : (⟨S_, .f32⟩ : BufTy).Contents (Elt Ideal) :=
  (constant (F := Ideal) S_ .f32 0x00000000#32)
def kv_v43  : (⟨S100000, .f32⟩ : BufTy).Contents (Elt Ideal) :=
  (broadcastInDim S100000 ![] bcast_S_S100000) (kv_cst_8)
def kv_v44 (x1 : (⟨S2x1000000, .i32⟩ : BufTy).Contents (Elt Ideal)) : (⟨S1000000x1, .i32⟩ : BufTy).Contents (Elt Ideal) :=
  (broadcastInDim S1000000x1 ![0] bcast_S1000000_S1000000x1_0) (kv_v1 x1)
def kv_v45 (x1 : (⟨S2x1000000, .i32⟩ : BufTy).Contents (Elt Ideal)) : (⟨S100000, .f32⟩ : BufTy).Contents (Elt Ideal) :=
  ((fun x i u => Host.scatterAdd (F := Ideal) (φ := .f32) scatter_S100000_S1000000x1_S1000000_n_0_0_1 x i u)) (kv_v43) (kv_v44 x1) (kv_v4)
def kv_cst_9  : (⟨S_, .f32⟩ : BufTy).Contents (Elt Ideal) :=
  (constant (F := Ideal) S_ .f32 0x00000000#32)
def kv_v46  : (⟨S100000, .f32⟩ : BufTy).Contents (Elt Ideal) :=
  (broadcastInDim S100000 ![] bcast_S_S100000) (kv_cst_9)
def kv_v47 (x1 : (⟨S2x1000000, .i32⟩ : BufTy).Contents (Elt Ideal)) : (⟨S100000, .i1⟩ : BufTy).Contents (Elt Ideal) :=
  (cmpf (F := Ideal) (φ := .f32) .ogt) (kv_v45 x1) (kv_v46)
def kv_cst_10  : (⟨S_, .f32⟩ : BufTy).Contents (Elt Ideal) :=
  (constant (F := Ideal) S_ .f32 0x3F800000#32)
def kv_v48  : (⟨S100000, .f32⟩ : BufTy).Contents (Elt Ideal) :=
  (broadcastInDim S100000 ![] bcast_S_S100000) (kv_cst_10)
def kv_v49 (x1 : (⟨S2x1000000, .i32⟩ : BufTy).Contents (Elt Ideal)) : (⟨S100000, .f32⟩ : BufTy).Contents (Elt Ideal) :=
  (maximumf (F := Ideal) (φ := .f32)) (kv_v45 x1) (kv_v48)
def kv_v50 (x1 : (⟨S2x1000000, .i32⟩ : BufTy).Contents (Elt Ideal)) : (⟨S100000, .f32⟩ : BufTy).Contents (Elt Ideal) :=
  (Host.rsqrt (F := Ideal) (φ := .f32)) (kv_v49 x1)
def kv_cst_11  : (⟨S_, .f32⟩ : BufTy).Contents (Elt Ideal) :=
  (constant (F := Ideal) S_ .f32 0x00000000#32)
def kv_call0_v0  : (⟨S_, .f32⟩ : BufTy).Contents (Elt Ideal) :=
  id (kv_cst_11)
def kv_call0_v1  : (⟨S100000, .f32⟩ : BufTy).Contents (Elt Ideal) :=
  (broadcastInDim S100000 ![] bcast_S_S100000) (kv_call0_v0)
def kv_v51 (x1 : (⟨S2x1000000, .i32⟩ : BufTy).Contents (Elt Ideal)) : (⟨S100000, .f32⟩ : BufTy).Contents (Elt Ideal) :=
  select (kv_v47 x1) (kv_v50 x1) (kv_call0_v1)
def kv_v52 (x1 : (⟨S2x1000000, .i32⟩ : BufTy).Contents (Elt Ideal)) : (⟨S100000x1, .f32⟩ : BufTy).Contents (Elt Ideal) :=
  (broadcastInDim S100000x1 ![0] bcast_S100000_S100000x1_0) (kv_v51 x1)
def kv_v53 (x1 : (⟨S2x1000000, .i32⟩ : BufTy).Contents (Elt Ideal)) : (⟨S100000x128, .f32⟩ : BufTy).Contents (Elt Ideal) :=
  (broadcastInDim S100000x128 ![0, 1] bcast_S100000x1_S100000x128_0_1) (kv_v52 x1)
def kv_v54 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S100000x128, .f32⟩ : BufTy).Contents (Elt Ideal) :=
  (mulf (F := Ideal) (φ := .f32)) (kv_v53 x1) (kv_v42 x0 x1 x2 x3 x4 x5 x6 x7 x8)
def kv_v55 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S100000x128, .bf16⟩ : BufTy).Contents (Elt Ideal) :=
  ((truncf (F := Ideal) (φ := .f32) .bf16 · bitsLt_bf16_f32)) (kv_v54 x0 x1 x2 x3 x4 x5 x6 x7 x8)
def kv_c_12  : (⟨S_, .i32⟩ : BufTy).Contents (Elt Ideal) :=
  (constantI S_ 32 0#32)
def kv_v56  : (⟨S1000000, .i32⟩ : BufTy).Contents (Elt Ideal) :=
  (broadcastInDim S1000000 ![] bcast_S_S1000000) (kv_c_12)
def kv_v57 (x1 : (⟨S2x1000000, .i32⟩ : BufTy).Contents (Elt Ideal)) : (⟨S1000000, .i1⟩ : BufTy).Contents (Elt Ideal) :=
  (cmpi .slt) (kv_v1 x1) (kv_v56)
def kv_c_13  : (⟨S_, .i32⟩ : BufTy).Contents (Elt Ideal) :=
  (constantI S_ 32 100000#32)
def kv_v58  : (⟨S1000000, .i32⟩ : BufTy).Contents (Elt Ideal) :=
  (broadcastInDim S1000000 ![] bcast_S_S1000000) (kv_c_13)
def kv_v59 (x1 : (⟨S2x1000000, .i32⟩ : BufTy).Contents (Elt Ideal)) : (⟨S1000000, .i32⟩ : BufTy).Contents (Elt Ideal) :=
  (addi) (kv_v1 x1) (kv_v58)
def kv_v60 (x1 : (⟨S2x1000000, .i32⟩ : BufTy).Contents (Elt Ideal)) : (⟨S1000000, .i32⟩ : BufTy).Contents (Elt Ideal) :=
  (select) (kv_v57 x1) (kv_v59 x1) (kv_v1 x1)
def kv_v61 (x1 : (⟨S2x1000000, .i32⟩ : BufTy).Contents (Elt Ideal)) : (⟨S1000000x1, .i32⟩ : BufTy).Contents (Elt Ideal) :=
  (broadcastInDim S1000000x1 ![0] bcast_S1000000_S1000000x1_0) (kv_v60 x1)
def kv_v62 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S1000000x128, .bf16⟩ : BufTy).Contents (Elt Ideal) :=
  ((fun x i => Host.gather gather_S100000x128_S1000000x1_S1000000x128_1_0_n_n_0_1_1128 x i)) (kv_v55 x0 x1 x2 x3 x4 x5 x6 x7 x8) (kv_v61 x1)
def kv_v63 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S1000000x128, .f32⟩ : BufTy).Contents (Elt Ideal) :=
  ((extf (F := Ideal) (φ := .bf16) .f32 · bitsLt_bf16_f32)) (kv_v62 x0 x1 x2 x3 x4 x5 x6 x7 x8)
def kv_cst_14  : (⟨S_, .f32⟩ : BufTy).Contents (Elt Ideal) :=
  (constant (F := Ideal) S_ .f32 0x00000000#32)
def kv_v64  : (⟨S100000x128, .f32⟩ : BufTy).Contents (Elt Ideal) :=
  (broadcastInDim S100000x128 ![] bcast_S_S100000x128) (kv_cst_14)
def kv_v65 (x1 : (⟨S2x1000000, .i32⟩ : BufTy).Contents (Elt Ideal)) : (⟨S1000000x1, .i32⟩ : BufTy).Contents (Elt Ideal) :=
  (broadcastInDim S1000000x1 ![0] bcast_S1000000_S1000000x1_0) (kv_v3 x1)
def kv_v66 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S100000x128, .f32⟩ : BufTy).Contents (Elt Ideal) :=
  ((fun x i u => Host.scatterAdd (F := Ideal) (φ := .f32) scatter_S100000x128_S1000000x1_S1000000x128_1_0_0_1 x i u)) (kv_v64) (kv_v65 x1) (kv_v63 x0 x1 x2 x3 x4 x5 x6 x7 x8)
def kv_v67 (x1 : (⟨S2x1000000, .i32⟩ : BufTy).Contents (Elt Ideal)) : (⟨S100000x1, .f32⟩ : BufTy).Contents (Elt Ideal) :=
  (broadcastInDim S100000x1 ![0] bcast_S100000_S100000x1_0) (kv_v51 x1)
def kv_v68 (x1 : (⟨S2x1000000, .i32⟩ : BufTy).Contents (Elt Ideal)) : (⟨S100000x1, .f32⟩ : BufTy).Contents (Elt Ideal) :=
  (Host.negf (F := Ideal) (φ := .f32)) (kv_v67 x1)
def kv_v69 (x1 : (⟨S2x1000000, .i32⟩ : BufTy).Contents (Elt Ideal)) : (⟨S100000x128, .f32⟩ : BufTy).Contents (Elt Ideal) :=
  (broadcastInDim S100000x128 ![0, 1] bcast_S100000x1_S100000x128_0_1) (kv_v68 x1)
def kv_v70 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S100000x128, .f32⟩ : BufTy).Contents (Elt Ideal) :=
  (mulf (F := Ideal) (φ := .f32)) (kv_v69 x1) (kv_v66 x0 x1 x2 x3 x4 x5 x6 x7 x8)
def kv_v71 (x1 : (⟨S2x1000000, .i32⟩ : BufTy).Contents (Elt Ideal)) : (⟨S100000x1, .f32⟩ : BufTy).Contents (Elt Ideal) :=
  (broadcastInDim S100000x1 ![0] bcast_S100000_S100000x1_0) (kv_v51 x1)
def kv_v72 (x1 : (⟨S2x1000000, .i32⟩ : BufTy).Contents (Elt Ideal)) : (⟨S100000x128, .f32⟩ : BufTy).Contents (Elt Ideal) :=
  (broadcastInDim S100000x128 ![0, 1] bcast_S100000x1_S100000x128_0_1) (kv_v71 x1)
def kv_v73 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S100000x128, .f32⟩ : BufTy).Contents (Elt Ideal) :=
  (mulf (F := Ideal) (φ := .f32)) (kv_v72 x1) (kv_v70 x0 x1 x2 x3 x4 x5 x6 x7 x8)
def kv_v74 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S100000x128, .bf16⟩ : BufTy).Contents (Elt Ideal) :=
  ((truncf (F := Ideal) (φ := .f32) .bf16 · bitsLt_bf16_f32)) (kv_v73 x0 x1 x2 x3 x4 x5 x6 x7 x8)
def kv_c_15  : (⟨S_, .i32⟩ : BufTy).Contents (Elt Ideal) :=
  (constantI S_ 32 0#32)
def kv_v75  : (⟨S1000000, .i32⟩ : BufTy).Contents (Elt Ideal) :=
  (broadcastInDim S1000000 ![] bcast_S_S1000000) (kv_c_15)
def kv_v76 (x1 : (⟨S2x1000000, .i32⟩ : BufTy).Contents (Elt Ideal)) : (⟨S1000000, .i1⟩ : BufTy).Contents (Elt Ideal) :=
  (cmpi .slt) (kv_v1 x1) (kv_v75)
def kv_c_16  : (⟨S_, .i32⟩ : BufTy).Contents (Elt Ideal) :=
  (constantI S_ 32 100000#32)
def kv_v77  : (⟨S1000000, .i32⟩ : BufTy).Contents (Elt Ideal) :=
  (broadcastInDim S1000000 ![] bcast_S_S1000000) (kv_c_16)
def kv_v78 (x1 : (⟨S2x1000000, .i32⟩ : BufTy).Contents (Elt Ideal)) : (⟨S1000000, .i32⟩ : BufTy).Contents (Elt Ideal) :=
  (addi) (kv_v1 x1) (kv_v77)
def kv_v79 (x1 : (⟨S2x1000000, .i32⟩ : BufTy).Contents (Elt Ideal)) : (⟨S1000000, .i32⟩ : BufTy).Contents (Elt Ideal) :=
  (select) (kv_v76 x1) (kv_v78 x1) (kv_v1 x1)
def kv_v80 (x1 : (⟨S2x1000000, .i32⟩ : BufTy).Contents (Elt Ideal)) : (⟨S1000000x1, .i32⟩ : BufTy).Contents (Elt Ideal) :=
  (broadcastInDim S1000000x1 ![0] bcast_S1000000_S1000000x1_0) (kv_v79 x1)
def kv_v81 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S1000000x128, .bf16⟩ : BufTy).Contents (Elt Ideal) :=
  ((fun x i => Host.gather gather_S100000x128_S1000000x1_S1000000x128_1_0_n_n_0_1_1128 x i)) (kv_v74 x0 x1 x2 x3 x4 x5 x6 x7 x8) (kv_v80 x1)
def kv_v82 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S1000000x128, .f32⟩ : BufTy).Contents (Elt Ideal) :=
  ((extf (F := Ideal) (φ := .bf16) .f32 · bitsLt_bf16_f32)) (kv_v81 x0 x1 x2 x3 x4 x5 x6 x7 x8)
def kv_cst_17  : (⟨S_, .f32⟩ : BufTy).Contents (Elt Ideal) :=
  (constant (F := Ideal) S_ .f32 0x00000000#32)
def kv_v83  : (⟨S100000x128, .f32⟩ : BufTy).Contents (Elt Ideal) :=
  (broadcastInDim S100000x128 ![] bcast_S_S100000x128) (kv_cst_17)
def kv_v84 (x1 : (⟨S2x1000000, .i32⟩ : BufTy).Contents (Elt Ideal)) : (⟨S1000000x1, .i32⟩ : BufTy).Contents (Elt Ideal) :=
  (broadcastInDim S1000000x1 ![0] bcast_S1000000_S1000000x1_0) (kv_v3 x1)
def kv_v85 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S100000x128, .f32⟩ : BufTy).Contents (Elt Ideal) :=
  ((fun x i u => Host.scatterAdd (F := Ideal) (φ := .f32) scatter_S100000x128_S1000000x1_S1000000x128_1_0_0_1 x i u)) (kv_v83) (kv_v84 x1) (kv_v82 x0 x1 x2 x3 x4 x5 x6 x7 x8)
def kv_v86 (x1 : (⟨S2x1000000, .i32⟩ : BufTy).Contents (Elt Ideal)) : (⟨S100000x1, .f32⟩ : BufTy).Contents (Elt Ideal) :=
  (broadcastInDim S100000x1 ![0] bcast_S100000_S100000x1_0) (kv_v51 x1)
def kv_v87 (x1 : (⟨S2x1000000, .i32⟩ : BufTy).Contents (Elt Ideal)) : (⟨S100000x1, .f32⟩ : BufTy).Contents (Elt Ideal) :=
  (Host.negf (F := Ideal) (φ := .f32)) (kv_v86 x1)
def kv_v88 (x1 : (⟨S2x1000000, .i32⟩ : BufTy).Contents (Elt Ideal)) : (⟨S100000x128, .f32⟩ : BufTy).Contents (Elt Ideal) :=
  (broadcastInDim S100000x128 ![0, 1] bcast_S100000x1_S100000x128_0_1) (kv_v87 x1)
def kv_v89 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S100000x128, .f32⟩ : BufTy).Contents (Elt Ideal) :=
  (mulf (F := Ideal) (φ := .f32)) (kv_v88 x1) (kv_v85 x0 x1 x2 x3 x4 x5 x6 x7 x8)
def kv_cst_18  : (⟨S_, .f32⟩ : BufTy).Contents (Elt Ideal) :=
  (constant (F := Ideal) S_ .f32 0x40000000#32)
def kv_v90  : (⟨S100000x128, .f32⟩ : BufTy).Contents (Elt Ideal) :=
  (broadcastInDim S100000x128 ![] bcast_S_S100000x128) (kv_cst_18)
def kv_v91 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S100000x128, .f32⟩ : BufTy).Contents (Elt Ideal) :=
  (mulf (F := Ideal) (φ := .f32)) (kv_v90) (kv_v89 x0 x1 x2 x3 x4 x5 x6 x7 x8)
def kv_v92 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) : (⟨S100000x128, .f32⟩ : BufTy).Contents (Elt Ideal) :=
  (subf (F := Ideal) (φ := .f32)) (kv_v91 x0 x1 x2 x3 x4 x5 x6 x7 x8) (kv_v42 x0 x1 x2 x3 x4 x5 x6 x7 x8)
def kv_v93 (x9 : (⟨S3x128x128, .f32⟩ : BufTy).Contents (Elt Ideal)) : (⟨S1x128x128, .f32⟩ : BufTy).Contents (Elt Ideal) :=
  ((extractStridedSlice S1x128x128 ![0, 0, 0] · slices_S3x128x128_S1x128x128_0_0_0)) x9
def kv_v94 (x9 : (⟨S3x128x128, .f32⟩ : BufTy).Contents (Elt Ideal)) : (⟨S128x128, .f32⟩ : BufTy).Contents (Elt Ideal) :=
  shapeCast S128x128 (kv_v93 x9) shapeCasts_S1x128x128_S128x128
def kv_v95 (x9 : (⟨S3x128x128, .f32⟩ : BufTy).Contents (Elt Ideal)) : (⟨S1x128x128, .f32⟩ : BufTy).Contents (Elt Ideal) :=
  ((extractStridedSlice S1x128x128 ![1, 0, 0] · slices_S3x128x128_S1x128x128_1_0_0)) x9
def kv_v96 (x9 : (⟨S3x128x128, .f32⟩ : BufTy).Contents (Elt Ideal)) : (⟨S128x128, .f32⟩ : BufTy).Contents (Elt Ideal) :=
  shapeCast S128x128 (kv_v95 x9) shapeCasts_S1x128x128_S128x128
def kv_v97 (x9 : (⟨S3x128x128, .f32⟩ : BufTy).Contents (Elt Ideal)) : (⟨S1x128x128, .f32⟩ : BufTy).Contents (Elt Ideal) :=
  ((extractStridedSlice S1x128x128 ![2, 0, 0] · slices_S3x128x128_S1x128x128_2_0_0)) x9
def kv_v98 (x9 : (⟨S3x128x128, .f32⟩ : BufTy).Contents (Elt Ideal)) : (⟨S128x128, .f32⟩ : BufTy).Contents (Elt Ideal) :=
  shapeCast S128x128 (kv_v97 x9) shapeCasts_S1x128x128_S128x128
def kv_v99 (x10 : (⟨S128, .f32⟩ : BufTy).Contents (Elt Ideal)) : (⟨S1x128, .f32⟩ : BufTy).Contents (Elt Ideal) :=
  shapeCast S1x128 x10 shapeCasts_S128_S1x128
/-- What region 3 leaves in its output array. -/
def kv_v100 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S100000x128, .f32⟩ : BufTy).Contents (Elt Ideal) :=
  Cert.KernelIdeal.Region3.out (kv_v42 x0 x1 x2 x3 x4 x5 x6 x7 x8) (kv_v70 x0 x1 x2 x3 x4 x5 x6 x7 x8) (kv_v92 x0 x1 x2 x3 x4 x5 x6 x7 x8) (kv_v94 x9) (kv_v96 x9) (kv_v98 x9) (kv_v99 x10)
def kv_v101 (x1 : (⟨S2x1000000, .i32⟩ : BufTy).Contents (Elt Ideal)) : (⟨S100000x1, .f32⟩ : BufTy).Contents (Elt Ideal) :=
  (broadcastInDim S100000x1 ![0] bcast_S100000_S100000x1_0) (kv_v51 x1)
def kv_v102 (x1 : (⟨S2x1000000, .i32⟩ : BufTy).Contents (Elt Ideal)) : (⟨S100000x128, .f32⟩ : BufTy).Contents (Elt Ideal) :=
  (broadcastInDim S100000x128 ![0, 1] bcast_S100000x1_S100000x128_0_1) (kv_v101 x1)
def kv_v103 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S100000x128, .f32⟩ : BufTy).Contents (Elt Ideal) :=
  (mulf (F := Ideal) (φ := .f32)) (kv_v102 x1) (kv_v100 x0 x1 x2 x3 x4 x5 x6 x7 x8 x9 x10)
def kv_v104 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S100000x128, .bf16⟩ : BufTy).Contents (Elt Ideal) :=
  ((truncf (F := Ideal) (φ := .f32) .bf16 · bitsLt_bf16_f32)) (kv_v103 x0 x1 x2 x3 x4 x5 x6 x7 x8 x9 x10)
def kv_c_19  : (⟨S_, .i32⟩ : BufTy).Contents (Elt Ideal) :=
  (constantI S_ 32 0#32)
def kv_v105  : (⟨S1000000, .i32⟩ : BufTy).Contents (Elt Ideal) :=
  (broadcastInDim S1000000 ![] bcast_S_S1000000) (kv_c_19)
def kv_v106 (x1 : (⟨S2x1000000, .i32⟩ : BufTy).Contents (Elt Ideal)) : (⟨S1000000, .i1⟩ : BufTy).Contents (Elt Ideal) :=
  (cmpi .slt) (kv_v1 x1) (kv_v105)
def kv_c_20  : (⟨S_, .i32⟩ : BufTy).Contents (Elt Ideal) :=
  (constantI S_ 32 100000#32)
def kv_v107  : (⟨S1000000, .i32⟩ : BufTy).Contents (Elt Ideal) :=
  (broadcastInDim S1000000 ![] bcast_S_S1000000) (kv_c_20)
def kv_v108 (x1 : (⟨S2x1000000, .i32⟩ : BufTy).Contents (Elt Ideal)) : (⟨S1000000, .i32⟩ : BufTy).Contents (Elt Ideal) :=
  (addi) (kv_v1 x1) (kv_v107)
def kv_v109 (x1 : (⟨S2x1000000, .i32⟩ : BufTy).Contents (Elt Ideal)) : (⟨S1000000, .i32⟩ : BufTy).Contents (Elt Ideal) :=
  (select) (kv_v106 x1) (kv_v108 x1) (kv_v1 x1)
def kv_v110 (x1 : (⟨S2x1000000, .i32⟩ : BufTy).Contents (Elt Ideal)) : (⟨S1000000x1, .i32⟩ : BufTy).Contents (Elt Ideal) :=
  (broadcastInDim S1000000x1 ![0] bcast_S1000000_S1000000x1_0) (kv_v109 x1)
def kv_v111 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S1000000x128, .bf16⟩ : BufTy).Contents (Elt Ideal) :=
  ((fun x i => Host.gather gather_S100000x128_S1000000x1_S1000000x128_1_0_n_n_0_1_1128 x i)) (kv_v104 x0 x1 x2 x3 x4 x5 x6 x7 x8 x9 x10) (kv_v110 x1)
def kv_v112 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S1000000x128, .f32⟩ : BufTy).Contents (Elt Ideal) :=
  ((extf (F := Ideal) (φ := .bf16) .f32 · bitsLt_bf16_f32)) (kv_v111 x0 x1 x2 x3 x4 x5 x6 x7 x8 x9 x10)
def kv_cst_21  : (⟨S_, .f32⟩ : BufTy).Contents (Elt Ideal) :=
  (constant (F := Ideal) S_ .f32 0x00000000#32)
def kv_v113  : (⟨S100000x128, .f32⟩ : BufTy).Contents (Elt Ideal) :=
  (broadcastInDim S100000x128 ![] bcast_S_S100000x128) (kv_cst_21)
def kv_v114 (x1 : (⟨S2x1000000, .i32⟩ : BufTy).Contents (Elt Ideal)) : (⟨S1000000x1, .i32⟩ : BufTy).Contents (Elt Ideal) :=
  (broadcastInDim S1000000x1 ![0] bcast_S1000000_S1000000x1_0) (kv_v3 x1)
def kv_v115 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S100000x128, .f32⟩ : BufTy).Contents (Elt Ideal) :=
  ((fun x i u => Host.scatterAdd (F := Ideal) (φ := .f32) scatter_S100000x128_S1000000x1_S1000000x128_1_0_0_1 x i u)) (kv_v113) (kv_v114 x1) (kv_v112 x0 x1 x2 x3 x4 x5 x6 x7 x8 x9 x10)
def kv_v116 (x1 : (⟨S2x1000000, .i32⟩ : BufTy).Contents (Elt Ideal)) : (⟨S100000x1, .f32⟩ : BufTy).Contents (Elt Ideal) :=
  (broadcastInDim S100000x1 ![0] bcast_S100000_S100000x1_0) (kv_v51 x1)
def kv_v117 (x1 : (⟨S2x1000000, .i32⟩ : BufTy).Contents (Elt Ideal)) : (⟨S100000x1, .f32⟩ : BufTy).Contents (Elt Ideal) :=
  (Host.negf (F := Ideal) (φ := .f32)) (kv_v116 x1)
def kv_v118 (x1 : (⟨S2x1000000, .i32⟩ : BufTy).Contents (Elt Ideal)) : (⟨S100000x128, .f32⟩ : BufTy).Contents (Elt Ideal) :=
  (broadcastInDim S100000x128 ![0, 1] bcast_S100000x1_S100000x128_0_1) (kv_v117 x1)
def kv_v119 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S100000x128, .f32⟩ : BufTy).Contents (Elt Ideal) :=
  (mulf (F := Ideal) (φ := .f32)) (kv_v118 x1) (kv_v115 x0 x1 x2 x3 x4 x5 x6 x7 x8 x9 x10)
def kv_v120 (x1 : (⟨S2x1000000, .i32⟩ : BufTy).Contents (Elt Ideal)) : (⟨S100000x1, .f32⟩ : BufTy).Contents (Elt Ideal) :=
  (broadcastInDim S100000x1 ![0] bcast_S100000_S100000x1_0) (kv_v51 x1)
def kv_v121 (x1 : (⟨S2x1000000, .i32⟩ : BufTy).Contents (Elt Ideal)) : (⟨S100000x128, .f32⟩ : BufTy).Contents (Elt Ideal) :=
  (broadcastInDim S100000x128 ![0, 1] bcast_S100000x1_S100000x128_0_1) (kv_v120 x1)
def kv_v122 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S100000x128, .f32⟩ : BufTy).Contents (Elt Ideal) :=
  (mulf (F := Ideal) (φ := .f32)) (kv_v121 x1) (kv_v119 x0 x1 x2 x3 x4 x5 x6 x7 x8 x9 x10)
def kv_v123 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S100000x128, .bf16⟩ : BufTy).Contents (Elt Ideal) :=
  ((truncf (F := Ideal) (φ := .f32) .bf16 · bitsLt_bf16_f32)) (kv_v122 x0 x1 x2 x3 x4 x5 x6 x7 x8 x9 x10)
def kv_c_22  : (⟨S_, .i32⟩ : BufTy).Contents (Elt Ideal) :=
  (constantI S_ 32 0#32)
def kv_v124  : (⟨S1000000, .i32⟩ : BufTy).Contents (Elt Ideal) :=
  (broadcastInDim S1000000 ![] bcast_S_S1000000) (kv_c_22)
def kv_v125 (x1 : (⟨S2x1000000, .i32⟩ : BufTy).Contents (Elt Ideal)) : (⟨S1000000, .i1⟩ : BufTy).Contents (Elt Ideal) :=
  (cmpi .slt) (kv_v1 x1) (kv_v124)
def kv_c_23  : (⟨S_, .i32⟩ : BufTy).Contents (Elt Ideal) :=
  (constantI S_ 32 100000#32)
def kv_v126  : (⟨S1000000, .i32⟩ : BufTy).Contents (Elt Ideal) :=
  (broadcastInDim S1000000 ![] bcast_S_S1000000) (kv_c_23)
def kv_v127 (x1 : (⟨S2x1000000, .i32⟩ : BufTy).Contents (Elt Ideal)) : (⟨S1000000, .i32⟩ : BufTy).Contents (Elt Ideal) :=
  (addi) (kv_v1 x1) (kv_v126)
def kv_v128 (x1 : (⟨S2x1000000, .i32⟩ : BufTy).Contents (Elt Ideal)) : (⟨S1000000, .i32⟩ : BufTy).Contents (Elt Ideal) :=
  (select) (kv_v125 x1) (kv_v127 x1) (kv_v1 x1)
def kv_v129 (x1 : (⟨S2x1000000, .i32⟩ : BufTy).Contents (Elt Ideal)) : (⟨S1000000x1, .i32⟩ : BufTy).Contents (Elt Ideal) :=
  (broadcastInDim S1000000x1 ![0] bcast_S1000000_S1000000x1_0) (kv_v128 x1)
def kv_v130 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S1000000x128, .bf16⟩ : BufTy).Contents (Elt Ideal) :=
  ((fun x i => Host.gather gather_S100000x128_S1000000x1_S1000000x128_1_0_n_n_0_1_1128 x i)) (kv_v123 x0 x1 x2 x3 x4 x5 x6 x7 x8 x9 x10) (kv_v129 x1)
def kv_v131 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S1000000x128, .f32⟩ : BufTy).Contents (Elt Ideal) :=
  ((extf (F := Ideal) (φ := .bf16) .f32 · bitsLt_bf16_f32)) (kv_v130 x0 x1 x2 x3 x4 x5 x6 x7 x8 x9 x10)
def kv_cst_24  : (⟨S_, .f32⟩ : BufTy).Contents (Elt Ideal) :=
  (constant (F := Ideal) S_ .f32 0x00000000#32)
def kv_v132  : (⟨S100000x128, .f32⟩ : BufTy).Contents (Elt Ideal) :=
  (broadcastInDim S100000x128 ![] bcast_S_S100000x128) (kv_cst_24)
def kv_v133 (x1 : (⟨S2x1000000, .i32⟩ : BufTy).Contents (Elt Ideal)) : (⟨S1000000x1, .i32⟩ : BufTy).Contents (Elt Ideal) :=
  (broadcastInDim S1000000x1 ![0] bcast_S1000000_S1000000x1_0) (kv_v3 x1)
def kv_v134 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S100000x128, .f32⟩ : BufTy).Contents (Elt Ideal) :=
  ((fun x i u => Host.scatterAdd (F := Ideal) (φ := .f32) scatter_S100000x128_S1000000x1_S1000000x128_1_0_0_1 x i u)) (kv_v132) (kv_v133 x1) (kv_v131 x0 x1 x2 x3 x4 x5 x6 x7 x8 x9 x10)
def kv_v135 (x1 : (⟨S2x1000000, .i32⟩ : BufTy).Contents (Elt Ideal)) : (⟨S100000x1, .f32⟩ : BufTy).Contents (Elt Ideal) :=
  (broadcastInDim S100000x1 ![0] bcast_S100000_S100000x1_0) (kv_v51 x1)
def kv_v136 (x1 : (⟨S2x1000000, .i32⟩ : BufTy).Contents (Elt Ideal)) : (⟨S100000x1, .f32⟩ : BufTy).Contents (Elt Ideal) :=
  (Host.negf (F := Ideal) (φ := .f32)) (kv_v135 x1)
def kv_v137 (x1 : (⟨S2x1000000, .i32⟩ : BufTy).Contents (Elt Ideal)) : (⟨S100000x128, .f32⟩ : BufTy).Contents (Elt Ideal) :=
  (broadcastInDim S100000x128 ![0, 1] bcast_S100000x1_S100000x128_0_1) (kv_v136 x1)
def kv_v138 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S100000x128, .f32⟩ : BufTy).Contents (Elt Ideal) :=
  (mulf (F := Ideal) (φ := .f32)) (kv_v137 x1) (kv_v134 x0 x1 x2 x3 x4 x5 x6 x7 x8 x9 x10)
def kv_cst_25  : (⟨S_, .f32⟩ : BufTy).Contents (Elt Ideal) :=
  (constant (F := Ideal) S_ .f32 0x40000000#32)
def kv_v139  : (⟨S100000x128, .f32⟩ : BufTy).Contents (Elt Ideal) :=
  (broadcastInDim S100000x128 ![] bcast_S_S100000x128) (kv_cst_25)
def kv_v140 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S100000x128, .f32⟩ : BufTy).Contents (Elt Ideal) :=
  (mulf (F := Ideal) (φ := .f32)) (kv_v139) (kv_v138 x0 x1 x2 x3 x4 x5 x6 x7 x8 x9 x10)
def kv_v141 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) : (⟨S100000x128, .f32⟩ : BufTy).Contents (Elt Ideal) :=
  (subf (F := Ideal) (φ := .f32)) (kv_v140 x0 x1 x2 x3 x4 x5 x6 x7 x8 x9 x10) (kv_v100 x0 x1 x2 x3 x4 x5 x6 x7 x8 x9 x10)
def kv_v142 (x11 : (⟨S3x128x128, .f32⟩ : BufTy).Contents (Elt Ideal)) : (⟨S1x128x128, .f32⟩ : BufTy).Contents (Elt Ideal) :=
  ((extractStridedSlice S1x128x128 ![0, 0, 0] · slices_S3x128x128_S1x128x128_0_0_0)) x11
def kv_v143 (x11 : (⟨S3x128x128, .f32⟩ : BufTy).Contents (Elt Ideal)) : (⟨S128x128, .f32⟩ : BufTy).Contents (Elt Ideal) :=
  shapeCast S128x128 (kv_v142 x11) shapeCasts_S1x128x128_S128x128
def kv_v144 (x11 : (⟨S3x128x128, .f32⟩ : BufTy).Contents (Elt Ideal)) : (⟨S1x128x128, .f32⟩ : BufTy).Contents (Elt Ideal) :=
  ((extractStridedSlice S1x128x128 ![1, 0, 0] · slices_S3x128x128_S1x128x128_1_0_0)) x11
def kv_v145 (x11 : (⟨S3x128x128, .f32⟩ : BufTy).Contents (Elt Ideal)) : (⟨S128x128, .f32⟩ : BufTy).Contents (Elt Ideal) :=
  shapeCast S128x128 (kv_v144 x11) shapeCasts_S1x128x128_S128x128
def kv_v146 (x11 : (⟨S3x128x128, .f32⟩ : BufTy).Contents (Elt Ideal)) : (⟨S1x128x128, .f32⟩ : BufTy).Contents (Elt Ideal) :=
  ((extractStridedSlice S1x128x128 ![2, 0, 0] · slices_S3x128x128_S1x128x128_2_0_0)) x11
def kv_v147 (x11 : (⟨S3x128x128, .f32⟩ : BufTy).Contents (Elt Ideal)) : (⟨S128x128, .f32⟩ : BufTy).Contents (Elt Ideal) :=
  shapeCast S128x128 (kv_v146 x11) shapeCasts_S1x128x128_S128x128
def kv_v148 (x12 : (⟨S128, .f32⟩ : BufTy).Contents (Elt Ideal)) : (⟨S1x128, .f32⟩ : BufTy).Contents (Elt Ideal) :=
  shapeCast S1x128 x12 shapeCasts_S128_S1x128
/-- What region 4 leaves in its output array. -/
def kv_v149 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) : (⟨S100000x128, .f32⟩ : BufTy).Contents (Elt Ideal) :=
  Cert.KernelIdeal.Region4.out (kv_v100 x0 x1 x2 x3 x4 x5 x6 x7 x8 x9 x10) (kv_v119 x0 x1 x2 x3 x4 x5 x6 x7 x8 x9 x10) (kv_v141 x0 x1 x2 x3 x4 x5 x6 x7 x8 x9 x10) (kv_v143 x11) (kv_v145 x11) (kv_v147 x11) (kv_v148 x12)
def kv_v150 (x14 : (⟨S128, .f32⟩ : BufTy).Contents (Elt Ideal)) : (⟨S1x128, .f32⟩ : BufTy).Contents (Elt Ideal) :=
  shapeCast S1x128 x14 shapeCasts_S128_S1x128
/-- What region 5 leaves in its output array. -/
def kv_v151 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) : (⟨S100000x128, .f32⟩ : BufTy).Contents (Elt Ideal) :=
  Cert.KernelIdeal.Region5.out (kv_v149 x0 x1 x2 x3 x4 x5 x6 x7 x8 x9 x10 x11 x12) x13 (kv_v150 x14)
def kv_cst_26  : (⟨S_, .f32⟩ : BufTy).Contents (Elt Ideal) :=
  (constant (F := Ideal) S_ .f32 0x00000000#32)
def kv_v152 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) : (⟨S128, .f32⟩ : BufTy).Contents (Elt Ideal) :=
  ((fun x v => Host.reduceAdd (F := Ideal) (φ := .f32) x v reducesTo_S100000x128_S128_d0 h_S_)) (kv_v151 x0 x1 x2 x3 x4 x5 x6 x7 x8 x9 x10 x11 x12 x13 x14) (kv_cst_26)
def kv_cst_27  : (⟨S_, .f32⟩ : BufTy).Contents (Elt Ideal) :=
  (constant (F := Ideal) S_ .f32 0x47C35000#32)
def kv_v153  : (⟨S128, .f32⟩ : BufTy).Contents (Elt Ideal) :=
  (broadcastInDim S128 ![] bcast_S_S128) (kv_cst_27)
def kv_v154 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) : (⟨S128, .f32⟩ : BufTy).Contents (Elt Ideal) :=
  (Host.divf (F := Ideal) (φ := .f32)) (kv_v152 x0 x1 x2 x3 x4 x5 x6 x7 x8 x9 x10 x11 x12 x13 x14) (kv_v153)
def kv_v155 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) : (⟨S1x128, .f32⟩ : BufTy).Contents (Elt Ideal) :=
  (broadcastInDim S1x128 ![1] bcast_S128_S1x128_1) (kv_v154 x0 x1 x2 x3 x4 x5 x6 x7 x8 x9 x10 x11 x12 x13 x14)
def kv_v156 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) : (⟨S100000x128, .f32⟩ : BufTy).Contents (Elt Ideal) :=
  (broadcastInDim S100000x128 ![0, 1] bcast_S1x128_S100000x128_0_1) (kv_v155 x0 x1 x2 x3 x4 x5 x6 x7 x8 x9 x10 x11 x12 x13 x14)
def kv_v157 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) : (⟨S100000x128, .f32⟩ : BufTy).Contents (Elt Ideal) :=
  (subf (F := Ideal) (φ := .f32)) (kv_v151 x0 x1 x2 x3 x4 x5 x6 x7 x8 x9 x10 x11 x12 x13 x14) (kv_v156 x0 x1 x2 x3 x4 x5 x6 x7 x8 x9 x10 x11 x12 x13 x14)
def kv_v158 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) : (⟨S100000x128, .f32⟩ : BufTy).Contents (Elt Ideal) :=
  (mulf (F := Ideal) (φ := .f32)) (kv_v157 x0 x1 x2 x3 x4 x5 x6 x7 x8 x9 x10 x11 x12 x13 x14) (kv_v157 x0 x1 x2 x3 x4 x5 x6 x7 x8 x9 x10 x11 x12 x13 x14)
def kv_cst_28  : (⟨S_, .f32⟩ : BufTy).Contents (Elt Ideal) :=
  (constant (F := Ideal) S_ .f32 0x00000000#32)
def kv_v159 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) : (⟨S128, .f32⟩ : BufTy).Contents (Elt Ideal) :=
  ((fun x v => Host.reduceAdd (F := Ideal) (φ := .f32) x v reducesTo_S100000x128_S128_d0 h_S_)) (kv_v158 x0 x1 x2 x3 x4 x5 x6 x7 x8 x9 x10 x11 x12 x13 x14) (kv_cst_28)
def kv_cst_29  : (⟨S_, .f32⟩ : BufTy).Contents (Elt Ideal) :=
  (constant (F := Ideal) S_ .f32 0x47C35000#32)
def kv_v160  : (⟨S128, .f32⟩ : BufTy).Contents (Elt Ideal) :=
  (broadcastInDim S128 ![] bcast_S_S128) (kv_cst_29)
def kv_v161 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) : (⟨S128, .f32⟩ : BufTy).Contents (Elt Ideal) :=
  (Host.divf (F := Ideal) (φ := .f32)) (kv_v159 x0 x1 x2 x3 x4 x5 x6 x7 x8 x9 x10 x11 x12 x13 x14) (kv_v160)
def kv_cst_30  : (⟨S_, .f32⟩ : BufTy).Contents (Elt Ideal) :=
  (constant (F := Ideal) S_ .f32 0x00000000#32)
def kv_v162  : (⟨S128x128, .f32⟩ : BufTy).Contents (Elt Ideal) :=
  (broadcastInDim S128x128 ![] bcast_S_S128x128) (kv_cst_30)
def kv_v163 (x17 : (⟨S128x1, .f32⟩ : BufTy).Contents (Elt Ideal)) : (⟨S128, .f32⟩ : BufTy).Contents (Elt Ideal) :=
  shapeCast S128 x17 shapeCasts_S128x1_S128
def kv_c_31  : (⟨S_, .i32⟩ : BufTy).Contents (Elt Ideal) :=
  (constantI S_ 32 0#32)
def kv_v164  : (⟨S1, .i32⟩ : BufTy).Contents (Elt Ideal) :=
  (broadcastInDim S1 ![] bcast_S_S1) (kv_c_31)
def kv_v165 (x17 : (⟨S128x1, .f32⟩ : BufTy).Contents (Elt Ideal)) : (⟨S128x128, .f32⟩ : BufTy).Contents (Elt Ideal) :=
  ((fun x i u => Host.scatter scatter_S128x128_S1_S128_0_1_1_0 (fun _ b => b) x i u)) (kv_v162) (kv_v164) (kv_v163 x17)
def kv_cst_32  : (⟨S_, .f32⟩ : BufTy).Contents (Elt Ideal) :=
  (constant (F := Ideal) S_ .f32 0x00000000#32)
def kv_v166  : (⟨S128, .f32⟩ : BufTy).Contents (Elt Ideal) :=
  (broadcastInDim S128 ![] bcast_S_S128) (kv_cst_32)
def kv_v167 (x18 : (⟨S1, .f32⟩ : BufTy).Contents (Elt Ideal)) : (⟨S_, .f32⟩ : BufTy).Contents (Elt Ideal) :=
  shapeCast S_ x18 shapeCasts_S1_S_
def kv_c_33  : (⟨S_, .i32⟩ : BufTy).Contents (Elt Ideal) :=
  (constantI S_ 32 0#32)
def kv_v168  : (⟨S1, .i32⟩ : BufTy).Contents (Elt Ideal) :=
  (broadcastInDim S1 ![] bcast_S_S1) (kv_c_33)
def kv_v169 (x18 : (⟨S1, .f32⟩ : BufTy).Contents (Elt Ideal)) : (⟨S128, .f32⟩ : BufTy).Contents (Elt Ideal) :=
  ((fun x i u => Host.scatter scatter_S128_S1_S__n_0_0_0 (fun _ b => b) x i u)) (kv_v166) (kv_v168) (kv_v167 x18)
def kv_v170 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) : (⟨S1x128, .f32⟩ : BufTy).Contents (Elt Ideal) :=
  shapeCast S1x128 (kv_v154 x0 x1 x2 x3 x4 x5 x6 x7 x8 x9 x10 x11 x12 x13 x14) shapeCasts_S128_S1x128
def kv_v171 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) : (⟨S1x128, .f32⟩ : BufTy).Contents (Elt Ideal) :=
  shapeCast S1x128 (kv_v161 x0 x1 x2 x3 x4 x5 x6 x7 x8 x9 x10 x11 x12 x13 x14) shapeCasts_S128_S1x128
def kv_v172 (x15 : (⟨S128, .f32⟩ : BufTy).Contents (Elt Ideal)) : (⟨S1x128, .f32⟩ : BufTy).Contents (Elt Ideal) :=
  shapeCast S1x128 x15 shapeCasts_S128_S1x128
def kv_v173 (x16 : (⟨S128, .f32⟩ : BufTy).Contents (Elt Ideal)) : (⟨S1x128, .f32⟩ : BufTy).Contents (Elt Ideal) :=
  shapeCast S1x128 x16 shapeCasts_S128_S1x128
def kv_v174 (x18 : (⟨S1, .f32⟩ : BufTy).Contents (Elt Ideal)) : (⟨S1x128, .f32⟩ : BufTy).Contents (Elt Ideal) :=
  shapeCast S1x128 (kv_v169 x18) shapeCasts_S128_S1x128
/-- What region 6 leaves in its output array. -/
def kv_v175 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x1, .f32⟩ : BufTy).Contents (Elt Ideal)) (x18 : (⟨S1, .f32⟩ : BufTy).Contents (Elt Ideal)) : (⟨S100000x128, .f32⟩ : BufTy).Contents (Elt Ideal) :=
  Cert.KernelIdeal.Region6.out (kv_v151 x0 x1 x2 x3 x4 x5 x6 x7 x8 x9 x10 x11 x12 x13 x14) (kv_v170 x0 x1 x2 x3 x4 x5 x6 x7 x8 x9 x10 x11 x12 x13 x14) (kv_v171 x0 x1 x2 x3 x4 x5 x6 x7 x8 x9 x10 x11 x12 x13 x14) (kv_v172 x15) (kv_v173 x16) (kv_v165 x17) (kv_v174 x18)
def kv_v176 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x1, .f32⟩ : BufTy).Contents (Elt Ideal)) (x18 : (⟨S1, .f32⟩ : BufTy).Contents (Elt Ideal)) : (⟨S100000x1, .f32⟩ : BufTy).Contents (Elt Ideal) :=
  ((extractStridedSlice S100000x1 ![0, 0] · slices_S100000x128_S100000x1_0_0)) (kv_v175 x0 x1 x2 x3 x4 x5 x6 x7 x8 x9 x10 x11 x12 x13 x14 x15 x16 x17 x18)
def kv_v177 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x1, .f32⟩ : BufTy).Contents (Elt Ideal)) (x18 : (⟨S1, .f32⟩ : BufTy).Contents (Elt Ideal)) : (⟨S100000, .f32⟩ : BufTy).Contents (Elt Ideal) :=
  shapeCast S100000 (kv_v176 x0 x1 x2 x3 x4 x5 x6 x7 x8 x9 x10 x11 x12 x13 x14 x15 x16 x17 x18) shapeCasts_S100000x1_S100000

end Cert.KernelIdeal.KVal

end
-- ==== Proof.KChain.lean ====
/-
  The idealized kernel program's run, read boundary by boundary.

  The buffer contents at each segment boundary of @main are a fold through the host stretches and the regions. At every
  boundary, each buffer that a later segment still reads holds its named value: a host operation's result is the
  operation applied to the values it reads, a region's output array is the whole-array function the region leaves, and
  a buffer that a segment does not write keeps what it held. The last boundary gives the result array.
-/
import proofs.«149158_j47751446397324_2_alg».proof.Proof.KVal

set_option maxRecDepth 16384

noncomputable section

namespace Cert.KernelIdeal.KChain

open Cert.KernelIdeal Cert.KernelIdeal.Gen Cert.KernelIdeal.KVal Idealize.ShloMosaic Idealize.ShloMosaic.TcCoe Idealize.SL.Sem Idealize.ShloMosaic.StableHlo

variable (m : (ℓ : Loc nD τ sig) → Buf (Elt Ideal) ℓ) (ρ : Dev nD → PrngReg)

/-! ## At launch -/

theorem W0_arg1 (c : Dev nD) : W0 m ρ c (Proc.devRef .tc main_arg1) = m ((c : Thread nD τ).loc main_arg1) := rfl
theorem W0_arg3 (c : Dev nD) : W0 m ρ c (Proc.devRef .tc main_arg3) = m ((c : Thread nD τ).loc main_arg3) := rfl
theorem W0_arg0 (c : Dev nD) : W0 m ρ c (Proc.devRef .tc main_arg0) = m ((c : Thread nD τ).loc main_arg0) := rfl
theorem W0_arg2 (c : Dev nD) : W0 m ρ c (Proc.devRef .tc main_arg2) = m ((c : Thread nD τ).loc main_arg2) := rfl
theorem W0_arg4 (c : Dev nD) : W0 m ρ c (Proc.devRef .tc main_arg4) = m ((c : Thread nD τ).loc main_arg4) := rfl
theorem W0_arg6 (c : Dev nD) : W0 m ρ c (Proc.devRef .tc main_arg6) = m ((c : Thread nD τ).loc main_arg6) := rfl
theorem W0_arg5 (c : Dev nD) : W0 m ρ c (Proc.devRef .tc main_arg5) = m ((c : Thread nD τ).loc main_arg5) := rfl
theorem W0_arg7 (c : Dev nD) : W0 m ρ c (Proc.devRef .tc main_arg7) = m ((c : Thread nD τ).loc main_arg7) := rfl
theorem W0_arg8 (c : Dev nD) : W0 m ρ c (Proc.devRef .tc main_arg8) = m ((c : Thread nD τ).loc main_arg8) := rfl
theorem W0_arg9 (c : Dev nD) : W0 m ρ c (Proc.devRef .tc main_arg9) = m ((c : Thread nD τ).loc main_arg9) := rfl
theorem W0_arg10 (c : Dev nD) : W0 m ρ c (Proc.devRef .tc main_arg10) = m ((c : Thread nD τ).loc main_arg10) := rfl
theorem W0_arg11 (c : Dev nD) : W0 m ρ c (Proc.devRef .tc main_arg11) = m ((c : Thread nD τ).loc main_arg11) := rfl
theorem W0_arg12 (c : Dev nD) : W0 m ρ c (Proc.devRef .tc main_arg12) = m ((c : Thread nD τ).loc main_arg12) := rfl
theorem W0_arg14 (c : Dev nD) : W0 m ρ c (Proc.devRef .tc main_arg14) = m ((c : Thread nD τ).loc main_arg14) := rfl
theorem W0_arg13 (c : Dev nD) : W0 m ρ c (Proc.devRef .tc main_arg13) = m ((c : Thread nD τ).loc main_arg13) := rfl
theorem W0_arg17 (c : Dev nD) : W0 m ρ c (Proc.devRef .tc main_arg17) = m ((c : Thread nD τ).loc main_arg17) := rfl
theorem W0_arg18 (c : Dev nD) : W0 m ρ c (Proc.devRef .tc main_arg18) = m ((c : Thread nD τ).loc main_arg18) := rfl
theorem W0_arg15 (c : Dev nD) : W0 m ρ c (Proc.devRef .tc main_arg15) = m ((c : Thread nD τ).loc main_arg15) := rfl
theorem W0_arg16 (c : Dev nD) : W0 m ρ c (Proc.devRef .tc main_arg16) = m ((c : Thread nD τ).loc main_arg16) := rfl

/-! ## After the host stretch `hostOps0` -/

theorem W1_v16 (c : Dev nD) : W1 m ρ c (Proc.devRef .tc main_v16) = kv_v16 (m ((c : Thread nD τ).loc main_arg0)) (m ((c : Thread nD τ).loc main_arg1)) := by
  show StableHlo.after hostOps0 (W0 m ρ c) (Proc.devRef .tc main_v16) = _
  after_results_simp
  try simp only [W0_arg1 m ρ c, W0_arg3 m ρ c, W0_arg0 m ρ c, W0_arg2 m ρ c, W0_arg4 m ρ c]
  rfl
theorem W1_v19 (c : Dev nD) : W1 m ρ c (Proc.devRef .tc main_v19) = kv_v19 (m ((c : Thread nD τ).loc main_arg1)) (m ((c : Thread nD τ).loc main_arg2)) := by
  show StableHlo.after hostOps0 (W0 m ρ c) (Proc.devRef .tc main_v19) = _
  after_results_simp
  try simp only [W0_arg1 m ρ c, W0_arg3 m ρ c, W0_arg0 m ρ c, W0_arg2 m ρ c, W0_arg4 m ρ c]
  rfl
theorem W1_v23 (c : Dev nD) : W1 m ρ c (Proc.devRef .tc main_v23) = kv_v23 (m ((c : Thread nD τ).loc main_arg1)) := by
  show StableHlo.after hostOps0 (W0 m ρ c) (Proc.devRef .tc main_v23) = _
  after_results_simp
  try simp only [W0_arg1 m ρ c, W0_arg3 m ρ c, W0_arg0 m ρ c, W0_arg2 m ρ c, W0_arg4 m ρ c]
  rfl
theorem W1_v5 (c : Dev nD) : W1 m ρ c (Proc.devRef .tc main_v5) = kv_v5 (m ((c : Thread nD τ).loc main_arg3)) := by
  show StableHlo.after hostOps0 (W0 m ρ c) (Proc.devRef .tc main_v5) = _
  after_results_simp
  try simp only [W0_arg1 m ρ c, W0_arg3 m ρ c, W0_arg0 m ρ c, W0_arg2 m ρ c, W0_arg4 m ρ c]
  rfl
theorem W1_v6 (c : Dev nD) : W1 m ρ c (Proc.devRef .tc main_v6) = kv_v6 (m ((c : Thread nD τ).loc main_arg3)) := by
  show StableHlo.after hostOps0 (W0 m ρ c) (Proc.devRef .tc main_v6) = _
  after_results_simp
  try simp only [W0_arg1 m ρ c, W0_arg3 m ρ c, W0_arg0 m ρ c, W0_arg2 m ρ c, W0_arg4 m ρ c]
  rfl
theorem W1_v24 (c : Dev nD) : W1 m ρ c (Proc.devRef .tc main_v24) = kv_v24 (m ((c : Thread nD τ).loc main_arg4)) := by
  show StableHlo.after hostOps0 (W0 m ρ c) (Proc.devRef .tc main_v24) = _
  after_results_simp
  try simp only [W0_arg1 m ρ c, W0_arg3 m ρ c, W0_arg0 m ρ c, W0_arg2 m ρ c, W0_arg4 m ρ c]
  rfl
theorem W1_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg6 m ρ c)
theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg5 m ρ c)
theorem W1_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg7 m ρ c)
theorem W1_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg8 m ρ c)
theorem W1_v1 (c : Dev nD) : W1 m ρ c (Proc.devRef .tc main_v1) = kv_v1 (m ((c : Thread nD τ).loc main_arg1)) := by
  show StableHlo.after hostOps0 (W0 m ρ c) (Proc.devRef .tc main_v1) = _
  after_results_simp
  try simp only [W0_arg1 m ρ c, W0_arg3 m ρ c, W0_arg0 m ρ c, W0_arg2 m ρ c, W0_arg4 m ρ c]
  rfl
theorem W1_v4 (c : Dev nD) : W1 m ρ c (Proc.devRef .tc main_v4) = kv_v4  := by
  show StableHlo.after hostOps0 (W0 m ρ c) (Proc.devRef .tc main_v4) = _
  after_results_simp
  try simp only [W0_arg1 m ρ c, W0_arg3 m ρ c, W0_arg0 m ρ c, W0_arg2 m ρ c, W0_arg4 m ρ c]
  rfl
theorem W1_v3 (c : Dev nD) : W1 m ρ c (Proc.devRef .tc main_v3) = kv_v3 (m ((c : Thread nD τ).loc main_arg1)) := by
  show StableHlo.after hostOps0 (W0 m ρ c) (Proc.devRef .tc main_v3) = _
  after_results_simp
  try simp only [W0_arg1 m ρ c, W0_arg3 m ρ c, W0_arg0 m ρ c, W0_arg2 m ρ c, W0_arg4 m ρ c]
  rfl
theorem W1_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg9 m ρ c)
theorem W1_arg10 (c : Dev nD) : W1 m ρ c (Proc.devRef .tc main_arg10) = m ((c : Thread nD τ).loc main_arg10) :=
  (StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg10 m ρ c)
theorem W1_arg11 (c : Dev nD) : W1 m ρ c (Proc.devRef .tc main_arg11) = m ((c : Thread nD τ).loc main_arg11) :=
  (StableHlo.after_of_forall_not_mem (b := Proc.devRef .tc main_arg11) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg11 m ρ c)
theorem W1_arg12 (c : Dev nD) : W1 m ρ c (Proc.devRef .tc main_arg12) = m ((c : Thread nD τ).loc main_arg12) :=
  (StableHlo.after_of_forall_not_mem (b := Proc.devRef .tc main_arg12) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg12 m ρ c)
theorem W1_arg14 (c : Dev nD) : W1 m ρ c (Proc.devRef .tc main_arg14) = m ((c : Thread nD τ).loc main_arg14) :=
  (StableHlo.after_of_forall_not_mem (b := Proc.devRef .tc main_arg14) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg14 m ρ c)
theorem W1_arg13 (c : Dev nD) : W1 m ρ c (Proc.devRef .tc main_arg13) = m ((c : Thread nD τ).loc main_arg13) :=
  (StableHlo.after_of_forall_not_mem (b := Proc.devRef .tc main_arg13) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg13 m ρ c)
theorem W1_arg17 (c : Dev nD) : W1 m ρ c (Proc.devRef .tc main_arg17) = m ((c : Thread nD τ).loc main_arg17) :=
  (StableHlo.after_of_forall_not_mem (b := Proc.devRef .tc main_arg17) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg17 m ρ c)
theorem W1_arg18 (c : Dev nD) : W1 m ρ c (Proc.devRef .tc main_arg18) = m ((c : Thread nD τ).loc main_arg18) :=
  (StableHlo.after_of_forall_not_mem (b := Proc.devRef .tc main_arg18) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg18 m ρ c)
theorem W1_arg15 (c : Dev nD) : W1 m ρ c (Proc.devRef .tc main_arg15) = m ((c : Thread nD τ).loc main_arg15) :=
  (StableHlo.after_of_forall_not_mem (b := Proc.devRef .tc main_arg15) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg15 m ρ c)
theorem W1_arg16 (c : Dev nD) : W1 m ρ c (Proc.devRef .tc main_arg16) = m ((c : Thread nD τ).loc main_arg16) :=
  (StableHlo.after_of_forall_not_mem (b := Proc.devRef .tc main_arg16) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg16 m ρ c)

/-! ## After region 0 -/

theorem W2_arg6 (c : Dev nD) : W2 m ρ c (Proc.devRef .tc main_arg6) = m ((c : Thread nD τ).loc main_arg6) :=
  (W2_of_ne m ρ c main_arg6 (by decide)).trans (W1_arg6 m ρ c)
theorem W2_v25 (c : Dev nD) : W2 m ρ c (Proc.devRef .tc main_v25) = kv_v25 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ?_
  refine (Cert.KernelIdeal.Region0.final (V1 m ρ) c).trans ?_
  show Cert.KernelIdeal.Region0.out (W1 m ρ c (Proc.devRef .tc main_v16)) (W1 m ρ c (Proc.devRef .tc main_v19)) (W1 m ρ c (Proc.devRef .tc main_v23)) (W1 m ρ c (Proc.devRef .tc main_v5)) (W1 m ρ c (Proc.devRef .tc main_v6)) (W1 m ρ c (Proc.devRef .tc main_v24)) = _
  rw [W1_v16 m ρ c, W1_v19 m ρ c, W1_v23 m ρ c, W1_v5 m ρ c, W1_v6 m ρ c, W1_v24 m ρ c]
  rfl
theorem W2_arg5 (c : Dev nD) : W2 m ρ c (Proc.devRef .tc main_arg5) = m ((c : Thread nD τ).loc main_arg5) :=
  (W2_of_ne m ρ c main_arg5 (by decide)).trans (W1_arg5 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_v1 (c : Dev nD) : W2 m ρ c (Proc.devRef .tc main_v1) = kv_v1 (m ((c : Thread nD τ).loc main_arg1)) :=
  (W2_of_ne m ρ c main_v1 (by decide)).trans (W1_v1 m ρ c)
theorem W2_v4 (c : Dev nD) : W2 m ρ c (Proc.devRef .tc main_v4) = kv_v4  :=
  (W2_of_ne m ρ c main_v4 (by decide)).trans (W1_v4 m ρ c)
theorem W2_v3 (c : Dev nD) : W2 m ρ c (Proc.devRef .tc main_v3) = kv_v3 (m ((c : Thread nD τ).loc main_arg1)) :=
  (W2_of_ne m ρ c main_v3 (by decide)).trans (W1_v3 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg14 (c : Dev nD) : W2 m ρ c (Proc.devRef .tc main_arg14) = m ((c : Thread nD τ).loc main_arg14) :=
  (W2_of_ne m ρ c main_arg14 (by decide)).trans (W1_arg14 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg17 (c : Dev nD) : W2 m ρ c (Proc.devRef .tc main_arg17) = m ((c : Thread nD τ).loc main_arg17) :=
  (W2_of_ne m ρ c main_arg17 (by decide)).trans (W1_arg17 m ρ c)
theorem W2_arg18 (c : Dev nD) : W2 m ρ c (Proc.devRef .tc main_arg18) = m ((c : Thread nD τ).loc main_arg18) :=
  (W2_of_ne m ρ c main_arg18 (by decide)).trans (W1_arg18 m ρ c)
theorem W2_arg15 (c : Dev nD) : W2 m ρ c (Proc.devRef .tc main_arg15) = m ((c : Thread nD τ).loc main_arg15) :=
  (W2_of_ne m ρ c main_arg15 (by decide)).trans (W1_arg15 m ρ c)
theorem W2_arg16 (c : Dev nD) : W2 m ρ c (Proc.devRef .tc main_arg16) = m ((c : Thread nD τ).loc main_arg16) :=
  (W2_of_ne m ρ c main_arg16 (by decide)).trans (W1_arg16 m ρ c)

/-! ## After the host stretch `hostOps1` -/

theorem W3_v25 (c : Dev nD) : W3 m ρ c (Proc.devRef .tc main_v25) = kv_v25 (m ((c : Thread nD τ).loc main_arg0)) (m ((c : Thread nD τ).loc main_arg1)) (m ((c : Thread nD τ).loc main_arg2)) (m ((c : Thread nD τ).loc main_arg3)) (m ((c : Thread nD τ).loc main_arg4)) :=
  (StableHlo.after_of_forall_not_mem (b := Proc.devRef .tc main_v25) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v25 m ρ c)
theorem W3_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg5 m ρ c)
theorem W3_v26 (c : Dev nD) : W3 m ρ c (Proc.devRef .tc main_v26) = kv_v26 (m ((c : Thread nD τ).loc main_arg6)) := by
  show StableHlo.after hostOps1 (W2 m ρ c) (Proc.devRef .tc main_v26) = _
  after_results_simp
  try simp only [W2_arg6 m ρ c]
  rfl
theorem W3_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg7 m ρ c)
theorem W3_arg8 (c : Dev nD) : W3 m ρ c (Proc.devRef .tc main_arg8) = m ((c : Thread nD τ).loc main_arg8) :=
  (StableHlo.after_of_forall_not_mem (b := Proc.devRef .tc main_arg8) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg8 m ρ c)
theorem W3_v1 (c : Dev nD) : W3 m ρ c (Proc.devRef .tc main_v1) = kv_v1 (m ((c : Thread nD τ).loc main_arg1)) :=
  (StableHlo.after_of_forall_not_mem (b := Proc.devRef .tc main_v1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v1 m ρ c)
theorem W3_v4 (c : Dev nD) : W3 m ρ c (Proc.devRef .tc main_v4) = kv_v4  :=
  (StableHlo.after_of_forall_not_mem (b := Proc.devRef .tc main_v4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v4 m ρ c)
theorem W3_v3 (c : Dev nD) : W3 m ρ c (Proc.devRef .tc main_v3) = kv_v3 (m ((c : Thread nD τ).loc main_arg1)) :=
  (StableHlo.after_of_forall_not_mem (b := Proc.devRef .tc main_v3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v3 m ρ c)
theorem W3_arg9 (c : Dev nD) : W3 m ρ c (Proc.devRef .tc main_arg9) = m ((c : Thread nD τ).loc main_arg9) :=
  (StableHlo.after_of_forall_not_mem (b := Proc.devRef .tc main_arg9) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg9 m ρ c)
theorem W3_arg10 (c : Dev nD) : W3 m ρ c (Proc.devRef .tc main_arg10) = m ((c : Thread nD τ).loc main_arg10) :=
  (StableHlo.after_of_forall_not_mem (b := Proc.devRef .tc main_arg10) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg10 m ρ c)
theorem W3_arg11 (c : Dev nD) : W3 m ρ c (Proc.devRef .tc main_arg11) = m ((c : Thread nD τ).loc main_arg11) :=
  (StableHlo.after_of_forall_not_mem (b := Proc.devRef .tc main_arg11) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg11 m ρ c)
theorem W3_arg12 (c : Dev nD) : W3 m ρ c (Proc.devRef .tc main_arg12) = m ((c : Thread nD τ).loc main_arg12) :=
  (StableHlo.after_of_forall_not_mem (b := Proc.devRef .tc main_arg12) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg12 m ρ c)
theorem W3_arg14 (c : Dev nD) : W3 m ρ c (Proc.devRef .tc main_arg14) = m ((c : Thread nD τ).loc main_arg14) :=
  (StableHlo.after_of_forall_not_mem (b := Proc.devRef .tc main_arg14) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg14 m ρ c)
theorem W3_arg13 (c : Dev nD) : W3 m ρ c (Proc.devRef .tc main_arg13) = m ((c : Thread nD τ).loc main_arg13) :=
  (StableHlo.after_of_forall_not_mem (b := Proc.devRef .tc main_arg13) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg13 m ρ c)
theorem W3_arg17 (c : Dev nD) : W3 m ρ c (Proc.devRef .tc main_arg17) = m ((c : Thread nD τ).loc main_arg17) :=
  (StableHlo.after_of_forall_not_mem (b := Proc.devRef .tc main_arg17) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg17 m ρ c)
theorem W3_arg18 (c : Dev nD) : W3 m ρ c (Proc.devRef .tc main_arg18) = m ((c : Thread nD τ).loc main_arg18) :=
  (StableHlo.after_of_forall_not_mem (b := Proc.devRef .tc main_arg18) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg18 m ρ c)
theorem W3_arg15 (c : Dev nD) : W3 m ρ c (Proc.devRef .tc main_arg15) = m ((c : Thread nD τ).loc main_arg15) :=
  (StableHlo.after_of_forall_not_mem (b := Proc.devRef .tc main_arg15) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg15 m ρ c)
theorem W3_arg16 (c : Dev nD) : W3 m ρ c (Proc.devRef .tc main_arg16) = m ((c : Thread nD τ).loc main_arg16) :=
  (StableHlo.after_of_forall_not_mem (b := Proc.devRef .tc main_arg16) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg16 m ρ c)

/-! ## After region 1 -/

theorem W4_v27 (c : Dev nD) : W4 m ρ c (Proc.devRef .tc main_v27) = kv_v27 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 3).trans ?_
  refine (Cert.KernelIdeal.Region1.final (V3 m ρ) c).trans ?_
  show Cert.KernelIdeal.Region1.out (W3 m ρ c (Proc.devRef .tc main_v25)) (W3 m ρ c (Proc.devRef .tc main_arg5)) (W3 m ρ c (Proc.devRef .tc main_v26)) = _
  rw [W3_v25 m ρ c, W3_arg5 m ρ c, W3_v26 m ρ c]
  rfl
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W4_v1 (c : Dev nD) : W4 m ρ c (Proc.devRef .tc main_v1) = kv_v1 (m ((c : Thread nD τ).loc main_arg1)) :=
  (W4_of_ne m ρ c main_v1 (by decide)).trans (W3_v1 m ρ c)
theorem W4_v4 (c : Dev nD) : W4 m ρ c (Proc.devRef .tc main_v4) = kv_v4  :=
  (W4_of_ne m ρ c main_v4 (by decide)).trans (W3_v4 m ρ c)
theorem W4_v3 (c : Dev nD) : W4 m ρ c (Proc.devRef .tc main_v3) = kv_v3 (m ((c : Thread nD τ).loc main_arg1)) :=
  (W4_of_ne m ρ c main_v3 (by decide)).trans (W3_v3 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W4_arg12 (c : Dev nD) : W4 m ρ c (Proc.devRef .tc main_arg12) = m ((c : Thread nD τ).loc main_arg12) :=
  (W4_of_ne m ρ c main_arg12 (by decide)).trans (W3_arg12 m ρ c)
theorem W4_arg14 (c : Dev nD) : W4 m ρ c (Proc.devRef .tc main_arg14) = m ((c : Thread nD τ).loc main_arg14) :=
  (W4_of_ne m ρ c main_arg14 (by decide)).trans (W3_arg14 m ρ c)
theorem W4_arg13 (c : Dev nD) : W4 m ρ c (Proc.devRef .tc main_arg13) = m ((c : Thread nD τ).loc main_arg13) :=
  (W4_of_ne m ρ c main_arg13 (by decide)).trans (W3_arg13 m ρ c)
theorem W4_arg17 (c : Dev nD) : W4 m ρ c (Proc.devRef .tc main_arg17) = m ((c : Thread nD τ).loc main_arg17) :=
  (W4_of_ne m ρ c main_arg17 (by decide)).trans (W3_arg17 m ρ c)
theorem W4_arg18 (c : Dev nD) : W4 m ρ c (Proc.devRef .tc main_arg18) = m ((c : Thread nD τ).loc main_arg18) :=
  (W4_of_ne m ρ c main_arg18 (by decide)).trans (W3_arg18 m ρ c)
theorem W4_arg15 (c : Dev nD) : W4 m ρ c (Proc.devRef .tc main_arg15) = m ((c : Thread nD τ).loc main_arg15) :=
  (W4_of_ne m ρ c main_arg15 (by decide)).trans (W3_arg15 m ρ c)
theorem W4_arg16 (c : Dev nD) : W4 m ρ c (Proc.devRef .tc main_arg16) = m ((c : Thread nD τ).loc main_arg16) :=
  (W4_of_ne m ρ c main_arg16 (by decide)).trans (W3_arg16 m ρ c)

/-! ## After the host stretch `hostOps2` -/

theorem W5_v27 (c : Dev nD) : W5 m ρ c (Proc.devRef .tc main_v27) = kv_v27 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (StableHlo.after_of_forall_not_mem (b := Proc.devRef .tc main_v27) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_v27 m ρ c)
theorem W5_v38 (c : Dev nD) : W5 m ρ c (Proc.devRef .tc main_v38) = kv_v38 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v38) = _
  after_results_simp
  try simp only [W4_v27 m ρ c, W4_arg7 m ρ c, W4_arg8 m ρ c]
  rfl
theorem W5_v39 (c : Dev nD) : W5 m ρ c (Proc.devRef .tc main_v39) = kv_v39 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v39) = _
  after_results_simp
  try simp only [W4_v27 m ρ c, W4_arg7 m ρ c, W4_arg8 m ρ c]
  rfl
theorem W5_v40 (c : Dev nD) : W5 m ρ c (Proc.devRef .tc main_v40) = kv_v40 (m ((c : Thread nD τ).loc main_arg7)) := by
  show StableHlo.after hostOps2 (W4 m ρ c) (Proc.devRef .tc main_v40) = _
  after_results_simp
  try simp only [W4_v27 m ρ c, W4_arg7 m ρ c, W4_arg8 m ρ c]
  rfl
theorem W5_v41 (c : Dev nD) : W5 m ρ c (Proc.devRef .tc main_v41) = kv_v41 (m ((c : Thread nD τ).loc main_arg8)) := by
  show StableHlo.after hostOps2 (W4 m ρ c) (Proc.devRef .tc main_v41) = _
  after_results_simp
  try simp only [W4_v27 m ρ c, W4_arg7 m ρ c, W4_arg8 m ρ c]
  rfl
theorem W5_v1 (c : Dev nD) : W5 m ρ c (Proc.devRef .tc main_v1) = kv_v1 (m ((c : Thread nD τ).loc main_arg1)) :=
  (StableHlo.after_of_forall_not_mem (b := Proc.devRef .tc main_v1) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_v1 m ρ c)
theorem W5_v4 (c : Dev nD) : W5 m ρ c (Proc.devRef .tc main_v4) = kv_v4  :=
  (StableHlo.after_of_forall_not_mem (b := Proc.devRef .tc main_v4) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_v4 m ρ c)
theorem W5_v3 (c : Dev nD) : W5 m ρ c (Proc.devRef .tc main_v3) = kv_v3 (m ((c : Thread nD τ).loc main_arg1)) :=
  (StableHlo.after_of_forall_not_mem (b := Proc.devRef .tc main_v3) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_v3 m ρ c)
theorem W5_arg9 (c : Dev nD) : W5 m ρ c (Proc.devRef .tc main_arg9) = m ((c : Thread nD τ).loc main_arg9) :=
  (StableHlo.after_of_forall_not_mem (b := Proc.devRef .tc main_arg9) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg9 m ρ c)
theorem W5_arg10 (c : Dev nD) : W5 m ρ c (Proc.devRef .tc main_arg10) = m ((c : Thread nD τ).loc main_arg10) :=
  (StableHlo.after_of_forall_not_mem (b := Proc.devRef .tc main_arg10) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg10 m ρ c)
theorem W5_arg11 (c : Dev nD) : W5 m ρ c (Proc.devRef .tc main_arg11) = m ((c : Thread nD τ).loc main_arg11) :=
  (StableHlo.after_of_forall_not_mem (b := Proc.devRef .tc main_arg11) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg11 m ρ c)
theorem W5_arg12 (c : Dev nD) : W5 m ρ c (Proc.devRef .tc main_arg12) = m ((c : Thread nD τ).loc main_arg12) :=
  (StableHlo.after_of_forall_not_mem (b := Proc.devRef .tc main_arg12) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg12 m ρ c)
theorem W5_arg14 (c : Dev nD) : W5 m ρ c (Proc.devRef .tc main_arg14) = m ((c : Thread nD τ).loc main_arg14) :=
  (StableHlo.after_of_forall_not_mem (b := Proc.devRef .tc main_arg14) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg14 m ρ c)
theorem W5_arg13 (c : Dev nD) : W5 m ρ c (Proc.devRef .tc main_arg13) = m ((c : Thread nD τ).loc main_arg13) :=
  (StableHlo.after_of_forall_not_mem (b := Proc.devRef .tc main_arg13) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg13 m ρ c)
theorem W5_arg17 (c : Dev nD) : W5 m ρ c (Proc.devRef .tc main_arg17) = m ((c : Thread nD τ).loc main_arg17) :=
  (StableHlo.after_of_forall_not_mem (b := Proc.devRef .tc main_arg17) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg17 m ρ c)
theorem W5_arg18 (c : Dev nD) : W5 m ρ c (Proc.devRef .tc main_arg18) = m ((c : Thread nD τ).loc main_arg18) :=
  (StableHlo.after_of_forall_not_mem (b := Proc.devRef .tc main_arg18) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg18 m ρ c)
theorem W5_arg15 (c : Dev nD) : W5 m ρ c (Proc.devRef .tc main_arg15) = m ((c : Thread nD τ).loc main_arg15) :=
  (StableHlo.after_of_forall_not_mem (b := Proc.devRef .tc main_arg15) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg15 m ρ c)
theorem W5_arg16 (c : Dev nD) : W5 m ρ c (Proc.devRef .tc main_arg16) = m ((c : Thread nD τ).loc main_arg16) :=
  (StableHlo.after_of_forall_not_mem (b := Proc.devRef .tc main_arg16) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg16 m ρ c)

/-! ## After region 2 -/

theorem W6_v1 (c : Dev nD) : W6 m ρ c (Proc.devRef .tc main_v1) = kv_v1 (m ((c : Thread nD τ).loc main_arg1)) :=
  (W6_of_ne m ρ c main_v1 (by decide)).trans (W5_v1 m ρ c)
theorem W6_v4 (c : Dev nD) : W6 m ρ c (Proc.devRef .tc main_v4) = kv_v4  :=
  (W6_of_ne m ρ c main_v4 (by decide)).trans (W5_v4 m ρ c)
theorem W6_v42 (c : Dev nD) : W6 m ρ c (Proc.devRef .tc main_v42) = kv_v42 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 5).trans ?_
  refine (Cert.KernelIdeal.Region2.final (V5 m ρ) c).trans ?_
  show Cert.KernelIdeal.Region2.out (W5 m ρ c (Proc.devRef .tc main_v27)) (W5 m ρ c (Proc.devRef .tc main_v38)) (W5 m ρ c (Proc.devRef .tc main_v39)) (W5 m ρ c (Proc.devRef .tc main_v40)) (W5 m ρ c (Proc.devRef .tc main_v41)) = _
  rw [W5_v27 m ρ c, W5_v38 m ρ c, W5_v39 m ρ c, W5_v40 m ρ c, W5_v41 m ρ c]
  rfl
theorem W6_v3 (c : Dev nD) : W6 m ρ c (Proc.devRef .tc main_v3) = kv_v3 (m ((c : Thread nD τ).loc main_arg1)) :=
  (W6_of_ne m ρ c main_v3 (by decide)).trans (W5_v3 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W6_arg10 (c : Dev nD) : W6 m ρ c (Proc.devRef .tc main_arg10) = m ((c : Thread nD τ).loc main_arg10) :=
  (W6_of_ne m ρ c main_arg10 (by decide)).trans (W5_arg10 m ρ c)
theorem W6_arg11 (c : Dev nD) : W6 m ρ c (Proc.devRef .tc main_arg11) = m ((c : Thread nD τ).loc main_arg11) :=
  (W6_of_ne m ρ c main_arg11 (by decide)).trans (W5_arg11 m ρ c)
theorem W6_arg12 (c : Dev nD) : W6 m ρ c (Proc.devRef .tc main_arg12) = m ((c : Thread nD τ).loc main_arg12) :=
  (W6_of_ne m ρ c main_arg12 (by decide)).trans (W5_arg12 m ρ c)
theorem W6_arg14 (c : Dev nD) : W6 m ρ c (Proc.devRef .tc main_arg14) = m ((c : Thread nD τ).loc main_arg14) :=
  (W6_of_ne m ρ c main_arg14 (by decide)).trans (W5_arg14 m ρ c)
theorem W6_arg13 (c : Dev nD) : W6 m ρ c (Proc.devRef .tc main_arg13) = m ((c : Thread nD τ).loc main_arg13) :=
  (W6_of_ne m ρ c main_arg13 (by decide)).trans (W5_arg13 m ρ c)
theorem W6_arg17 (c : Dev nD) : W6 m ρ c (Proc.devRef .tc main_arg17) = m ((c : Thread nD τ).loc main_arg17) :=
  (W6_of_ne m ρ c main_arg17 (by decide)).trans (W5_arg17 m ρ c)
theorem W6_arg18 (c : Dev nD) : W6 m ρ c (Proc.devRef .tc main_arg18) = m ((c : Thread nD τ).loc main_arg18) :=
  (W6_of_ne m ρ c main_arg18 (by decide)).trans (W5_arg18 m ρ c)
theorem W6_arg15 (c : Dev nD) : W6 m ρ c (Proc.devRef .tc main_arg15) = m ((c : Thread nD τ).loc main_arg15) :=
  (W6_of_ne m ρ c main_arg15 (by decide)).trans (W5_arg15 m ρ c)
theorem W6_arg16 (c : Dev nD) : W6 m ρ c (Proc.devRef .tc main_arg16) = m ((c : Thread nD τ).loc main_arg16) :=
  (W6_of_ne m ρ c main_arg16 (by decide)).trans (W5_arg16 m ρ c)

/-! ## After the host stretch `hostOps3` -/

theorem W7_cst_11 (c : Dev nD) : W7 m ρ c (Proc.devRef .tc main_cst_11) = kv_cst_11  := by
  show StableHlo.after hostOps3 (W6 m ρ c) (Proc.devRef .tc main_cst_11) = _
  after_results_simp
  try simp only [W6_v1 m ρ c, W6_v4 m ρ c]
  rfl
theorem W7_v47 (c : Dev nD) : W7 m ρ c (Proc.devRef .tc main_v47) = kv_v47 (m ((c : Thread nD τ).loc main_arg1)) := by
  show StableHlo.after hostOps3 (W6 m ρ c) (Proc.devRef .tc main_v47) = _
  after_results_simp
  try simp only [W6_v1 m ρ c, W6_v4 m ρ c]
  rfl
theorem W7_v50 (c : Dev nD) : W7 m ρ c (Proc.devRef .tc main_v50) = kv_v50 (m ((c : Thread nD τ).loc main_arg1)) := by
  show StableHlo.after hostOps3 (W6 m ρ c) (Proc.devRef .tc main_v50) = _
  after_results_simp
  try simp only [W6_v1 m ρ c, W6_v4 m ρ c]
  rfl
theorem W7_v42 (c : Dev nD) : W7 m ρ c (Proc.devRef .tc main_v42) = kv_v42 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (StableHlo.after_of_forall_not_mem (b := Proc.devRef .tc main_v42) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_v42 m ρ c)
theorem W7_v1 (c : Dev nD) : W7 m ρ c (Proc.devRef .tc main_v1) = kv_v1 (m ((c : Thread nD τ).loc main_arg1)) :=
  (StableHlo.after_of_forall_not_mem (b := Proc.devRef .tc main_v1) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_v1 m ρ c)
theorem W7_v3 (c : Dev nD) : W7 m ρ c (Proc.devRef .tc main_v3) = kv_v3 (m ((c : Thread nD τ).loc main_arg1)) :=
  (StableHlo.after_of_forall_not_mem (b := Proc.devRef .tc main_v3) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_v3 m ρ c)
theorem W7_arg9 (c : Dev nD) : W7 m ρ c (Proc.devRef .tc main_arg9) = m ((c : Thread nD τ).loc main_arg9) :=
  (StableHlo.after_of_forall_not_mem (b := Proc.devRef .tc main_arg9) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_arg9 m ρ c)
theorem W7_arg10 (c : Dev nD) : W7 m ρ c (Proc.devRef .tc main_arg10) = m ((c : Thread nD τ).loc main_arg10) :=
  (StableHlo.after_of_forall_not_mem (b := Proc.devRef .tc main_arg10) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_arg10 m ρ c)
theorem W7_arg11 (c : Dev nD) : W7 m ρ c (Proc.devRef .tc main_arg11) = m ((c : Thread nD τ).loc main_arg11) :=
  (StableHlo.after_of_forall_not_mem (b := Proc.devRef .tc main_arg11) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_arg11 m ρ c)
theorem W7_arg12 (c : Dev nD) : W7 m ρ c (Proc.devRef .tc main_arg12) = m ((c : Thread nD τ).loc main_arg12) :=
  (StableHlo.after_of_forall_not_mem (b := Proc.devRef .tc main_arg12) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_arg12 m ρ c)
theorem W7_arg14 (c : Dev nD) : W7 m ρ c (Proc.devRef .tc main_arg14) = m ((c : Thread nD τ).loc main_arg14) :=
  (StableHlo.after_of_forall_not_mem (b := Proc.devRef .tc main_arg14) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_arg14 m ρ c)
theorem W7_arg13 (c : Dev nD) : W7 m ρ c (Proc.devRef .tc main_arg13) = m ((c : Thread nD τ).loc main_arg13) :=
  (StableHlo.after_of_forall_not_mem (b := Proc.devRef .tc main_arg13) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_arg13 m ρ c)
theorem W7_arg17 (c : Dev nD) : W7 m ρ c (Proc.devRef .tc main_arg17) = m ((c : Thread nD τ).loc main_arg17) :=
  (StableHlo.after_of_forall_not_mem (b := Proc.devRef .tc main_arg17) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_arg17 m ρ c)
theorem W7_arg18 (c : Dev nD) : W7 m ρ c (Proc.devRef .tc main_arg18) = m ((c : Thread nD τ).loc main_arg18) :=
  (StableHlo.after_of_forall_not_mem (b := Proc.devRef .tc main_arg18) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_arg18 m ρ c)
theorem W7_arg15 (c : Dev nD) : W7 m ρ c (Proc.devRef .tc main_arg15) = m ((c : Thread nD τ).loc main_arg15) :=
  (StableHlo.after_of_forall_not_mem (b := Proc.devRef .tc main_arg15) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_arg15 m ρ c)
theorem W7_arg16 (c : Dev nD) : W7 m ρ c (Proc.devRef .tc main_arg16) = m ((c : Thread nD τ).loc main_arg16) :=
  (StableHlo.after_of_forall_not_mem (b := Proc.devRef .tc main_arg16) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_arg16 m ρ c)

/-! ## After the host stretch `hostOps3_1` -/

/-- The selection that ends the degree normalization, for any float instance: where the count is positive the
    reciprocal square root, elsewhere the broadcast constant. -/
theorem where_result {F : FTy → Type} [FloatOps F] (W : Valuation τ sig (Elt F)) :
    StableHlo.after (hostOps3_1 (F := F)) W (Proc.devRef .tc main_v51)
      = select (W (Proc.devRef .tc main_v47)) (W (Proc.devRef .tc main_v50))
          (broadcastInDim S100000 ![] bcast_S_S100000 (id (W (Proc.devRef .tc main_cst_11)))) := by
  after_results_simp
  rfl

theorem W8_v51 (c : Dev nD) : W8 m ρ c (Proc.devRef .tc main_v51) = kv_v51 (m ((c : Thread nD τ).loc main_arg1)) := by
  show StableHlo.after hostOps3_1 (W7 m ρ c) (Proc.devRef .tc main_v51) = _
  rw [where_result, W7_v47 m ρ c, W7_v50 m ρ c, W7_cst_11 m ρ c]
  rfl
theorem W8_v42 (c : Dev nD) : W8 m ρ c (Proc.devRef .tc main_v42) = kv_v42 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (StableHlo.after_of_forall_not_mem (b := Proc.devRef .tc main_v42) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_v42 m ρ c)
theorem W8_v1 (c : Dev nD) : W8 m ρ c (Proc.devRef .tc main_v1) = kv_v1 (m ((c : Thread nD τ).loc main_arg1)) :=
  (StableHlo.after_of_forall_not_mem (b := Proc.devRef .tc main_v1) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_v1 m ρ c)
theorem W8_v3 (c : Dev nD) : W8 m ρ c (Proc.devRef .tc main_v3) = kv_v3 (m ((c : Thread nD τ).loc main_arg1)) :=
  (StableHlo.after_of_forall_not_mem (b := Proc.devRef .tc main_v3) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_v3 m ρ c)
theorem W8_arg9 (c : Dev nD) : W8 m ρ c (Proc.devRef .tc main_arg9) = m ((c : Thread nD τ).loc main_arg9) :=
  (StableHlo.after_of_forall_not_mem (b := Proc.devRef .tc main_arg9) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_arg9 m ρ c)
theorem W8_arg10 (c : Dev nD) : W8 m ρ c (Proc.devRef .tc main_arg10) = m ((c : Thread nD τ).loc main_arg10) :=
  (StableHlo.after_of_forall_not_mem (b := Proc.devRef .tc main_arg10) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_arg10 m ρ c)
theorem W8_arg11 (c : Dev nD) : W8 m ρ c (Proc.devRef .tc main_arg11) = m ((c : Thread nD τ).loc main_arg11) :=
  (StableHlo.after_of_forall_not_mem (b := Proc.devRef .tc main_arg11) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_arg11 m ρ c)
theorem W8_arg12 (c : Dev nD) : W8 m ρ c (Proc.devRef .tc main_arg12) = m ((c : Thread nD τ).loc main_arg12) :=
  (StableHlo.after_of_forall_not_mem (b := Proc.devRef .tc main_arg12) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_arg12 m ρ c)
theorem W8_arg14 (c : Dev nD) : W8 m ρ c (Proc.devRef .tc main_arg14) = m ((c : Thread nD τ).loc main_arg14) :=
  (StableHlo.after_of_forall_not_mem (b := Proc.devRef .tc main_arg14) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_arg14 m ρ c)
theorem W8_arg13 (c : Dev nD) : W8 m ρ c (Proc.devRef .tc main_arg13) = m ((c : Thread nD τ).loc main_arg13) :=
  (StableHlo.after_of_forall_not_mem (b := Proc.devRef .tc main_arg13) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_arg13 m ρ c)
theorem W8_arg17 (c : Dev nD) : W8 m ρ c (Proc.devRef .tc main_arg17) = m ((c : Thread nD τ).loc main_arg17) :=
  (StableHlo.after_of_forall_not_mem (b := Proc.devRef .tc main_arg17) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_arg17 m ρ c)
theorem W8_arg18 (c : Dev nD) : W8 m ρ c (Proc.devRef .tc main_arg18) = m ((c : Thread nD τ).loc main_arg18) :=
  (StableHlo.after_of_forall_not_mem (b := Proc.devRef .tc main_arg18) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_arg18 m ρ c)
theorem W8_arg15 (c : Dev nD) : W8 m ρ c (Proc.devRef .tc main_arg15) = m ((c : Thread nD τ).loc main_arg15) :=
  (StableHlo.after_of_forall_not_mem (b := Proc.devRef .tc main_arg15) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_arg15 m ρ c)
theorem W8_arg16 (c : Dev nD) : W8 m ρ c (Proc.devRef .tc main_arg16) = m ((c : Thread nD τ).loc main_arg16) :=
  (StableHlo.after_of_forall_not_mem (b := Proc.devRef .tc main_arg16) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_arg16 m ρ c)

/-! ## After the host stretch `hostOps3_2` -/

theorem W9_v42 (c : Dev nD) : W9 m ρ c (Proc.devRef .tc main_v42) = kv_v42 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (StableHlo.after_of_forall_not_mem (b := Proc.devRef .tc main_v42) _ _ (List.forall_iff_forall_mem.mp (by
    simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_v42 m ρ c)
theorem W9_v70 (c : Dev nD) : W9 m ρ c (Proc.devRef .tc main_v70) = kv_v70 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e_v51 := W8_v51 m ρ c
  have e_v42 := W8_v42 m ρ c
  have e_v1 := W8_v1 m ρ c
  have e_v3 := W8_v3 m ρ c
  have e_arg9 := W8_arg9 m ρ c
  have e_arg10 := W8_arg10 m ρ c
  show StableHlo.after hostOps3_2 (W8 m ρ c) (Proc.devRef .tc main_v70) = _
  generalize W8 m ρ c = W at e_v51 e_v42 e_v1 e_v3 e_arg9 e_arg10 ⊢
  after_results_simp
  try simp only [e_v51, e_v42, e_v1, e_v3, e_arg9, e_arg10]
  rfl
theorem W9_v92 (c : Dev nD) : W9 m ρ c (Proc.devRef .tc main_v92) = kv_v92 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e_v51 := W8_v51 m ρ c
  have e_v42 := W8_v42 m ρ c
  have e_v1 := W8_v1 m ρ c
  have e_v3 := W8_v3 m ρ c
  have e_arg9 := W8_arg9 m ρ c
  have e_arg10 := W8_arg10 m ρ c
  show StableHlo.after hostOps3_2 (W8 m ρ c) (Proc.devRef .tc main_v92) = _
  generalize W8 m ρ c = W at e_v51 e_v42 e_v1 e_v3 e_arg9 e_arg10 ⊢
  after_results_simp
  try simp only [e_v51, e_v42, e_v1, e_v3, e_arg9, e_arg10]
  rfl
theorem W9_v94 (c : Dev nD) : W9 m ρ c (Proc.devRef .tc main_v94) = kv_v94 (m ((c : Thread nD τ).loc main_arg9)) := by
  have e_v51 := W8_v51 m ρ c
  have e_v42 := W8_v42 m ρ c
  have e_v1 := W8_v1 m ρ c
  have e_v3 := W8_v3 m ρ c
  have e_arg9 := W8_arg9 m ρ c
  have e_arg10 := W8_arg10 m ρ c
  show StableHlo.after hostOps3_2 (W8 m ρ c) (Proc.devRef .tc main_v94) = _
  generalize W8 m ρ c = W at e_v51 e_v42 e_v1 e_v3 e_arg9 e_arg10 ⊢
  after_results_simp
  try simp only [e_v51, e_v42, e_v1, e_v3, e_arg9, e_arg10]
  rfl
theorem W9_v96 (c : Dev nD) : W9 m ρ c (Proc.devRef .tc main_v96) = kv_v96 (m ((c : Thread nD τ).loc main_arg9)) := by
  have e_v51 := W8_v51 m ρ c
  have e_v42 := W8_v42 m ρ c
  have e_v1 := W8_v1 m ρ c
  have e_v3 := W8_v3 m ρ c
  have e_arg9 := W8_arg9 m ρ c
  have e_arg10 := W8_arg10 m ρ c
  show StableHlo.after hostOps3_2 (W8 m ρ c) (Proc.devRef .tc main_v96) = _
  generalize W8 m ρ c = W at e_v51 e_v42 e_v1 e_v3 e_arg9 e_arg10 ⊢
  after_results_simp
  try simp only [e_v51, e_v42, e_v1, e_v3, e_arg9, e_arg10]
  rfl
theorem W9_v98 (c : Dev nD) : W9 m ρ c (Proc.devRef .tc main_v98) = kv_v98 (m ((c : Thread nD τ).loc main_arg9)) := by
  have e_v51 := W8_v51 m ρ c
  have e_v42 := W8_v42 m ρ c
  have e_v1 := W8_v1 m ρ c
  have e_v3 := W8_v3 m ρ c
  have e_arg9 := W8_arg9 m ρ c
  have e_arg10 := W8_arg10 m ρ c
  show StableHlo.after hostOps3_2 (W8 m ρ c) (Proc.devRef .tc main_v98) = _
  generalize W8 m ρ c = W at e_v51 e_v42 e_v1 e_v3 e_arg9 e_arg10 ⊢
  after_results_simp
  try simp only [e_v51, e_v42, e_v1, e_v3, e_arg9, e_arg10]
  rfl
theorem W9_v99 (c : Dev nD) : W9 m ρ c (Proc.devRef .tc main_v99) = kv_v99 (m ((c : Thread nD τ).loc main_arg10)) := by
  have e_v51 := W8_v51 m ρ c
  have e_v42 := W8_v42 m ρ c
  have e_v1 := W8_v1 m ρ c
  have e_v3 := W8_v3 m ρ c
  have e_arg9 := W8_arg9 m ρ c
  have e_arg10 := W8_arg10 m ρ c
  show StableHlo.after hostOps3_2 (W8 m ρ c) (Proc.devRef .tc main_v99) = _
  generalize W8 m ρ c = W at e_v51 e_v42 e_v1 e_v3 e_arg9 e_arg10 ⊢
  after_results_simp
  try simp only [e_v51, e_v42, e_v1, e_v3, e_arg9, e_arg10]
  rfl
theorem W9_v51 (c : Dev nD) : W9 m ρ c (Proc.devRef .tc main_v51) = kv_v51 (m ((c : Thread nD τ).loc main_arg1)) :=
  (StableHlo.after_of_forall_not_mem (b := Proc.devRef .tc main_v51) _ _ (List.forall_iff_forall_mem.mp (by
    simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_v51 m ρ c)
theorem W9_v1 (c : Dev nD) : W9 m ρ c (Proc.devRef .tc main_v1) = kv_v1 (m ((c : Thread nD τ).loc main_arg1)) :=
  (StableHlo.after_of_forall_not_mem (b := Proc.devRef .tc main_v1) _ _ (List.forall_iff_forall_mem.mp (by
    simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_v1 m ρ c)
theorem W9_v3 (c : Dev nD) : W9 m ρ c (Proc.devRef .tc main_v3) = kv_v3 (m ((c : Thread nD τ).loc main_arg1)) :=
  (StableHlo.after_of_forall_not_mem (b := Proc.devRef .tc main_v3) _ _ (List.forall_iff_forall_mem.mp (by
    simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_v3 m ρ c)
theorem W9_arg11 (c : Dev nD) : W9 m ρ c (Proc.devRef .tc main_arg11) = m ((c : Thread nD τ).loc main_arg11) :=
  (StableHlo.after_of_forall_not_mem (b := Proc.devRef .tc main_arg11) _ _ (List.forall_iff_forall_mem.mp (by
    simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_arg11 m ρ c)
theorem W9_arg12 (c : Dev nD) : W9 m ρ c (Proc.devRef .tc main_arg12) = m ((c : Thread nD τ).loc main_arg12) :=
  (StableHlo.after_of_forall_not_mem (b := Proc.devRef .tc main_arg12) _ _ (List.forall_iff_forall_mem.mp (by
    simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_arg12 m ρ c)
theorem W9_arg14 (c : Dev nD) : W9 m ρ c (Proc.devRef .tc main_arg14) = m ((c : Thread nD τ).loc main_arg14) :=
  (StableHlo.after_of_forall_not_mem (b := Proc.devRef .tc main_arg14) _ _ (List.forall_iff_forall_mem.mp (by
    simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_arg14 m ρ c)
theorem W9_arg13 (c : Dev nD) : W9 m ρ c (Proc.devRef .tc main_arg13) = m ((c : Thread nD τ).loc main_arg13) :=
  (StableHlo.after_of_forall_not_mem (b := Proc.devRef .tc main_arg13) _ _ (List.forall_iff_forall_mem.mp (by
    simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_arg13 m ρ c)
theorem W9_arg17 (c : Dev nD) : W9 m ρ c (Proc.devRef .tc main_arg17) = m ((c : Thread nD τ).loc main_arg17) :=
  (StableHlo.after_of_forall_not_mem (b := Proc.devRef .tc main_arg17) _ _ (List.forall_iff_forall_mem.mp (by
    simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_arg17 m ρ c)
theorem W9_arg18 (c : Dev nD) : W9 m ρ c (Proc.devRef .tc main_arg18) = m ((c : Thread nD τ).loc main_arg18) :=
  (StableHlo.after_of_forall_not_mem (b := Proc.devRef .tc main_arg18) _ _ (List.forall_iff_forall_mem.mp (by
    simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_arg18 m ρ c)
theorem W9_arg15 (c : Dev nD) : W9 m ρ c (Proc.devRef .tc main_arg15) = m ((c : Thread nD τ).loc main_arg15) :=
  (StableHlo.after_of_forall_not_mem (b := Proc.devRef .tc main_arg15) _ _ (List.forall_iff_forall_mem.mp (by
    simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_arg15 m ρ c)
theorem W9_arg16 (c : Dev nD) : W9 m ρ c (Proc.devRef .tc main_arg16) = m ((c : Thread nD τ).loc main_arg16) :=
  (StableHlo.after_of_forall_not_mem (b := Proc.devRef .tc main_arg16) _ _ (List.forall_iff_forall_mem.mp (by
    simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_arg16 m ρ c)

/-! ## After region 3 -/

theorem W10_v51 (c : Dev nD) : W10 m ρ c (Proc.devRef .tc main_v51) = kv_v51 (m ((c : Thread nD τ).loc main_arg1)) :=
  (W10_of_ne m ρ c main_v51 (by decide)).trans (W9_v51 m ρ c)
theorem W10_v100 (c : Dev nD) : W10 m ρ c (Proc.devRef .tc main_v100) = kv_v100 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 7).trans ?_
  refine (Cert.KernelIdeal.Region3.final (V9 m ρ) c).trans ?_
  show Cert.KernelIdeal.Region3.out (W9 m ρ c (Proc.devRef .tc main_v42)) (W9 m ρ c (Proc.devRef .tc main_v70)) (W9 m ρ c (Proc.devRef .tc main_v92)) (W9 m ρ c (Proc.devRef .tc main_v94)) (W9 m ρ c (Proc.devRef .tc main_v96)) (W9 m ρ c (Proc.devRef .tc main_v98)) (W9 m ρ c (Proc.devRef .tc main_v99)) = _
  rw [W9_v42 m ρ c, W9_v70 m ρ c, W9_v92 m ρ c, W9_v94 m ρ c, W9_v96 m ρ c, W9_v98 m ρ c, W9_v99 m ρ c]
  rfl
theorem W10_v1 (c : Dev nD) : W10 m ρ c (Proc.devRef .tc main_v1) = kv_v1 (m ((c : Thread nD τ).loc main_arg1)) :=
  (W10_of_ne m ρ c main_v1 (by decide)).trans (W9_v1 m ρ c)
theorem W10_v3 (c : Dev nD) : W10 m ρ c (Proc.devRef .tc main_v3) = kv_v3 (m ((c : Thread nD τ).loc main_arg1)) :=
  (W10_of_ne m ρ c main_v3 (by decide)).trans (W9_v3 m ρ c)
theorem W10_arg11 (c : Dev nD) : W10 m ρ c (Proc.devRef .tc main_arg11) = m ((c : Thread nD τ).loc main_arg11) :=
  (W10_of_ne m ρ c main_arg11 (by decide)).trans (W9_arg11 m ρ c)
theorem W10_arg12 (c : Dev nD) : W10 m ρ c (Proc.devRef .tc main_arg12) = m ((c : Thread nD τ).loc main_arg12) :=
  (W10_of_ne m ρ c main_arg12 (by decide)).trans (W9_arg12 m ρ c)
theorem W10_arg14 (c : Dev nD) : W10 m ρ c (Proc.devRef .tc main_arg14) = m ((c : Thread nD τ).loc main_arg14) :=
  (W10_of_ne m ρ c main_arg14 (by decide)).trans (W9_arg14 m ρ c)
theorem W10_arg13 (c : Dev nD) : W10 m ρ c (Proc.devRef .tc main_arg13) = m ((c : Thread nD τ).loc main_arg13) :=
  (W10_of_ne m ρ c main_arg13 (by decide)).trans (W9_arg13 m ρ c)
theorem W10_arg17 (c : Dev nD) : W10 m ρ c (Proc.devRef .tc main_arg17) = m ((c : Thread nD τ).loc main_arg17) :=
  (W10_of_ne m ρ c main_arg17 (by decide)).trans (W9_arg17 m ρ c)
theorem W10_arg18 (c : Dev nD) : W10 m ρ c (Proc.devRef .tc main_arg18) = m ((c : Thread nD τ).loc main_arg18) :=
  (W10_of_ne m ρ c main_arg18 (by decide)).trans (W9_arg18 m ρ c)
theorem W10_arg15 (c : Dev nD) : W10 m ρ c (Proc.devRef .tc main_arg15) = m ((c : Thread nD τ).loc main_arg15) :=
  (W10_of_ne m ρ c main_arg15 (by decide)).trans (W9_arg15 m ρ c)
theorem W10_arg16 (c : Dev nD) : W10 m ρ c (Proc.devRef .tc main_arg16) = m ((c : Thread nD τ).loc main_arg16) :=
  (W10_of_ne m ρ c main_arg16 (by decide)).trans (W9_arg16 m ρ c)

/-! ## After the host stretch `hostOps4` -/

theorem W11_v100 (c : Dev nD) : W11 m ρ c (Proc.devRef .tc main_v100) = kv_v100 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (StableHlo.after_of_forall_not_mem (b := Proc.devRef .tc main_v100) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_v100 m ρ c)
theorem W11_v119 (c : Dev nD) : W11 m ρ c (Proc.devRef .tc main_v119) = kv_v119 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps4 (W10 m ρ c) (Proc.devRef .tc main_v119) = _
  after_results_simp
  try simp only [W10_v51 m ρ c, W10_v100 m ρ c, W10_v1 m ρ c, W10_v3 m ρ c, W10_arg11 m ρ c, W10_arg12 m ρ c]
  rfl
theorem W11_v141 (c : Dev nD) : W11 m ρ c (Proc.devRef .tc main_v141) = kv_v141 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps4 (W10 m ρ c) (Proc.devRef .tc main_v141) = _
  after_results_simp
  try simp only [W10_v51 m ρ c, W10_v100 m ρ c, W10_v1 m ρ c, W10_v3 m ρ c, W10_arg11 m ρ c, W10_arg12 m ρ c]
  rfl
theorem W11_v143 (c : Dev nD) : W11 m ρ c (Proc.devRef .tc main_v143) = kv_v143 (m ((c : Thread nD τ).loc main_arg11)) := by
  show StableHlo.after hostOps4 (W10 m ρ c) (Proc.devRef .tc main_v143) = _
  after_results_simp
  try simp only [W10_v51 m ρ c, W10_v100 m ρ c, W10_v1 m ρ c, W10_v3 m ρ c, W10_arg11 m ρ c, W10_arg12 m ρ c]
  rfl
theorem W11_v145 (c : Dev nD) : W11 m ρ c (Proc.devRef .tc main_v145) = kv_v145 (m ((c : Thread nD τ).loc main_arg11)) := by
  show StableHlo.after hostOps4 (W10 m ρ c) (Proc.devRef .tc main_v145) = _
  after_results_simp
  try simp only [W10_v51 m ρ c, W10_v100 m ρ c, W10_v1 m ρ c, W10_v3 m ρ c, W10_arg11 m ρ c, W10_arg12 m ρ c]
  rfl
theorem W11_v147 (c : Dev nD) : W11 m ρ c (Proc.devRef .tc main_v147) = kv_v147 (m ((c : Thread nD τ).loc main_arg11)) := by
  show StableHlo.after hostOps4 (W10 m ρ c) (Proc.devRef .tc main_v147) = _
  after_results_simp
  try simp only [W10_v51 m ρ c, W10_v100 m ρ c, W10_v1 m ρ c, W10_v3 m ρ c, W10_arg11 m ρ c, W10_arg12 m ρ c]
  rfl
theorem W11_v148 (c : Dev nD) : W11 m ρ c (Proc.devRef .tc main_v148) = kv_v148 (m ((c : Thread nD τ).loc main_arg12)) := by
  show StableHlo.after hostOps4 (W10 m ρ c) (Proc.devRef .tc main_v148) = _
  after_results_simp
  try simp only [W10_v51 m ρ c, W10_v100 m ρ c, W10_v1 m ρ c, W10_v3 m ρ c, W10_arg11 m ρ c, W10_arg12 m ρ c]
  rfl
theorem W11_arg14 (c : Dev nD) : W11 m ρ c (Proc.devRef .tc main_arg14) = m ((c : Thread nD τ).loc main_arg14) :=
  (StableHlo.after_of_forall_not_mem (b := Proc.devRef .tc main_arg14) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_arg14 m ρ c)
theorem W11_arg13 (c : Dev nD) : W11 m ρ c (Proc.devRef .tc main_arg13) = m ((c : Thread nD τ).loc main_arg13) :=
  (StableHlo.after_of_forall_not_mem (b := Proc.devRef .tc main_arg13) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_arg13 m ρ c)
theorem W11_arg17 (c : Dev nD) : W11 m ρ c (Proc.devRef .tc main_arg17) = m ((c : Thread nD τ).loc main_arg17) :=
  (StableHlo.after_of_forall_not_mem (b := Proc.devRef .tc main_arg17) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_arg17 m ρ c)
theorem W11_arg18 (c : Dev nD) : W11 m ρ c (Proc.devRef .tc main_arg18) = m ((c : Thread nD τ).loc main_arg18) :=
  (StableHlo.after_of_forall_not_mem (b := Proc.devRef .tc main_arg18) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_arg18 m ρ c)
theorem W11_arg15 (c : Dev nD) : W11 m ρ c (Proc.devRef .tc main_arg15) = m ((c : Thread nD τ).loc main_arg15) :=
  (StableHlo.after_of_forall_not_mem (b := Proc.devRef .tc main_arg15) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_arg15 m ρ c)
theorem W11_arg16 (c : Dev nD) : W11 m ρ c (Proc.devRef .tc main_arg16) = m ((c : Thread nD τ).loc main_arg16) :=
  (StableHlo.after_of_forall_not_mem (b := Proc.devRef .tc main_arg16) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_arg16 m ρ c)

/-! ## After region 4 -/

theorem W12_arg14 (c : Dev nD) : W12 m ρ c (Proc.devRef .tc main_arg14) = m ((c : Thread nD τ).loc main_arg14) :=
  (W12_of_ne m ρ c main_arg14 (by decide)).trans (W11_arg14 m ρ c)
theorem W12_v149 (c : Dev nD) : W12 m ρ c (Proc.devRef .tc main_v149) = kv_v149 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W12_arr m ρ c 7).trans ?_
  refine (Cert.KernelIdeal.Region4.final (V11 m ρ) c).trans ?_
  show Cert.KernelIdeal.Region4.out (W11 m ρ c (Proc.devRef .tc main_v100)) (W11 m ρ c (Proc.devRef .tc main_v119)) (W11 m ρ c (Proc.devRef .tc main_v141)) (W11 m ρ c (Proc.devRef .tc main_v143)) (W11 m ρ c (Proc.devRef .tc main_v145)) (W11 m ρ c (Proc.devRef .tc main_v147)) (W11 m ρ c (Proc.devRef .tc main_v148)) = _
  rw [W11_v100 m ρ c, W11_v119 m ρ c, W11_v141 m ρ c, W11_v143 m ρ c, W11_v145 m ρ c, W11_v147 m ρ c, W11_v148 m ρ c]
  rfl
theorem W12_arg13 (c : Dev nD) : W12 m ρ c (Proc.devRef .tc main_arg13) = m ((c : Thread nD τ).loc main_arg13) :=
  (W12_of_ne m ρ c main_arg13 (by decide)).trans (W11_arg13 m ρ c)
theorem W12_arg17 (c : Dev nD) : W12 m ρ c (Proc.devRef .tc main_arg17) = m ((c : Thread nD τ).loc main_arg17) :=
  (W12_of_ne m ρ c main_arg17 (by decide)).trans (W11_arg17 m ρ c)
theorem W12_arg18 (c : Dev nD) : W12 m ρ c (Proc.devRef .tc main_arg18) = m ((c : Thread nD τ).loc main_arg18) :=
  (W12_of_ne m ρ c main_arg18 (by decide)).trans (W11_arg18 m ρ c)
theorem W12_arg15 (c : Dev nD) : W12 m ρ c (Proc.devRef .tc main_arg15) = m ((c : Thread nD τ).loc main_arg15) :=
  (W12_of_ne m ρ c main_arg15 (by decide)).trans (W11_arg15 m ρ c)
theorem W12_arg16 (c : Dev nD) : W12 m ρ c (Proc.devRef .tc main_arg16) = m ((c : Thread nD τ).loc main_arg16) :=
  (W12_of_ne m ρ c main_arg16 (by decide)).trans (W11_arg16 m ρ c)

/-! ## After the host stretch `hostOps5` -/

theorem W13_v149 (c : Dev nD) : W13 m ρ c (Proc.devRef .tc main_v149) = kv_v149 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (StableHlo.after_of_forall_not_mem (b := Proc.devRef .tc main_v149) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W12_v149 m ρ c)
theorem W13_arg13 (c : Dev nD) : W13 m ρ c (Proc.devRef .tc main_arg13) = m ((c : Thread nD τ).loc main_arg13) :=
  (StableHlo.after_of_forall_not_mem (b := Proc.devRef .tc main_arg13) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W12_arg13 m ρ c)
theorem W13_v150 (c : Dev nD) : W13 m ρ c (Proc.devRef .tc main_v150) = kv_v150 (m ((c : Thread nD τ).loc main_arg14)) := by
  show StableHlo.after hostOps5 (W12 m ρ c) (Proc.devRef .tc main_v150) = _
  after_results_simp
  try simp only [W12_arg14 m ρ c]
  rfl
theorem W13_arg17 (c : Dev nD) : W13 m ρ c (Proc.devRef .tc main_arg17) = m ((c : Thread nD τ).loc main_arg17) :=
  (StableHlo.after_of_forall_not_mem (b := Proc.devRef .tc main_arg17) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W12_arg17 m ρ c)
theorem W13_arg18 (c : Dev nD) : W13 m ρ c (Proc.devRef .tc main_arg18) = m ((c : Thread nD τ).loc main_arg18) :=
  (StableHlo.after_of_forall_not_mem (b := Proc.devRef .tc main_arg18) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W12_arg18 m ρ c)
theorem W13_arg15 (c : Dev nD) : W13 m ρ c (Proc.devRef .tc main_arg15) = m ((c : Thread nD τ).loc main_arg15) :=
  (StableHlo.after_of_forall_not_mem (b := Proc.devRef .tc main_arg15) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W12_arg15 m ρ c)
theorem W13_arg16 (c : Dev nD) : W13 m ρ c (Proc.devRef .tc main_arg16) = m ((c : Thread nD τ).loc main_arg16) :=
  (StableHlo.after_of_forall_not_mem (b := Proc.devRef .tc main_arg16) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W12_arg16 m ρ c)

/-! ## After region 5 -/

theorem W14_v151 (c : Dev nD) : W14 m ρ c (Proc.devRef .tc main_v151) = kv_v151 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W14_arr m ρ c 3).trans ?_
  refine (Cert.KernelIdeal.Region5.final (V13 m ρ) c).trans ?_
  show Cert.KernelIdeal.Region5.out (W13 m ρ c (Proc.devRef .tc main_v149)) (W13 m ρ c (Proc.devRef .tc main_arg13)) (W13 m ρ c (Proc.devRef .tc main_v150)) = _
  rw [W13_v149 m ρ c, W13_arg13 m ρ c, W13_v150 m ρ c]
  rfl
theorem W14_arg17 (c : Dev nD) : W14 m ρ c (Proc.devRef .tc main_arg17) = m ((c : Thread nD τ).loc main_arg17) :=
  (W14_of_ne m ρ c main_arg17 (by decide)).trans (W13_arg17 m ρ c)
theorem W14_arg18 (c : Dev nD) : W14 m ρ c (Proc.devRef .tc main_arg18) = m ((c : Thread nD τ).loc main_arg18) :=
  (W14_of_ne m ρ c main_arg18 (by decide)).trans (W13_arg18 m ρ c)
theorem W14_arg15 (c : Dev nD) : W14 m ρ c (Proc.devRef .tc main_arg15) = m ((c : Thread nD τ).loc main_arg15) :=
  (W14_of_ne m ρ c main_arg15 (by decide)).trans (W13_arg15 m ρ c)
theorem W14_arg16 (c : Dev nD) : W14 m ρ c (Proc.devRef .tc main_arg16) = m ((c : Thread nD τ).loc main_arg16) :=
  (W14_of_ne m ρ c main_arg16 (by decide)).trans (W13_arg16 m ρ c)

/-! ## After the host stretch `hostOps6` -/

theorem W15_v151 (c : Dev nD) : W15 m ρ c (Proc.devRef .tc main_v151) = kv_v151 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (StableHlo.after_of_forall_not_mem (b := Proc.devRef .tc main_v151) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W14_v151 m ρ c)
theorem W15_v170 (c : Dev nD) : W15 m ρ c (Proc.devRef .tc main_v170) = kv_v170 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps6 (W14 m ρ c) (Proc.devRef .tc main_v170) = _
  after_results_simp
  try simp only [W14_v151 m ρ c, W14_arg17 m ρ c, W14_arg18 m ρ c, W14_arg15 m ρ c, W14_arg16 m ρ c]
  rfl
theorem W15_v171 (c : Dev nD) : W15 m ρ c (Proc.devRef .tc main_v171) = kv_v171 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps6 (W14 m ρ c) (Proc.devRef .tc main_v171) = _
  after_results_simp
  try simp only [W14_v151 m ρ c, W14_arg17 m ρ c, W14_arg18 m ρ c, W14_arg15 m ρ c, W14_arg16 m ρ c]
  rfl
theorem W15_v172 (c : Dev nD) : W15 m ρ c (Proc.devRef .tc main_v172) = kv_v172 (m ((c : Thread nD τ).loc main_arg15)) := by
  show StableHlo.after hostOps6 (W14 m ρ c) (Proc.devRef .tc main_v172) = _
  after_results_simp
  try simp only [W14_v151 m ρ c, W14_arg17 m ρ c, W14_arg18 m ρ c, W14_arg15 m ρ c, W14_arg16 m ρ c]
  rfl
theorem W15_v173 (c : Dev nD) : W15 m ρ c (Proc.devRef .tc main_v173) = kv_v173 (m ((c : Thread nD τ).loc main_arg16)) := by
  show StableHlo.after hostOps6 (W14 m ρ c) (Proc.devRef .tc main_v173) = _
  after_results_simp
  try simp only [W14_v151 m ρ c, W14_arg17 m ρ c, W14_arg18 m ρ c, W14_arg15 m ρ c, W14_arg16 m ρ c]
  rfl
theorem W15_v165 (c : Dev nD) : W15 m ρ c (Proc.devRef .tc main_v165) = kv_v165 (m ((c : Thread nD τ).loc main_arg17)) := by
  show StableHlo.after hostOps6 (W14 m ρ c) (Proc.devRef .tc main_v165) = _
  after_results_simp
  try simp only [W14_v151 m ρ c, W14_arg17 m ρ c, W14_arg18 m ρ c, W14_arg15 m ρ c, W14_arg16 m ρ c]
  rfl
theorem W15_v174 (c : Dev nD) : W15 m ρ c (Proc.devRef .tc main_v174) = kv_v174 (m ((c : Thread nD τ).loc main_arg18)) := by
  show StableHlo.after hostOps6 (W14 m ρ c) (Proc.devRef .tc main_v174) = _
  after_results_simp
  try simp only [W14_v151 m ρ c, W14_arg17 m ρ c, W14_arg18 m ρ c, W14_arg15 m ρ c, W14_arg16 m ρ c]
  rfl

/-! ## After region 6 -/

theorem W16_v175 (c : Dev nD) : W16 m ρ c (Proc.devRef .tc main_v175) = kv_v175 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W16_arr m ρ c 7).trans ?_
  refine (Cert.KernelIdeal.Region6.final (V15 m ρ) c).trans ?_
  show Cert.KernelIdeal.Region6.out (W15 m ρ c (Proc.devRef .tc main_v151)) (W15 m ρ c (Proc.devRef .tc main_v170)) (W15 m ρ c (Proc.devRef .tc main_v171)) (W15 m ρ c (Proc.devRef .tc main_v172)) (W15 m ρ c (Proc.devRef .tc main_v173)) (W15 m ρ c (Proc.devRef .tc main_v165)) (W15 m ρ c (Proc.devRef .tc main_v174)) = _
  rw [W15_v151 m ρ c, W15_v170 m ρ c, W15_v171 m ρ c, W15_v172 m ρ c, W15_v173 m ρ c, W15_v165 m ρ c, W15_v174 m ρ c]
  rfl

/-! ## After the host stretch `hostOps7` -/

theorem W17_v177 (c : Dev nD) : W17 m ρ c (Proc.devRef .tc main_v177) = kv_v177 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  show StableHlo.after hostOps7 (W16 m ρ c) (Proc.devRef .tc main_v177) = _
  after_results_simp
  try simp only [W16_v175 m ρ c]
  rfl

end Cert.KernelIdeal.KChain

end
-- ==== Proof.RefValue.lean ====
/- The reference's result is its last stage.

   @main of the reference is a straight line of 255 host operations, each writing one buffer that no other operation
   writes. The valuation after the whole line is a left fold (`after`) of the operations' results over the launch
   contents; the stages `val_<buffer>` of the read module give, operation by operation, the value each buffer receives
   as a function of @main's arguments. This module proves that the fold, read at the result buffer `main_v204`, is the
   last stage `val_main_v204` at the arguments' launch contents.

   The line is cut into 14 consecutive parts, `ops = part1 ++ … ++ part14`, and `Wk V0` is the valuation after the
   first k parts from `V0` (`W(k+1) V0 = after part(k+1) (Wk V0)`, and `after ops V0 = W14 V0`). The cuts are placed
   where few values are still to be read by later operations: after the operations writing %11, %12, %30, %56, %65, %81, %97,
   %117, %125, %141, %161, %173, %199 (the one operation writing %12, a concatenation, is a part of its own: its operands
   sit inside a list of shaped pairs).

   At cut k, for every buffer b that a later part reads, `Wk_b` states what `Wk V0` holds there: the stage `val_b` at
   `V0`'s contents of the argument buffers when an operation of the first k parts writes b, and `V0`'s own contents when b
   is an argument. For a buffer written in part k this is one pass over the part's operations — each operation's result
   at its own buffer is its function of its operands' contents, and at any other buffer what was there — followed by the
   facts of cut k-1 at the buffers the part reads from before; both sides are then the same tree of the part's operations
   over the earlier stages, kept folded. For a buffer written earlier, or an argument, no operation of part k writes it
   (`Wk_keep`), and the fact of cut k-1 carries over. -/
import proofs.«149158_j47751446397324_2_alg».proof.Proof.RefRun
import proofs.«149158_j47751446397324_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

section Fold

variable {Val : EltTy → Type}

/-- The fold over a concatenation is the fold over the second list from the fold over the first. -/
theorem after_append (l₁ l₂ : List (HloOp τ sig Val)) (V : Valuation τ sig Val) :
    after (l₁ ++ l₂) V = after l₂ (after l₁ V) := by
  induction l₁ generalizing V with
  | nil => rfl
  | cons op l ih => exact ih _

/-- The fold over a list from its position `a` on, split at `n` further operations. -/
theorem after_split (l : List (HloOp τ sig Val)) (a n b : Nat) (h : a + n = b) (V : Valuation τ sig Val) :
    after (l.drop a) V = after (l.drop b) (after ((l.drop a).take n) V) := by
  subst h
  rw [← List.drop_drop, ← after_append, List.take_append_drop]

end Fold

variable {F : FTy → Type} [FloatOps F]

/-- One operation writes only its own result buffer, which is among the listed ones. -/
local macro "writes_one" : tactic =>
  `(tactic| (simp only [nullary_writes, unary_writes, binary_writes, ternary_writes, quaternary_writes, reshape_writes,
      Finset.singleton_subset_iff, List.mem_toFinset]; exact List.mem_map_of_mem (by decide)))

/-! ## Part 1: operations 0 to 14 -/

/-- Operations 0 to 14 of the line. -/
def part1 : List (HloOp τ sig (Elt F)) := (ops.drop 0).take 15

/-- The contents after the first 1 part. -/
def W1 (V0 : Valuation τ sig (Elt F)) : Valuation τ sig (Elt F) := after part1 V0

/-- The buffers part 1 writes. -/
abbrev part1_W : List (Ref sig .tc) := [main_v0, main_v1, main_v2, main_v3, main_cst, main_v4, main_c, main_v5, main_v6, main_c_0, main_v7, main_v8, main_v9, main_v10, main_v11]

set_option maxRecDepth 8192 in
theorem part1_writes : (part1 : List (HloOp τ sig (Elt F))).Forall fun op =>
    op.writes ⊆ (part1_W.map (Proc.devRef (τ := τ) .tc)).toFinset := by
  simp only [part1, ops, List.drop_succ_cons, List.drop_zero, List.take_succ_cons, List.take_zero]
  simp only [List.Forall]
  exact ⟨by writes_one, by writes_one, by writes_one, by writes_one, by writes_one, by writes_one, by writes_one, by writes_one, by writes_one, by writes_one, by writes_one, by writes_one, by writes_one, by writes_one, by writes_one⟩

/-- A buffer part 1 does not write keeps its contents through it. -/
theorem W1_keep (V0 : Valuation τ sig (Elt F)) (r : Ref sig .tc) (h : r ∉ part1_W) :
    W1 V0 (Proc.devRef .tc r) = V0 (Proc.devRef .tc r) :=
  after_of_writes_sub part1 _ part1_writes h

/-- The whole line from `V0` is its operations from 15 on, from the contents after the first 1 part. -/
theorem after_ops_1 (V0 : Valuation τ sig (Elt F)) : after (ops : List (HloOp τ sig (Elt F))) V0 = after ((ops : List (HloOp τ sig (Elt F))).drop 15) (W1 V0) :=
  after_split ops 0 15 15 rfl V0

theorem W1_main_arg2 (V0 : Valuation τ sig (Elt F)) : W1 V0 (no_index (Proc.devRef .tc main_arg2)) = V0 (Proc.devRef .tc main_arg2) :=
  W1_keep V0 main_arg2 (by decide)
theorem W1_main_arg3 (V0 : Valuation τ sig (Elt F)) : W1 V0 (no_index (Proc.devRef .tc main_arg3)) = V0 (Proc.devRef .tc main_arg3) :=
  W1_keep V0 main_arg3 (by decide)
theorem W1_main_arg4 (V0 : Valuation τ sig (Elt F)) : W1 V0 (no_index (Proc.devRef .tc main_arg4)) = V0 (Proc.devRef .tc main_arg4) :=
  W1_keep V0 main_arg4 (by decide)
theorem W1_main_arg5 (V0 : Valuation τ sig (Elt F)) : W1 V0 (no_index (Proc.devRef .tc main_arg5)) = V0 (Proc.devRef .tc main_arg5) :=
  W1_keep V0 main_arg5 (by decide)
theorem W1_main_arg6 (V0 : Valuation τ sig (Elt F)) : W1 V0 (no_index (Proc.devRef .tc main_arg6)) = V0 (Proc.devRef .tc main_arg6) :=
  W1_keep V0 main_arg6 (by decide)
theorem W1_main_arg7 (V0 : Valuation τ sig (Elt F)) : W1 V0 (no_index (Proc.devRef .tc main_arg7)) = V0 (Proc.devRef .tc main_arg7) :=
  W1_keep V0 main_arg7 (by decide)
theorem W1_main_arg8 (V0 : Valuation τ sig (Elt F)) : W1 V0 (no_index (Proc.devRef .tc main_arg8)) = V0 (Proc.devRef .tc main_arg8) :=
  W1_keep V0 main_arg8 (by decide)
theorem W1_main_arg9 (V0 : Valuation τ sig (Elt F)) : W1 V0 (no_index (Proc.devRef .tc main_arg9)) = V0 (Proc.devRef .tc main_arg9) :=
  W1_keep V0 main_arg9 (by decide)
theorem W1_main_arg10 (V0 : Valuation τ sig (Elt F)) : W1 V0 (no_index (Proc.devRef .tc main_arg10)) = V0 (Proc.devRef .tc main_arg10) :=
  W1_keep V0 main_arg10 (by decide)
theorem W1_main_arg11 (V0 : Valuation τ sig (Elt F)) : W1 V0 (no_index (Proc.devRef .tc main_arg11)) = V0 (Proc.devRef .tc main_arg11) :=
  W1_keep V0 main_arg11 (by decide)
theorem W1_main_arg12 (V0 : Valuation τ sig (Elt F)) : W1 V0 (no_index (Proc.devRef .tc main_arg12)) = V0 (Proc.devRef .tc main_arg12) :=
  W1_keep V0 main_arg12 (by decide)
theorem W1_main_arg13 (V0 : Valuation τ sig (Elt F)) : W1 V0 (no_index (Proc.devRef .tc main_arg13)) = V0 (Proc.devRef .tc main_arg13) :=
  W1_keep V0 main_arg13 (by decide)
theorem W1_main_arg14 (V0 : Valuation τ sig (Elt F)) : W1 V0 (no_index (Proc.devRef .tc main_arg14)) = V0 (Proc.devRef .tc main_arg14) :=
  W1_keep V0 main_arg14 (by decide)
theorem W1_main_arg15 (V0 : Valuation τ sig (Elt F)) : W1 V0 (no_index (Proc.devRef .tc main_arg15)) = V0 (Proc.devRef .tc main_arg15) :=
  W1_keep V0 main_arg15 (by decide)
theorem W1_main_arg16 (V0 : Valuation τ sig (Elt F)) : W1 V0 (no_index (Proc.devRef .tc main_arg16)) = V0 (Proc.devRef .tc main_arg16) :=
  W1_keep V0 main_arg16 (by decide)
theorem W1_main_arg17 (V0 : Valuation τ sig (Elt F)) : W1 V0 (no_index (Proc.devRef .tc main_arg17)) = V0 (Proc.devRef .tc main_arg17) :=
  W1_keep V0 main_arg17 (by decide)
theorem W1_main_arg18 (V0 : Valuation τ sig (Elt F)) : W1 V0 (no_index (Proc.devRef .tc main_arg18)) = V0 (Proc.devRef .tc main_arg18) :=
  W1_keep V0 main_arg18 (by decide)

set_option maxRecDepth 8192 in
set_option maxHeartbeats 2000000 in
/-- `main_v11` after part 1: the stage, at the launch contents of the arguments. -/
theorem W1_main_v11 (V0 : Valuation τ sig (Elt F)) : W1 V0 (no_index (Proc.devRef .tc main_v11)) = val_main_v11 (F := F) (V0 (Proc.devRef .tc main_arg0)) (V0 (Proc.devRef .tc main_arg1)) := by
  unfold W1
  simp only [part1, ops, List.drop_succ_cons, List.drop_zero, List.take_succ_cons, List.take_zero]
  after_results_simp
  all_goals rfl

set_option maxRecDepth 8192 in
set_option maxHeartbeats 2000000 in
/-- `main_v3` after part 1: the stage, at the launch contents of the arguments. -/
theorem W1_main_v3 (V0 : Valuation τ sig (Elt F)) : W1 V0 (no_index (Proc.devRef .tc main_v3)) = val_main_v3 (F := F) (V0 (Proc.devRef .tc main_arg1)) := by
  unfold W1
  simp only [part1, ops, List.drop_succ_cons, List.drop_zero, List.take_succ_cons, List.take_zero]
  after_results_simp
  all_goals rfl

set_option maxRecDepth 8192 in
set_option maxHeartbeats 2000000 in
/-- `main_v4` after part 1: the stage, at the launch contents of the arguments. -/
theorem W1_main_v4 (V0 : Valuation τ sig (Elt F)) : W1 V0 (no_index (Proc.devRef .tc main_v4)) = val_main_v4 (F := F) := by
  unfold W1
  simp only [part1, ops, List.drop_succ_cons, List.drop_zero, List.take_succ_cons, List.take_zero]
  after_results_simp
  all_goals rfl

set_option maxRecDepth 8192 in
set_option maxHeartbeats 2000000 in
/-- `main_v1` after part 1: the stage, at the launch contents of the arguments. -/
theorem W1_main_v1 (V0 : Valuation τ sig (Elt F)) : W1 V0 (no_index (Proc.devRef .tc main_v1)) = val_main_v1 (F := F) (V0 (Proc.devRef .tc main_arg1)) := by
  unfold W1
  simp only [part1, ops, List.drop_succ_cons, List.drop_zero, List.take_succ_cons, List.take_zero]
  after_results_simp
  all_goals rfl

/-! ## Part 2: operations 15 to 15 -/

/-- Operations 15 to 15 of the line. -/
def part2 : List (HloOp τ sig (Elt F)) := (ops.drop 15).take 1

/-- The contents after the first 2 parts. -/
def W2 (V0 : Valuation τ sig (Elt F)) : Valuation τ sig (Elt F) := after part2 (W1 V0)

/-- The buffers part 2 writes. -/
abbrev part2_W : List (Ref sig .tc) := [main_v12]

set_option maxRecDepth 8192 in
theorem part2_writes : (part2 : List (HloOp τ sig (Elt F))).Forall fun op =>
    op.writes ⊆ (part2_W.map (Proc.devRef (τ := τ) .tc)).toFinset := by
  simp only [part2, ops, List.drop_succ_cons, List.drop_zero, List.take_succ_cons, List.take_zero]
  simp only [List.Forall]
  exact (by writes_one)

/-- A buffer part 2 does not write keeps its contents through it. -/
theorem W2_keep (V0 : Valuation τ sig (Elt F)) (r : Ref sig .tc) (h : r ∉ part2_W) :
    W2 V0 (Proc.devRef .tc r) = W1 V0 (Proc.devRef .tc r) :=
  after_of_writes_sub part2 _ part2_writes h

/-- The whole line from `V0` is its operations from 16 on, from the contents after the first 2 parts. -/
theorem after_ops_2 (V0 : Valuation τ sig (Elt F)) : after (ops : List (HloOp τ sig (Elt F))) V0 = after ((ops : List (HloOp τ sig (Elt F))).drop 16) (W2 V0) :=
  (after_ops_1 V0).trans (after_split ops 15 1 16 rfl (W1 V0))

theorem W2_main_arg3 (V0 : Valuation τ sig (Elt F)) : W2 V0 (no_index (Proc.devRef .tc main_arg3)) = V0 (Proc.devRef .tc main_arg3) :=
  (W2_keep V0 main_arg3 (by decide)).trans (W1_main_arg3 V0)
theorem W2_main_arg4 (V0 : Valuation τ sig (Elt F)) : W2 V0 (no_index (Proc.devRef .tc main_arg4)) = V0 (Proc.devRef .tc main_arg4) :=
  (W2_keep V0 main_arg4 (by decide)).trans (W1_main_arg4 V0)
theorem W2_main_v3 (V0 : Valuation τ sig (Elt F)) : W2 V0 (no_index (Proc.devRef .tc main_v3)) = val_main_v3 (F := F) (V0 (Proc.devRef .tc main_arg1)) :=
  (W2_keep V0 main_v3 (by decide)).trans (W1_main_v3 V0)
theorem W2_main_v4 (V0 : Valuation τ sig (Elt F)) : W2 V0 (no_index (Proc.devRef .tc main_v4)) = val_main_v4 (F := F) :=
  (W2_keep V0 main_v4 (by decide)).trans (W1_main_v4 V0)
theorem W2_main_arg5 (V0 : Valuation τ sig (Elt F)) : W2 V0 (no_index (Proc.devRef .tc main_arg5)) = V0 (Proc.devRef .tc main_arg5) :=
  (W2_keep V0 main_arg5 (by decide)).trans (W1_main_arg5 V0)
theorem W2_main_arg6 (V0 : Valuation τ sig (Elt F)) : W2 V0 (no_index (Proc.devRef .tc main_arg6)) = V0 (Proc.devRef .tc main_arg6) :=
  (W2_keep V0 main_arg6 (by decide)).trans (W1_main_arg6 V0)
theorem W2_main_arg7 (V0 : Valuation τ sig (Elt F)) : W2 V0 (no_index (Proc.devRef .tc main_arg7)) = V0 (Proc.devRef .tc main_arg7) :=
  (W2_keep V0 main_arg7 (by decide)).trans (W1_main_arg7 V0)
theorem W2_main_arg8 (V0 : Valuation τ sig (Elt F)) : W2 V0 (no_index (Proc.devRef .tc main_arg8)) = V0 (Proc.devRef .tc main_arg8) :=
  (W2_keep V0 main_arg8 (by decide)).trans (W1_main_arg8 V0)
theorem W2_main_v1 (V0 : Valuation τ sig (Elt F)) : W2 V0 (no_index (Proc.devRef .tc main_v1)) = val_main_v1 (F := F) (V0 (Proc.devRef .tc main_arg1)) :=
  (W2_keep V0 main_v1 (by decide)).trans (W1_main_v1 V0)
theorem W2_main_arg9 (V0 : Valuation τ sig (Elt F)) : W2 V0 (no_index (Proc.devRef .tc main_arg9)) = V0 (Proc.devRef .tc main_arg9) :=
  (W2_keep V0 main_arg9 (by decide)).trans (W1_main_arg9 V0)
theorem W2_main_arg10 (V0 : Valuation τ sig (Elt F)) : W2 V0 (no_index (Proc.devRef .tc main_arg10)) = V0 (Proc.devRef .tc main_arg10) :=
  (W2_keep V0 main_arg10 (by decide)).trans (W1_main_arg10 V0)
theorem W2_main_arg11 (V0 : Valuation τ sig (Elt F)) : W2 V0 (no_index (Proc.devRef .tc main_arg11)) = V0 (Proc.devRef .tc main_arg11) :=
  (W2_keep V0 main_arg11 (by decide)).trans (W1_main_arg11 V0)
theorem W2_main_arg12 (V0 : Valuation τ sig (Elt F)) : W2 V0 (no_index (Proc.devRef .tc main_arg12)) = V0 (Proc.devRef .tc main_arg12) :=
  (W2_keep V0 main_arg12 (by decide)).trans (W1_main_arg12 V0)
theorem W2_main_arg13 (V0 : Valuation τ sig (Elt F)) : W2 V0 (no_index (Proc.devRef .tc main_arg13)) = V0 (Proc.devRef .tc main_arg13) :=
  (W2_keep V0 main_arg13 (by decide)).trans (W1_main_arg13 V0)
theorem W2_main_arg14 (V0 : Valuation τ sig (Elt F)) : W2 V0 (no_index (Proc.devRef .tc main_arg14)) = V0 (Proc.devRef .tc main_arg14) :=
  (W2_keep V0 main_arg14 (by decide)).trans (W1_main_arg14 V0)
theorem W2_main_arg15 (V0 : Valuation τ sig (Elt F)) : W2 V0 (no_index (Proc.devRef .tc main_arg15)) = V0 (Proc.devRef .tc main_arg15) :=
  (W2_keep V0 main_arg15 (by decide)).trans (W1_main_arg15 V0)
theorem W2_main_arg16 (V0 : Valuation τ sig (Elt F)) : W2 V0 (no_index (Proc.devRef .tc main_arg16)) = V0 (Proc.devRef .tc main_arg16) :=
  (W2_keep V0 main_arg16 (by decide)).trans (W1_main_arg16 V0)
theorem W2_main_arg17 (V0 : Valuation τ sig (Elt F)) : W2 V0 (no_index (Proc.devRef .tc main_arg17)) = V0 (Proc.devRef .tc main_arg17) :=
  (W2_keep V0 main_arg17 (by decide)).trans (W1_main_arg17 V0)
theorem W2_main_arg18 (V0 : Valuation τ sig (Elt F)) : W2 V0 (no_index (Proc.devRef .tc main_arg18)) = V0 (Proc.devRef .tc main_arg18) :=
  (W2_keep V0 main_arg18 (by decide)).trans (W1_main_arg18 V0)

set_option maxRecDepth 8192 in
set_option maxHeartbeats 2000000 in
/-- `main_v12` after part 2: the stage, at the launch contents of the arguments. -/
theorem W2_main_v12 (V0 : Valuation τ sig (Elt F)) : W2 V0 (no_index (Proc.devRef .tc main_v12)) = val_main_v12 (F := F) (V0 (Proc.devRef .tc main_arg0)) (V0 (Proc.devRef .tc main_arg1)) (V0 (Proc.devRef .tc main_arg2)) := by
  unfold W2
  simp only [part2, ops, List.drop_succ_cons, List.drop_zero, List.take_succ_cons, List.take_zero]
  after_results_simp
  rw [W1_main_arg2, W1_main_v11]
  all_goals rfl

/-! ## Part 3: operations 16 to 38 -/

/-- Operations 16 to 38 of the line. -/
def part3 : List (HloOp τ sig (Elt F)) := (ops.drop 16).take 23

/-- The contents after the first 3 parts. -/
def W3 (V0 : Valuation τ sig (Elt F)) : Valuation τ sig (Elt F) := after part3 (W2 V0)

/-- The buffers part 3 writes. -/
abbrev part3_W : List (Ref sig .tc) := [main_v13, main_v14, main_v15, main_v16, main_cst_1, main_v17, main_v18, main_v19, main_cst_2, main_v20, main_v21, main_v22, main_cst_3, main_call0_v0, main_call0_v1, main_v23, main_v24, main_v25, main_v26, main_v27, main_v28, main_v29, main_v30]

set_option maxRecDepth 8192 in
theorem part3_writes : (part3 : List (HloOp τ sig (Elt F))).Forall fun op =>
    op.writes ⊆ (part3_W.map (Proc.devRef (τ := τ) .tc)).toFinset := by
  simp only [part3, ops, List.drop_succ_cons, List.drop_zero, List.take_succ_cons, List.take_zero]
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- A buffer part 3 does not write keeps its contents through it. -/
theorem W3_keep (V0 : Valuation τ sig (Elt F)) (r : Ref sig .tc) (h : r ∉ part3_W) :
    W3 V0 (Proc.devRef .tc r) = W2 V0 (Proc.devRef .tc r) :=
  after_of_writes_sub part3 _ part3_writes h

/-- The whole line from `V0` is its operations from 39 on, from the contents after the first 3 parts. -/
theorem after_ops_3 (V0 : Valuation τ sig (Elt F)) : after (ops : List (HloOp τ sig (Elt F))) V0 = after ((ops : List (HloOp τ sig (Elt F))).drop 39) (W3 V0) :=
  (after_ops_2 V0).trans (after_split ops 16 23 39 rfl (W2 V0))

theorem W3_main_arg7 (V0 : Valuation τ sig (Elt F)) : W3 V0 (no_index (Proc.devRef .tc main_arg7)) = V0 (Proc.devRef .tc main_arg7) :=
  (W3_keep V0 main_arg7 (by decide)).trans (W2_main_arg7 V0)
theorem W3_main_arg8 (V0 : Valuation τ sig (Elt F)) : W3 V0 (no_index (Proc.devRef .tc main_arg8)) = V0 (Proc.devRef .tc main_arg8) :=
  (W3_keep V0 main_arg8 (by decide)).trans (W2_main_arg8 V0)
theorem W3_main_v1 (V0 : Valuation τ sig (Elt F)) : W3 V0 (no_index (Proc.devRef .tc main_v1)) = val_main_v1 (F := F) (V0 (Proc.devRef .tc main_arg1)) :=
  (W3_keep V0 main_v1 (by decide)).trans (W2_main_v1 V0)
theorem W3_main_v4 (V0 : Valuation τ sig (Elt F)) : W3 V0 (no_index (Proc.devRef .tc main_v4)) = val_main_v4 (F := F) :=
  (W3_keep V0 main_v4 (by decide)).trans (W2_main_v4 V0)
theorem W3_main_v3 (V0 : Valuation τ sig (Elt F)) : W3 V0 (no_index (Proc.devRef .tc main_v3)) = val_main_v3 (F := F) (V0 (Proc.devRef .tc main_arg1)) :=
  (W3_keep V0 main_v3 (by decide)).trans (W2_main_v3 V0)
theorem W3_main_arg9 (V0 : Valuation τ sig (Elt F)) : W3 V0 (no_index (Proc.devRef .tc main_arg9)) = V0 (Proc.devRef .tc main_arg9) :=
  (W3_keep V0 main_arg9 (by decide)).trans (W2_main_arg9 V0)
theorem W3_main_arg10 (V0 : Valuation τ sig (Elt F)) : W3 V0 (no_index (Proc.devRef .tc main_arg10)) = V0 (Proc.devRef .tc main_arg10) :=
  (W3_keep V0 main_arg10 (by decide)).trans (W2_main_arg10 V0)
theorem W3_main_arg11 (V0 : Valuation τ sig (Elt F)) : W3 V0 (no_index (Proc.devRef .tc main_arg11)) = V0 (Proc.devRef .tc main_arg11) :=
  (W3_keep V0 main_arg11 (by decide)).trans (W2_main_arg11 V0)
theorem W3_main_arg12 (V0 : Valuation τ sig (Elt F)) : W3 V0 (no_index (Proc.devRef .tc main_arg12)) = V0 (Proc.devRef .tc main_arg12) :=
  (W3_keep V0 main_arg12 (by decide)).trans (W2_main_arg12 V0)
theorem W3_main_arg13 (V0 : Valuation τ sig (Elt F)) : W3 V0 (no_index (Proc.devRef .tc main_arg13)) = V0 (Proc.devRef .tc main_arg13) :=
  (W3_keep V0 main_arg13 (by decide)).trans (W2_main_arg13 V0)
theorem W3_main_arg14 (V0 : Valuation τ sig (Elt F)) : W3 V0 (no_index (Proc.devRef .tc main_arg14)) = V0 (Proc.devRef .tc main_arg14) :=
  (W3_keep V0 main_arg14 (by decide)).trans (W2_main_arg14 V0)
theorem W3_main_arg15 (V0 : Valuation τ sig (Elt F)) : W3 V0 (no_index (Proc.devRef .tc main_arg15)) = V0 (Proc.devRef .tc main_arg15) :=
  (W3_keep V0 main_arg15 (by decide)).trans (W2_main_arg15 V0)
theorem W3_main_arg16 (V0 : Valuation τ sig (Elt F)) : W3 V0 (no_index (Proc.devRef .tc main_arg16)) = V0 (Proc.devRef .tc main_arg16) :=
  (W3_keep V0 main_arg16 (by decide)).trans (W2_main_arg16 V0)
theorem W3_main_arg17 (V0 : Valuation τ sig (Elt F)) : W3 V0 (no_index (Proc.devRef .tc main_arg17)) = V0 (Proc.devRef .tc main_arg17) :=
  (W3_keep V0 main_arg17 (by decide)).trans (W2_main_arg17 V0)
theorem W3_main_arg18 (V0 : Valuation τ sig (Elt F)) : W3 V0 (no_index (Proc.devRef .tc main_arg18)) = V0 (Proc.devRef .tc main_arg18) :=
  (W3_keep V0 main_arg18 (by decide)).trans (W2_main_arg18 V0)

set_option maxRecDepth 8192 in
set_option maxHeartbeats 2000000 in
/-- `main_v30` after part 3: the stage, at the launch contents of the arguments. -/
theorem W3_main_v30 (V0 : Valuation τ sig (Elt F)) : W3 V0 (no_index (Proc.devRef .tc main_v30)) = val_main_v30 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold W3
  simp only [part3, ops, List.drop_succ_cons, List.drop_zero, List.take_succ_cons, List.take_zero]
  after_results_simp
  try simp only [W2_main_arg6, W2_main_arg5, W2_main_v4, W2_main_v3, W2_main_arg4, W2_main_arg3, W2_main_v12]
  all_goals rfl

/-! ## Part 4: operations 39 to 71 -/

/-- Operations 39 to 71 of the line. -/
def part4 : List (HloOp τ sig (Elt F)) := (ops.drop 39).take 33

/-- The contents after the first 4 parts. -/
def W4 (V0 : Valuation τ sig (Elt F)) : Valuation τ sig (Elt F) := after part4 (W3 V0)

/-- The buffers part 4 writes. -/
abbrev part4_W : List (Ref sig .tc) := [main_cst_4, main_v31, main_cst_5, main_v32, main_v33, main_v34, main_v35, main_v36, main_v37, main_cst_6, main_v38, main_cst_7, main_v39, main_v40, main_v41, main_v42, main_v43, main_v44, main_v45, main_v46, main_cst_8, main_v47, main_v48, main_v49, main_v50, main_v51, main_v52, main_v53, main_v54, main_v55, main_call1_cst, main_call1_v0, main_v56]

set_option maxRecDepth 8192 in
theorem part4_writes : (part4 : List (HloOp τ sig (Elt F))).Forall fun op =>
    op.writes ⊆ (part4_W.map (Proc.devRef (τ := τ) .tc)).toFinset := by
  simp only [part4, ops, List.drop_succ_cons, List.drop_zero, List.take_succ_cons, List.take_zero]
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- A buffer part 4 does not write keeps its contents through it. -/
theorem W4_keep (V0 : Valuation τ sig (Elt F)) (r : Ref sig .tc) (h : r ∉ part4_W) :
    W4 V0 (Proc.devRef .tc r) = W3 V0 (Proc.devRef .tc r) :=
  after_of_writes_sub part4 _ part4_writes h

/-- The whole line from `V0` is its operations from 72 on, from the contents after the first 4 parts. -/
theorem after_ops_4 (V0 : Valuation τ sig (Elt F)) : after (ops : List (HloOp τ sig (Elt F))) V0 = after ((ops : List (HloOp τ sig (Elt F))).drop 72) (W4 V0) :=
  (after_ops_3 V0).trans (after_split ops 39 33 72 rfl (W3 V0))

theorem W4_main_v1 (V0 : Valuation τ sig (Elt F)) : W4 V0 (no_index (Proc.devRef .tc main_v1)) = val_main_v1 (F := F) (V0 (Proc.devRef .tc main_arg1)) :=
  (W4_keep V0 main_v1 (by decide)).trans (W3_main_v1 V0)
theorem W4_main_v4 (V0 : Valuation τ sig (Elt F)) : W4 V0 (no_index (Proc.devRef .tc main_v4)) = val_main_v4 (F := F) :=
  (W4_keep V0 main_v4 (by decide)).trans (W3_main_v4 V0)
theorem W4_main_v3 (V0 : Valuation τ sig (Elt F)) : W4 V0 (no_index (Proc.devRef .tc main_v3)) = val_main_v3 (F := F) (V0 (Proc.devRef .tc main_arg1)) :=
  (W4_keep V0 main_v3 (by decide)).trans (W3_main_v3 V0)
theorem W4_main_arg9 (V0 : Valuation τ sig (Elt F)) : W4 V0 (no_index (Proc.devRef .tc main_arg9)) = V0 (Proc.devRef .tc main_arg9) :=
  (W4_keep V0 main_arg9 (by decide)).trans (W3_main_arg9 V0)
theorem W4_main_arg10 (V0 : Valuation τ sig (Elt F)) : W4 V0 (no_index (Proc.devRef .tc main_arg10)) = V0 (Proc.devRef .tc main_arg10) :=
  (W4_keep V0 main_arg10 (by decide)).trans (W3_main_arg10 V0)
theorem W4_main_arg11 (V0 : Valuation τ sig (Elt F)) : W4 V0 (no_index (Proc.devRef .tc main_arg11)) = V0 (Proc.devRef .tc main_arg11) :=
  (W4_keep V0 main_arg11 (by decide)).trans (W3_main_arg11 V0)
theorem W4_main_arg12 (V0 : Valuation τ sig (Elt F)) : W4 V0 (no_index (Proc.devRef .tc main_arg12)) = V0 (Proc.devRef .tc main_arg12) :=
  (W4_keep V0 main_arg12 (by decide)).trans (W3_main_arg12 V0)
theorem W4_main_arg13 (V0 : Valuation τ sig (Elt F)) : W4 V0 (no_index (Proc.devRef .tc main_arg13)) = V0 (Proc.devRef .tc main_arg13) :=
  (W4_keep V0 main_arg13 (by decide)).trans (W3_main_arg13 V0)
theorem W4_main_arg14 (V0 : Valuation τ sig (Elt F)) : W4 V0 (no_index (Proc.devRef .tc main_arg14)) = V0 (Proc.devRef .tc main_arg14) :=
  (W4_keep V0 main_arg14 (by decide)).trans (W3_main_arg14 V0)
theorem W4_main_arg15 (V0 : Valuation τ sig (Elt F)) : W4 V0 (no_index (Proc.devRef .tc main_arg15)) = V0 (Proc.devRef .tc main_arg15) :=
  (W4_keep V0 main_arg15 (by decide)).trans (W3_main_arg15 V0)
theorem W4_main_arg16 (V0 : Valuation τ sig (Elt F)) : W4 V0 (no_index (Proc.devRef .tc main_arg16)) = V0 (Proc.devRef .tc main_arg16) :=
  (W4_keep V0 main_arg16 (by decide)).trans (W3_main_arg16 V0)
theorem W4_main_arg17 (V0 : Valuation τ sig (Elt F)) : W4 V0 (no_index (Proc.devRef .tc main_arg17)) = V0 (Proc.devRef .tc main_arg17) :=
  (W4_keep V0 main_arg17 (by decide)).trans (W3_main_arg17 V0)
theorem W4_main_arg18 (V0 : Valuation τ sig (Elt F)) : W4 V0 (no_index (Proc.devRef .tc main_arg18)) = V0 (Proc.devRef .tc main_arg18) :=
  (W4_keep V0 main_arg18 (by decide)).trans (W3_main_arg18 V0)

set_option maxRecDepth 8192 in
set_option maxHeartbeats 2000000 in
/-- `main_v56` after part 4: the stage, at the launch contents of the arguments. -/
theorem W4_main_v56 (V0 : Valuation τ sig (Elt F)) : W4 V0 (no_index (Proc.devRef .tc main_v56)) = val_main_v56 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold W4
  simp only [part4, ops, List.drop_succ_cons, List.drop_zero, List.take_succ_cons, List.take_zero]
  after_results_simp
  try simp only [W3_main_arg8, W3_main_v30, W3_main_arg7]
  all_goals rfl

/-! ## Part 5: operations 72 to 86 -/

/-- Operations 72 to 86 of the line. -/
def part5 : List (HloOp τ sig (Elt F)) := (ops.drop 72).take 15

/-- The contents after the first 5 parts. -/
def W5 (V0 : Valuation τ sig (Elt F)) : Valuation τ sig (Elt F) := after part5 (W4 V0)

/-- The buffers part 5 writes. -/
abbrev part5_W : List (Ref sig .tc) := [main_cst_9, main_v57, main_v58, main_v59, main_cst_10, main_v60, main_v61, main_cst_11, main_v62, main_v63, main_v64, main_cst_12, main_call2_v0, main_call2_v1, main_v65]

set_option maxRecDepth 8192 in
theorem part5_writes : (part5 : List (HloOp τ sig (Elt F))).Forall fun op =>
    op.writes ⊆ (part5_W.map (Proc.devRef (τ := τ) .tc)).toFinset := by
  simp only [part5, ops, List.drop_succ_cons, List.drop_zero, List.take_succ_cons, List.take_zero]
  simp only [List.Forall]
  exact ⟨by writes_one, by writes_one, by writes_one, by writes_one, by writes_one, by writes_one, by writes_one, by writes_one, by writes_one, by writes_one, by writes_one, by writes_one, by writes_one, by writes_one, by writes_one⟩

/-- A buffer part 5 does not write keeps its contents through it. -/
theorem W5_keep (V0 : Valuation τ sig (Elt F)) (r : Ref sig .tc) (h : r ∉ part5_W) :
    W5 V0 (Proc.devRef .tc r) = W4 V0 (Proc.devRef .tc r) :=
  after_of_writes_sub part5 _ part5_writes h

/-- The whole line from `V0` is its operations from 87 on, from the contents after the first 5 parts. -/
theorem after_ops_5 (V0 : Valuation τ sig (Elt F)) : after (ops : List (HloOp τ sig (Elt F))) V0 = after ((ops : List (HloOp τ sig (Elt F))).drop 87) (W5 V0) :=
  (after_ops_4 V0).trans (after_split ops 72 15 87 rfl (W4 V0))

theorem W5_main_v1 (V0 : Valuation τ sig (Elt F)) : W5 V0 (no_index (Proc.devRef .tc main_v1)) = val_main_v1 (F := F) (V0 (Proc.devRef .tc main_arg1)) :=
  (W5_keep V0 main_v1 (by decide)).trans (W4_main_v1 V0)
theorem W5_main_v3 (V0 : Valuation τ sig (Elt F)) : W5 V0 (no_index (Proc.devRef .tc main_v3)) = val_main_v3 (F := F) (V0 (Proc.devRef .tc main_arg1)) :=
  (W5_keep V0 main_v3 (by decide)).trans (W4_main_v3 V0)
theorem W5_main_arg9 (V0 : Valuation τ sig (Elt F)) : W5 V0 (no_index (Proc.devRef .tc main_arg9)) = V0 (Proc.devRef .tc main_arg9) :=
  (W5_keep V0 main_arg9 (by decide)).trans (W4_main_arg9 V0)
theorem W5_main_v56 (V0 : Valuation τ sig (Elt F)) : W5 V0 (no_index (Proc.devRef .tc main_v56)) = val_main_v56 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (W5_keep V0 main_v56 (by decide)).trans (W4_main_v56 V0)
theorem W5_main_arg10 (V0 : Valuation τ sig (Elt F)) : W5 V0 (no_index (Proc.devRef .tc main_arg10)) = V0 (Proc.devRef .tc main_arg10) :=
  (W5_keep V0 main_arg10 (by decide)).trans (W4_main_arg10 V0)
theorem W5_main_arg11 (V0 : Valuation τ sig (Elt F)) : W5 V0 (no_index (Proc.devRef .tc main_arg11)) = V0 (Proc.devRef .tc main_arg11) :=
  (W5_keep V0 main_arg11 (by decide)).trans (W4_main_arg11 V0)
theorem W5_main_arg12 (V0 : Valuation τ sig (Elt F)) : W5 V0 (no_index (Proc.devRef .tc main_arg12)) = V0 (Proc.devRef .tc main_arg12) :=
  (W5_keep V0 main_arg12 (by decide)).trans (W4_main_arg12 V0)
theorem W5_main_arg13 (V0 : Valuation τ sig (Elt F)) : W5 V0 (no_index (Proc.devRef .tc main_arg13)) = V0 (Proc.devRef .tc main_arg13) :=
  (W5_keep V0 main_arg13 (by decide)).trans (W4_main_arg13 V0)
theorem W5_main_arg14 (V0 : Valuation τ sig (Elt F)) : W5 V0 (no_index (Proc.devRef .tc main_arg14)) = V0 (Proc.devRef .tc main_arg14) :=
  (W5_keep V0 main_arg14 (by decide)).trans (W4_main_arg14 V0)
theorem W5_main_arg15 (V0 : Valuation τ sig (Elt F)) : W5 V0 (no_index (Proc.devRef .tc main_arg15)) = V0 (Proc.devRef .tc main_arg15) :=
  (W5_keep V0 main_arg15 (by decide)).trans (W4_main_arg15 V0)
theorem W5_main_arg16 (V0 : Valuation τ sig (Elt F)) : W5 V0 (no_index (Proc.devRef .tc main_arg16)) = V0 (Proc.devRef .tc main_arg16) :=
  (W5_keep V0 main_arg16 (by decide)).trans (W4_main_arg16 V0)
theorem W5_main_arg17 (V0 : Valuation τ sig (Elt F)) : W5 V0 (no_index (Proc.devRef .tc main_arg17)) = V0 (Proc.devRef .tc main_arg17) :=
  (W5_keep V0 main_arg17 (by decide)).trans (W4_main_arg17 V0)
theorem W5_main_arg18 (V0 : Valuation τ sig (Elt F)) : W5 V0 (no_index (Proc.devRef .tc main_arg18)) = V0 (Proc.devRef .tc main_arg18) :=
  (W5_keep V0 main_arg18 (by decide)).trans (W4_main_arg18 V0)

set_option maxRecDepth 8192 in
set_option maxHeartbeats 2000000 in
/-- `main_v65` after part 5: the stage, at the launch contents of the arguments. -/
theorem W5_main_v65 (V0 : Valuation τ sig (Elt F)) : W5 V0 (no_index (Proc.devRef .tc main_v65)) = val_main_v65 (F := F) (V0 (Proc.devRef .tc main_arg1)) := by
  unfold W5
  simp only [part5, ops, List.drop_succ_cons, List.drop_zero, List.take_succ_cons, List.take_zero]
  after_results_simp
  try simp only [W4_main_v4, W4_main_v1]
  all_goals rfl

/-! ## Part 6: operations 87 to 106 -/

/-- Operations 87 to 106 of the line. -/
def part6 : List (HloOp τ sig (Elt F)) := (ops.drop 87).take 20

/-- The contents after the first 6 parts. -/
def W6 (V0 : Valuation τ sig (Elt F)) : Valuation τ sig (Elt F) := after part6 (W5 V0)

/-- The buffers part 6 writes. -/
abbrev part6_W : List (Ref sig .tc) := [main_c_13, main_v66, main_v67, main_c_14, main_v68, main_v69, main_v70, main_v71, main_v72, main_v73, main_c_15, main_v74, main_v75, main_c_16, main_v76, main_v77, main_v78, main_v79, main_v80, main_v81]

set_option maxRecDepth 8192 in
theorem part6_writes : (part6 : List (HloOp τ sig (Elt F))).Forall fun op =>
    op.writes ⊆ (part6_W.map (Proc.devRef (τ := τ) .tc)).toFinset := by
  simp only [part6, ops, List.drop_succ_cons, List.drop_zero, List.take_succ_cons, List.take_zero]
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- A buffer part 6 does not write keeps its contents through it. -/
theorem W6_keep (V0 : Valuation τ sig (Elt F)) (r : Ref sig .tc) (h : r ∉ part6_W) :
    W6 V0 (Proc.devRef .tc r) = W5 V0 (Proc.devRef .tc r) :=
  after_of_writes_sub part6 _ part6_writes h

/-- The whole line from `V0` is its operations from 107 on, from the contents after the first 6 parts. -/
theorem after_ops_6 (V0 : Valuation τ sig (Elt F)) : after (ops : List (HloOp τ sig (Elt F))) V0 = after ((ops : List (HloOp τ sig (Elt F))).drop 107) (W6 V0) :=
  (after_ops_5 V0).trans (after_split ops 87 20 107 rfl (W5 V0))

theorem W6_main_arg9 (V0 : Valuation τ sig (Elt F)) : W6 V0 (no_index (Proc.devRef .tc main_arg9)) = V0 (Proc.devRef .tc main_arg9) :=
  (W6_keep V0 main_arg9 (by decide)).trans (W5_main_arg9 V0)
theorem W6_main_v56 (V0 : Valuation τ sig (Elt F)) : W6 V0 (no_index (Proc.devRef .tc main_v56)) = val_main_v56 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (W6_keep V0 main_v56 (by decide)).trans (W5_main_v56 V0)
theorem W6_main_v1 (V0 : Valuation τ sig (Elt F)) : W6 V0 (no_index (Proc.devRef .tc main_v1)) = val_main_v1 (F := F) (V0 (Proc.devRef .tc main_arg1)) :=
  (W6_keep V0 main_v1 (by decide)).trans (W5_main_v1 V0)
theorem W6_main_v3 (V0 : Valuation τ sig (Elt F)) : W6 V0 (no_index (Proc.devRef .tc main_v3)) = val_main_v3 (F := F) (V0 (Proc.devRef .tc main_arg1)) :=
  (W6_keep V0 main_v3 (by decide)).trans (W5_main_v3 V0)
theorem W6_main_arg10 (V0 : Valuation τ sig (Elt F)) : W6 V0 (no_index (Proc.devRef .tc main_arg10)) = V0 (Proc.devRef .tc main_arg10) :=
  (W6_keep V0 main_arg10 (by decide)).trans (W5_main_arg10 V0)
theorem W6_main_arg11 (V0 : Valuation τ sig (Elt F)) : W6 V0 (no_index (Proc.devRef .tc main_arg11)) = V0 (Proc.devRef .tc main_arg11) :=
  (W6_keep V0 main_arg11 (by decide)).trans (W5_main_arg11 V0)
theorem W6_main_arg12 (V0 : Valuation τ sig (Elt F)) : W6 V0 (no_index (Proc.devRef .tc main_arg12)) = V0 (Proc.devRef .tc main_arg12) :=
  (W6_keep V0 main_arg12 (by decide)).trans (W5_main_arg12 V0)
theorem W6_main_arg13 (V0 : Valuation τ sig (Elt F)) : W6 V0 (no_index (Proc.devRef .tc main_arg13)) = V0 (Proc.devRef .tc main_arg13) :=
  (W6_keep V0 main_arg13 (by decide)).trans (W5_main_arg13 V0)
theorem W6_main_arg14 (V0 : Valuation τ sig (Elt F)) : W6 V0 (no_index (Proc.devRef .tc main_arg14)) = V0 (Proc.devRef .tc main_arg14) :=
  (W6_keep V0 main_arg14 (by decide)).trans (W5_main_arg14 V0)
theorem W6_main_arg15 (V0 : Valuation τ sig (Elt F)) : W6 V0 (no_index (Proc.devRef .tc main_arg15)) = V0 (Proc.devRef .tc main_arg15) :=
  (W6_keep V0 main_arg15 (by decide)).trans (W5_main_arg15 V0)
theorem W6_main_arg16 (V0 : Valuation τ sig (Elt F)) : W6 V0 (no_index (Proc.devRef .tc main_arg16)) = V0 (Proc.devRef .tc main_arg16) :=
  (W6_keep V0 main_arg16 (by decide)).trans (W5_main_arg16 V0)
theorem W6_main_arg17 (V0 : Valuation τ sig (Elt F)) : W6 V0 (no_index (Proc.devRef .tc main_arg17)) = V0 (Proc.devRef .tc main_arg17) :=
  (W6_keep V0 main_arg17 (by decide)).trans (W5_main_arg17 V0)
theorem W6_main_arg18 (V0 : Valuation τ sig (Elt F)) : W6 V0 (no_index (Proc.devRef .tc main_arg18)) = V0 (Proc.devRef .tc main_arg18) :=
  (W6_keep V0 main_arg18 (by decide)).trans (W5_main_arg18 V0)

set_option maxRecDepth 8192 in
set_option maxHeartbeats 2000000 in
/-- `main_v81` after part 6: the stage, at the launch contents of the arguments. -/
theorem W6_main_v81 (V0 : Valuation τ sig (Elt F)) : W6 V0 (no_index (Proc.devRef .tc main_v81)) = val_main_v81 (F := F) (V0 (Proc.devRef .tc main_arg1)) := by
  unfold W6
  simp only [part6, ops, List.drop_succ_cons, List.drop_zero, List.take_succ_cons, List.take_zero]
  after_results_simp
  try simp only [W5_main_v3, W5_main_v65, W5_main_v1]
  all_goals rfl

/-! ## Part 7: operations 107 to 125 -/

/-- Operations 107 to 125 of the line. -/
def part7 : List (HloOp τ sig (Elt F)) := (ops.drop 107).take 19

/-- The contents after the first 7 parts. -/
def W7 (V0 : Valuation τ sig (Elt F)) : Valuation τ sig (Elt F) := after part7 (W6 V0)

/-- The buffers part 7 writes. -/
abbrev part7_W : List (Ref sig .tc) := [main_v82, main_v83, main_v84, main_v85, main_c_17, main_v86, main_v87, main_c_18, main_v88, main_v89, main_v90, main_v91, main_v92, main_v93, main_v94, main_cst_19, main_v95, main_v96, main_v97]

set_option maxRecDepth 8192 in
theorem part7_writes : (part7 : List (HloOp τ sig (Elt F))).Forall fun op =>
    op.writes ⊆ (part7_W.map (Proc.devRef (τ := τ) .tc)).toFinset := by
  simp only [part7, ops, List.drop_succ_cons, List.drop_zero, List.take_succ_cons, List.take_zero]
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one⟩

/-- A buffer part 7 does not write keeps its contents through it. -/
theorem W7_keep (V0 : Valuation τ sig (Elt F)) (r : Ref sig .tc) (h : r ∉ part7_W) :
    W7 V0 (Proc.devRef .tc r) = W6 V0 (Proc.devRef .tc r) :=
  after_of_writes_sub part7 _ part7_writes h

/-- The whole line from `V0` is its operations from 126 on, from the contents after the first 7 parts. -/
theorem after_ops_7 (V0 : Valuation τ sig (Elt F)) : after (ops : List (HloOp τ sig (Elt F))) V0 = after ((ops : List (HloOp τ sig (Elt F))).drop 126) (W7 V0) :=
  (after_ops_6 V0).trans (after_split ops 107 19 126 rfl (W6 V0))

theorem W7_main_arg9 (V0 : Valuation τ sig (Elt F)) : W7 V0 (no_index (Proc.devRef .tc main_arg9)) = V0 (Proc.devRef .tc main_arg9) :=
  (W7_keep V0 main_arg9 (by decide)).trans (W6_main_arg9 V0)
theorem W7_main_v81 (V0 : Valuation τ sig (Elt F)) : W7 V0 (no_index (Proc.devRef .tc main_v81)) = val_main_v81 (F := F) (V0 (Proc.devRef .tc main_arg1)) :=
  (W7_keep V0 main_v81 (by decide)).trans (W6_main_v81 V0)
theorem W7_main_v1 (V0 : Valuation τ sig (Elt F)) : W7 V0 (no_index (Proc.devRef .tc main_v1)) = val_main_v1 (F := F) (V0 (Proc.devRef .tc main_arg1)) :=
  (W7_keep V0 main_v1 (by decide)).trans (W6_main_v1 V0)
theorem W7_main_v3 (V0 : Valuation τ sig (Elt F)) : W7 V0 (no_index (Proc.devRef .tc main_v3)) = val_main_v3 (F := F) (V0 (Proc.devRef .tc main_arg1)) :=
  (W7_keep V0 main_v3 (by decide)).trans (W6_main_v3 V0)
theorem W7_main_v56 (V0 : Valuation τ sig (Elt F)) : W7 V0 (no_index (Proc.devRef .tc main_v56)) = val_main_v56 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (W7_keep V0 main_v56 (by decide)).trans (W6_main_v56 V0)
theorem W7_main_arg10 (V0 : Valuation τ sig (Elt F)) : W7 V0 (no_index (Proc.devRef .tc main_arg10)) = V0 (Proc.devRef .tc main_arg10) :=
  (W7_keep V0 main_arg10 (by decide)).trans (W6_main_arg10 V0)
theorem W7_main_arg11 (V0 : Valuation τ sig (Elt F)) : W7 V0 (no_index (Proc.devRef .tc main_arg11)) = V0 (Proc.devRef .tc main_arg11) :=
  (W7_keep V0 main_arg11 (by decide)).trans (W6_main_arg11 V0)
theorem W7_main_arg12 (V0 : Valuation τ sig (Elt F)) : W7 V0 (no_index (Proc.devRef .tc main_arg12)) = V0 (Proc.devRef .tc main_arg12) :=
  (W7_keep V0 main_arg12 (by decide)).trans (W6_main_arg12 V0)
theorem W7_main_arg13 (V0 : Valuation τ sig (Elt F)) : W7 V0 (no_index (Proc.devRef .tc main_arg13)) = V0 (Proc.devRef .tc main_arg13) :=
  (W7_keep V0 main_arg13 (by decide)).trans (W6_main_arg13 V0)
theorem W7_main_arg14 (V0 : Valuation τ sig (Elt F)) : W7 V0 (no_index (Proc.devRef .tc main_arg14)) = V0 (Proc.devRef .tc main_arg14) :=
  (W7_keep V0 main_arg14 (by decide)).trans (W6_main_arg14 V0)
theorem W7_main_arg15 (V0 : Valuation τ sig (Elt F)) : W7 V0 (no_index (Proc.devRef .tc main_arg15)) = V0 (Proc.devRef .tc main_arg15) :=
  (W7_keep V0 main_arg15 (by decide)).trans (W6_main_arg15 V0)
theorem W7_main_arg16 (V0 : Valuation τ sig (Elt F)) : W7 V0 (no_index (Proc.devRef .tc main_arg16)) = V0 (Proc.devRef .tc main_arg16) :=
  (W7_keep V0 main_arg16 (by decide)).trans (W6_main_arg16 V0)
theorem W7_main_arg17 (V0 : Valuation τ sig (Elt F)) : W7 V0 (no_index (Proc.devRef .tc main_arg17)) = V0 (Proc.devRef .tc main_arg17) :=
  (W7_keep V0 main_arg17 (by decide)).trans (W6_main_arg17 V0)
theorem W7_main_arg18 (V0 : Valuation τ sig (Elt F)) : W7 V0 (no_index (Proc.devRef .tc main_arg18)) = V0 (Proc.devRef .tc main_arg18) :=
  (W7_keep V0 main_arg18 (by decide)).trans (W6_main_arg18 V0)

set_option maxRecDepth 8192 in
set_option maxHeartbeats 2000000 in
/-- `main_v97` after part 7: the stage, at the launch contents of the arguments. -/
theorem W7_main_v97 (V0 : Valuation τ sig (Elt F)) : W7 V0 (no_index (Proc.devRef .tc main_v97)) = val_main_v97 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold W7
  simp only [part7, ops, List.drop_succ_cons, List.drop_zero, List.take_succ_cons, List.take_zero]
  after_results_simp
  try simp only [W6_main_v1, W6_main_v56, W6_main_v81, W6_main_v3]
  all_goals rfl

set_option maxRecDepth 8192 in
set_option maxHeartbeats 2000000 in
/-- `main_v84` after part 7: the stage, at the launch contents of the arguments. -/
theorem W7_main_v84 (V0 : Valuation τ sig (Elt F)) : W7 V0 (no_index (Proc.devRef .tc main_v84)) = val_main_v84 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold W7
  simp only [part7, ops, List.drop_succ_cons, List.drop_zero, List.take_succ_cons, List.take_zero]
  after_results_simp
  try simp only [W6_main_arg9, W6_main_v56]
  all_goals rfl

/-! ## Part 8: operations 126 to 149 -/

/-- Operations 126 to 149 of the line. -/
def part8 : List (HloOp τ sig (Elt F)) := (ops.drop 126).take 24

/-- The contents after the first 8 parts. -/
def W8 (V0 : Valuation τ sig (Elt F)) : Valuation τ sig (Elt F) := after part8 (W7 V0)

/-- The buffers part 8 writes. -/
abbrev part8_W : List (Ref sig .tc) := [main_v98, main_v99, main_v100, main_v101, main_v102, main_c_20, main_v103, main_v104, main_c_21, main_v105, main_v106, main_v107, main_v108, main_v109, main_v110, main_v111, main_cst_22, main_v112, main_v113, main_v114, main_cst_23, main_v115, main_v116, main_v117]

set_option maxRecDepth 8192 in
theorem part8_writes : (part8 : List (HloOp τ sig (Elt F))).Forall fun op =>
    op.writes ⊆ (part8_W.map (Proc.devRef (τ := τ) .tc)).toFinset := by
  simp only [part8, ops, List.drop_succ_cons, List.drop_zero, List.take_succ_cons, List.take_zero]
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- A buffer part 8 does not write keeps its contents through it. -/
theorem W8_keep (V0 : Valuation τ sig (Elt F)) (r : Ref sig .tc) (h : r ∉ part8_W) :
    W8 V0 (Proc.devRef .tc r) = W7 V0 (Proc.devRef .tc r) :=
  after_of_writes_sub part8 _ part8_writes h

/-- The whole line from `V0` is its operations from 150 on, from the contents after the first 8 parts. -/
theorem after_ops_8 (V0 : Valuation τ sig (Elt F)) : after (ops : List (HloOp τ sig (Elt F))) V0 = after ((ops : List (HloOp τ sig (Elt F))).drop 150) (W8 V0) :=
  (after_ops_7 V0).trans (after_split ops 126 24 150 rfl (W7 V0))

theorem W8_main_arg9 (V0 : Valuation τ sig (Elt F)) : W8 V0 (no_index (Proc.devRef .tc main_arg9)) = V0 (Proc.devRef .tc main_arg9) :=
  (W8_keep V0 main_arg9 (by decide)).trans (W7_main_arg9 V0)
theorem W8_main_arg10 (V0 : Valuation τ sig (Elt F)) : W8 V0 (no_index (Proc.devRef .tc main_arg10)) = V0 (Proc.devRef .tc main_arg10) :=
  (W8_keep V0 main_arg10 (by decide)).trans (W7_main_arg10 V0)
theorem W8_main_arg11 (V0 : Valuation τ sig (Elt F)) : W8 V0 (no_index (Proc.devRef .tc main_arg11)) = V0 (Proc.devRef .tc main_arg11) :=
  (W8_keep V0 main_arg11 (by decide)).trans (W7_main_arg11 V0)
theorem W8_main_v81 (V0 : Valuation τ sig (Elt F)) : W8 V0 (no_index (Proc.devRef .tc main_v81)) = val_main_v81 (F := F) (V0 (Proc.devRef .tc main_arg1)) :=
  (W8_keep V0 main_v81 (by decide)).trans (W7_main_v81 V0)
theorem W8_main_v1 (V0 : Valuation τ sig (Elt F)) : W8 V0 (no_index (Proc.devRef .tc main_v1)) = val_main_v1 (F := F) (V0 (Proc.devRef .tc main_arg1)) :=
  (W8_keep V0 main_v1 (by decide)).trans (W7_main_v1 V0)
theorem W8_main_v3 (V0 : Valuation τ sig (Elt F)) : W8 V0 (no_index (Proc.devRef .tc main_v3)) = val_main_v3 (F := F) (V0 (Proc.devRef .tc main_arg1)) :=
  (W8_keep V0 main_v3 (by decide)).trans (W7_main_v3 V0)
theorem W8_main_arg12 (V0 : Valuation τ sig (Elt F)) : W8 V0 (no_index (Proc.devRef .tc main_arg12)) = V0 (Proc.devRef .tc main_arg12) :=
  (W8_keep V0 main_arg12 (by decide)).trans (W7_main_arg12 V0)
theorem W8_main_arg13 (V0 : Valuation τ sig (Elt F)) : W8 V0 (no_index (Proc.devRef .tc main_arg13)) = V0 (Proc.devRef .tc main_arg13) :=
  (W8_keep V0 main_arg13 (by decide)).trans (W7_main_arg13 V0)
theorem W8_main_arg14 (V0 : Valuation τ sig (Elt F)) : W8 V0 (no_index (Proc.devRef .tc main_arg14)) = V0 (Proc.devRef .tc main_arg14) :=
  (W8_keep V0 main_arg14 (by decide)).trans (W7_main_arg14 V0)
theorem W8_main_arg15 (V0 : Valuation τ sig (Elt F)) : W8 V0 (no_index (Proc.devRef .tc main_arg15)) = V0 (Proc.devRef .tc main_arg15) :=
  (W8_keep V0 main_arg15 (by decide)).trans (W7_main_arg15 V0)
theorem W8_main_arg16 (V0 : Valuation τ sig (Elt F)) : W8 V0 (no_index (Proc.devRef .tc main_arg16)) = V0 (Proc.devRef .tc main_arg16) :=
  (W8_keep V0 main_arg16 (by decide)).trans (W7_main_arg16 V0)
theorem W8_main_arg17 (V0 : Valuation τ sig (Elt F)) : W8 V0 (no_index (Proc.devRef .tc main_arg17)) = V0 (Proc.devRef .tc main_arg17) :=
  (W8_keep V0 main_arg17 (by decide)).trans (W7_main_arg17 V0)
theorem W8_main_arg18 (V0 : Valuation τ sig (Elt F)) : W8 V0 (no_index (Proc.devRef .tc main_arg18)) = V0 (Proc.devRef .tc main_arg18) :=
  (W8_keep V0 main_arg18 (by decide)).trans (W7_main_arg18 V0)

set_option maxRecDepth 8192 in
set_option maxHeartbeats 2000000 in
/-- `main_v117` after part 8: the stage, at the launch contents of the arguments. -/
theorem W8_main_v117 (V0 : Valuation τ sig (Elt F)) : W8 V0 (no_index (Proc.devRef .tc main_v117)) = val_main_v117 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold W8
  simp only [part8, ops, List.drop_succ_cons, List.drop_zero, List.take_succ_cons, List.take_zero]
  after_results_simp
  try simp only [W7_main_v56, W7_main_v1, W7_main_v97, W7_main_v81, W7_main_v3]
  all_goals rfl

set_option maxRecDepth 8192 in
set_option maxHeartbeats 2000000 in
/-- `main_v101` after part 8: the stage, at the launch contents of the arguments. -/
theorem W8_main_v101 (V0 : Valuation τ sig (Elt F)) : W8 V0 (no_index (Proc.devRef .tc main_v101)) = val_main_v101 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold W8
  simp only [part8, ops, List.drop_succ_cons, List.drop_zero, List.take_succ_cons, List.take_zero]
  after_results_simp
  try simp only [W7_main_arg9, W7_main_v97, W7_main_v84]
  all_goals rfl

/-! ## Part 9: operations 150 to 159 -/

/-- Operations 150 to 159 of the line. -/
def part9 : List (HloOp τ sig (Elt F)) := (ops.drop 150).take 10

/-- The contents after the first 9 parts. -/
def W9 (V0 : Valuation τ sig (Elt F)) : Valuation τ sig (Elt F) := after part9 (W8 V0)

/-- The buffers part 9 writes. -/
abbrev part9_W : List (Ref sig .tc) := [main_v118, main_v119, main_v120, main_v121, main_v122, main_v123, main_v124, main_call3_cst, main_call3_v0, main_v125]

set_option maxRecDepth 8192 in
theorem part9_writes : (part9 : List (HloOp τ sig (Elt F))).Forall fun op =>
    op.writes ⊆ (part9_W.map (Proc.devRef (τ := τ) .tc)).toFinset := by
  simp only [part9, ops, List.drop_succ_cons, List.drop_zero, List.take_succ_cons, List.take_zero]
  simp only [List.Forall]
  exact ⟨by writes_one, by writes_one, by writes_one, by writes_one, by writes_one, by writes_one, by writes_one, by writes_one, by writes_one, by writes_one⟩

/-- A buffer part 9 does not write keeps its contents through it. -/
theorem W9_keep (V0 : Valuation τ sig (Elt F)) (r : Ref sig .tc) (h : r ∉ part9_W) :
    W9 V0 (Proc.devRef .tc r) = W8 V0 (Proc.devRef .tc r) :=
  after_of_writes_sub part9 _ part9_writes h

/-- The whole line from `V0` is its operations from 160 on, from the contents after the first 9 parts. -/
theorem after_ops_9 (V0 : Valuation τ sig (Elt F)) : after (ops : List (HloOp τ sig (Elt F))) V0 = after ((ops : List (HloOp τ sig (Elt F))).drop 160) (W9 V0) :=
  (after_ops_8 V0).trans (after_split ops 150 10 160 rfl (W8 V0))

theorem W9_main_arg11 (V0 : Valuation τ sig (Elt F)) : W9 V0 (no_index (Proc.devRef .tc main_arg11)) = V0 (Proc.devRef .tc main_arg11) :=
  (W9_keep V0 main_arg11 (by decide)).trans (W8_main_arg11 V0)
theorem W9_main_v81 (V0 : Valuation τ sig (Elt F)) : W9 V0 (no_index (Proc.devRef .tc main_v81)) = val_main_v81 (F := F) (V0 (Proc.devRef .tc main_arg1)) :=
  (W9_keep V0 main_v81 (by decide)).trans (W8_main_v81 V0)
theorem W9_main_v1 (V0 : Valuation τ sig (Elt F)) : W9 V0 (no_index (Proc.devRef .tc main_v1)) = val_main_v1 (F := F) (V0 (Proc.devRef .tc main_arg1)) :=
  (W9_keep V0 main_v1 (by decide)).trans (W8_main_v1 V0)
theorem W9_main_v3 (V0 : Valuation τ sig (Elt F)) : W9 V0 (no_index (Proc.devRef .tc main_v3)) = val_main_v3 (F := F) (V0 (Proc.devRef .tc main_arg1)) :=
  (W9_keep V0 main_v3 (by decide)).trans (W8_main_v3 V0)
theorem W9_main_arg12 (V0 : Valuation τ sig (Elt F)) : W9 V0 (no_index (Proc.devRef .tc main_arg12)) = V0 (Proc.devRef .tc main_arg12) :=
  (W9_keep V0 main_arg12 (by decide)).trans (W8_main_arg12 V0)
theorem W9_main_arg13 (V0 : Valuation τ sig (Elt F)) : W9 V0 (no_index (Proc.devRef .tc main_arg13)) = V0 (Proc.devRef .tc main_arg13) :=
  (W9_keep V0 main_arg13 (by decide)).trans (W8_main_arg13 V0)
theorem W9_main_arg14 (V0 : Valuation τ sig (Elt F)) : W9 V0 (no_index (Proc.devRef .tc main_arg14)) = V0 (Proc.devRef .tc main_arg14) :=
  (W9_keep V0 main_arg14 (by decide)).trans (W8_main_arg14 V0)
theorem W9_main_arg15 (V0 : Valuation τ sig (Elt F)) : W9 V0 (no_index (Proc.devRef .tc main_arg15)) = V0 (Proc.devRef .tc main_arg15) :=
  (W9_keep V0 main_arg15 (by decide)).trans (W8_main_arg15 V0)
theorem W9_main_arg16 (V0 : Valuation τ sig (Elt F)) : W9 V0 (no_index (Proc.devRef .tc main_arg16)) = V0 (Proc.devRef .tc main_arg16) :=
  (W9_keep V0 main_arg16 (by decide)).trans (W8_main_arg16 V0)
theorem W9_main_arg17 (V0 : Valuation τ sig (Elt F)) : W9 V0 (no_index (Proc.devRef .tc main_arg17)) = V0 (Proc.devRef .tc main_arg17) :=
  (W9_keep V0 main_arg17 (by decide)).trans (W8_main_arg17 V0)
theorem W9_main_arg18 (V0 : Valuation τ sig (Elt F)) : W9 V0 (no_index (Proc.devRef .tc main_arg18)) = V0 (Proc.devRef .tc main_arg18) :=
  (W9_keep V0 main_arg18 (by decide)).trans (W8_main_arg18 V0)

set_option maxRecDepth 8192 in
set_option maxHeartbeats 2000000 in
/-- `main_v125` after part 9: the stage, at the launch contents of the arguments. -/
theorem W9_main_v125 (V0 : Valuation τ sig (Elt F)) : W9 V0 (no_index (Proc.devRef .tc main_v125)) = val_main_v125 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold W9
  simp only [part9, ops, List.drop_succ_cons, List.drop_zero, List.take_succ_cons, List.take_zero]
  after_results_simp
  try simp only [W8_main_arg10, W8_main_arg9, W8_main_v117, W8_main_v101]
  all_goals rfl

/-! ## Part 10: operations 160 to 178 -/

/-- Operations 160 to 178 of the line. -/
def part10 : List (HloOp τ sig (Elt F)) := (ops.drop 160).take 19

/-- The contents after the first 10 parts. -/
def W10 (V0 : Valuation τ sig (Elt F)) : Valuation τ sig (Elt F) := after part10 (W9 V0)

/-- The buffers part 10 writes. -/
abbrev part10_W : List (Ref sig .tc) := [main_v126, main_v127, main_v128, main_v129, main_c_24, main_v130, main_v131, main_c_25, main_v132, main_v133, main_v134, main_v135, main_v136, main_v137, main_v138, main_cst_26, main_v139, main_v140, main_v141]

set_option maxRecDepth 8192 in
theorem part10_writes : (part10 : List (HloOp τ sig (Elt F))).Forall fun op =>
    op.writes ⊆ (part10_W.map (Proc.devRef (τ := τ) .tc)).toFinset := by
  simp only [part10, ops, List.drop_succ_cons, List.drop_zero, List.take_succ_cons, List.take_zero]
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one⟩

/-- A buffer part 10 does not write keeps its contents through it. -/
theorem W10_keep (V0 : Valuation τ sig (Elt F)) (r : Ref sig .tc) (h : r ∉ part10_W) :
    W10 V0 (Proc.devRef .tc r) = W9 V0 (Proc.devRef .tc r) :=
  after_of_writes_sub part10 _ part10_writes h

/-- The whole line from `V0` is its operations from 179 on, from the contents after the first 10 parts. -/
theorem after_ops_10 (V0 : Valuation τ sig (Elt F)) : after (ops : List (HloOp τ sig (Elt F))) V0 = after ((ops : List (HloOp τ sig (Elt F))).drop 179) (W10 V0) :=
  (after_ops_9 V0).trans (after_split ops 160 19 179 rfl (W9 V0))

theorem W10_main_arg11 (V0 : Valuation τ sig (Elt F)) : W10 V0 (no_index (Proc.devRef .tc main_arg11)) = V0 (Proc.devRef .tc main_arg11) :=
  (W10_keep V0 main_arg11 (by decide)).trans (W9_main_arg11 V0)
theorem W10_main_v81 (V0 : Valuation τ sig (Elt F)) : W10 V0 (no_index (Proc.devRef .tc main_v81)) = val_main_v81 (F := F) (V0 (Proc.devRef .tc main_arg1)) :=
  (W10_keep V0 main_v81 (by decide)).trans (W9_main_v81 V0)
theorem W10_main_v1 (V0 : Valuation τ sig (Elt F)) : W10 V0 (no_index (Proc.devRef .tc main_v1)) = val_main_v1 (F := F) (V0 (Proc.devRef .tc main_arg1)) :=
  (W10_keep V0 main_v1 (by decide)).trans (W9_main_v1 V0)
theorem W10_main_v3 (V0 : Valuation τ sig (Elt F)) : W10 V0 (no_index (Proc.devRef .tc main_v3)) = val_main_v3 (F := F) (V0 (Proc.devRef .tc main_arg1)) :=
  (W10_keep V0 main_v3 (by decide)).trans (W9_main_v3 V0)
theorem W10_main_v125 (V0 : Valuation τ sig (Elt F)) : W10 V0 (no_index (Proc.devRef .tc main_v125)) = val_main_v125 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (W10_keep V0 main_v125 (by decide)).trans (W9_main_v125 V0)
theorem W10_main_arg12 (V0 : Valuation τ sig (Elt F)) : W10 V0 (no_index (Proc.devRef .tc main_arg12)) = V0 (Proc.devRef .tc main_arg12) :=
  (W10_keep V0 main_arg12 (by decide)).trans (W9_main_arg12 V0)
theorem W10_main_arg13 (V0 : Valuation τ sig (Elt F)) : W10 V0 (no_index (Proc.devRef .tc main_arg13)) = V0 (Proc.devRef .tc main_arg13) :=
  (W10_keep V0 main_arg13 (by decide)).trans (W9_main_arg13 V0)
theorem W10_main_arg14 (V0 : Valuation τ sig (Elt F)) : W10 V0 (no_index (Proc.devRef .tc main_arg14)) = V0 (Proc.devRef .tc main_arg14) :=
  (W10_keep V0 main_arg14 (by decide)).trans (W9_main_arg14 V0)
theorem W10_main_arg15 (V0 : Valuation τ sig (Elt F)) : W10 V0 (no_index (Proc.devRef .tc main_arg15)) = V0 (Proc.devRef .tc main_arg15) :=
  (W10_keep V0 main_arg15 (by decide)).trans (W9_main_arg15 V0)
theorem W10_main_arg16 (V0 : Valuation τ sig (Elt F)) : W10 V0 (no_index (Proc.devRef .tc main_arg16)) = V0 (Proc.devRef .tc main_arg16) :=
  (W10_keep V0 main_arg16 (by decide)).trans (W9_main_arg16 V0)
theorem W10_main_arg17 (V0 : Valuation τ sig (Elt F)) : W10 V0 (no_index (Proc.devRef .tc main_arg17)) = V0 (Proc.devRef .tc main_arg17) :=
  (W10_keep V0 main_arg17 (by decide)).trans (W9_main_arg17 V0)
theorem W10_main_arg18 (V0 : Valuation τ sig (Elt F)) : W10 V0 (no_index (Proc.devRef .tc main_arg18)) = V0 (Proc.devRef .tc main_arg18) :=
  (W10_keep V0 main_arg18 (by decide)).trans (W9_main_arg18 V0)

set_option maxRecDepth 8192 in
set_option maxHeartbeats 2000000 in
/-- `main_v141` after part 10: the stage, at the launch contents of the arguments. -/
theorem W10_main_v141 (V0 : Valuation τ sig (Elt F)) : W10 V0 (no_index (Proc.devRef .tc main_v141)) = val_main_v141 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold W10
  simp only [part10, ops, List.drop_succ_cons, List.drop_zero, List.take_succ_cons, List.take_zero]
  after_results_simp
  try simp only [W9_main_v1, W9_main_v125, W9_main_v81, W9_main_v3]
  all_goals rfl

set_option maxRecDepth 8192 in
set_option maxHeartbeats 2000000 in
/-- `main_v128` after part 10: the stage, at the launch contents of the arguments. -/
theorem W10_main_v128 (V0 : Valuation τ sig (Elt F)) : W10 V0 (no_index (Proc.devRef .tc main_v128)) = val_main_v128 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold W10
  simp only [part10, ops, List.drop_succ_cons, List.drop_zero, List.take_succ_cons, List.take_zero]
  after_results_simp
  try simp only [W9_main_arg11, W9_main_v125]
  all_goals rfl

/-! ## Part 11: operations 179 to 202 -/

/-- Operations 179 to 202 of the line. -/
def part11 : List (HloOp τ sig (Elt F)) := (ops.drop 179).take 24

/-- The contents after the first 11 parts. -/
def W11 (V0 : Valuation τ sig (Elt F)) : Valuation τ sig (Elt F) := after part11 (W10 V0)

/-- The buffers part 11 writes. -/
abbrev part11_W : List (Ref sig .tc) := [main_v142, main_v143, main_v144, main_v145, main_v146, main_c_27, main_v147, main_v148, main_c_28, main_v149, main_v150, main_v151, main_v152, main_v153, main_v154, main_v155, main_cst_29, main_v156, main_v157, main_v158, main_cst_30, main_v159, main_v160, main_v161]

set_option maxRecDepth 8192 in
theorem part11_writes : (part11 : List (HloOp τ sig (Elt F))).Forall fun op =>
    op.writes ⊆ (part11_W.map (Proc.devRef (τ := τ) .tc)).toFinset := by
  simp only [part11, ops, List.drop_succ_cons, List.drop_zero, List.take_succ_cons, List.take_zero]
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- A buffer part 11 does not write keeps its contents through it. -/
theorem W11_keep (V0 : Valuation τ sig (Elt F)) (r : Ref sig .tc) (h : r ∉ part11_W) :
    W11 V0 (Proc.devRef .tc r) = W10 V0 (Proc.devRef .tc r) :=
  after_of_writes_sub part11 _ part11_writes h

/-- The whole line from `V0` is its operations from 203 on, from the contents after the first 11 parts. -/
theorem after_ops_11 (V0 : Valuation τ sig (Elt F)) : after (ops : List (HloOp τ sig (Elt F))) V0 = after ((ops : List (HloOp τ sig (Elt F))).drop 203) (W11 V0) :=
  (after_ops_10 V0).trans (after_split ops 179 24 203 rfl (W10 V0))

theorem W11_main_arg11 (V0 : Valuation τ sig (Elt F)) : W11 V0 (no_index (Proc.devRef .tc main_arg11)) = V0 (Proc.devRef .tc main_arg11) :=
  (W11_keep V0 main_arg11 (by decide)).trans (W10_main_arg11 V0)
theorem W11_main_arg12 (V0 : Valuation τ sig (Elt F)) : W11 V0 (no_index (Proc.devRef .tc main_arg12)) = V0 (Proc.devRef .tc main_arg12) :=
  (W11_keep V0 main_arg12 (by decide)).trans (W10_main_arg12 V0)
theorem W11_main_arg13 (V0 : Valuation τ sig (Elt F)) : W11 V0 (no_index (Proc.devRef .tc main_arg13)) = V0 (Proc.devRef .tc main_arg13) :=
  (W11_keep V0 main_arg13 (by decide)).trans (W10_main_arg13 V0)
theorem W11_main_arg14 (V0 : Valuation τ sig (Elt F)) : W11 V0 (no_index (Proc.devRef .tc main_arg14)) = V0 (Proc.devRef .tc main_arg14) :=
  (W11_keep V0 main_arg14 (by decide)).trans (W10_main_arg14 V0)
theorem W11_main_arg15 (V0 : Valuation τ sig (Elt F)) : W11 V0 (no_index (Proc.devRef .tc main_arg15)) = V0 (Proc.devRef .tc main_arg15) :=
  (W11_keep V0 main_arg15 (by decide)).trans (W10_main_arg15 V0)
theorem W11_main_arg16 (V0 : Valuation τ sig (Elt F)) : W11 V0 (no_index (Proc.devRef .tc main_arg16)) = V0 (Proc.devRef .tc main_arg16) :=
  (W11_keep V0 main_arg16 (by decide)).trans (W10_main_arg16 V0)
theorem W11_main_arg17 (V0 : Valuation τ sig (Elt F)) : W11 V0 (no_index (Proc.devRef .tc main_arg17)) = V0 (Proc.devRef .tc main_arg17) :=
  (W11_keep V0 main_arg17 (by decide)).trans (W10_main_arg17 V0)
theorem W11_main_arg18 (V0 : Valuation τ sig (Elt F)) : W11 V0 (no_index (Proc.devRef .tc main_arg18)) = V0 (Proc.devRef .tc main_arg18) :=
  (W11_keep V0 main_arg18 (by decide)).trans (W10_main_arg18 V0)

set_option maxRecDepth 8192 in
set_option maxHeartbeats 2000000 in
/-- `main_v161` after part 11: the stage, at the launch contents of the arguments. -/
theorem W11_main_v161 (V0 : Valuation τ sig (Elt F)) : W11 V0 (no_index (Proc.devRef .tc main_v161)) = val_main_v161 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold W11
  simp only [part11, ops, List.drop_succ_cons, List.drop_zero, List.take_succ_cons, List.take_zero]
  after_results_simp
  try simp only [W10_main_v125, W10_main_v1, W10_main_v141, W10_main_v81, W10_main_v3]
  all_goals rfl

set_option maxRecDepth 8192 in
set_option maxHeartbeats 2000000 in
/-- `main_v145` after part 11: the stage, at the launch contents of the arguments. -/
theorem W11_main_v145 (V0 : Valuation τ sig (Elt F)) : W11 V0 (no_index (Proc.devRef .tc main_v145)) = val_main_v145 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold W11
  simp only [part11, ops, List.drop_succ_cons, List.drop_zero, List.take_succ_cons, List.take_zero]
  after_results_simp
  try simp only [W10_main_arg11, W10_main_v141, W10_main_v128]
  all_goals rfl

/-! ## Part 12: operations 203 to 216 -/

/-- Operations 203 to 216 of the line. -/
def part12 : List (HloOp τ sig (Elt F)) := (ops.drop 203).take 14

/-- The contents after the first 12 parts. -/
def W12 (V0 : Valuation τ sig (Elt F)) : Valuation τ sig (Elt F) := after part12 (W11 V0)

/-- The buffers part 12 writes. -/
abbrev part12_W : List (Ref sig .tc) := [main_v162, main_v163, main_v164, main_v165, main_v166, main_v167, main_v168, main_call4_cst, main_call4_v0, main_v169, main_v170, main_v171, main_v172, main_v173]

set_option maxRecDepth 8192 in
theorem part12_writes : (part12 : List (HloOp τ sig (Elt F))).Forall fun op =>
    op.writes ⊆ (part12_W.map (Proc.devRef (τ := τ) .tc)).toFinset := by
  simp only [part12, ops, List.drop_succ_cons, List.drop_zero, List.take_succ_cons, List.take_zero]
  simp only [List.Forall]
  exact ⟨by writes_one, by writes_one, by writes_one, by writes_one, by writes_one, by writes_one, by writes_one, by writes_one, by writes_one, by writes_one, by writes_one, by writes_one, by writes_one, by writes_one⟩

/-- A buffer part 12 does not write keeps its contents through it. -/
theorem W12_keep (V0 : Valuation τ sig (Elt F)) (r : Ref sig .tc) (h : r ∉ part12_W) :
    W12 V0 (Proc.devRef .tc r) = W11 V0 (Proc.devRef .tc r) :=
  after_of_writes_sub part12 _ part12_writes h

/-- The whole line from `V0` is its operations from 217 on, from the contents after the first 12 parts. -/
theorem after_ops_12 (V0 : Valuation τ sig (Elt F)) : after (ops : List (HloOp τ sig (Elt F))) V0 = after ((ops : List (HloOp τ sig (Elt F))).drop 217) (W12 V0) :=
  (after_ops_11 V0).trans (after_split ops 203 14 217 rfl (W11 V0))

theorem W12_main_arg15 (V0 : Valuation τ sig (Elt F)) : W12 V0 (no_index (Proc.devRef .tc main_arg15)) = V0 (Proc.devRef .tc main_arg15) :=
  (W12_keep V0 main_arg15 (by decide)).trans (W11_main_arg15 V0)
theorem W12_main_arg16 (V0 : Valuation τ sig (Elt F)) : W12 V0 (no_index (Proc.devRef .tc main_arg16)) = V0 (Proc.devRef .tc main_arg16) :=
  (W12_keep V0 main_arg16 (by decide)).trans (W11_main_arg16 V0)
theorem W12_main_arg17 (V0 : Valuation τ sig (Elt F)) : W12 V0 (no_index (Proc.devRef .tc main_arg17)) = V0 (Proc.devRef .tc main_arg17) :=
  (W12_keep V0 main_arg17 (by decide)).trans (W11_main_arg17 V0)
theorem W12_main_arg18 (V0 : Valuation τ sig (Elt F)) : W12 V0 (no_index (Proc.devRef .tc main_arg18)) = V0 (Proc.devRef .tc main_arg18) :=
  (W12_keep V0 main_arg18 (by decide)).trans (W11_main_arg18 V0)

set_option maxRecDepth 8192 in
set_option maxHeartbeats 2000000 in
/-- `main_v173` after part 12: the stage, at the launch contents of the arguments. -/
theorem W12_main_v173 (V0 : Valuation τ sig (Elt F)) : W12 V0 (no_index (Proc.devRef .tc main_v173)) = val_main_v173 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  unfold W12
  simp only [part12, ops, List.drop_succ_cons, List.drop_zero, List.take_succ_cons, List.take_zero]
  after_results_simp
  try simp only [W11_main_arg14, W11_main_arg13, W11_main_arg12, W11_main_arg11, W11_main_v161, W11_main_v145]
  all_goals rfl

/-! ## Part 13: operations 217 to 249 -/

/-- Operations 217 to 249 of the line. -/
def part13 : List (HloOp τ sig (Elt F)) := (ops.drop 217).take 33

/-- The contents after the first 13 parts. -/
def W13 (V0 : Valuation τ sig (Elt F)) : Valuation τ sig (Elt F) := after part13 (W12 V0)

/-- The buffers part 13 writes. -/
abbrev part13_W : List (Ref sig .tc) := [main_cst_31, main_v174, main_cst_32, main_v175, main_v176, main_v177, main_v178, main_v179, main_v180, main_cst_33, main_v181, main_cst_34, main_v182, main_v183, main_v184, main_v185, main_v186, main_v187, main_v188, main_v189, main_cst_35, main_v190, main_v191, main_v192, main_v193, main_v194, main_v195, main_v196, main_v197, main_v198, main_call5_cst, main_call5_v0, main_v199]

set_option maxRecDepth 8192 in
theorem part13_writes : (part13 : List (HloOp τ sig (Elt F))).Forall fun op =>
    op.writes ⊆ (part13_W.map (Proc.devRef (τ := τ) .tc)).toFinset := by
  simp only [part13, ops, List.drop_succ_cons, List.drop_zero, List.take_succ_cons, List.take_zero]
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- A buffer part 13 does not write keeps its contents through it. -/
theorem W13_keep (V0 : Valuation τ sig (Elt F)) (r : Ref sig .tc) (h : r ∉ part13_W) :
    W13 V0 (Proc.devRef .tc r) = W12 V0 (Proc.devRef .tc r) :=
  after_of_writes_sub part13 _ part13_writes h

/-- The whole line from `V0` is its operations from 250 on, from the contents after the first 13 parts. -/
theorem after_ops_13 (V0 : Valuation τ sig (Elt F)) : after (ops : List (HloOp τ sig (Elt F))) V0 = after ((ops : List (HloOp τ sig (Elt F))).drop 250) (W13 V0) :=
  (after_ops_12 V0).trans (after_split ops 217 33 250 rfl (W12 V0))

theorem W13_main_arg17 (V0 : Valuation τ sig (Elt F)) : W13 V0 (no_index (Proc.devRef .tc main_arg17)) = V0 (Proc.devRef .tc main_arg17) :=
  (W13_keep V0 main_arg17 (by decide)).trans (W12_main_arg17 V0)
theorem W13_main_arg18 (V0 : Valuation τ sig (Elt F)) : W13 V0 (no_index (Proc.devRef .tc main_arg18)) = V0 (Proc.devRef .tc main_arg18) :=
  (W13_keep V0 main_arg18 (by decide)).trans (W12_main_arg18 V0)

set_option maxRecDepth 8192 in
set_option maxHeartbeats 2000000 in
/-- `main_v199` after part 13: the stage, at the launch contents of the arguments. -/
theorem W13_main_v199 (V0 : Valuation τ sig (Elt F)) : W13 V0 (no_index (Proc.devRef .tc main_v199)) = val_main_v199 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  unfold W13
  simp only [part13, ops, List.drop_succ_cons, List.drop_zero, List.take_succ_cons, List.take_zero]
  after_results_simp
  try simp only [W12_main_arg16, W12_main_v173, W12_main_arg15]
  all_goals rfl

/-! ## Part 14: operations 250 to 254 -/

/-- Operations 250 to 254 of the line. -/
def part14 : List (HloOp τ sig (Elt F)) := (ops.drop 250).take 5

/-- The contents after the first 14 parts. -/
def W14 (V0 : Valuation τ sig (Elt F)) : Valuation τ sig (Elt F) := after part14 (W13 V0)

/-- The buffers part 14 writes. -/
abbrev part14_W : List (Ref sig .tc) := [main_v200, main_v201, main_v202, main_v203, main_v204]

set_option maxRecDepth 8192 in
theorem part14_writes : (part14 : List (HloOp τ sig (Elt F))).Forall fun op =>
    op.writes ⊆ (part14_W.map (Proc.devRef (τ := τ) .tc)).toFinset := by
  simp only [part14, ops, List.drop_succ_cons, List.drop_zero, List.take_succ_cons, List.take_zero]
  simp only [List.Forall]
  exact ⟨by writes_one, by writes_one, by writes_one, by writes_one, by writes_one⟩

/-- A buffer part 14 does not write keeps its contents through it. -/
theorem W14_keep (V0 : Valuation τ sig (Elt F)) (r : Ref sig .tc) (h : r ∉ part14_W) :
    W14 V0 (Proc.devRef .tc r) = W13 V0 (Proc.devRef .tc r) :=
  after_of_writes_sub part14 _ part14_writes h

/-- The whole line from `V0` is its operations from 255 on, from the contents after the first 14 parts. -/
theorem after_ops_14 (V0 : Valuation τ sig (Elt F)) : after (ops : List (HloOp τ sig (Elt F))) V0 = after ((ops : List (HloOp τ sig (Elt F))).drop 255) (W14 V0) :=
  (after_ops_13 V0).trans (after_split ops 250 5 255 rfl (W13 V0))

set_option maxRecDepth 8192 in
set_option maxHeartbeats 2000000 in
/-- `main_v204` after part 14: the stage, at the launch contents of the arguments. -/
theorem W14_main_v204 (V0 : Valuation τ sig (Elt F)) : W14 V0 (no_index (Proc.devRef .tc main_v204)) = val_main_v204 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) := by
  unfold W14
  simp only [part14, ops, List.drop_succ_cons, List.drop_zero, List.take_succ_cons, List.take_zero]
  after_results_simp
  try simp only [W13_main_arg18, W13_main_arg17, W13_main_v199]
  all_goals rfl

/-! ## The whole line -/

/-- The contents after the whole line are those after the last part. -/
theorem after_ops (V0 : Valuation τ sig (Elt F)) : after (ops : List (HloOp τ sig (Elt F))) V0 = W14 V0 :=
  (after_ops_14 V0).trans (by rw [show (ops : List (HloOp τ sig (Elt F))).drop 255 = [] from rfl]; rfl)

/-- The result buffer after the run holds the last stage at the launch contents of @main's arguments. -/
theorem result_eq (m : (ℓ : Loc nD τ sig) → Buf (Elt F) ℓ) (c : Dev nD) :
    res_main_v204 (F := F) m c
      = val_main_v204 (F := F)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18)) := by
  unfold res_main_v204
  rw [after_ops]
  exact W14_main_v204 (launchContents m c)

/-- The same at extended-real floats. -/
theorem result_eq_ideal (m : (ℓ : Loc nD τ sig) → Buf (Elt Ideal) ℓ) (c : Dev nD) :
    res_main_v204 (F := Ideal) m c
      = val_main_v204 (F := Ideal)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18)) :=
  result_eq m c

end Cert.ReferenceIdeal.RefValue

end
-- ==== Proof.PreFinite.lean ====
/-
  The precondition `finite_inputs`, read back. The printed predicate is a left-nested conjunction
  (((c0 ∧ c2) ∧ c3) ∧ c4) ∧ … ∧ c18 of one-bit words, one conjunct per float argument, and the claim states that the
  conjunction is 1. Conjunct k is "every entry of x_k satisfies |x_k| < +∞": the elementwise comparison of |x_k| with the pattern
  0x7F800000 (the extended real ⊤), reduced by `and` over every axis. A conjunction of bits that is 1 has both
  parts 1; a reduction by `and` over all axes that is 1 met only 1s; and an extended real x with max x (−x) < ⊤ is
  neither ⊤ nor ⊥, so it is a real number. Hence every entry of the first four float arguments is real.
-/
import proofs.«149158_j47751446397324_2_alg».proof.Defs
import proofs.«149158_j47751446397324_2_alg».proof.Proof.Gen.Pre_finite_inputs
import Idealize.ShloMosaic.Lib.ReduceAll
import Idealize.ShloMosaic.Lib.ValueIdx
import Mathlib.Data.EReal.Basic

noncomputable section

namespace Cert.Proof.PreFinite

open Idealize.ShloMosaic Idealize.ShloMosaic.ValueIdx Idealize.SL.Sem
open Cert.Pre_finite_inputs

/-- The scalar shape has one index. -/
instance : Subsingleton S_.Idx := ⟨fun a b => funext fun d => d.elim0⟩

/-- The pattern 0x7F800000 is +∞. -/
theorem ofBits_inf : Ideal.ofBits .f32 0x7F800000#32 = (⊤ : EReal) := by simp [Ideal.ofBits, Ideal.ieee]

/-- An extended real whose absolute value max x (−x) compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | top => simp at hlt
  | coe r => exact ⟨r, rfl⟩

/-- The reduction by `and`, over axes that leave a scalar, of the comparison |x| < +∞ is 1: every entry of x is a real
    number (any shape). -/
theorem real_of_all {s : Shape} {axes : List (Fin s.rank)} (x : FVec Ideal s .f32)
    (hb : S_.BroadcastsInDim s (![] : Fin 0 → Fin s.rank)) (hr : s.ReducesTo axes S_) (hu : 0 < S_.numel) (c : IVec S_ 1)
    (h : Host.reduce IntOp.andi (cmpf .olt (Host.absf x) (broadcastInDim s ![] hb (constant S_ .f32 0x7F800000#32))) c hr hu ix0 = 1#1) :
    ∀ i, ∃ r : ℝ, x i = (r : EReal) := by
  intro i
  have e := Host.reduce_andi_all _ _ hr hu _ h i
  exact real_of_abs_lt_inf (x i) e

section Core

variable [hP : Cert.Pre_finite_inputs.Facts]

/-- A conjunction of two one-bit scalars that is 1 has its left part 1. -/
theorem andi_left {a b : IVec S_ 1} (h : andi a b ix0 = 1#1) : a ix0 = 1#1 := (IntOp.andi_eq_one.1 h).1
/-- … and its right part 1. -/
theorem andi_right {a b : IVec S_ 1} (h : andi a b ix0 = 1#1) : b ix0 = 1#1 := (IntOp.andi_eq_one.1 h).2

/-- Part 5 ends in the conjunction of what it was handed with the last argument's conjunct. -/
theorem part5_left (v83 : IVec S_ 1) (v84 : FVec Ideal S1 .f32) (c : FVec Ideal S_ .f32)
    (h : fn_part5 (F := Ideal) v83 v84 c ix0 = 1#1) : v83 ix0 = 1#1 := by
  unfold fn_part5 at h
  exact andi_left h

/-- Part 4 conjoins the two bits it was handed, then four more conjuncts. -/
theorem part4_left (a15 a16 : FVec Ideal S128 .f32) (a17 : FVec Ideal S128x1 .f32) (a18 : FVec Ideal S1 .f32) (v63 v67 : IVec S_ 1)
    (h : fn_part4 (F := Ideal) a15 a16 a17 a18 v63 v67 ix0 = 1#1) : v63 ix0 = 1#1 := by
  unfold fn_part4 at h
  exact andi_left (andi_left (andi_left (andi_left (part5_left _ _ _ h))))

/-- Part 3 conjoins three conjuncts onto the bit it was handed. -/
theorem part3_left (a12 : FVec Ideal S128 .f32) (a13 : FVec Ideal S128x128 .f32) (a14 a15 a16 : FVec Ideal S128 .f32)
    (a17 : FVec Ideal S128x1 .f32) (a18 : FVec Ideal S1 .f32) (v48 : IVec S_ 1) (v49 v50 : FVec Ideal S3x128x128 .f32)
    (h : fn_part3 (F := Ideal) a12 a13 a14 a15 a16 a17 a18 v48 v49 v50 ix0 = 1#1) : v48 ix0 = 1#1 := by
  unfold fn_part3 at h
  exact andi_left (andi_left (andi_left (part4_left _ _ _ _ _ _ h)))

/-- Part 2 conjoins three conjuncts onto the bit it was handed. -/
theorem part2_left (a8 : FVec Ideal S128 .f32) (a9 : FVec Ideal S3x128x128 .f32) (a10 : FVec Ideal S128 .f32)
    (a11 : FVec Ideal S3x128x128 .f32) (a12 : FVec Ideal S128 .f32) (a13 : FVec Ideal S128x128 .f32) (a14 a15 a16 : FVec Ideal S128 .f32)
    (a17 : FVec Ideal S128x1 .f32) (a18 : FVec Ideal S1 .f32) (v33 : IVec S_ 1)
    (h : fn_part2 (F := Ideal) a8 a9 a10 a11 a12 a13 a14 a15 a16 a17 a18 v33 ix0 = 1#1) : v33 ix0 = 1#1 := by
  unfold fn_part2 at h
  exact andi_left (andi_left (andi_left (part3_left _ _ _ _ _ _ _ _ _ _ h)))

/-- Part 1 reduces the comparison it was handed, conjoins it with the bit it was handed, then three more conjuncts. -/
theorem part1_left (a5 : FVec Ideal S128x128 .f32) (a6 a7 a8 : FVec Ideal S128 .f32) (a9 : FVec Ideal S3x128x128 .f32) (a10 : FVec Ideal S128 .f32)
    (a11 : FVec Ideal S3x128x128 .f32) (a12 : FVec Ideal S128 .f32) (a13 : FVec Ideal S128x128 .f32) (a14 a15 a16 : FVec Ideal S128 .f32)
    (a17 : FVec Ideal S128x1 .f32) (a18 : FVec Ideal S1 .f32) (v13 : IVec S_ 1) (v16 : IVec S128 1)
    (h : fn_part1 (F := Ideal) a5 a6 a7 a8 a9 a10 a11 a12 a13 a14 a15 a16 a17 a18 v13 v16 ix0 = 1#1) :
    v13 ix0 = 1#1 ∧ Host.reduce IntOp.andi v16 (constantI S_ 1 1#1) Facts.reducesTo_S128_S_d0 Facts.h_S_ ix0 = 1#1 := by
  unfold fn_part1 at h
  have h18 := andi_left (andi_left (andi_left (part2_left _ _ _ _ _ _ _ _ _ _ _ _ h)))
  exact ⟨andi_left h18, andi_right h18⟩

/-- THE PRECONDITION READ BACK: every entry of the first four float arguments is a real number. -/
theorem finite_of_fn (x0 : FVec Ideal S100000x128 .f32) (x1 : IVec S2x1000000 32) (x2 : FVec Ideal S1000000x16 .f32)
    (x3 : FVec Ideal S144x128 .f32) (x4 : FVec Ideal S128 .f32) (x5 : FVec Ideal S128x128 .f32) (x6 x7 x8 : FVec Ideal S128 .f32)
    (x9 : FVec Ideal S3x128x128 .f32) (x10 : FVec Ideal S128 .f32) (x11 : FVec Ideal S3x128x128 .f32) (x12 : FVec Ideal S128 .f32)
    (x13 : FVec Ideal S128x128 .f32) (x14 x15 x16 : FVec Ideal S128 .f32) (x17 : FVec Ideal S128x1 .f32) (x18 : FVec Ideal S1 .f32)
    (h : Cert.Pre_finite_inputs.fn (F := Ideal) x0 x1 x2 x3 x4 x5 x6 x7 x8 x9 x10 x11 x12 x13 x14 x15 x16 x17 x18 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) := by
  have e := congrFun h ix0
  unfold Cert.Pre_finite_inputs.fn at e
  obtain ⟨h13, h17⟩ := part1_left _ _ _ _ _ _ _ _ _ _ _ _ _ _ _ _ e
  have h8 := andi_left h13
  exact ⟨real_of_all x0 _ _ _ _ (andi_left h8), real_of_all x2 _ _ _ _ (andi_right h8),
    real_of_all x3 _ _ _ _ (andi_right h13), real_of_all x4 _ _ _ _ h17⟩

end Core

/-- The same of the launch memory of the idealized kernel program, on every device: x, edge_attr, w_int and b_int hold
    real numbers. -/
theorem finite_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) :=
  finite_of_fn (hP := Cert.Pre_finite_inputs.Gen.facts) _ _ _ _ _ _ _ _ _ _ _ _ _ _ _ _ _ _ _ (hpre c)

end Cert.Proof.PreFinite

end
-- ==== Proof.Stages1.lean ====
/-
  The first linear layer, its batch statistics and the first normalization: the kernel program's values are the
  reference's.

  Given that the two programs agree on the node features that enter it, the kernel's linear layer — a region's
  `∑ k, a (n, k) * w (k, j) + b (0, j)` with the bias row reshaped to `[1, 128]` — is the reference's `dot_general` plus the
  bias broadcast along the rows; the column means and variances are then the same host operations of the same
  array; and the normalization with the rectifier is the same pointwise expression, read column by column.
-/
import proofs.«149158_j47751446397324_2_alg».proof.Proof.KVal
import proofs.«149158_j47751446397324_2_alg».proof.Proof.RefRead

set_option maxRecDepth 16384

noncomputable section

open scoped BigOperators

namespace Cert.Proof.Stages

open Idealize.ShloMosaic Idealize.ShloMosaic.ValueIdx
open Cert.KernelIdeal Cert.KernelIdeal.Gen Cert.KernelIdeal.KVal Cert.ReferenceIdeal.ReadP

/-- A vector `[128]` reshaped to a row `[1, 128]` holds at `(0, q)` the vector's entry `q`. -/
theorem row_reshape {α : Type} (v : S128.Idx → α) (q : Fin 128) :
    shapeCast S1x128 v shapeCasts_S128_S1x128 (ix2 (0 : Fin 1) q) = v (ix1 q) := by
  refine shapeCast_apply v shapeCasts_S128_S1x128 (ix2 (0 : Fin 1) q) (ix1 q) ?_
  rewrite [Shape.rowMajor_val_two, Shape.rowMajor_val_one]
  show q.val = 0 * 128 + q.val
  omega

/-- The first linear layer. -/
theorem z1 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (hA : kv_v25 x0 x1 x2 x3 x4 = val_main_v26 (F := Ideal) x0 x1 x2 x3 x4) :
    kv_v27 x0 x1 x2 x3 x4 x5 x6 = val_main_v30 (F := Ideal) x0 x1 x2 x3 x4 x5 x6 := by
  unfold kv_v27
  rw [hA]
  funext i
  rw [val_main_v30_apply, val_main_v27_apply, val_main_v29_apply, val_main_v28_apply]
  generalize val_main_v26 (F := Ideal) x0 x1 x2 x3 x4 = A
  unfold Cert.KernelIdeal.Region1.out kv_v26
  rw [row_reshape]
  refine congrArg₂ (· + ·) (Finset.sum_congr rfl fun k _ => congrArg₂ (· * ·) (congrArg A ?_) (congrArg x5 ?_)) (congrArg x6 ?_)
  · funext a; match a with | ⟨0, _⟩ => rfl | ⟨1, _⟩ => rfl
  · funext a; match a with | ⟨0, _⟩ => rfl | ⟨1, _⟩ => rfl
  · funext a; match a with | ⟨0, _⟩ => rfl

/-- The column means of the first pre-activations. -/
theorem mean1 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (hz : kv_v27 x0 x1 x2 x3 x4 x5 x6 = val_main_v30 (F := Ideal) x0 x1 x2 x3 x4 x5 x6) :
    kv_v30 x0 x1 x2 x3 x4 x5 x6 = val_main_v33 (F := Ideal) x0 x1 x2 x3 x4 x5 x6 := by
  unfold kv_v30 kv_v28 val_main_v33 val_main_v31
  rw [hz]
  rfl

/-- The column variances of the first pre-activations. -/
theorem var1 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (hz : kv_v27 x0 x1 x2 x3 x4 x5 x6 = val_main_v30 (F := Ideal) x0 x1 x2 x3 x4 x5 x6)
    (hm : kv_v30 x0 x1 x2 x3 x4 x5 x6 = val_main_v33 (F := Ideal) x0 x1 x2 x3 x4 x5 x6) :
    kv_v37 x0 x1 x2 x3 x4 x5 x6 = val_main_v40 (F := Ideal) x0 x1 x2 x3 x4 x5 x6 := by
  unfold kv_v37 kv_v35 kv_v34 kv_v33 kv_v32 kv_v31 val_main_v40 val_main_v38 val_main_v37 val_main_v36 val_main_v35 val_main_v34
  rw [hz, hm]
  rfl

/-- The first normalization and rectifier. -/
theorem h1 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal))
    (hz : kv_v27 x0 x1 x2 x3 x4 x5 x6 = val_main_v30 (F := Ideal) x0 x1 x2 x3 x4 x5 x6)
    (hm : kv_v30 x0 x1 x2 x3 x4 x5 x6 = val_main_v33 (F := Ideal) x0 x1 x2 x3 x4 x5 x6)
    (hv : kv_v37 x0 x1 x2 x3 x4 x5 x6 = val_main_v40 (F := Ideal) x0 x1 x2 x3 x4 x5 x6) :
    kv_v42 x0 x1 x2 x3 x4 x5 x6 x7 x8 = val_main_v56 (F := Ideal) x0 x1 x2 x3 x4 x5 x6 x7 x8 := by
  unfold kv_v42 kv_v38 kv_v39 kv_v40 kv_v41
  rw [hz, hm, hv]
  funext i
  rw [val_main_v56_apply, val_main_v55_apply, val_main_v52_apply, val_main_v46_apply, val_main_v45_apply, val_main_v44_apply,
    val_main_v43_apply, val_main_v42_apply, val_main_v41_apply, val_main_v51_apply, val_main_v50_apply, val_main_v49_apply,
    val_main_v48_apply, val_main_v47_apply, val_main_cst_8_apply, val_main_v54_apply, val_main_v53_apply,
    val_main_call1_v0_apply, val_main_call1_cst_apply]
  generalize val_main_v30 (F := Ideal) x0 x1 x2 x3 x4 x5 x6 = Z
  generalize val_main_v33 (F := Ideal) x0 x1 x2 x3 x4 x5 x6 = M
  generalize val_main_v40 (F := Ideal) x0 x1 x2 x3 x4 x5 x6 = Vr
  unfold Cert.KernelIdeal.Region2.out
  rw [row_reshape, row_reshape, row_reshape, row_reshape]
  simp only [Ideal.maximumf_def, Ideal.addf_def, Ideal.mulf_def, Ideal.subf_def, Ideal.hostUnary_rsqrt_def, Ideal.ofBits_def]
  refine congrArg₂ max (congrArg₂ (· + ·) (congrArg₂ (· * ·) (congrArg₂ (· * ·) (congrArg x7 ?_)
    (congrArg₂ (· - ·) (congrArg Z ?_) (congrArg M ?_))) (congrArg (fun t => Ideal.rsqrt (t + _)) (congrArg Vr ?_))) (congrArg x8 ?_)) rfl
  all_goals first | (funext a; match a with | ⟨0, _⟩ => rfl | ⟨1, _⟩ => rfl) | (funext a; match a with | ⟨0, _⟩ => rfl)

end Cert.Proof.Stages

end
-- ==== Proof.Stages2.lean ====
/-
  The degree normalization: the kernel program's vector is the reference's.

  Both programs count, for every node, the edges that start there (a scatter-add of ones over the source indices), and take
  `rsqrt (max deg 1)` where the count is positive and `0` elsewhere: the same host operations of the same edge list.
-/
import proofs.«149158_j47751446397324_2_alg».proof.Proof.KVal
import proofs.«149158_j47751446397324_2_alg».proof.Proof.RefRead

set_option maxRecDepth 16384

noncomputable section

namespace Cert.Proof.Stages

open Idealize.ShloMosaic Idealize.ShloMosaic.ValueIdx
open Cert.KernelIdeal Cert.KernelIdeal.Gen Cert.KernelIdeal.KVal Cert.ReferenceIdeal.ReadP

/-- The source indices of the edges. -/
theorem row_eq (x1 : (⟨S2x1000000, .i32⟩ : BufTy).Contents (Elt Ideal)) : kv_v1 x1 = val_main_v1 (F := Ideal) x1 := rfl
/-- The target indices of the edges. -/
theorem col_eq (x1 : (⟨S2x1000000, .i32⟩ : BufTy).Contents (Elt Ideal)) : kv_v3 x1 = val_main_v3 (F := Ideal) x1 := rfl
/-- The vector of ones, one per edge. -/
theorem ones_eq : kv_v4 = val_main_v4 (F := Ideal) := rfl

/-- The degree normalization `dis`. -/
theorem dis_eq (x1 : (⟨S2x1000000, .i32⟩ : BufTy).Contents (Elt Ideal)) : kv_v51 x1 = val_main_v65 (F := Ideal) x1 := by
  unfold kv_v51 kv_v47 kv_v50 kv_v49 kv_v45 kv_v44 kv_call0_v1 kv_call0_v0
    val_main_v65 val_main_v61 val_main_v64 val_main_v63 val_main_v59 val_main_v58 val_main_call2_v1 val_main_call2_v0
  rw [row_eq, ones_eq]
  rfl

end Cert.Proof.Stages

end
-- ==== Proof.Stages3.lean ====
/-
  The two polynomial filters' combinations: the kernel program's values are the reference's.

  Given that the two programs agree on the three polynomial terms `T0, T1, T2`, a filter's output
  `max (T0 W0 + T1 W1 + T2 W2 + b) 0` is, in the kernel, one region over row blocks with the three weight matrices
  sliced out of the stacked weights and the bias reshaped to a row, and in the reference three `dot_general`s, two sums,
  the bias broadcast along the rows and the rectifier: the same expression at every `(n, j)`.
-/
import proofs.«149158_j47751446397324_2_alg».proof.Proof.Stages1

set_option maxRecDepth 16384

noncomputable section

open scoped BigOperators

namespace Cert.Proof.Stages

open Idealize.ShloMosaic Idealize.ShloMosaic.ValueIdx
open Cert.KernelIdeal Cert.KernelIdeal.Gen Cert.KernelIdeal.KVal Cert.ReferenceIdeal.ReadP

/-- The first polynomial filter's combination: three products, the bias, the rectifier. -/
theorem h2 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal))
    (h0 : kv_v42 x0 x1 x2 x3 x4 x5 x6 x7 x8 = val_main_v56 (F := Ideal) x0 x1 x2 x3 x4 x5 x6 x7 x8)
    (h1 : kv_v70 x0 x1 x2 x3 x4 x5 x6 x7 x8 = val_main_v97 (F := Ideal) x0 x1 x2 x3 x4 x5 x6 x7 x8)
    (h2 : kv_v92 x0 x1 x2 x3 x4 x5 x6 x7 x8 = val_main_v117 (F := Ideal) x0 x1 x2 x3 x4 x5 x6 x7 x8) :
    kv_v100 x0 x1 x2 x3 x4 x5 x6 x7 x8 x9 x10 = val_main_v125 (F := Ideal) x0 x1 x2 x3 x4 x5 x6 x7 x8 x9 x10 := by
  unfold kv_v100 kv_v99
  rw [h0, h1, h2, show kv_v94 x9 = val_main_v83 (F := Ideal) x9 from rfl, show kv_v96 x9 = val_main_v99 (F := Ideal) x9 from rfl,
    show kv_v98 x9 = val_main_v119 (F := Ideal) x9 from rfl]
  funext i
  rw [val_main_v125_apply, val_main_v124_apply, val_main_v121_apply, val_main_v101_apply, val_main_v84_apply, val_main_v100_apply, val_main_v120_apply, val_main_v123_apply, val_main_v122_apply,
    val_main_call3_v0_apply, val_main_call3_cst_apply]
  generalize val_main_v56 (F := Ideal) x0 x1 x2 x3 x4 x5 x6 x7 x8 = T0
  generalize val_main_v97 (F := Ideal) x0 x1 x2 x3 x4 x5 x6 x7 x8 = T1
  generalize val_main_v117 (F := Ideal) x0 x1 x2 x3 x4 x5 x6 x7 x8 = T2
  generalize val_main_v83 (F := Ideal) x9 = W0
  generalize val_main_v99 (F := Ideal) x9 = W1
  generalize val_main_v119 (F := Ideal) x9 = W2
  unfold Cert.KernelIdeal.Region3.out
  rw [row_reshape]
  simp only [Ideal.maximumf_def, Ideal.addf_def, Ideal.ofBits_def]
  refine congrArg₂ max (congrArg₂ (· + ·) (congrArg₂ (· + ·) (congrArg₂ (· + ·)
      (Finset.sum_congr rfl fun k _ => congrArg₂ (· * ·) (congrArg T0 ?_) (congrArg W0 ?_))
      (Finset.sum_congr rfl fun k _ => congrArg₂ (· * ·) (congrArg T1 ?_) (congrArg W1 ?_)))
      (Finset.sum_congr rfl fun k _ => congrArg₂ (· * ·) (congrArg T2 ?_) (congrArg W2 ?_))) (congrArg x10 ?_)) rfl
  all_goals first | (funext a; match a with | ⟨0, _⟩ => rfl | ⟨1, _⟩ => rfl) | (funext a; match a with | ⟨0, _⟩ => rfl)

/-- The second polynomial filter's combination: three products, the bias, the rectifier. -/
theorem h3 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal))
    (h0 : kv_v100 x0 x1 x2 x3 x4 x5 x6 x7 x8 x9 x10 = val_main_v125 (F := Ideal) x0 x1 x2 x3 x4 x5 x6 x7 x8 x9 x10)
    (h1 : kv_v119 x0 x1 x2 x3 x4 x5 x6 x7 x8 x9 x10 = val_main_v141 (F := Ideal) x0 x1 x2 x3 x4 x5 x6 x7 x8 x9 x10)
    (h2 : kv_v141 x0 x1 x2 x3 x4 x5 x6 x7 x8 x9 x10 = val_main_v161 (F := Ideal) x0 x1 x2 x3 x4 x5 x6 x7 x8 x9 x10) :
    kv_v149 x0 x1 x2 x3 x4 x5 x6 x7 x8 x9 x10 x11 x12 = val_main_v169 (F := Ideal) x0 x1 x2 x3 x4 x5 x6 x7 x8 x9 x10 x11 x12 := by
  unfold kv_v149 kv_v148
  rw [h0, h1, h2, show kv_v143 x11 = val_main_v127 (F := Ideal) x11 from rfl, show kv_v145 x11 = val_main_v143 (F := Ideal) x11 from rfl,
    show kv_v147 x11 = val_main_v163 (F := Ideal) x11 from rfl]
  funext i
  rw [val_main_v169_apply, val_main_v168_apply, val_main_v165_apply, val_main_v145_apply, val_main_v128_apply, val_main_v144_apply, val_main_v164_apply, val_main_v167_apply, val_main_v166_apply,
    val_main_call4_v0_apply, val_main_call4_cst_apply]
  generalize val_main_v125 (F := Ideal) x0 x1 x2 x3 x4 x5 x6 x7 x8 x9 x10 = T0
  generalize val_main_v141 (F := Ideal) x0 x1 x2 x3 x4 x5 x6 x7 x8 x9 x10 = T1
  generalize val_main_v161 (F := Ideal) x0 x1 x2 x3 x4 x5 x6 x7 x8 x9 x10 = T2
  generalize val_main_v127 (F := Ideal) x11 = W0
  generalize val_main_v143 (F := Ideal) x11 = W1
  generalize val_main_v163 (F := Ideal) x11 = W2
  unfold Cert.KernelIdeal.Region4.out
  rw [row_reshape]
  simp only [Ideal.maximumf_def, Ideal.addf_def, Ideal.ofBits_def]
  refine congrArg₂ max (congrArg₂ (· + ·) (congrArg₂ (· + ·) (congrArg₂ (· + ·)
      (Finset.sum_congr rfl fun k _ => congrArg₂ (· * ·) (congrArg T0 ?_) (congrArg W0 ?_))
      (Finset.sum_congr rfl fun k _ => congrArg₂ (· * ·) (congrArg T1 ?_) (congrArg W1 ?_)))
      (Finset.sum_congr rfl fun k _ => congrArg₂ (· * ·) (congrArg T2 ?_) (congrArg W2 ?_))) (congrArg x12 ?_)) rfl
  all_goals first | (funext a; match a with | ⟨0, _⟩ => rfl | ⟨1, _⟩ => rfl) | (funext a; match a with | ⟨0, _⟩ => rfl)

end Cert.Proof.Stages

end
-- ==== Proof.LibGatherScatter.lean ====
/-
  A row gather and a row scatter-add of the host, read at an index.

  `x[idx]` of jnp on the leading axis of a table prints as a `stablehlo.gather` with one start index per result row,
  the index read signed and clamped into the table; `segment_sum` prints as a `stablehlo.scatter` whose body adds,
  with one scatter index per update row, the index read signed and NOT clamped: an update whose index falls outside
  the operand contributes nothing. At the ideal instance the scatter-add of rows is, at the element `(n, k)`, the
  operand's element plus the sum of the updates' elements `(e, k)` over the update rows `e` whose index is `n`.
-/
import Idealize.ShloMosaic.Lib.ValueIdx
import Idealize.ShloMosaic.PureOps.Contract

noncomputable section

open scoped BigOperators

namespace Cert.Lib.GatherScatter

open Idealize.ShloMosaic Idealize.ShloMosaic.ValueIdx

variable {α : Type}

/-! Membership facts about the two axes of a rank-2 shape, decided once on closed lists. -/
private theorem one_not_mem : ¬ (1 : Fin 2) ∈ ([0] : List (Fin 2)) := by decide
private theorem kept2_zero : (List.finRange 2).filter (fun a : Fin 2 => a ∉ ([0] : List (Fin 2))) = [1] := by decide
private theorem kept2_zero_app : (List.finRange 2).filter (fun a : Fin 2 => a ∉ ([0] ++ [] : List (Fin 2))) = [1] := by decide

/-! ## The gather of rows -/

/-- The dimension numbers of `x[idx]` for a table `[N, C]`, start indices `[E, 1]` and result `[E, C]`. -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Row `e` of the result is the table's row at `idx[e, 0]`, read signed and clamped into `[0, N − 1]`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowGather N E C wf).start (ix2 e k) idx 0 + (rowGather N E C wf).batchCoord (ix2 e k) 0
      + (rowGather N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e k) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e k) idx 1 + (rowGather N E C wf).batchCoord (ix2 e k) 1
      + (rowGather N E C wf).offCoord (ix2 e k) 1 = k.val
    rw [GatherDims.batchCoord_eq_zero _ _ _ List.not_mem_nil]
    unfold GatherDims.start
    rw [dif_neg (show ¬ (1 : Fin 2) ∈ (rowGather N E C wf).startIndexMap from one_not_mem)]
    unfold GatherDims.offCoord
    rw [dif_pos (show (1 : Fin 2) ∈ (rowGather N E C wf).sKept from (by show (1 : Fin 2) ∈ (List.finRange 2).filter (fun a : Fin 2 => a ∉ ([0] ++ [] : List (Fin 2))); rw [kept2_zero_app]; exact List.mem_singleton.mpr rfl))]
    simp only [Nat.zero_add]
    rfl

/-! ## The gather of entries of a vector -/

/-- The dimension numbers of `v[idx]` for a vector `[N]`, start indices `[E, 1]` and result `[E]`. -/
abbrev entryGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the result is the vector's entry at `idx[e, 0]`, read signed and clamped into `[0, N − 1]`. -/
theorem entryGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGather N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (entryGather N E wf).start (ix1 e) idx 0 + (entryGather N E wf).batchCoord (ix1 e) 0
    + (entryGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather N E wf).startIndexMap from List.mem_singleton.mpr rfl)]
  have hsi : (entryGather N E wf).siIdx (ix1 e) ⟨List.idxOf (0 : Fin 1) (entryGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The scatter-add of rows -/

/-- The dimension numbers of `segment_sum` of rows: an operand `[N, C]`, scatter indices `[E, 1]`, updates `[E, C]`. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the window of update row `e` starts at `idx[e, 0]`, read signed. -/
theorem rowScatter_start0 : (rowScatter N E C wf).start (ix2 e k) idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e k) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at `0`. -/
theorem rowScatter_start1 : (rowScatter N E C wf).start (ix2 e k) idx 1 = 0 := by
  unfold ScatterDims.start
  rw [dif_neg (show ¬ (1 : Fin 2) ∈ (rowScatter N E C wf).scatterDimsToOperandDims from one_not_mem)]

/-- The row axis is inserted: no window coordinate. -/
theorem rowScatter_window0 : (rowScatter N E C wf).window (ix2 e k) 0 = 0 := by
  unfold ScatterDims.window
  rw [dif_neg (show ¬ (0 : Fin 2) ∈ (rowScatter N E C wf).sKept from (by show ¬ (0 : Fin 2) ∈ (List.finRange 2).filter (fun a : Fin 2 => a ∉ ([0] : List (Fin 2))); rw [kept2_zero]; decide))]

/-- The column axis carries the update's column. -/
theorem rowScatter_window1 : (rowScatter N E C wf).window (ix2 e k) 1 = k.val := by
  unfold ScatterDims.window
  rw [dif_pos (show (1 : Fin 2) ∈ (rowScatter N E C wf).sKept from (by show (1 : Fin 2) ∈ (List.finRange 2).filter (fun a : Fin 2 => a ∉ ([0] : List (Fin 2))); rw [kept2_zero]; exact List.mem_singleton.mpr rfl))]
  rfl

/-- Update element `(e, k)` lands on operand element `(n, k')` exactly when `idx[e, 0] = n` and `k = k'`. -/
theorem rowScatter_lands (n : Fin N) (k' : Fin C) :
    (rowScatter N E C wf).resultIdx? (ix2 e k) idx = some (ix2 n k')
      ↔ (idx (ix2 e (0 : Fin 1))).toInt = (n.val : Int) ∧ k = k' := by
  unfold ScatterDims.resultIdx?
  constructor
  · intro h
    by_cases hall : ∀ a, 0 ≤ (rowScatter N E C wf).start (ix2 e k) idx a + (rowScatter N E C wf).window (ix2 e k) a
        ∧ (rowScatter N E C wf).start (ix2 e k) idx a + (rowScatter N E C wf).window (ix2 e k) a
          < (⟨2, ![N, C]⟩ : Shape).size a
    · rw [dif_pos hall] at h
      have h' := Option.some.inj h
      have h0 : ((rowScatter N E C wf).start (ix2 e k) idx 0 + (rowScatter N E C wf).window (ix2 e k) 0).toNat = n.val :=
        congrArg Fin.val (congrFun h' 0)
      have h1 : ((rowScatter N E C wf).start (ix2 e k) idx 1 + (rowScatter N E C wf).window (ix2 e k) 1).toNat = k'.val :=
        congrArg Fin.val (congrFun h' 1)
      have ha := (hall 0).1
      rw [rowScatter_start0, rowScatter_window0] at ha h0
      rw [rowScatter_start1, rowScatter_window1] at h1
      exact ⟨by omega, Fin.ext (by omega)⟩
    · rw [dif_neg hall] at h
      exact absurd h (by simp)
  · rintro ⟨h0, rfl⟩
    have hall : ∀ a, 0 ≤ (rowScatter N E C wf).start (ix2 e k) idx a + (rowScatter N E C wf).window (ix2 e k) a
        ∧ (rowScatter N E C wf).start (ix2 e k) idx a + (rowScatter N E C wf).window (ix2 e k) a
          < (⟨2, ![N, C]⟩ : Shape).size a := by
      intro a
      match a with
      | ⟨0, _⟩ =>
        show 0 ≤ (rowScatter N E C wf).start (ix2 e k) idx 0 + (rowScatter N E C wf).window (ix2 e k) 0
          ∧ (rowScatter N E C wf).start (ix2 e k) idx 0 + (rowScatter N E C wf).window (ix2 e k) 0 < (N : Int)
        rw [rowScatter_start0, rowScatter_window0, h0]
        have := n.isLt
        constructor <;> omega
      | ⟨1, _⟩ =>
        show 0 ≤ (rowScatter N E C wf).start (ix2 e k) idx 1 + (rowScatter N E C wf).window (ix2 e k) 1
          ∧ (rowScatter N E C wf).start (ix2 e k) idx 1 + (rowScatter N E C wf).window (ix2 e k) 1 < (C : Int)
        rw [rowScatter_start1, rowScatter_window1]
        have := k.isLt
        constructor <;> omega
    rw [dif_pos hall]
    congr 1
    funext a
    refine Fin.ext ?_
    match a with
    | ⟨0, _⟩ =>
      show ((rowScatter N E C wf).start (ix2 e k) idx 0 + (rowScatter N E C wf).window (ix2 e k) 0).toNat = n.val
      rw [rowScatter_start0, rowScatter_window0, h0]
      omega
    | ⟨1, _⟩ =>
      show ((rowScatter N E C wf).start (ix2 e k) idx 1 + (rowScatter N E C wf).window (ix2 e k) 1).toNat = k.val
      rw [rowScatter_start1, rowScatter_window1]
      omega

/-- **The scatter-add of rows at an element**: the operand's element plus the sum, over the update rows whose index is
    `n`, of their elements in column `k`. -/
theorem rowScatterAdd_apply (x : (⟨2, ![N, C]⟩ : Shape).Idx → EReal) (upd : (⟨2, ![E, C]⟩ : Shape).Idx → EReal)
    (n : Fin N) :
    Ideal.hostScatterAdd (rowScatter N E C wf) x idx upd (ix2 n k)
      = x (ix2 n k) + ∑ e ∈ Finset.univ.filter (fun e : Fin E => (idx (ix2 e (0 : Fin 1))).toInt = (n.val : Int)),
          upd (ix2 e k) := by
  unfold Ideal.hostScatterAdd
  congr 1
  symm
  refine Finset.sum_bij (fun e _ => ix2 e k) ?_ ?_ ?_ ?_
  · intro e he
    rw [Finset.mem_filter] at he ⊢
    exact ⟨Finset.mem_univ _, (rowScatter_lands wf idx e k n k).2 ⟨he.2, rfl⟩⟩
  · intro e₁ _ e₂ _ h
    exact congrFun h 0
  · intro j hj
    rw [Finset.mem_filter] at hj
    obtain ⟨e, k', rfl⟩ : ∃ (e : Fin E) (k' : Fin C), j = ix2 e k' := ⟨j 0, j 1, eq_ix2 j⟩
    obtain ⟨h0, rfl⟩ := (rowScatter_lands wf idx e k' n k).1 hj.2
    exact ⟨e, Finset.mem_filter.2 ⟨Finset.mem_univ _, h0⟩, rfl⟩
  · intro e _
    rfl

end Rows

/-! ## The scatter-add into a vector -/

/-- The dimension numbers of `segment_sum` of scalars: an operand `[N]`, scatter indices `[E, 1]`, updates `[E]`. -/
abbrev entryScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Entries
variable {N E w : Nat} (wf : ScatterDims.WF ⟨1, ![N]⟩ ⟨2, ![E, 1]⟩ ⟨1, ![E]⟩ [] [0] [0] 1)
  (idx : IVec ⟨2, ![E, 1]⟩ w) (e : Fin E)

theorem entryScatter_start0 : (entryScatter N E wf).start (ix1 e) idx 0 = (idx (ix2 e (0 : Fin 1))).toInt := by
  unfold ScatterDims.start
  rw [dif_pos (show (0 : Fin 1) ∈ (entryScatter N E wf).scatterDimsToOperandDims from List.mem_singleton.mpr rfl)]
  have hsi : (entryScatter N E wf).siIdx (ix1 e) ⟨List.idxOf (0 : Fin 1) (entryScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem entryScatter_window0 : (entryScatter N E wf).window (ix1 e) 0 = 0 := by
  unfold ScatterDims.window
  rw [dif_neg (show ¬ (0 : Fin 1) ∈ (entryScatter N E wf).sKept from
    (by show ¬ (0 : Fin 1) ∈ (List.finRange 1).filter (fun a : Fin 1 => a ∉ ([0] : List (Fin 1))); decide))]

/-- Update entry `e` lands on operand entry `n` exactly when `idx[e, 0] = n`. -/
theorem entryScatter_lands (n : Fin N) :
    (entryScatter N E wf).resultIdx? (ix1 e) idx = some (ix1 n) ↔ (idx (ix2 e (0 : Fin 1))).toInt = (n.val : Int) := by
  unfold ScatterDims.resultIdx?
  constructor
  · intro h
    by_cases hall : ∀ a, 0 ≤ (entryScatter N E wf).start (ix1 e) idx a + (entryScatter N E wf).window (ix1 e) a
        ∧ (entryScatter N E wf).start (ix1 e) idx a + (entryScatter N E wf).window (ix1 e) a
          < (⟨1, ![N]⟩ : Shape).size a
    · rw [dif_pos hall] at h
      have h' := Option.some.inj h
      have h0 : ((entryScatter N E wf).start (ix1 e) idx 0 + (entryScatter N E wf).window (ix1 e) 0).toNat = n.val :=
        congrArg Fin.val (congrFun h' 0)
      have ha := (hall 0).1
      rw [entryScatter_start0, entryScatter_window0] at ha h0
      omega
    · rw [dif_neg hall] at h
      exact absurd h (by simp)
  · intro h0
    have hall : ∀ a, 0 ≤ (entryScatter N E wf).start (ix1 e) idx a + (entryScatter N E wf).window (ix1 e) a
        ∧ (entryScatter N E wf).start (ix1 e) idx a + (entryScatter N E wf).window (ix1 e) a
          < (⟨1, ![N]⟩ : Shape).size a := by
      intro a
      obtain rfl : a = 0 := Subsingleton.elim _ _
      show 0 ≤ (entryScatter N E wf).start (ix1 e) idx 0 + (entryScatter N E wf).window (ix1 e) 0
        ∧ (entryScatter N E wf).start (ix1 e) idx 0 + (entryScatter N E wf).window (ix1 e) 0 < (N : Int)
      rw [entryScatter_start0, entryScatter_window0, h0]
      have := n.isLt
      constructor <;> omega
    rw [dif_pos hall]
    congr 1
    funext a
    obtain rfl : a = 0 := Subsingleton.elim _ _
    refine Fin.ext ?_
    show ((entryScatter N E wf).start (ix1 e) idx 0 + (entryScatter N E wf).window (ix1 e) 0).toNat = n.val
    rw [entryScatter_start0, entryScatter_window0, h0]
    omega

/-- **The scatter-add into a vector at an entry**: the operand's entry plus the sum of the updates whose index is `n`. -/
theorem entryScatterAdd_apply (x : (⟨1, ![N]⟩ : Shape).Idx → EReal) (upd : (⟨1, ![E]⟩ : Shape).Idx → EReal) (n : Fin N) :
    Ideal.hostScatterAdd (entryScatter N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (entryScatter_lands wf idx e n).2 he.2⟩
  · intro e₁ _ e₂ _ h
    exact congrFun h 0
  · intro j hj
    rw [Finset.mem_filter] at hj
    obtain ⟨e, rfl⟩ : ∃ e : Fin E, j = ix1 e := ⟨j 0, eq_ix1 j⟩
    exact ⟨e, Finset.mem_filter.2 ⟨Finset.mem_univ _, (entryScatter_lands wf idx e n).1 hj.2⟩, rfl⟩
  · intro e _
    rfl

end Entries

end Cert.Lib.GatherScatter

end
-- ==== Proof.LibEdgeSum.lean ====
/-
  Laws of the extended reals for sums over the edges that land on one node.

  On the extended reals multiplication does not distribute over addition in general (`⊤ + ⊥ = ⊥`), but it does over
  a sum whose terms are all non-negative, whatever the factor. A message-passing step sums, over the edges `e` that
  end in a node, the source's feature `z e` weighted by `-(a e) * d`, where `a e ≥ 0` belongs to the edge's source and
  `d` to the node. When all features have one sign the node's factor moves out of the sum:
  `∑ e, (-(a e) * d) * z e = (-d) * ∑ e, a e * z e`, with no finiteness assumption on `z`.
-/
import Mathlib.Data.EReal.Operations
import Mathlib.Data.EReal.Inv
import Mathlib.Algebra.BigOperators.Fin

open Finset

noncomputable section

namespace Cert.Lib.EdgeSum

variable {ι : Type*}

/-- A factor moves across a finite sum of non-negative extended reals. -/
theorem mul_sum_of_nonneg (c : EReal) (s : Finset ι) (f : ι → EReal) (hf : ∀ i ∈ s, 0 ≤ f i) :
    c * ∑ i ∈ s, f i = ∑ i ∈ s, c * f i := by
  classical
  induction s using Finset.induction_on with
  | empty => simp
  | insert i s hi ih =>
    have hs : ∀ j ∈ s, 0 ≤ f j := fun j hj => hf j (Finset.mem_insert_of_mem hj)
    rw [Finset.sum_insert hi, Finset.sum_insert hi,
      EReal.left_distrib_of_nonneg (hf i (Finset.mem_insert_self i s)) (Finset.sum_nonneg hs), ih hs]

/-- The negative of a finite sum of non-negative extended reals is the sum of the negatives. -/
theorem neg_sum_of_nonneg (s : Finset ι) (f : ι → EReal) (hf : ∀ i ∈ s, 0 ≤ f i) :
    -(∑ i ∈ s, f i) = ∑ i ∈ s, -(f i) := by
  rw [← neg_one_mul, mul_sum_of_nonneg _ s f hf]
  exact Finset.sum_congr rfl fun i _ => neg_one_mul _

/-- **The node's factor leaves the edge sum**, for non-negative source weights and non-negative features. -/
theorem lap_of_nonneg (s : Finset ι) (a z : ι → EReal) (d : EReal) (ha : ∀ e ∈ s, 0 ≤ a e) (hz : ∀ e ∈ s, 0 ≤ z e) :
    ∑ e ∈ s, (-(a e) * d) * z e = (-d) * ∑ e ∈ s, a e * z e := by
  rw [mul_sum_of_nonneg _ s _ fun e he => mul_nonneg (ha e he) (hz e he)]
  refine Finset.sum_congr rfl fun e _ => ?_
  rw [neg_mul, neg_mul, neg_mul, mul_comm (a e) d, mul_assoc]

/-- The same for non-positive features (the output of a previous step of the same kind). -/
theorem lap_of_nonpos (s : Finset ι) (a z : ι → EReal) (d : EReal) (ha : ∀ e ∈ s, 0 ≤ a e) (hz : ∀ e ∈ s, z e ≤ 0) :
    ∑ e ∈ s, (-(a e) * d) * z e = (-d) * ∑ e ∈ s, a e * z e := by
  have hy : ∀ e ∈ s, 0 ≤ -(z e) := fun e he => EReal.neg_nonneg.2 (hz e he)
  have h1 : ∑ e ∈ s, a e * z e = -(∑ e ∈ s, a e * -(z e)) := by
    rw [neg_sum_of_nonneg s _ fun e he => mul_nonneg (ha e he) (hy e he)]
    exact Finset.sum_congr rfl fun e _ => by rw [mul_neg, neg_neg]
  rw [h1, neg_mul_neg, mul_sum_of_nonneg _ s _ fun e he => mul_nonneg (ha e he) (hy e he)]
  refine Finset.sum_congr rfl fun e _ => ?_
  rw [mul_neg, neg_mul, neg_mul, mul_neg, mul_comm (a e) d, mul_assoc]

/-- The edge sum of a step with non-negative weights and features is non-positive once the node's weight is
    non-negative: the sign the next step of the same kind needs. -/
theorem lap_nonpos (s : Finset ι) (a z : ι → EReal) (d : EReal) (hd : 0 ≤ d) (ha : ∀ e ∈ s, 0 ≤ a e)
    (hz : ∀ e ∈ s, 0 ≤ z e) : (-d) * ∑ e ∈ s, a e * z e ≤ 0 := by
  rw [neg_mul]
  exact EReal.neg_le_zero.2 (mul_nonneg hd (Finset.sum_nonneg fun e he => mul_nonneg (ha e he) (hz e he)))

/-! ## A linear layer commutes with the edge sum, for real entries -/

/-- The coercion of a finite sum of reals is the sum of the coercions. -/
theorem coe_sum (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The real identity: summing, over a set of edges, an affine form of two feature rows is the affine form of the
    summed rows, the constant counted once per edge. -/
theorem seg_linear_real {K₁ K₂ : ℕ} (s : Finset ι) (x : ι → Fin K₁ → ℝ) (a : ι → Fin K₂ → ℝ)
    (wx : Fin K₁ → ℝ) (we : Fin K₂ → ℝ) (b : ℝ) :
    ∑ e ∈ s, (((∑ k, x e k * wx k) + (∑ k, a e k * we k)) + b)
      = ((∑ k, (∑ e ∈ s, x e k) * wx k) + (∑ k, (∑ e ∈ s, a e k) * we k)) + (∑ _e ∈ s, (1 : ℝ)) * b := by
  rw [Finset.sum_add_distrib, Finset.sum_add_distrib]
  congr 1
  · congr 1
    · rw [Finset.sum_comm]; exact Finset.sum_congr rfl fun k _ => (Finset.sum_mul _ _ _).symm
    · rw [Finset.sum_comm]; exact Finset.sum_congr rfl fun k _ => (Finset.sum_mul _ _ _).symm
  · rw [Finset.sum_mul]; exact Finset.sum_congr rfl fun _ _ => (one_mul b).symm

/-- **The same on the extended reals, for entries that are real numbers**: the per-edge linear layer summed over the
    edges is the linear layer of the summed features plus the edge count times the bias. Distributivity is used, so
    the entries must be finite. -/
theorem seg_linear {K₁ K₂ : ℕ} (s : Finset ι) (x : ι → Fin K₁ → ℝ) (a : ι → Fin K₂ → ℝ)
    (wx : Fin K₁ → ℝ) (we : Fin K₂ → ℝ) (b : ℝ) :
    ∑ e ∈ s, (((∑ k, (x e k : EReal) * (wx k : EReal)) + (∑ k, (a e k : EReal) * (we k : EReal))) + (b : EReal))
      = ((∑ k, (∑ e ∈ s, (x e k : EReal)) * (wx k : EReal)) + (∑ k, (∑ e ∈ s, (a e k : EReal)) * (we k : EReal)))
        + (∑ _e ∈ s, (1 : EReal)) * (b : EReal) := by
  have hL : ∑ e ∈ s, (((∑ k, (x e k : EReal) * (wx k : EReal)) + (∑ k, (a e k : EReal) * (we k : EReal))) + (b : EReal))
      = ((∑ e ∈ s, (((∑ k, x e k * wx k) + (∑ k, a e k * we k)) + b) : ℝ) : EReal) := by
    rw [coe_sum]
    refine Finset.sum_congr rfl fun e _ => ?_
    rw [EReal.coe_add, EReal.coe_add, coe_sum, coe_sum]
    simp only [EReal.coe_mul]
  have hR : ((∑ k, (∑ e ∈ s, (x e k : EReal)) * (wx k : EReal)) + (∑ k, (∑ e ∈ s, (a e k : EReal)) * (we k : EReal)))
        + (∑ _e ∈ s, (1 : EReal)) * (b : EReal)
      = ((((∑ k, (∑ e ∈ s, x e k) * wx k) + (∑ k, (∑ e ∈ s, a e k) * we k)) + (∑ _e ∈ s, (1 : ℝ)) * b : ℝ) : EReal) := by
    rw [EReal.coe_add, EReal.coe_add, coe_sum, coe_sum, EReal.coe_mul, coe_sum]
    simp only [EReal.coe_mul, coe_sum, EReal.coe_one]
  rw [hL, hR, seg_linear_real]

end Cert.Lib.EdgeSum

end
-- ==== Proof.StageA.lean ====
/-
  Stage one of the network: the kernel's node-side combination equals the reference's per-edge linear layer summed
  over the edges.

  Write L(n) for the set of edges e whose destination index is n, g(e, ·) for the row of node features the edge's
  source index selects, a(e, ·) for the edge's own 16 features, W for the 144 × 128 weight matrix (rows 0 … 127 act on
  node features, rows 128 … 143 on edge features) and b for the bias. The reference forms, per edge,
  u(e, j) = ∑_{k<128} g(e, k) W(k, j) + ∑_{k<16} a(e, k) W(128 + k, j) + b(j), sums u over L(n), and divides by
  max(1, |L(n)|). The kernel first sums g and a over L(n), counts |L(n)|, and then forms
  (∑_k (∑_{e∈L(n)} g(e, k)) W(k, j) + ∑_k (∑_{e∈L(n)} a(e, k)) W(128 + k, j) + |L(n)| b(j)) / max(1, |L(n)|).
  Both programs scatter by the same index array and gather the same rows, so the denominators are the same term, and
  the numerators agree because a finite sum of real numbers commutes with a linear form; on the extended reals this
  uses distributivity, hence the hypothesis that every entry of the inputs is a real number.
-/
import proofs.«149158_j47751446397324_2_alg».proof.Proof.KVal
import proofs.«149158_j47751446397324_2_alg».proof.Proof.RefRead
import proofs.«149158_j47751446397324_2_alg».proof.Proof.LibGatherScatter
import proofs.«149158_j47751446397324_2_alg».proof.Proof.LibEdgeSum
import Idealize.ShloMosaic.PureOps.Ideal.Laws
import Idealize.ShloMosaic.Lib.Pipeline.Value

noncomputable section
open scoped BigOperators

namespace Cert.Proof.StageA

open Idealize.ShloMosaic Idealize.ShloMosaic.ValueIdx Cert.Lib.GatherScatter

/-- The pattern 0x3F800000 is 1. -/
theorem ofBits_one : Ideal.ofBits .f32 0x3F800000#32 = (1 : EReal) := by
  simp [Ideal.ofBits, Ideal.ieee, -EReal.coe_mul]; norm_num

/-- A sum over 144 = 128 + 16 columns splits into the first 128 and the last 16. -/
theorem sum144 (f : Fin 144 → EReal) :
    ∑ k : Fin 144, f k = (∑ k : Fin 128, f ⟨k.val, by omega⟩) + ∑ k : Fin 16, f ⟨128 + k.val, by omega⟩ := by
  have h := Fin.sum_univ_add (M := EReal) (a := 128) (b := 16) f
  exact h

section Core
variable {N E : Nat}
  (wfX : ScatterDims.WF ⟨2, ![N, 128]⟩ ⟨2, ![E, 1]⟩ ⟨2, ![E, 128]⟩ [1] [0] [0] 1)
  (wfA : ScatterDims.WF ⟨2, ![N, 16]⟩ ⟨2, ![E, 1]⟩ ⟨2, ![E, 16]⟩ [1] [0] [0] 1)
  (wfC : ScatterDims.WF ⟨1, ![N]⟩ ⟨2, ![E, 1]⟩ ⟨1, ![E]⟩ [] [0] [0] 1)
  (idx : IVec ⟨2, ![E, 1]⟩ 32)
  (G : (⟨2, ![E, 128]⟩ : Shape).Idx → EReal) (A : (⟨2, ![E, 16]⟩ : Shape).Idx → EReal)
  (W : (⟨2, ![144, 128]⟩ : Shape).Idx → EReal) (B : (⟨1, ![128]⟩ : Shape).Idx → EReal)

/-- The edges that land on node n. -/
abbrev lands (n : Fin N) : Finset (Fin E) :=
  Finset.univ.filter (fun e : Fin E => (idx (ix2 e (0 : Fin 1))).toInt = (n.val : Int))

/-- THE ALGEBRA. For real entries, the linear layer of the summed features plus the edge count times the bias is the
    per-edge linear layer summed over the edges. -/
theorem core (hG : ∀ i, ∃ r : ℝ, G i = (r : EReal)) (hA : ∀ i, ∃ r : ℝ, A i = (r : EReal))
    (hW : ∀ i, ∃ r : ℝ, W i = (r : EReal)) (hB : ∀ i, ∃ r : ℝ, B i = (r : EReal)) (n : Fin N) (j : Fin 128) :
    ((∑ k : Fin 128, (∑ e ∈ lands idx n, G (ix2 e k)) * W (ix2 (⟨k.val, by omega⟩ : Fin 144) j))
        + (∑ k : Fin 16, (∑ e ∈ lands idx n, A (ix2 e k)) * W (ix2 (⟨128 + k.val, by omega⟩ : Fin 144) j)))
        + (∑ _e ∈ lands idx n, (1 : EReal)) * B (ix1 j)
      = ∑ e ∈ lands idx n, (((∑ k : Fin 128, G (ix2 e k) * W (ix2 (⟨k.val, by omega⟩ : Fin 144) j))
          + (∑ k : Fin 16, A (ix2 e k) * W (ix2 (⟨128 + k.val, by omega⟩ : Fin 144) j))) + B (ix1 j)) := by
  choose g hg using hG
  choose a ha using hA
  choose w hw using hW
  choose b hb using hB
  simp only [hg, ha, hw, hb]
  exact (Cert.Lib.EdgeSum.seg_linear (lands idx n) (fun e k => g (ix2 e k)) (fun e k => a (ix2 e k))
    (fun k => w (ix2 (⟨k.val, by omega⟩ : Fin 144) j)) (fun k => w (ix2 (⟨128 + k.val, by omega⟩ : Fin 144) j)) (b (ix1 j))).symm

end Core

section Bridge
open Cert.KernelIdeal.KVal Cert.ReferenceIdeal.ReadP

variable (x0 : (⟨Cert.KernelIdeal.S100000x128, .f32⟩ : BufTy).Contents (Elt Ideal)) (x1 : (⟨Cert.KernelIdeal.S2x1000000, .i32⟩ : BufTy).Contents (Elt Ideal))
  (x2 : (⟨Cert.KernelIdeal.S1000000x16, .f32⟩ : BufTy).Contents (Elt Ideal)) (x3 : (⟨Cert.KernelIdeal.S144x128, .f32⟩ : BufTy).Contents (Elt Ideal))
  (x4 : (⟨Cert.KernelIdeal.S128, .f32⟩ : BufTy).Contents (Elt Ideal))

/-- The two programs scatter by the same index array: row 1 of the edge index, as a column. -/
theorem dst_eq : kv_v15 x1 = val_main_v18 (F := Ideal) x1 := rfl
theorem dst_eq' : kv_v18 x1 = val_main_v18 (F := Ideal) x1 := rfl
theorem dst_eq'' : kv_v21 x1 = val_main_v18 (F := Ideal) x1 := rfl
theorem dst_eqR : val_main_v21 (F := Ideal) x1 = val_main_v18 (F := Ideal) x1 := rfl
/-- … and gather the same rows of the node features. -/
theorem gat_eq : kv_v13 x0 x1 = val_main_v11 (F := Ideal) x0 x1 := rfl
end Bridge

section Kernel
open Cert.KernelIdeal.KVal Cert.ReferenceIdeal.ReadP

variable (x0 : (⟨Cert.KernelIdeal.S100000x128, .f32⟩ : BufTy).Contents (Elt Ideal)) (x1 : (⟨Cert.KernelIdeal.S2x1000000, .i32⟩ : BufTy).Contents (Elt Ideal))
  (x2 : (⟨Cert.KernelIdeal.S1000000x16, .f32⟩ : BufTy).Contents (Elt Ideal)) (x3 : (⟨Cert.KernelIdeal.S144x128, .f32⟩ : BufTy).Contents (Elt Ideal))
  (x4 : (⟨Cert.KernelIdeal.S128, .f32⟩ : BufTy).Contents (Elt Ideal))

/-- At the ideal instance the host's scatter with an `add` body is the exact scatter-add. -/
theorem hsa {s si u : Shape} {w : Nat} (d : ScatterDims s si u) (x : FVec Ideal s .f32) (idx : IVec si w) (upd : FVec Ideal u .f32) :
    Host.scatterAdd d x idx upd = Ideal.hostScatterAdd d x idx upd := rfl

theorem cnt_eq : kv_v22 x1 = val_main_v19 (F := Ideal) x1 := rfl

theorem recK_row128 : Cert.KernelIdeal.scatter_S100000x128_S1000000x1_S1000000x128_1_0_0_1
    = rowScatter 100000 1000000 128 Cert.KernelIdeal.Facts₀.scatter_S100000x128_S1000000x1_S1000000x128_1_0_0_1_wf := rfl
theorem recK_row16 : Cert.KernelIdeal.scatter_S100000x16_S1000000x1_S1000000x16_1_0_0_1
    = rowScatter 100000 1000000 16 Cert.KernelIdeal.Facts₀.scatter_S100000x16_S1000000x1_S1000000x16_1_0_0_1_wf := rfl

theorem kv_v16_def (i : Cert.KernelIdeal.S100000x128.Idx) : kv_v16 x0 x1 i
    = Host.scatterAdd (F := Ideal) (φ := .f32) Cert.KernelIdeal.scatter_S100000x128_S1000000x1_S1000000x128_1_0_0_1 kv_v14 (kv_v15 x1) (kv_v13 x0 x1) i := rfl
theorem kv_v14_at (i : Cert.KernelIdeal.S100000x128.Idx) : kv_v14 i = Ideal.ofBits .f32 0x00000000#32 := rfl
theorem kv_v19_def (i : Cert.KernelIdeal.S100000x16.Idx) : kv_v19 x1 x2 i
    = Host.scatterAdd (F := Ideal) (φ := .f32) Cert.KernelIdeal.scatter_S100000x16_S1000000x1_S1000000x16_1_0_0_1 kv_v17 (kv_v18 x1) x2 i := rfl
theorem kv_v17_at (i : Cert.KernelIdeal.S100000x16.Idx) : kv_v17 i = Ideal.ofBits .f32 0x00000000#32 := rfl

/-- The summed node features at (n, k): the sum over the edges landing on n of the gathered rows' entry k. -/
theorem sx_at (n : Fin 100000) (k : Fin 128) :
    kv_v16 x0 x1 (ix2 n k) = ∑ e ∈ lands (val_main_v18 (F := Ideal) x1) n, val_main_v11 (F := Ideal) x0 x1 (ix2 e k) := by
  rw [kv_v16_def, hsa, recK_row128, rowScatterAdd_apply, kv_v14_at, Ideal.ofBits_zero_f32, zero_add, dst_eq, gat_eq]

/-- The summed edge features at (n, k). -/
theorem se_at (n : Fin 100000) (k : Fin 16) :
    kv_v19 x1 x2 (ix2 n k) = ∑ e ∈ lands (val_main_v18 (F := Ideal) x1) n, x2 (ix2 e k) := by
  rw [kv_v19_def, hsa, recK_row16, rowScatterAdd_apply, kv_v17_at, Ideal.ofBits_zero_f32, zero_add, dst_eq']

end Kernel

section Kernel2
open Cert.KernelIdeal.KVal Cert.ReferenceIdeal.ReadP

variable (x0 : (⟨Cert.KernelIdeal.S100000x128, .f32⟩ : BufTy).Contents (Elt Ideal)) (x1 : (⟨Cert.KernelIdeal.S2x1000000, .i32⟩ : BufTy).Contents (Elt Ideal))
  (x2 : (⟨Cert.KernelIdeal.S1000000x16, .f32⟩ : BufTy).Contents (Elt Ideal)) (x3 : (⟨Cert.KernelIdeal.S144x128, .f32⟩ : BufTy).Contents (Elt Ideal))
  (x4 : (⟨Cert.KernelIdeal.S128, .f32⟩ : BufTy).Contents (Elt Ideal))

/-- The node-side combination at (n, j), over any six arrays. -/
theorem out_at (sx : Cert.KernelIdeal.S100000x128.Idx → EReal) (se : Cert.KernelIdeal.S100000x16.Idx → EReal)
    (cnt : Cert.KernelIdeal.S100000x1.Idx → EReal) (wx : Cert.KernelIdeal.S128x128.Idx → EReal) (we : Cert.KernelIdeal.S16x128.Idx → EReal)
    (b : Cert.KernelIdeal.S1x128.Idx → EReal) (n : Fin 100000) (j : Fin 128) :
    Cert.KernelIdeal.Region0.out sx se cnt wx we b (ix2 n j)
      = Ideal.div (((∑ k : Fin 128, sx (ix2 n k) * wx (ix2 k j)) + (∑ k : Fin 16, se (ix2 n k) * we (ix2 k j)))
          + cnt (ix2 n (0 : Fin 1)) * b (ix2 (0 : Fin 1) j)) (max (Ideal.ofBits .f32 0x3F800000#32) (cnt (ix2 n (0 : Fin 1)))) := rfl

/-- The edge count as a column, at (n, 0): the count at n. -/
theorem cnt_at (n : Fin 100000) : kv_v23 x1 (ix2 n (0 : Fin 1)) = val_main_v19 (F := Ideal) x1 (ix1 n) := by
  rw [← cnt_eq]
  unfold kv_v23
  exact shapeCast_apply (kv_v22 x1) _ (ix2 n (0 : Fin 1)) (ix1 n)
    (by rewrite [Shape.rowMajor_val_one, Shape.rowMajor_val_two]; show n.val = n.val * 1 + 0; omega)

/-- The node weights are rows 0 … 127 of the weight matrix. -/
theorem wx_at (k j : Fin 128) : kv_v5 x3 (ix2 k j) = x3 (ix2 (⟨k.val, by omega⟩ : Fin 144) j) := by
  unfold kv_v5
  exact extractStridedSlice_apply ![0, 0] x3 _ (ix2 k j) (ix2 (⟨k.val, by omega⟩ : Fin 144) j) (fun a => match a with
    | ⟨0, _⟩ => by show k.val = 0 + k.val; omega
    | ⟨1, _⟩ => by show j.val = 0 + j.val; omega)

/-- The edge weights are rows 128 … 143. -/
theorem we_at (k : Fin 16) (j : Fin 128) : kv_v6 x3 (ix2 k j) = x3 (ix2 (⟨128 + k.val, by omega⟩ : Fin 144) j) := by
  unfold kv_v6
  exact extractStridedSlice_apply ![128, 0] x3 _ (ix2 k j) (ix2 (⟨128 + k.val, by omega⟩ : Fin 144) j) (fun a => match a with
    | ⟨0, _⟩ => by show 128 + k.val = 128 + k.val; rfl
    | ⟨1, _⟩ => by show j.val = 0 + j.val; omega)

/-- The bias as a row, at (0, j). -/
theorem b_at (j : Fin 128) : kv_v24 x4 (ix2 (0 : Fin 1) j) = x4 (ix1 j) := by
  unfold kv_v24
  exact shapeCast_apply x4 _ (ix2 (0 : Fin 1) j) (ix1 j)
    (by rewrite [Shape.rowMajor_val_one, Shape.rowMajor_val_two]; show j.val = 0 * 128 + j.val; omega)

end Kernel2

section KernelAt
open Cert.KernelIdeal.KVal Cert.ReferenceIdeal.ReadP

variable (x0 : (⟨Cert.KernelIdeal.S100000x128, .f32⟩ : BufTy).Contents (Elt Ideal)) (x1 : (⟨Cert.KernelIdeal.S2x1000000, .i32⟩ : BufTy).Contents (Elt Ideal))
  (x2 : (⟨Cert.KernelIdeal.S1000000x16, .f32⟩ : BufTy).Contents (Elt Ideal)) (x3 : (⟨Cert.KernelIdeal.S144x128, .f32⟩ : BufTy).Contents (Elt Ideal))
  (x4 : (⟨Cert.KernelIdeal.S128, .f32⟩ : BufTy).Contents (Elt Ideal))

theorem kv_v25_def (i : Cert.KernelIdeal.S100000x128.Idx) : kv_v25 x0 x1 x2 x3 x4 i
    = Cert.KernelIdeal.Region0.out (kv_v16 x0 x1) (kv_v19 x1 x2) (kv_v23 x1) (kv_v5 x3) (kv_v6 x3) (kv_v24 x4) i := rfl

/-- THE KERNEL'S VALUE at (n, j): the linear layer of the features summed over the edges landing on n, plus the edge
    count times the bias, over the count clipped below at one. -/
theorem kernel_at (n : Fin 100000) (j : Fin 128) :
    kv_v25 x0 x1 x2 x3 x4 (ix2 n j)
      = Ideal.div (((∑ k : Fin 128, (∑ e ∈ lands (val_main_v18 (F := Ideal) x1) n, val_main_v11 (F := Ideal) x0 x1 (ix2 e k))
              * x3 (ix2 (⟨k.val, by omega⟩ : Fin 144) j))
            + (∑ k : Fin 16, (∑ e ∈ lands (val_main_v18 (F := Ideal) x1) n, x2 (ix2 e k)) * x3 (ix2 (⟨128 + k.val, by omega⟩ : Fin 144) j)))
          + val_main_v19 (F := Ideal) x1 (ix1 n) * x4 (ix1 j))
        (max (Ideal.ofBits .f32 0x3F800000#32) (val_main_v19 (F := Ideal) x1 (ix1 n))) := by
  rw [kv_v25_def, out_at]
  simp only [sx_at, se_at, cnt_at, wx_at, we_at, b_at]

end KernelAt

section Reference
open Cert.ReferenceIdeal Cert.ReferenceIdeal.ReadP

variable (x0 : (⟨S100000x128, .f32⟩ : BufTy).Contents (Elt Ideal)) (x1 : (⟨S2x1000000, .i32⟩ : BufTy).Contents (Elt Ideal))
  (x2 : (⟨S1000000x16, .f32⟩ : BufTy).Contents (Elt Ideal)) (x3 : (⟨S144x128, .f32⟩ : BufTy).Contents (Elt Ideal))
  (x4 : (⟨S128, .f32⟩ : BufTy).Contents (Elt Ideal))

theorem recR_entry : scatter_S100000_S1000000x1_S1000000_n_0_0_1
    = entryScatter 100000 1000000 Facts₀.scatter_S100000_S1000000x1_S1000000_n_0_0_1_wf := rfl
theorem recR_row : scatter_S100000x128_S1000000x1_S1000000x128_1_0_0_1
    = rowScatter 100000 1000000 128 Facts₀.scatter_S100000x128_S1000000x1_S1000000x128_1_0_0_1_wf := rfl

theorem v19_def (i : S100000.Idx) : val_main_v19 (F := Ideal) x1 i
    = Host.scatterAdd (F := Ideal) (φ := .f32) scatter_S100000_S1000000x1_S1000000_n_0_0_1 (val_main_v17 (F := Ideal)) (val_main_v18 (F := Ideal) x1) (val_main_v4 (F := Ideal)) i := rfl
theorem v22_def (i : S100000x128.Idx) : val_main_v22 (F := Ideal) x0 x1 x2 x3 x4 i
    = Host.scatterAdd (F := Ideal) (φ := .f32) scatter_S100000x128_S1000000x1_S1000000x128_1_0_0_1 (val_main_v20 (F := Ideal)) (val_main_v21 (F := Ideal) x1) (val_main_v16 (F := Ideal) x0 x1 x2 x3 x4) i := rfl

/-- The reference's edge count at node n: one per edge that lands on it. -/
theorem ref_count (n : Fin 100000) :
    val_main_v19 (F := Ideal) x1 (ix1 n) = ∑ _e ∈ lands (val_main_v18 (F := Ideal) x1) n, (1 : EReal) := by
  rw [v19_def, hsa, recR_entry, entryScatterAdd_apply]
  have hz : val_main_v17 (F := Ideal) (ix1 n) = 0 := by
    rw [val_main_v17_apply, val_main_cst_1_apply, Ideal.ofBits_def, Ideal.ofBits_zero_f32]
  have ho : ∀ e : Fin 1000000, val_main_v4 (F := Ideal) (ix1 e) = 1 := fun e => by
    rw [val_main_v4_apply, val_main_cst_apply, Ideal.ofBits_def, ofBits_one]
  rw [hz, zero_add]
  exact Finset.sum_congr rfl fun e _ => ho e

/-- The reference's numerator at (n, j): the per-edge values summed over the edges landing on n. -/
theorem num_at (n : Fin 100000) (j : Fin 128) :
    val_main_v22 (F := Ideal) x0 x1 x2 x3 x4 (ix2 n j)
      = ∑ e ∈ lands (val_main_v18 (F := Ideal) x1) n, val_main_v16 (F := Ideal) x0 x1 x2 x3 x4 (ix2 e j) := by
  have hz : val_main_v20 (F := Ideal) (ix2 n j) = 0 := by
    rw [val_main_v20_apply, val_main_cst_2_apply, Ideal.ofBits_def, Ideal.ofBits_zero_f32]
  rw [v22_def, hsa, recR_row, rowScatterAdd_apply, hz, zero_add, dst_eqR]

theorem lidx_eq (e : Fin 1000000) (j : Fin 128) (k : Fin 144) : lidx_main_v13 (ix2 e j) k = ix2 e k := by
  funext a; match a with | ⟨0, _⟩ => rfl | ⟨1, _⟩ => rfl
theorem ridx_eq (e : Fin 1000000) (j : Fin 128) (k : Fin 144) : ridx_main_v13 (ix2 e j) k = ix2 k j := by
  funext a; match a with | ⟨0, _⟩ => rfl | ⟨1, _⟩ => rfl
theorem bidx_eq (e : Fin 1000000) (j : Fin 128) : idx_main_v14 (idx_main_v15 (ix2 e j)) = ix1 j := by
  funext a; match a with | ⟨0, _⟩ => rfl

/-- Columns 0 … 127 of the concatenated edge inputs are the gathered node features. -/
theorem comb_left (e : Fin 1000000) (k : Fin 128) :
    val_main_v12 (F := Ideal) x0 x1 x2 (ix2 e (⟨k.val, by omega⟩ : Fin 144)) = val_main_v11 (F := Ideal) x0 x1 (ix2 e k) := by
  unfold val_main_v12
  exact concatenate_pair_apply_left (t := S1000000x144) (s₁ := S1000000x128) (s₂ := S1000000x16) (1 : Fin 2) _ _ _ (ix2 e (⟨k.val, by omega⟩ : Fin 144)) rfl (ix2 e k)
    (fun b => match b with | ⟨0, _⟩ => rfl | ⟨1, _⟩ => rfl)

/-- Columns 128 … 143 are the edge features. -/
theorem comb_right (e : Fin 1000000) (k : Fin 16) :
    val_main_v12 (F := Ideal) x0 x1 x2 (ix2 e (⟨128 + k.val, by omega⟩ : Fin 144)) = x2 (ix2 e k) := by
  unfold val_main_v12
  exact concatenate_pair_apply_right (t := S1000000x144) (s₁ := S1000000x128) (s₂ := S1000000x16) (1 : Fin 2) _ _ _ (ix2 e (⟨128 + k.val, by omega⟩ : Fin 144)) rfl rfl (ix2 e k)
    (fun b hb => match b, hb with | ⟨0, _⟩, _ => rfl | ⟨1, _⟩, hb => absurd rfl hb)
    (by show k.val + 128 = 128 + k.val; omega)

/-- The per-edge value at (e, j): the linear layer of the edge's gathered node features and its own features, plus the bias. -/
theorem upd_at (e : Fin 1000000) (j : Fin 128) :
    val_main_v16 (F := Ideal) x0 x1 x2 x3 x4 (ix2 e j)
      = ((∑ k : Fin 128, val_main_v11 (F := Ideal) x0 x1 (ix2 e k) * x3 (ix2 (⟨k.val, by omega⟩ : Fin 144) j))
          + (∑ k : Fin 16, x2 (ix2 e k) * x3 (ix2 (⟨128 + k.val, by omega⟩ : Fin 144) j))) + x4 (ix1 j) := by
  rw [val_main_v16_apply, Ideal.addf_def, val_main_v13_apply, val_main_v15_apply, val_main_v14_apply, bidx_eq, sum144]
  simp only [lidx_eq, ridx_eq, comb_left, comb_right]

/-- The reference's denominator at (n, j): the edge count at n clipped below at one. -/
theorem den_at (n : Fin 100000) (j : Fin 128) :
    val_main_v25 (F := Ideal) x1 (ix2 n j) = max (Ideal.ofBits .f32 0x3F800000#32) (val_main_v19 (F := Ideal) x1 (ix1 n)) := by
  have hi : idx_main_v24 (idx_main_v25 (ix2 n j)) = ix1 n := by
    funext a; match a with | ⟨0, _⟩ => rfl
  rw [val_main_v25_apply, val_main_v24_apply, val_main_v23_apply, val_main_call0_v1_apply, val_main_call0_v0_apply,
    val_main_cst_3_apply, hi, Ideal.maximumf_def, Ideal.ofBits_def]

/-- THE REFERENCE'S VALUE at (n, j). -/
theorem reference_at (n : Fin 100000) (j : Fin 128) :
    val_main_v26 (F := Ideal) x0 x1 x2 x3 x4 (ix2 n j)
      = Ideal.div (∑ e ∈ lands (val_main_v18 (F := Ideal) x1) n,
            (((∑ k : Fin 128, val_main_v11 (F := Ideal) x0 x1 (ix2 e k) * x3 (ix2 (⟨k.val, by omega⟩ : Fin 144) j))
              + (∑ k : Fin 16, x2 (ix2 e k) * x3 (ix2 (⟨128 + k.val, by omega⟩ : Fin 144) j))) + x4 (ix1 j)))
        (max (Ideal.ofBits .f32 0x3F800000#32) (val_main_v19 (F := Ideal) x1 (ix1 n))) := by
  rw [val_main_v26_apply, Ideal.hostDivf_def, num_at, den_at]
  simp only [upd_at]

end Reference

section Main
open Cert.KernelIdeal.KVal Cert.ReferenceIdeal.ReadP

/-- STAGE ONE. For real inputs, the kernel's node-side combination of the summed features is the reference's per-edge
    linear layer summed over the edges, each divided by the edge count clipped below at one. -/
theorem stageA (x0 : (⟨Cert.KernelIdeal.S100000x128, .f32⟩ : BufTy).Contents (Elt Ideal)) (x1 : (⟨Cert.KernelIdeal.S2x1000000, .i32⟩ : BufTy).Contents (Elt Ideal))
    (x2 : (⟨Cert.KernelIdeal.S1000000x16, .f32⟩ : BufTy).Contents (Elt Ideal)) (x3 : (⟨Cert.KernelIdeal.S144x128, .f32⟩ : BufTy).Contents (Elt Ideal))
    (x4 : (⟨Cert.KernelIdeal.S128, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal))
    (h4 : ∀ i, ∃ r : ℝ, x4 i = (r : EReal)) :
    kv_v25 x0 x1 x2 x3 x4 = val_main_v26 (F := Ideal) x0 x1 x2 x3 x4 := by
  funext i
  obtain ⟨n, j, rfl⟩ : ∃ (n : Fin 100000) (j : Fin 128), i = ix2 n j := ⟨i 0, i 1, eq_ix2 i⟩
  have hG : ∀ i, ∃ r : ℝ, val_main_v11 (F := Ideal) x0 x1 i = (r : EReal) := fun i => h0 _
  rw [kernel_at, reference_at, ref_count,
    core (val_main_v18 (F := Ideal) x1) (val_main_v11 (F := Ideal) x0 x1) x2 x3 x4 hG h2 h3 h4 n j]

end Main

end Cert.Proof.StageA
end
-- ==== Proof.StageLap.lean ====
/-
  One step of the normalized graph Laplacian, as the two programs compute it, and that they agree.

  With `dis ≥ 0` the node weights, `row` and `col` the two ends of every edge and `z` the node features, one program
  weighs the features at the nodes, gathers them along the edges, adds them up at the edges' other ends and weighs and
  negates the sums: `(-(dis n)) * ∑ e into n, dis (r e) * z (r e, k)`. The other gives every edge the weight
  `(-(dis (r e))) * dis (c e)`, weighs the gathered features by it and adds them up: `∑ e into n, ((-(dis (r e))) * dis n) * z (r e, k)`,
  since on the edges that end in `n` the gather by `col` reads node `n`. On the extended reals the node's factor leaves
  the sum when all features have one sign: the first step of a layer acts on a rectifier's output (non-negative), the
  second on the first step's output (non-positive).
-/
import proofs.«149158_j47751446397324_2_alg».proof.Proof.KVal
import proofs.«149158_j47751446397324_2_alg».proof.Proof.RefRead
import proofs.«149158_j47751446397324_2_alg».proof.Proof.LibGatherScatter
import proofs.«149158_j47751446397324_2_alg».proof.Proof.LibEdgeSum

noncomputable section

open scoped BigOperators

namespace Cert.Proof.StageLap

open Idealize.ShloMosaic Idealize.ShloMosaic.ValueIdx Cert.Lib.GatherScatter Cert.Lib.EdgeSum
open Cert.KernelIdeal (S_ S100000 S100000x1 S100000x128 S1000000 S1000000x1 S1000000x128)

/-! ## Words: the gather index of an edge end -/

/-- The node a gather reads for the edge end `w`: a negative end is moved up by the node count, and the result is
    clamped into the table. -/
def node (w : BitVec 32) : Fin 100000 :=
  ⟨min (Scalar.select (IntOp.cmpi .slt w 0#32) (IntOp.addi w 100000#32) w).toInt.toNat (100000 - 1), by omega⟩

/-- An edge end that is the node `n`, read signed, is gathered at `n`. -/
theorem node_of_toInt {w : BitVec 32} {n : Fin 100000} (h : w.toInt = (n.val : Int)) : node w = n := by
  have hn := n.isLt
  have hs : IntOp.cmpi .slt w 0#32 = 0#1 := by
    show BitVec.ofBool (w.slt 0#32) = 0#1
    have : w.slt 0#32 = false := by
      rw [BitVec.slt_eq_decide]
      simp [h]
    rw [this]; rfl
  refine Fin.ext ?_
  show min (Scalar.select (IntOp.cmpi .slt w 0#32) (IntOp.addi w 100000#32) w).toInt.toNat (100000 - 1) = n.val
  rw [hs, select_zero, h]
  omega

/-! ## Broadcasts read at an index -/

section Bcast
variable {α : Type}

/-- A vector laid along the rows of a one-column array. -/
theorem bcastCol_apply {N : Nat} (h : (⟨1, ![N]⟩ : Shape).BroadcastsInDim ⟨2, ![N, 1]⟩ ![0])
    (y : (⟨1, ![N]⟩ : Shape).Idx → α) (n : Fin N) (q : Fin 1) :
    broadcastInDim ⟨2, ![N, 1]⟩ ![0] h y (ix2 n q) = y (ix1 n) := by
  refine broadcastInDim_apply _ h y (ix2 n q) (ix1 n) (fun a => ?_)
  match a with
  | ⟨0, _⟩ =>
    show n.val = if N = 1 then 0 else n.val
    have := n.isLt
    split_ifs with h1
    · omega
    · rfl

/-- A one-column array repeated along `C` columns. -/
theorem bcastRow_apply {N C : Nat} (h : (⟨2, ![N, 1]⟩ : Shape).BroadcastsInDim ⟨2, ![N, C]⟩ ![0, 1])
    (y : (⟨2, ![N, 1]⟩ : Shape).Idx → α) (n : Fin N) (k : Fin C) :
    broadcastInDim ⟨2, ![N, C]⟩ ![0, 1] h y (ix2 n k) = y (ix2 n (0 : Fin 1)) := by
  refine broadcastInDim_apply _ h y (ix2 n k) (ix2 n (0 : Fin 1)) (fun a => ?_)
  match a with
  | ⟨0, _⟩ =>
    show n.val = if N = 1 then 0 else n.val
    have := n.isLt
    split_ifs with h1
    · omega
    · rfl
  | ⟨1, _⟩ =>
    show 0 = if (1 : Nat) = 1 then 0 else k.val
    rw [if_pos rfl]

/-- A scalar repeated over an array. -/
theorem bcastScalar_apply {t : Shape} (h : (⟨0, ![]⟩ : Shape).BroadcastsInDim t ![])
    (y : (⟨0, ![]⟩ : Shape).Idx → α) (j : t.Idx) : broadcastInDim t ![] h y j = y ix0 :=
  broadcastInDim_apply _ h y j ix0 (fun a => a.elim0)

end Bcast

/-! ## One Laplacian step, as the two programs compute it

`dis` is the node weight, `row` and `col` the two ends of every edge, `z` the node features. Both programs gather by
the wrapped and clamped `row`, and add over the edges whose `col`, read signed, is the node. -/

section Step

/-- The start indices of a gather: the edge ends, the negative ones moved up by the node count, as a one-column array. -/
def wrapIdx (v : IVec S1000000 32) : IVec S1000000x1 32 :=
  broadcastInDim S1000000x1 ![0] Cert.KernelIdeal.Gen.bcast_S1000000_S1000000x1_0
    (select (cmpi .slt v (broadcastInDim S1000000 ![] Cert.KernelIdeal.Gen.bcast_S_S1000000 (constantI S_ 32 0#32)))
      (addi v (broadcastInDim S1000000 ![] Cert.KernelIdeal.Gen.bcast_S_S1000000 (constantI S_ 32 100000#32))) v)

/-- The indices of a scatter: the edge ends as they are, as a one-column array. -/
def plainIdx (v : IVec S1000000 32) : IVec S1000000x1 32 :=
  broadcastInDim S1000000x1 ![0] Cert.KernelIdeal.Gen.bcast_S1000000_S1000000x1_0 v

/-- The array of zeros both scatters add into. -/
def zeros : FVec Ideal S100000x128 .f32 :=
  broadcastInDim S100000x128 ![] Cert.KernelIdeal.Gen.bcast_S_S100000x128 (constant (F := Ideal) S_ .f32 0x00000000#32)

/-- A node vector repeated along the feature axis. -/
def overFeatures (d : FVec Ideal S100000 .f32) : FVec Ideal S100000x128 .f32 :=
  broadcastInDim S100000x128 ![0, 1] Cert.KernelIdeal.Gen.bcast_S100000x1_S100000x128_0_1
    (broadcastInDim S100000x1 ![0] Cert.KernelIdeal.Gen.bcast_S100000_S100000x1_0 d)

/-- The step with the weights applied at the nodes: weigh the features, gather them along the edges, add them up at
    the edges' other ends, weigh and negate the sums. -/
def lhatK (dis : FVec Ideal S100000 .f32) (row col : IVec S1000000 32) (z : FVec Ideal S100000x128 .f32) :
    FVec Ideal S100000x128 .f32 :=
  mulf (F := Ideal) (φ := .f32)
    (broadcastInDim S100000x128 ![0, 1] Cert.KernelIdeal.Gen.bcast_S100000x1_S100000x128_0_1
      (Host.negf (F := Ideal) (φ := .f32) (broadcastInDim S100000x1 ![0] Cert.KernelIdeal.Gen.bcast_S100000_S100000x1_0 dis)))
    (Host.scatterAdd (F := Ideal) (φ := .f32) Cert.KernelIdeal.scatter_S100000x128_S1000000x1_S1000000x128_1_0_0_1 zeros
      (plainIdx col)
      (extf (F := Ideal) (φ := .bf16) .f32
        (Host.gather Cert.KernelIdeal.gather_S100000x128_S1000000x1_S1000000x128_1_0_n_n_0_1_1128
          (truncf (F := Ideal) (φ := .f32) .bf16 (mulf (F := Ideal) (φ := .f32) (overFeatures dis) z)
            Cert.KernelIdeal.Gen.bitsLt_bf16_f32)
          (wrapIdx row))
        Cert.KernelIdeal.Gen.bitsLt_bf16_f32))

/-- The step with the weights applied on the edges: the edge weight is minus the product of its two ends' weights; the
    gathered features are weighed by it and added up at the edges' other ends. -/
def lhatR (dis : FVec Ideal S100000 .f32) (row col : IVec S1000000 32) (z : FVec Ideal S100000x128 .f32) :
    FVec Ideal S100000x128 .f32 :=
  Host.scatterAdd (F := Ideal) (φ := .f32) Cert.ReferenceIdeal.scatter_S100000x128_S1000000x1_S1000000x128_1_0_0_1 zeros
    (plainIdx col)
    (mulf (F := Ideal) (φ := .f32)
      (broadcastInDim S1000000x128 ![0, 1] Cert.ReferenceIdeal.Gen.bcast_S1000000x1_S1000000x128_0_1
        (broadcastInDim S1000000x1 ![0] Cert.ReferenceIdeal.Gen.bcast_S1000000_S1000000x1_0
          (mulf (F := Ideal) (φ := .f32)
            (Host.negf (F := Ideal) (φ := .f32)
              (Host.gather Cert.ReferenceIdeal.gather_S100000_S1000000x1_S1000000_n_0_n_n_0_1_1 dis (wrapIdx row)))
            (Host.gather Cert.ReferenceIdeal.gather_S100000_S1000000x1_S1000000_n_0_n_n_0_1_1 dis (wrapIdx col)))))
      (Host.gather Cert.ReferenceIdeal.gather_S100000x128_S1000000x1_S1000000x128_1_0_n_n_0_1_1128 z (wrapIdx row)))

end Step

/-! ## The two steps read at an element -/

section Read

theorem wrapIdx_apply (v : IVec S1000000 32) (e : Fin 1000000) (q : Fin 1) :
    wrapIdx v (ix2 e q)
      = Scalar.select (IntOp.cmpi .slt (v (ix1 e)) 0#32) (IntOp.addi (v (ix1 e)) 100000#32) (v (ix1 e)) :=
  (bcastCol_apply (N := 1000000) _ _ e q).trans rfl

theorem plainIdx_apply (v : IVec S1000000 32) (e : Fin 1000000) (q : Fin 1) : plainIdx v (ix2 e q) = v (ix1 e) :=
  bcastCol_apply (N := 1000000) _ _ e q

theorem zeros_apply (i : S100000x128.Idx) : zeros i = 0 :=
  (bcastScalar_apply _ _ i).trans Ideal.ofBits_zero_f32

theorem overFeatures_apply (d : FVec Ideal S100000 .f32) (n : Fin 100000) (k : Fin 128) :
    overFeatures d (ix2 n k) = d (ix1 n) :=
  (bcastRow_apply (N := 100000) (C := 128) _ _ n k).trans (bcastCol_apply (N := 100000) _ _ n 0)

/-- The clamped start index of a gather by the wrapped edge ends is the edge end's node. -/
theorem clamp_wrap (v : IVec S1000000 32) (e : Fin 1000000) :
    (⟨min (wrapIdx v (ix2 e (0 : Fin 1))).toInt.toNat (100000 - 1), by omega⟩ : Fin 100000) = node (v (ix1 e)) :=
  Fin.ext (by
    show min (wrapIdx v (ix2 e (0 : Fin 1))).toInt.toNat (100000 - 1)
      = min (Scalar.select (IntOp.cmpi .slt (v (ix1 e)) 0#32) (IntOp.addi (v (ix1 e)) 100000#32) (v (ix1 e))).toInt.toNat (100000 - 1)
    rw [wrapIdx_apply])

variable {α : Type}

theorem gatherRowsK_apply (x : S100000x128.Idx → α) (v : IVec S1000000 32) (e : Fin 1000000) (k : Fin 128) :
    Host.gather Cert.KernelIdeal.gather_S100000x128_S1000000x1_S1000000x128_1_0_n_n_0_1_1128 x (wrapIdx v) (ix2 e k)
      = x (ix2 (node (v (ix1 e))) k) :=
  (rowGather_apply (N := 100000) (E := 1000000) (C := 128) (by decide)
    Cert.KernelIdeal.Gen.gather_S100000x128_S1000000x1_S1000000x128_1_0_n_n_0_1_1128_wf x (wrapIdx v) e k).trans
    (by rw [clamp_wrap])

theorem gatherRowsR_apply (x : S100000x128.Idx → α) (v : IVec S1000000 32) (e : Fin 1000000) (k : Fin 128) :
    Host.gather Cert.ReferenceIdeal.gather_S100000x128_S1000000x1_S1000000x128_1_0_n_n_0_1_1128 x (wrapIdx v) (ix2 e k)
      = x (ix2 (node (v (ix1 e))) k) :=
  (rowGather_apply (N := 100000) (E := 1000000) (C := 128) (by decide)
    Cert.ReferenceIdeal.Gen.gather_S100000x128_S1000000x1_S1000000x128_1_0_n_n_0_1_1128_wf x (wrapIdx v) e k).trans
    (by rw [clamp_wrap])

theorem gatherEntriesR_apply (x : S100000.Idx → α) (v : IVec S1000000 32) (e : Fin 1000000) :
    Host.gather Cert.ReferenceIdeal.gather_S100000_S1000000x1_S1000000_n_0_n_n_0_1_1 x (wrapIdx v) (ix1 e)
      = x (ix1 (node (v (ix1 e)))) :=
  (entryGather_apply (N := 100000) (E := 1000000) (by decide)
    Cert.ReferenceIdeal.Gen.gather_S100000_S1000000x1_S1000000_n_0_n_n_0_1_1_wf x (wrapIdx v) e).trans
    (by rw [clamp_wrap])

end Read

section Scatter

theorem scatterK_apply (x : FVec Ideal S100000x128 .f32) (idx : IVec S1000000x1 32) (upd : FVec Ideal S1000000x128 .f32)
    (n : Fin 100000) (k : Fin 128) :
    Host.scatterAdd (F := Ideal) (φ := .f32) Cert.KernelIdeal.scatter_S100000x128_S1000000x1_S1000000x128_1_0_0_1 x idx upd (ix2 n k)
      = x (ix2 n k) + ∑ e ∈ Finset.univ.filter (fun e : Fin 1000000 => (idx (ix2 e (0 : Fin 1))).toInt = (n.val : Int)),
          upd (ix2 e k) :=
  rowScatterAdd_apply (N := 100000) (E := 1000000) (C := 128)
    Cert.KernelIdeal.Gen.scatter_S100000x128_S1000000x1_S1000000x128_1_0_0_1_wf idx k x upd n

end Scatter

/-- The edges that end in node `n`: those whose `col`, read signed, is `n`. -/
def into (col : IVec S1000000 32) (n : Fin 100000) : Finset (Fin 1000000) :=
  Finset.univ.filter (fun e : Fin 1000000 => (col (ix1 e)).toInt = (n.val : Int))

theorem filter_plain (col : IVec S1000000 32) (n : Fin 100000) :
    Finset.univ.filter (fun e : Fin 1000000 => (plainIdx col (ix2 e (0 : Fin 1))).toInt = (n.val : Int)) = into col n := by
  unfold into
  exact Finset.filter_congr fun e _ => by rw [plainIdx_apply]

theorem scatterR_apply (x : FVec Ideal S100000x128 .f32) (idx : IVec S1000000x1 32) (upd : FVec Ideal S1000000x128 .f32)
    (n : Fin 100000) (k : Fin 128) :
    Host.scatterAdd (F := Ideal) (φ := .f32) Cert.ReferenceIdeal.scatter_S100000x128_S1000000x1_S1000000x128_1_0_0_1 x idx upd (ix2 n k)
      = x (ix2 n k) + ∑ e ∈ Finset.univ.filter (fun e : Fin 1000000 => (idx (ix2 e (0 : Fin 1))).toInt = (n.val : Int)),
          upd (ix2 e k) :=
  rowScatterAdd_apply (N := 100000) (E := 1000000) (C := 128)
    Cert.ReferenceIdeal.Gen.scatter_S100000x128_S1000000x1_S1000000x128_1_0_0_1_wf idx k x upd n

section Main
variable (dis : FVec Ideal S100000 .f32) (row col : IVec S1000000 32) (z : FVec Ideal S100000x128 .f32)

theorem negNode_apply (n : Fin 100000) (k : Fin 128) :
    broadcastInDim S100000x128 ![0, 1] Cert.KernelIdeal.Gen.bcast_S100000x1_S100000x128_0_1
      (Host.negf (F := Ideal) (φ := .f32) (broadcastInDim S100000x1 ![0] Cert.KernelIdeal.Gen.bcast_S100000_S100000x1_0 dis))
      (ix2 n k) = -(dis (ix1 n)) :=
  (bcastRow_apply (N := 100000) (C := 128) _ _ n k).trans
    (congrArg (fun t : EReal => -t) (bcastCol_apply (N := 100000) _ dis n 0))

theorem lhatK_apply (n : Fin 100000) (k : Fin 128) :
    lhatK dis row col z (ix2 n k)
      = (-(dis (ix1 n))) * (0 + ∑ e ∈ into col n, dis (ix1 (node (row (ix1 e)))) * z (ix2 (node (row (ix1 e))) k)) := by
  unfold lhatK
  rw [mulf_apply, negNode_apply, scatterK_apply, zeros_apply, filter_plain]
  refine congrArg (fun t : EReal => -(dis (ix1 n)) * (0 + t)) (Finset.sum_congr rfl fun e _ => ?_)
  rw [extf_apply, gatherRowsK_apply, truncf_apply, mulf_apply, overFeatures_apply]

end Main

section Main2
variable (dis : FVec Ideal S100000 .f32) (row col : IVec S1000000 32) (z : FVec Ideal S100000x128 .f32)

/-- The edge weight: minus the product of the two ends' node weights. -/
theorem edgeWeight_apply (e : Fin 1000000) (k : Fin 128) :
    broadcastInDim S1000000x128 ![0, 1] Cert.ReferenceIdeal.Gen.bcast_S1000000x1_S1000000x128_0_1
        (broadcastInDim S1000000x1 ![0] Cert.ReferenceIdeal.Gen.bcast_S1000000_S1000000x1_0
          (mulf (F := Ideal) (φ := .f32)
            (Host.negf (F := Ideal) (φ := .f32)
              (Host.gather Cert.ReferenceIdeal.gather_S100000_S1000000x1_S1000000_n_0_n_n_0_1_1 dis (wrapIdx row)))
            (Host.gather Cert.ReferenceIdeal.gather_S100000_S1000000x1_S1000000_n_0_n_n_0_1_1 dis (wrapIdx col))))
        (ix2 e k)
      = -(dis (ix1 (node (row (ix1 e))))) * dis (ix1 (node (col (ix1 e)))) := by
  refine (bcastRow_apply (N := 1000000) (C := 128) _ _ e k).trans ?_
  refine (bcastCol_apply (N := 1000000) _ _ e 0).trans ?_
  rw [mulf_apply, gatherEntriesR_apply]
  refine congrArg (fun t : EReal => -t * dis (ix1 (node (col (ix1 e))))) ?_
  exact gatherEntriesR_apply dis row e

theorem lhatR_apply (n : Fin 100000) (k : Fin 128) :
    lhatR dis row col z (ix2 n k)
      = 0 + ∑ e ∈ into col n, (-(dis (ix1 (node (row (ix1 e))))) * dis (ix1 (node (col (ix1 e)))))
          * z (ix2 (node (row (ix1 e))) k) := by
  unfold lhatR
  rw [scatterR_apply, zeros_apply, filter_plain]
  refine congrArg (fun t : EReal => 0 + t) (Finset.sum_congr rfl fun e _ => ?_)
  rw [mulf_apply, gatherRowsR_apply, edgeWeight_apply]

/-- On the edges that end in `n`, the gather by `col` reads node `n`. -/
theorem node_col_of_mem {n : Fin 100000} {e : Fin 1000000} (he : e ∈ into col n) : node (col (ix1 e)) = n :=
  node_of_toInt (Finset.mem_filter.1 he).2

/-- The weights applied on the edges, with the node's own weight taken out of the sum's terms. -/
theorem lhatR_apply' (n : Fin 100000) (k : Fin 128) :
    lhatR dis row col z (ix2 n k)
      = 0 + ∑ e ∈ into col n, (-(dis (ix1 (node (row (ix1 e))))) * dis (ix1 n)) * z (ix2 (node (row (ix1 e))) k) := by
  rw [lhatR_apply]
  refine congrArg (fun t : EReal => 0 + t) (Finset.sum_congr rfl fun e he => ?_)
  rw [node_col_of_mem col he]

/-- **The two steps agree on non-negative features**, for non-negative node weights. -/
theorem lhat_eq_of_nonneg (hdis : ∀ i, 0 ≤ dis i) (hz : ∀ i, 0 ≤ z i) : lhatK dis row col z = lhatR dis row col z := by
  funext i
  obtain ⟨n, k, rfl⟩ : ∃ (n : Fin 100000) (k : Fin 128), i = ix2 n k := ⟨i 0, i 1, eq_ix2 i⟩
  rw [lhatK_apply, lhatR_apply', zero_add, zero_add]
  exact (lap_of_nonneg (into col n) (fun e => dis (ix1 (node (row (ix1 e))))) (fun e => z (ix2 (node (row (ix1 e))) k))
    (dis (ix1 n)) (fun e _ => hdis _) (fun e _ => hz _)).symm

/-- **The two steps agree on non-positive features**, for non-negative node weights. -/
theorem lhat_eq_of_nonpos (hdis : ∀ i, 0 ≤ dis i) (hz : ∀ i, z i ≤ 0) : lhatK dis row col z = lhatR dis row col z := by
  funext i
  obtain ⟨n, k, rfl⟩ : ∃ (n : Fin 100000) (k : Fin 128), i = ix2 n k := ⟨i 0, i 1, eq_ix2 i⟩
  rw [lhatK_apply, lhatR_apply', zero_add, zero_add]
  exact (lap_of_nonpos (into col n) (fun e => dis (ix1 (node (row (ix1 e))))) (fun e => z (ix2 (node (row (ix1 e))) k))
    (dis (ix1 n)) (fun e _ => hdis _) (fun e _ => hz _)).symm

/-- A step on non-negative features leaves non-positive ones. -/
theorem lhatK_nonpos (hdis : ∀ i, 0 ≤ dis i) (hz : ∀ i, 0 ≤ z i) (i : S100000x128.Idx) : lhatK dis row col z i ≤ 0 := by
  obtain ⟨n, k, rfl⟩ : ∃ (n : Fin 100000) (k : Fin 128), i = ix2 n k := ⟨i 0, i 1, eq_ix2 i⟩
  rw [lhatK_apply, zero_add]
  exact lap_nonpos (into col n) (fun e => dis (ix1 (node (row (ix1 e))))) (fun e => z (ix2 (node (row (ix1 e))) k))
    (dis (ix1 n)) (hdis _) (fun e _ => hdis _) (fun e _ => hz _)

end Main2

/-! ## The signs the two programs' arrays have -/

section Signs

/-- The reciprocal square root of a number that is at least one is not negative. -/
theorem rsqrt_max_one_nonneg (x : EReal) : 0 ≤ Ideal.rsqrt (max x 1) := by
  have h1 : (1 : EReal) ≤ max x 1 := le_max_right _ _
  generalize max x 1 = y at h1
  induction y using EReal.rec with
  | bot => exact absurd h1 (not_le.2 (EReal.bot_lt_coe 1))
  | top => rw [Ideal.rsqrt_top]
  | coe r =>
    have hr : (1 : ℝ) ≤ r := by exact_mod_cast h1
    rw [Ideal.rsqrt_coe, if_neg (by linarith), if_neg (ne_of_gt (by linarith))]
    exact EReal.coe_nonneg.2 (inv_nonneg.2 (Real.sqrt_nonneg r))

theorem ofBits_one_f32 : Ideal.ofBits .f32 0x3F800000#32 = 1 := by
  simp [Ideal.ofBits, Ideal.ieee, -EReal.coe_mul]; norm_num

theorem hostRsqrt_apply {s : Shape} {φ : FTy} (a : FVec Ideal s φ) (i : s.Idx) :
    Host.rsqrt (F := Ideal) (φ := φ) a i = Ideal.rsqrt (a i) := rfl

/-- A node weight chosen between the reciprocal square root of a number that is at least one and zero is not
    negative. -/
theorem weight_nonneg (c : IVec S100000 1) (d : FVec Ideal S100000 .f32)
    (h : (⟨0, ![]⟩ : Shape).BroadcastsInDim S100000 ![]) (i : S100000.Idx) :
    0 ≤ select c
      (Host.rsqrt (F := Ideal) (φ := .f32)
        (maximumf (F := Ideal) (φ := .f32) d (broadcastInDim S100000 ![] h (constant (F := Ideal) S_ .f32 0x3F800000#32))))
      (broadcastInDim S100000 ![] h (constant (F := Ideal) S_ .f32 0x00000000#32)) i := by
  rw [select_apply]
  unfold Scalar.select
  split_ifs
  · rw [hostRsqrt_apply, maximumf_apply, bcastScalar_apply, constant_apply, ofBits_one_f32]
    exact rsqrt_max_one_nonneg _
  · rw [bcastScalar_apply, constant_apply, Ideal.ofBits_zero_f32]

end Signs

/-! ## The four steps of the two programs -/

section Instances
open Cert.KernelIdeal.KVal Cert.ReferenceIdeal.ReadP

/-- The node weights are not negative: a reciprocal square root of a number that is at least one, or zero. -/
theorem dis_nonneg (x1 : (⟨Cert.KernelIdeal.S2x1000000, .i32⟩ : BufTy).Contents (Elt Ideal)) (i : S100000.Idx) : 0 ≤ val_main_v65 (F := Ideal) x1 i :=
  weight_nonneg (val_main_v61 (F := Ideal) x1) (val_main_v59 (F := Ideal) x1) Cert.ReferenceIdeal.Gen.bcast_S_S100000 i

/-- The first layer's features are a rectifier's output. -/
theorem relu1_nonneg (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal)) (i : S100000x128.Idx) : 0 ≤ val_main_v56 (F := Ideal) x0 x1 x2 x3 x4 x5 x6 x7 x8 i := by
  unfold val_main_v56
  rw [maximumf_apply]
  have h0 : val_main_call1_v0 (F := Ideal) i = 0 := (bcastScalar_apply _ _ i).trans Ideal.ofBits_zero_f32
  rw [h0]
  exact le_max_right _ _

/-- The second layer's features are a rectifier's output. -/
theorem relu2_nonneg (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal)) (x9 : (⟨Cert.KernelIdeal.S3x128x128, .f32⟩ : BufTy).Contents (Elt Ideal)) (x10 : (⟨Cert.KernelIdeal.S128, .f32⟩ : BufTy).Contents (Elt Ideal)) (i : S100000x128.Idx) : 0 ≤ val_main_v125 (F := Ideal) x0 x1 x2 x3 x4 x5 x6 x7 x8 x9 x10 i := by
  unfold val_main_v125
  rw [maximumf_apply]
  have h0 : val_main_call3_v0 (F := Ideal) i = 0 := (bcastScalar_apply _ _ i).trans Ideal.ofBits_zero_f32
  rw [h0]
  exact le_max_right _ _

theorem row_eq (x1 : (⟨Cert.KernelIdeal.S2x1000000, .i32⟩ : BufTy).Contents (Elt Ideal)) : kv_v1 x1 = val_main_v1 (F := Ideal) x1 := rfl

theorem col_eq (x1 : (⟨Cert.KernelIdeal.S2x1000000, .i32⟩ : BufTy).Contents (Elt Ideal)) : kv_v3 x1 = val_main_v3 (F := Ideal) x1 := rfl

theorem kv_v70_eq (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal)) :
    kv_v70 x0 x1 x2 x3 x4 x5 x6 x7 x8 = lhatK (kv_v51 x1) (kv_v1 x1) (kv_v3 x1) (kv_v42 x0 x1 x2 x3 x4 x5 x6 x7 x8) := rfl

theorem val_main_v97_eq (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal)) :
    val_main_v97 (F := Ideal) x0 x1 x2 x3 x4 x5 x6 x7 x8 = lhatR (val_main_v65 (F := Ideal) x1) (val_main_v1 (F := Ideal) x1) (val_main_v3 (F := Ideal) x1) (val_main_v56 (F := Ideal) x0 x1 x2 x3 x4 x5 x6 x7 x8) := rfl

theorem kv_v92_eq (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal)) :
    kv_v92 x0 x1 x2 x3 x4 x5 x6 x7 x8 = subf (F := Ideal) (φ := .f32)
      (mulf (F := Ideal) (φ := .f32) kv_v90 (lhatK (kv_v51 x1) (kv_v1 x1) (kv_v3 x1) (kv_v70 x0 x1 x2 x3 x4 x5 x6 x7 x8))) (kv_v42 x0 x1 x2 x3 x4 x5 x6 x7 x8) := rfl

theorem val_main_v117_eq (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal)) :
    val_main_v117 (F := Ideal) x0 x1 x2 x3 x4 x5 x6 x7 x8 = subf (F := Ideal) (φ := .f32)
      (mulf (F := Ideal) (φ := .f32) (val_main_v115 (F := Ideal))
        (lhatR (val_main_v65 (F := Ideal) x1) (val_main_v1 (F := Ideal) x1) (val_main_v3 (F := Ideal) x1) (val_main_v97 (F := Ideal) x0 x1 x2 x3 x4 x5 x6 x7 x8))) (val_main_v56 (F := Ideal) x0 x1 x2 x3 x4 x5 x6 x7 x8) := rfl

theorem two1_eq : kv_v90 = val_main_v115 (F := Ideal) := rfl

theorem kv_v119_eq (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal)) (x9 : (⟨Cert.KernelIdeal.S3x128x128, .f32⟩ : BufTy).Contents (Elt Ideal)) (x10 : (⟨Cert.KernelIdeal.S128, .f32⟩ : BufTy).Contents (Elt Ideal)) :
    kv_v119 x0 x1 x2 x3 x4 x5 x6 x7 x8 x9 x10 = lhatK (kv_v51 x1) (kv_v1 x1) (kv_v3 x1) (kv_v100 x0 x1 x2 x3 x4 x5 x6 x7 x8 x9 x10) := rfl

theorem val_main_v141_eq (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal)) (x9 : (⟨Cert.KernelIdeal.S3x128x128, .f32⟩ : BufTy).Contents (Elt Ideal)) (x10 : (⟨Cert.KernelIdeal.S128, .f32⟩ : BufTy).Contents (Elt Ideal)) :
    val_main_v141 (F := Ideal) x0 x1 x2 x3 x4 x5 x6 x7 x8 x9 x10 = lhatR (val_main_v65 (F := Ideal) x1) (val_main_v1 (F := Ideal) x1) (val_main_v3 (F := Ideal) x1) (val_main_v125 (F := Ideal) x0 x1 x2 x3 x4 x5 x6 x7 x8 x9 x10) := rfl

theorem kv_v141_eq (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal)) (x9 : (⟨Cert.KernelIdeal.S3x128x128, .f32⟩ : BufTy).Contents (Elt Ideal)) (x10 : (⟨Cert.KernelIdeal.S128, .f32⟩ : BufTy).Contents (Elt Ideal)) :
    kv_v141 x0 x1 x2 x3 x4 x5 x6 x7 x8 x9 x10 = subf (F := Ideal) (φ := .f32)
      (mulf (F := Ideal) (φ := .f32) kv_v139 (lhatK (kv_v51 x1) (kv_v1 x1) (kv_v3 x1) (kv_v119 x0 x1 x2 x3 x4 x5 x6 x7 x8 x9 x10))) (kv_v100 x0 x1 x2 x3 x4 x5 x6 x7 x8 x9 x10) := rfl

theorem val_main_v161_eq (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal)) (x9 : (⟨Cert.KernelIdeal.S3x128x128, .f32⟩ : BufTy).Contents (Elt Ideal)) (x10 : (⟨Cert.KernelIdeal.S128, .f32⟩ : BufTy).Contents (Elt Ideal)) :
    val_main_v161 (F := Ideal) x0 x1 x2 x3 x4 x5 x6 x7 x8 x9 x10 = subf (F := Ideal) (φ := .f32)
      (mulf (F := Ideal) (φ := .f32) (val_main_v159 (F := Ideal))
        (lhatR (val_main_v65 (F := Ideal) x1) (val_main_v1 (F := Ideal) x1) (val_main_v3 (F := Ideal) x1) (val_main_v141 (F := Ideal) x0 x1 x2 x3 x4 x5 x6 x7 x8 x9 x10))) (val_main_v125 (F := Ideal) x0 x1 x2 x3 x4 x5 x6 x7 x8 x9 x10) := rfl

theorem two2_eq : kv_v139 = val_main_v159 (F := Ideal) := rfl

/-- The first layer's first step leaves non-positive features. -/
theorem step1_nonpos (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal)) (i : S100000x128.Idx) : val_main_v97 (F := Ideal) x0 x1 x2 x3 x4 x5 x6 x7 x8 i ≤ 0 := by
  rw [val_main_v97_eq, ← lhat_eq_of_nonneg _ _ _ _ (dis_nonneg x1) (relu1_nonneg x0 x1 x2 x3 x4 x5 x6 x7 x8)]
  exact lhatK_nonpos _ _ _ _ (dis_nonneg x1) (relu1_nonneg x0 x1 x2 x3 x4 x5 x6 x7 x8) i

/-- The second layer's first step leaves non-positive features. -/
theorem step2_nonpos (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal)) (x9 : (⟨Cert.KernelIdeal.S3x128x128, .f32⟩ : BufTy).Contents (Elt Ideal)) (x10 : (⟨Cert.KernelIdeal.S128, .f32⟩ : BufTy).Contents (Elt Ideal)) (i : S100000x128.Idx) : val_main_v141 (F := Ideal) x0 x1 x2 x3 x4 x5 x6 x7 x8 x9 x10 i ≤ 0 := by
  rw [val_main_v141_eq, ← lhat_eq_of_nonneg _ _ _ _ (dis_nonneg x1) (relu2_nonneg x0 x1 x2 x3 x4 x5 x6 x7 x8 x9 x10)]
  exact lhatK_nonpos _ _ _ _ (dis_nonneg x1) (relu2_nonneg x0 x1 x2 x3 x4 x5 x6 x7 x8 x9 x10) i

/-- The first layer's first step: the two programs agree, given that they agree on the layer's features and on the
    node weights. -/
theorem lap1a (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal))
    (hh : kv_v42 x0 x1 x2 x3 x4 x5 x6 x7 x8 = val_main_v56 (F := Ideal) x0 x1 x2 x3 x4 x5 x6 x7 x8) (hd : kv_v51 x1 = val_main_v65 (F := Ideal) x1) :
    kv_v70 x0 x1 x2 x3 x4 x5 x6 x7 x8 = val_main_v97 (F := Ideal) x0 x1 x2 x3 x4 x5 x6 x7 x8 := by
  rw [kv_v70_eq, val_main_v97_eq, hh, hd, row_eq, col_eq]
  exact lhat_eq_of_nonneg _ _ _ _ (dis_nonneg x1) (relu1_nonneg x0 x1 x2 x3 x4 x5 x6 x7 x8)

/-- The first layer's second step, twice the step of the first step's output minus the features. -/
theorem lap1b (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal))
    (hh : kv_v42 x0 x1 x2 x3 x4 x5 x6 x7 x8 = val_main_v56 (F := Ideal) x0 x1 x2 x3 x4 x5 x6 x7 x8) (hd : kv_v51 x1 = val_main_v65 (F := Ideal) x1)
    (h70 : kv_v70 x0 x1 x2 x3 x4 x5 x6 x7 x8 = val_main_v97 (F := Ideal) x0 x1 x2 x3 x4 x5 x6 x7 x8) :
    kv_v92 x0 x1 x2 x3 x4 x5 x6 x7 x8 = val_main_v117 (F := Ideal) x0 x1 x2 x3 x4 x5 x6 x7 x8 := by
  rw [kv_v92_eq, val_main_v117_eq, h70, hh, hd, row_eq, col_eq, two1_eq,
    lhat_eq_of_nonpos _ _ _ _ (dis_nonneg x1) (step1_nonpos x0 x1 x2 x3 x4 x5 x6 x7 x8)]

/-- The second layer's first step. -/
theorem lap2a (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal)) (x9 : (⟨Cert.KernelIdeal.S3x128x128, .f32⟩ : BufTy).Contents (Elt Ideal)) (x10 : (⟨Cert.KernelIdeal.S128, .f32⟩ : BufTy).Contents (Elt Ideal))
    (hh : kv_v100 x0 x1 x2 x3 x4 x5 x6 x7 x8 x9 x10 = val_main_v125 (F := Ideal) x0 x1 x2 x3 x4 x5 x6 x7 x8 x9 x10) (hd : kv_v51 x1 = val_main_v65 (F := Ideal) x1) :
    kv_v119 x0 x1 x2 x3 x4 x5 x6 x7 x8 x9 x10 = val_main_v141 (F := Ideal) x0 x1 x2 x3 x4 x5 x6 x7 x8 x9 x10 := by
  rw [kv_v119_eq, val_main_v141_eq, hh, hd, row_eq, col_eq]
  exact lhat_eq_of_nonneg _ _ _ _ (dis_nonneg x1) (relu2_nonneg x0 x1 x2 x3 x4 x5 x6 x7 x8 x9 x10)

/-- The second layer's second step. -/
theorem lap2b (x0 : (⟨Cert.KernelIdeal.S100000x128, .f32⟩ : BufTy).Contents (Elt Ideal)) (x1 : (⟨Cert.KernelIdeal.S2x1000000, .i32⟩ : BufTy).Contents (Elt Ideal)) (x2 : (⟨Cert.KernelIdeal.S1000000x16, .f32⟩ : BufTy).Contents (Elt Ideal)) (x3 : (⟨Cert.KernelIdeal.S144x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 x7 x8 : (⟨Cert.KernelIdeal.S128, .f32⟩ : BufTy).Contents (Elt Ideal)) (x9 : (⟨Cert.KernelIdeal.S3x128x128, .f32⟩ : BufTy).Contents (Elt Ideal)) (x10 : (⟨Cert.KernelIdeal.S128, .f32⟩ : BufTy).Contents (Elt Ideal))
    (hh : kv_v100 x0 x1 x2 x3 x4 x5 x6 x7 x8 x9 x10 = val_main_v125 (F := Ideal) x0 x1 x2 x3 x4 x5 x6 x7 x8 x9 x10) (hd : kv_v51 x1 = val_main_v65 (F := Ideal) x1)
    (h119 : kv_v119 x0 x1 x2 x3 x4 x5 x6 x7 x8 x9 x10 = val_main_v141 (F := Ideal) x0 x1 x2 x3 x4 x5 x6 x7 x8 x9 x10) :
    kv_v141 x0 x1 x2 x3 x4 x5 x6 x7 x8 x9 x10 = val_main_v161 (F := Ideal) x0 x1 x2 x3 x4 x5 x6 x7 x8 x9 x10 := by
  rw [kv_v141_eq, val_main_v161_eq, h119, hh, hd, row_eq, col_eq, two2_eq,
    lhat_eq_of_nonpos _ _ _ _ (dis_nonneg x1) (step2_nonpos x0 x1 x2 x3 x4 x5 x6 x7 x8 x9 x10)]

end Instances

end Cert.Proof.StageLap

end
-- ==== Proof.StagesTail.lean ====
/-
  The last linear layer, its batch statistics, and the output stage: the kernel program's values are the reference's.

  Given that the two programs agree on the node features that enter it, the kernel's last linear layer — a region's
  `∑ k, a (n, k) * w (k, j) + b (0, j)` with the bias row reshaped to `[1, 128]` — is the reference's `dot_general` plus the
  bias broadcast along the rows; the column means and variances are then the same host operations of the same array.

  The output stage. The kernel pads the output weights `[128, 1]` to `[128, 128]` by writing the column into column 0 of
  zeros, and the output bias `[1]` to `[128]` by writing it at entry 0 of zeros; one region then normalizes, rectifies and
  projects, `(n, j) ↦ ∑ k, max (g k * (z (n, k) - mean k) * rsqrt (var k + ε) + β k) 0 * wpad (k, j) + bpad j`, and column 0 of
  that is kept. Both paddings are scatters whose body returns the update: such a scatter, when its updates land at
  pairwise distinct cells inside the operand, leaves each update at the cell it lands at (the fold over the updates never
  touches that cell again). Here update `k` of the column lands at `(k, 0)` and the one update of the bias at `0`, so
  `wpad (k, 0) = w (k, 0)` and `bpad 0 = b 0`, and the kept column at node `n` is
  `∑ k, max (g k * (z (n, k) - mean k) * rsqrt (var k + ε) + β k) 0 * w (k, 0) + b 0`: the reference's normalization and rectifier
  read at `(n, k)`, its `dot_general` with the `[128, 1]` weights, and its broadcast bias.
-/
import proofs.«149158_j47751446397324_2_alg».proof.Proof.KVal
import proofs.«149158_j47751446397324_2_alg».proof.Proof.RefRead

set_option maxRecDepth 16384

noncomputable section

open scoped BigOperators

namespace Cert.Proof.StagesTail

open Idealize.ShloMosaic Idealize.ShloMosaic.ValueIdx
open Cert.KernelIdeal Cert.KernelIdeal.Gen Cert.KernelIdeal.KVal Cert.ReferenceIdeal.ReadP

/-- A vector `[128]` reshaped to a row `[1, 128]` holds at `(0, q)` the vector's entry `q`. -/
theorem row_reshape {α : Type} (v : S128.Idx → α) (q : Fin 128) :
    shapeCast S1x128 v shapeCasts_S128_S1x128 (ix2 (0 : Fin 1) q) = v (ix1 q) :=
  shapeCast_apply v _ (ix2 (0 : Fin 1) q) (ix1 q)
    (by rewrite [Shape.rowMajor_val_two, Shape.rowMajor_val_one]; show q.val = 0 * 128 + q.val; omega)

/-- The last linear layer. -/
theorem z2 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal))
    (h : kv_v149 x0 x1 x2 x3 x4 x5 x6 x7 x8 x9 x10 x11 x12 = val_main_v169 (F := Ideal) x0 x1 x2 x3 x4 x5 x6 x7 x8 x9 x10 x11 x12) :
    kv_v151 x0 x1 x2 x3 x4 x5 x6 x7 x8 x9 x10 x11 x12 x13 x14 = val_main_v173 (F := Ideal) x0 x1 x2 x3 x4 x5 x6 x7 x8 x9 x10 x11 x12 x13 x14 := by
  unfold kv_v151
  rw [h]
  funext i
  rw [val_main_v173_apply, val_main_v170_apply, val_main_v172_apply, val_main_v171_apply]
  generalize val_main_v169 (F := Ideal) x0 x1 x2 x3 x4 x5 x6 x7 x8 x9 x10 x11 x12 = y
  unfold Cert.KernelIdeal.Region5.out kv_v150
  rw [row_reshape]
  have el : ∀ k : Fin 128, lidx_main_v170 i k = ix2 (⟨(i 0).val, (i 0).isLt⟩ : Fin 100000) k :=
    fun k => funext fun a => by match a with | ⟨0, _⟩ => rfl | ⟨1, _⟩ => rfl
  have er : ∀ k : Fin 128, ridx_main_v170 i k = ix2 k (⟨(i 1).val, (i 1).isLt⟩ : Fin 128) :=
    fun k => funext fun a => by match a with | ⟨0, _⟩ => rfl | ⟨1, _⟩ => rfl
  have eb : idx_main_v171 (idx_main_v172 i) = ix1 (⟨(i 1).val, (i 1).isLt⟩ : Fin 128) :=
    funext fun a => by match a with | ⟨0, _⟩ => rfl
  simp only [el, er, eb]
  rfl

/-- The column means of the last pre-activations. -/
theorem mean2 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal))
    (hz : kv_v151 x0 x1 x2 x3 x4 x5 x6 x7 x8 x9 x10 x11 x12 x13 x14 = val_main_v173 (F := Ideal) x0 x1 x2 x3 x4 x5 x6 x7 x8 x9 x10 x11 x12 x13 x14) :
    kv_v154 x0 x1 x2 x3 x4 x5 x6 x7 x8 x9 x10 x11 x12 x13 x14 = val_main_v176 (F := Ideal) x0 x1 x2 x3 x4 x5 x6 x7 x8 x9 x10 x11 x12 x13 x14 := by
  unfold kv_v154 kv_v152 val_main_v176 val_main_v174
  rw [hz]
  rfl

/-- The column variances of the last pre-activations. -/
theorem var2 (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal))
    (hz : kv_v151 x0 x1 x2 x3 x4 x5 x6 x7 x8 x9 x10 x11 x12 x13 x14 = val_main_v173 (F := Ideal) x0 x1 x2 x3 x4 x5 x6 x7 x8 x9 x10 x11 x12 x13 x14)
    (hm : kv_v154 x0 x1 x2 x3 x4 x5 x6 x7 x8 x9 x10 x11 x12 x13 x14 = val_main_v176 (F := Ideal) x0 x1 x2 x3 x4 x5 x6 x7 x8 x9 x10 x11 x12 x13 x14) :
    kv_v161 x0 x1 x2 x3 x4 x5 x6 x7 x8 x9 x10 x11 x12 x13 x14 = val_main_v183 (F := Ideal) x0 x1 x2 x3 x4 x5 x6 x7 x8 x9 x10 x11 x12 x13 x14 := by
  unfold kv_v161 kv_v159 kv_v158 kv_v157 kv_v156 kv_v155 val_main_v183 val_main_v181 val_main_v180 val_main_v179 val_main_v178 val_main_v177
  rw [hz, hm]
  rfl

/-! ## A scatter that sets: each update lands at its own cell -/

section ScatterSet

variable {α : Type} {s si u : Shape} {w : Nat}

/-- One step of the scatter's fold when the body returns the update: update `n` replaces the cell it lands at, if any. -/
def setStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_fold (d : ScatterDims s si u) (x : s.Idx → α) (idx : IVec si w) (upd : u.Idx → α) :
    Host.scatter d (fun _ b => b) x idx upd = (List.finRange u.numel).foldl (setStep d idx upd) x := rfl

theorem setStep_of_some (d : ScatterDims s si u) (idx : IVec si w) (upd : u.Idx → α) (r : s.Idx → α) (n : Fin u.numel)
    (i : s.Idx) (h : d.resultIdx? (u.rowMajor.symm n) idx = some i) :
    setStep d idx upd r n = fun i' => if i' = i then upd (u.rowMajor.symm n) else r i' := by
  unfold setStep; rw [h]

variable (d : ScatterDims s si u) (idx : IVec si w) (upd : u.Idx → α) (p : u.Idx → s.Idx)
  (hp : ∀ j, d.resultIdx? j idx = some (p j))

include hp in
/-- A cell at which none of the listed updates lands keeps its contents. -/
theorem fold_of_not_hit (l : List (Fin u.numel)) (r : s.Idx → α) (i : s.Idx) (h : ∀ n ∈ l, p (u.rowMajor.symm n) ≠ i) :
    l.foldl (setStep d idx upd) r i = r i := by
  induction l generalizing r with
  | nil => rfl
  | cons a t ih =>
    rw [List.foldl_cons, ih _ (fun n hn => h n (List.mem_cons_of_mem _ hn)), setStep_of_some d idx upd r a _ (hp _)]
    exact if_neg (fun e => h a List.mem_cons_self e.symm)

include hp in
/-- When the updates land at pairwise distinct cells, the cell a listed update lands at holds that update. -/
theorem fold_of_hit (hinj : Function.Injective p) (l : List (Fin u.numel)) (hl : l.Nodup) (r : s.Idx → α) (n0 : Fin u.numel)
    (h0 : n0 ∈ l) : l.foldl (setStep d idx upd) r (p (u.rowMajor.symm n0)) = upd (u.rowMajor.symm n0) := by
  induction l generalizing r with
  | nil => cases h0
  | cons a t ih =>
    rw [List.foldl_cons]
    rcases List.mem_cons.mp h0 with e | ht
    · subst e
      rw [fold_of_not_hit d idx upd p hp t _ _ (fun n hn e =>
          (List.nodup_cons.mp hl).1 (by
            have hnn : n = n0 := u.rowMajor.symm.injective (hinj e)
            exact hnn ▸ hn)),
        setStep_of_some d idx upd r n0 _ (hp _)]
      exact if_pos rfl
    · exact ih (List.nodup_cons.mp hl).2 _ ht

include hp in
/-- The scatter whose body returns the update, with the updates landing at pairwise distinct cells inside the
    operand: the cell update `j` lands at holds update `j`. -/
theorem scatter_set_apply (hinj : Function.Injective p) (x : s.Idx → α) (j : u.Idx) :
    Host.scatter d (fun _ b => b) x idx upd (p j) = upd j := by
  have h := fold_of_hit d idx upd p hp hinj (List.finRange u.numel) (List.nodup_finRange _) x (u.rowMajor j)
    (List.mem_finRange _)
  rw [Equiv.symm_apply_apply] at h
  rw [scatter_eq_fold]; exact h

end ScatterSet

/-! ## The two padded parameters of the output stage -/

/-- Update `j` of a column written into column 0 of a `[128, 128]` array — one scatter index of value 0, the update's
    axis a window along the rows, the column axis inserted — lands at `(j, 0)`. -/
theorem col0_resultIdx (idx : IVec S1 32) (hidx : ∀ b, idx b = 0#32) (j : S128.Idx) :
    scatter_S128x128_S1_S128_0_1_1_0.resultIdx? j idx
      = some (ix2 (⟨(j 0).val, (j 0).isLt⟩ : Fin 128) (0 : Fin 128)) := by
  have hs0 : scatter_S128x128_S1_S128_0_1_1_0.start j idx (0 : Fin 2) = 0 := by
    unfold ScatterDims.start; rw [dif_neg (by decide)]
  have hs1 : scatter_S128x128_S1_S128_0_1_1_0.start j idx (1 : Fin 2) = 0 := by
    unfold ScatterDims.start; rw [dif_pos (by decide), hidx]; rfl
  have hw0 : scatter_S128x128_S1_S128_0_1_1_0.window j (0 : Fin 2) = (j 0).val := by
    unfold ScatterDims.window; rw [dif_pos (by decide)]; rfl
  have hw1 : scatter_S128x128_S1_S128_0_1_1_0.window j (1 : Fin 2) = 0 := by
    unfold ScatterDims.window; rw [dif_neg (by decide)]
  have hj : (j 0).val < 128 := (j 0).isLt
  have hall : ∀ a : Fin 2, 0 ≤ scatter_S128x128_S1_S128_0_1_1_0.start j idx a + scatter_S128x128_S1_S128_0_1_1_0.window j a
      ∧ scatter_S128x128_S1_S128_0_1_1_0.start j idx a + scatter_S128x128_S1_S128_0_1_1_0.window j a < S128x128.size a := by
    intro a
    match a with
    | ⟨0, _⟩ =>
      show 0 ≤ scatter_S128x128_S1_S128_0_1_1_0.start j idx (0 : Fin 2) + scatter_S128x128_S1_S128_0_1_1_0.window j (0 : Fin 2)
        ∧ scatter_S128x128_S1_S128_0_1_1_0.start j idx (0 : Fin 2) + scatter_S128x128_S1_S128_0_1_1_0.window j (0 : Fin 2) < (128 : Nat)
      rw [hs0, hw0]; omega
    | ⟨1, _⟩ =>
      show 0 ≤ scatter_S128x128_S1_S128_0_1_1_0.start j idx (1 : Fin 2) + scatter_S128x128_S1_S128_0_1_1_0.window j (1 : Fin 2)
        ∧ scatter_S128x128_S1_S128_0_1_1_0.start j idx (1 : Fin 2) + scatter_S128x128_S1_S128_0_1_1_0.window j (1 : Fin 2) < (128 : Nat)
      rw [hs1, hw1]; omega
  unfold ScatterDims.resultIdx?
  rw [dif_pos hall]
  refine congrArg some (funext fun a => Fin.ext ?_)
  match a with
  | ⟨0, _⟩ =>
    show (scatter_S128x128_S1_S128_0_1_1_0.start j idx (0 : Fin 2) + scatter_S128x128_S1_S128_0_1_1_0.window j (0 : Fin 2)).toNat = (j 0).val
    rw [hs0, hw0]; omega
  | ⟨1, _⟩ =>
    show (scatter_S128x128_S1_S128_0_1_1_0.start j idx (1 : Fin 2) + scatter_S128x128_S1_S128_0_1_1_0.window j (1 : Fin 2)).toNat = 0
    rw [hs1, hw1]; rfl

/-- Every update index of a rank-1 update is determined by its coordinate. -/
theorem col0_injective :
    Function.Injective (fun j : S128.Idx => ix2 (⟨(j 0).val, (j 0).isLt⟩ : Fin 128) (0 : Fin 128)) := by
  intro j j' e
  have h0 : (j 0).val = (j' 0).val := congrArg Fin.val (congrFun e (0 : Fin 2))
  funext a
  match a with
  | ⟨0, _⟩ => exact Fin.ext h0

/-- The padded output weights: column 0 of `zeros.at[:, 0].set(w[:, 0])` is the column of `w`. -/
theorem wpad_col0 (x17 : (⟨S128x1, .f32⟩ : BufTy).Contents (Elt Ideal)) (k : Fin 128) :
    kv_v165 x17 (ix2 k (0 : Fin 128)) = x17 (ix2 k (0 : Fin 1)) := by
  unfold kv_v165
  refine (scatter_set_apply scatter_S128x128_S1_S128_0_1_1_0 kv_v164 (kv_v163 x17) _
    (col0_resultIdx kv_v164 (fun _ => rfl)) col0_injective kv_v162 (ix1 k)).trans ?_
  unfold kv_v163
  exact shapeCast_apply x17 _ (ix1 k) (ix2 k (0 : Fin 1))
    (by rewrite [Shape.rowMajor_val_two, Shape.rowMajor_val_one]; show k.val * 1 + 0 = k.val; omega)

/-- The one update of a scalar written at entry 0 of a `[128]` vector — one scatter index of value 0, the vector's
    axis inserted — lands at `0`. -/
theorem entry0_resultIdx (idx : IVec S1 32) (hidx : ∀ b, idx b = 0#32) (j : S_.Idx) :
    scatter_S128_S1_S__n_0_0_0.resultIdx? j idx = some (ix1 (0 : Fin 128)) := by
  have hs0 : scatter_S128_S1_S__n_0_0_0.start j idx (0 : Fin 1) = 0 := by
    unfold ScatterDims.start; rw [dif_pos (by decide), hidx]; rfl
  have hw0 : scatter_S128_S1_S__n_0_0_0.window j (0 : Fin 1) = 0 := by
    unfold ScatterDims.window; rw [dif_neg (by decide)]
  have hall : ∀ a : Fin 1, 0 ≤ scatter_S128_S1_S__n_0_0_0.start j idx a + scatter_S128_S1_S__n_0_0_0.window j a
      ∧ scatter_S128_S1_S__n_0_0_0.start j idx a + scatter_S128_S1_S__n_0_0_0.window j a < S128.size a := by
    intro a
    match a with
    | ⟨0, _⟩ =>
      show 0 ≤ scatter_S128_S1_S__n_0_0_0.start j idx (0 : Fin 1) + scatter_S128_S1_S__n_0_0_0.window j (0 : Fin 1)
        ∧ scatter_S128_S1_S__n_0_0_0.start j idx (0 : Fin 1) + scatter_S128_S1_S__n_0_0_0.window j (0 : Fin 1) < (128 : Nat)
      rw [hs0, hw0]; omega
  unfold ScatterDims.resultIdx?
  rw [dif_pos hall]
  refine congrArg some (funext fun a => Fin.ext ?_)
  match a with
  | ⟨0, _⟩ =>
    show (scatter_S128_S1_S__n_0_0_0.start j idx (0 : Fin 1) + scatter_S128_S1_S__n_0_0_0.window j (0 : Fin 1)).toNat = 0
    rw [hs0, hw0]; rfl

/-- The padded output bias: entry 0 of `zeros.at[0].set(b[0])` is `b[0]`. -/
theorem bpad_entry0 (x18 : (⟨S1, .f32⟩ : BufTy).Contents (Elt Ideal)) :
    kv_v169 x18 (ix1 (0 : Fin 128)) = x18 (ix1 (0 : Fin 1)) := by
  unfold kv_v169
  refine (scatter_set_apply scatter_S128_S1_S__n_0_0_0 kv_v168 (kv_v167 x18) _
    (entry0_resultIdx kv_v168 (fun _ => rfl)) (fun a b _ => funext fun x => x.elim0) kv_v166 ix0).trans ?_
  unfold kv_v167
  exact shapeCast_apply x18 _ ix0 (ix1 (0 : Fin 1))
    (by rewrite [Shape.rowMajor_val_one]; exact (Shape.rowMajorPi_zero _ _).symm)

/-- The output stage: normalization, rectifier, and the projection onto the one output column with its bias. -/
theorem out (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x1, .f32⟩ : BufTy).Contents (Elt Ideal)) (x18 : (⟨S1, .f32⟩ : BufTy).Contents (Elt Ideal))
    (hz : kv_v151 x0 x1 x2 x3 x4 x5 x6 x7 x8 x9 x10 x11 x12 x13 x14 = val_main_v173 (F := Ideal) x0 x1 x2 x3 x4 x5 x6 x7 x8 x9 x10 x11 x12 x13 x14)
    (hm : kv_v154 x0 x1 x2 x3 x4 x5 x6 x7 x8 x9 x10 x11 x12 x13 x14 = val_main_v176 (F := Ideal) x0 x1 x2 x3 x4 x5 x6 x7 x8 x9 x10 x11 x12 x13 x14)
    (hv : kv_v161 x0 x1 x2 x3 x4 x5 x6 x7 x8 x9 x10 x11 x12 x13 x14 = val_main_v183 (F := Ideal) x0 x1 x2 x3 x4 x5 x6 x7 x8 x9 x10 x11 x12 x13 x14) :
    kv_v177 x0 x1 x2 x3 x4 x5 x6 x7 x8 x9 x10 x11 x12 x13 x14 x15 x16 x17 x18 = val_main_v204 (F := Ideal) x0 x1 x2 x3 x4 x5 x6 x7 x8 x9 x10 x11 x12 x13 x14 x15 x16 x17 x18 := by
  funext i
  obtain ⟨n, rfl⟩ : ∃ n : Fin 100000, i = ix1 n := ⟨i 0, eq_ix1 i⟩
  -- the kernel's result at `n` is the padded region output at `(n, 0)`
  have hL : kv_v177 x0 x1 x2 x3 x4 x5 x6 x7 x8 x9 x10 x11 x12 x13 x14 x15 x16 x17 x18 (ix1 n) = kv_v175 x0 x1 x2 x3 x4 x5 x6 x7 x8 x9 x10 x11 x12 x13 x14 x15 x16 x17 x18 (ix2 n (0 : Fin 128)) := by
    unfold kv_v177
    rw [shapeCast_apply _ _ (ix1 n) (ix2 n (0 : Fin 1))
      (by rewrite [Shape.rowMajor_val_two, Shape.rowMajor_val_one]; show n.val * 1 + 0 = n.val; omega)]
    unfold kv_v176
    exact extractStridedSlice_apply _ _ _ (ix2 n (0 : Fin 1)) (ix2 n (0 : Fin 128)) (fun a => by
      match a with
      | ⟨0, _⟩ => show n.val = 0 + n.val; omega
      | ⟨1, _⟩ => rfl)
  rw [hL]
  unfold kv_v175 kv_v170 kv_v171
  rw [hz, hm, hv]
  -- the reference's result at `n`, read down to the pre-activations, their statistics and the parameters
  rw [val_main_v204_apply, val_main_v203_apply, val_main_v200_apply, val_main_v202_apply, val_main_v201_apply]
  simp only [val_main_v199_apply, val_main_v198_apply, val_main_v195_apply, val_main_v189_apply, val_main_v186_apply,
    val_main_v188_apply, val_main_v187_apply, val_main_v185_apply, val_main_v184_apply, val_main_v194_apply,
    val_main_v193_apply, val_main_v192_apply, val_main_v191_apply, val_main_v190_apply, val_main_v197_apply,
    val_main_v196_apply, val_main_call5_v0_apply]
  generalize val_main_v173 (F := Ideal) x0 x1 x2 x3 x4 x5 x6 x7 x8 x9 x10 x11 x12 x13 x14 = Z
  generalize val_main_v176 (F := Ideal) x0 x1 x2 x3 x4 x5 x6 x7 x8 x9 x10 x11 x12 x13 x14 = M
  generalize val_main_v183 (F := Ideal) x0 x1 x2 x3 x4 x5 x6 x7 x8 x9 x10 x11 x12 x13 x14 = V
  unfold Cert.KernelIdeal.Region6.out kv_v172 kv_v173 kv_v174
  simp only [row_reshape]
  show (∑ k : Fin 128, max (x15 (ix1 k) * (Z (ix2 n k) - M (ix1 k)) * Ideal.rsqrt (V (ix1 k) + Ideal.ofBits .f32 0x3727C5AC#32)
      + x16 (ix1 k)) (Ideal.ofBits .f32 0x00000000#32) * kv_v165 x17 (ix2 k (0 : Fin 128))) + kv_v169 x18 (ix1 (0 : Fin 128)) = _
  simp only [wpad_col0, bpad_entry0]
  -- the reference's index maps, as coordinates
  have eL : ∀ k : Fin 128, lidx_main_v200 (idx_main_v204 (ix1 n)) k = ix2 n k := fun k => funext fun a => by
    match a with
    | ⟨0, _⟩ => exact Fin.ext (Nat.div_one _)
    | ⟨1, _⟩ => rfl
  have eR : ∀ k : Fin 128, ridx_main_v200 (idx_main_v204 (ix1 n)) k = ix2 k (0 : Fin 1) := fun k => funext fun a => by
    match a with
    | ⟨0, _⟩ => rfl
    | ⟨1, _⟩ => rfl
  have e187 : ∀ k : Fin 128, idx_main_v187 (idx_main_v188 (ix2 n k)) = ix1 k := fun k => funext fun a => by
    match a with
    | ⟨0, _⟩ => rfl
  have e184 : ∀ k : Fin 128, idx_main_v184 (idx_main_v185 (ix2 n k)) = ix1 k := fun k => funext fun a => by
    match a with
    | ⟨0, _⟩ => rfl
  have e193 : ∀ k : Fin 128, idx_main_v193 (idx_main_v194 (ix2 n k)) = ix1 k := fun k => funext fun a => by
    match a with
    | ⟨0, _⟩ => rfl
  have e196 : ∀ k : Fin 128, idx_main_v196 (idx_main_v197 (ix2 n k)) = ix1 k := fun k => funext fun a => by
    match a with
    | ⟨0, _⟩ => rfl
  have e201 : idx_main_v201 (idx_main_v202 (idx_main_v204 (ix1 n))) = ix1 (0 : Fin 1) := funext fun a => by
    match a with
    | ⟨0, _⟩ => rfl
  simp only [eL, eR, e187, e184, e193, e196, e201]
  rfl

end Cert.Proof.StagesTail

end
-- ==== Proof.Final.lean ====
/-
  The whole network: the kernel program's result is the reference's, as functions of the nineteen arguments.

  Stage by stage the two programs compute the same arrays. The node-side combination equals the per-edge linear layer
  summed over the edges (for real entries of the node features, the edge features, the interaction weights and bias);
  the linear layers, the batch statistics, the normalizations, the degree normalization and the polynomial filters'
  combinations are the same expressions; each Laplacian step moves the node's factor out of the edge sum, which is
  allowed because the summed features all have one sign; and the output projection reads column 0 of a padded product.
-/
import proofs.«149158_j47751446397324_2_alg».proof.Proof.Stages1
import proofs.«149158_j47751446397324_2_alg».proof.Proof.Stages2
import proofs.«149158_j47751446397324_2_alg».proof.Proof.Stages3
import proofs.«149158_j47751446397324_2_alg».proof.Proof.StageA
import proofs.«149158_j47751446397324_2_alg».proof.Proof.StageLap
import proofs.«149158_j47751446397324_2_alg».proof.Proof.StagesTail

noncomputable section

namespace Cert.Proof.Stages

open Idealize.ShloMosaic
open Cert.KernelIdeal Cert.KernelIdeal.Gen Cert.KernelIdeal.KVal Cert.ReferenceIdeal.ReadP

/-- The kernel program's result value is the reference's last stage, for real node features, edge features,
    interaction weights and interaction bias. -/
theorem all (x0 : (⟨S100000x128, .f32⟩ : BufTy).Contents (Elt Ideal)) (x1 : (⟨S2x1000000, .i32⟩ : BufTy).Contents (Elt Ideal)) (x2 : (⟨S1000000x16, .f32⟩ : BufTy).Contents (Elt Ideal)) (x3 : (⟨S144x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S3x128x128, .f32⟩ : BufTy).Contents (Elt Ideal)) (x10 : (⟨S128, .f32⟩ : BufTy).Contents (Elt Ideal)) (x11 : (⟨S3x128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x1, .f32⟩ : BufTy).Contents (Elt Ideal)) (x18 : (⟨S1, .f32⟩ : BufTy).Contents (Elt Ideal))
    (f0 : ∀ i, ∃ r : ℝ, x0 i = (r : EReal)) (f2 : ∀ i, ∃ r : ℝ, x2 i = (r : EReal))
    (f3 : ∀ i, ∃ r : ℝ, x3 i = (r : EReal)) (f4 : ∀ i, ∃ r : ℝ, x4 i = (r : EReal)) :
    kv_v177 x0 x1 x2 x3 x4 x5 x6 x7 x8 x9 x10 x11 x12 x13 x14 x15 x16 x17 x18 = val_main_v204 (F := Ideal) x0 x1 x2 x3 x4 x5 x6 x7 x8 x9 x10 x11 x12 x13 x14 x15 x16 x17 x18 := by
  have hA := Cert.Proof.StageA.stageA x0 x1 x2 x3 x4 f0 f2 f3 f4
  have hz1 := z1 x0 x1 x2 x3 x4 x5 x6 hA
  have hm1 := mean1 x0 x1 x2 x3 x4 x5 x6 hz1
  have hv1 := var1 x0 x1 x2 x3 x4 x5 x6 hz1 hm1
  have hh1 := h1 x0 x1 x2 x3 x4 x5 x6 x7 x8 hz1 hm1 hv1
  have hd := dis_eq x1
  have l1a := Cert.Proof.StageLap.lap1a x0 x1 x2 x3 x4 x5 x6 x7 x8 hh1 hd
  have l1b := Cert.Proof.StageLap.lap1b x0 x1 x2 x3 x4 x5 x6 x7 x8 hh1 hd l1a
  have hh2 := h2 x0 x1 x2 x3 x4 x5 x6 x7 x8 x9 x10 hh1 l1a l1b
  have l2a := Cert.Proof.StageLap.lap2a x0 x1 x2 x3 x4 x5 x6 x7 x8 x9 x10 hh2 hd
  have l2b := Cert.Proof.StageLap.lap2b x0 x1 x2 x3 x4 x5 x6 x7 x8 x9 x10 hh2 hd l2a
  have hh3 := h3 x0 x1 x2 x3 x4 x5 x6 x7 x8 x9 x10 x11 x12 hh2 l2a l2b
  have hz2 := Cert.Proof.StagesTail.z2 x0 x1 x2 x3 x4 x5 x6 x7 x8 x9 x10 x11 x12 x13 x14 hh3
  have hm2 := Cert.Proof.StagesTail.mean2 x0 x1 x2 x3 x4 x5 x6 x7 x8 x9 x10 x11 x12 x13 x14 hz2
  have hv2 := Cert.Proof.StagesTail.var2 x0 x1 x2 x3 x4 x5 x6 x7 x8 x9 x10 x11 x12 x13 x14 hz2 hm2
  exact Cert.Proof.StagesTail.out x0 x1 x2 x3 x4 x5 x6 x7 x8 x9 x10 x11 x12 x13 x14 x15 x16 x17 x18 hz2 hm2 hv2

end Cert.Proof.Stages

end
-- ==== Proof.lean ====
/-
  The certificate of a graph network's Pallas implementation against its jnp reference, over the extended reals.

  The network, on 100000 nodes and 1000000 edges: per-edge features `[x[row], edge_attr]` through a linear layer, averaged
  over the edges that end in each node; a linear layer with batch normalization and the rectifier; two polynomial
  filters of the normalized graph Laplacian, each `max (T0 W0 + T1 W1 + T2 W2 + b) 0` with `T1 = L T0`,
  `T2 = 2 L T1 - T0`; a linear layer with batch normalization and the rectifier; a projection to one value per node.
  The kernel program moves the per-edge linear layer to the node side (a sum over edges of a linear map is the linear map
  of the sums: distributivity, which is where the finiteness of the inputs is used), applies the Laplacian's
  normalization at the nodes instead of on the edges (the node's factor leaves an edge sum whose terms all have one
  sign), rounds matrix-unit operands to bf16 (the identity on extended reals), runs the dense layers as seven
  pipelined regions over row blocks, and pads the projection to 128 columns of which it keeps column 0.

  The three frames: the two kernel programs' are the generated ones; the reference's is its run with the result
  dropped. The idealization rewrote nothing, so `preserves` is trivial. For `algebraic`, the kernel program's run
  leaves the result array at the last segment boundary's contents, which is the kernel's last named value of the
  arguments; the reference's run leaves its result at the fold of its operations, which is its last stage of the
  arguments; and the two are equal stage by stage.
-/
import proofs.«149158_j47751446397324_2_alg».proof.Defs
import proofs.«149158_j47751446397324_2_alg».proof.Proof.Gen.Kernel
import proofs.«149158_j47751446397324_2_alg».proof.Proof.Gen.Kernel.Frame
import proofs.«149158_j47751446397324_2_alg».proof.Proof.Gen.KernelIdeal
import proofs.«149158_j47751446397324_2_alg».proof.Proof.Gen.KernelIdeal.Frame
import proofs.«149158_j47751446397324_2_alg».proof.Proof.Gen.ReferenceIdeal
import proofs.«149158_j47751446397324_2_alg».proof.Proof.Gen.Pre_finite_inputs
import proofs.«149158_j47751446397324_2_alg».proof.Proof.KRun
import proofs.«149158_j47751446397324_2_alg».proof.Proof.KChain
import proofs.«149158_j47751446397324_2_alg».proof.Proof.RefValue
import proofs.«149158_j47751446397324_2_alg».proof.Proof.PreFinite
import proofs.«149158_j47751446397324_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both idealized programs end with the kernel's last named value of the arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KVal.kv_v177 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.KChain.W17_v177 m ρ c), (h c).2⟩)
      (Cert.KernelIdeal.ValueRun.run_result (F := Ideal) m ρ)
  · refine (θ_run Cert.ReferenceIdeal.defs _ _).mono (fun r h c => ⟨(h c).1.trans ?_, (h c).2⟩)
      (Cert.ReferenceIdeal.RunP.run (F := Ideal) m' ρ')
    obtain ⟨f0, f2, f3, f4⟩ := Cert.Proof.PreFinite.finite_of_pre m hpre c
    obtain ⟨a0, a1, a2, a3, a4, a5, a6, a7, a8, a9, a10, a11, a12, a13, a14, a15, a16, a17, a18⟩ := hagree c
    rw [Cert.ReferenceIdeal.RefValue.result_eq_ideal m' c, a0, a1, a2, a3, a4, a5, a6, a7, a8, a9, a10, a11, a12, a13, a14, a15, a16, a17, a18]
    exact (Cert.Proof.Stages.all _ _ _ _ _ _ _ _ _ _ _ _ _ _ _ _ _ _ _ f0 f2 f3 f4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
